-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v679) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x24x9 : Shape := ⟨3, ![131072, 24, 9]⟩
abbrev S131072x24x3 : Shape := ⟨3, ![131072, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S_ : Shape := ⟨0, ![]⟩

class Facts : Prop where
  bcast_S_S131072x24x9 : S_.BroadcastsInDim S131072x24x9 (![] : Fin 0 → Fin S131072x24x9.rank)
  reducesTo_S131072x24x9_S_d0_1_2 : S131072x24x9.ReducesTo [0, 1, 2] S_
  h_S_ : 0 < S_.numel
  bcast_S_S131072x24x3 : S_.BroadcastsInDim S131072x24x3 (![] : Fin 0 → Fin S131072x24x3.rank)
  reducesTo_S131072x24x3_S_d0_1_2 : S131072x24x3.ReducesTo [0, 1, 2] S_
  bcast_S_S6x288 : S_.BroadcastsInDim S6x288 (![] : Fin 0 → Fin S6x288.rank)
  reducesTo_S6x288_S_d0_1 : S6x288.ReducesTo [0, 1] S_
  bcast_S_S6 : S_.BroadcastsInDim S6 (![] : Fin 0 → Fin S6.rank)
  reducesTo_S6_S_d0 : S6.ReducesTo [0] S_
  bcast_S_S24x19x19 : S_.BroadcastsInDim S24x19x19 (![] : Fin 0 → Fin S24x19x19.rank)
  reducesTo_S24x19x19_S_d0_1_2 : S24x19x19.ReducesTo [0, 1, 2] S_
  bcast_S_S24x19 : S_.BroadcastsInDim S24x19 (![] : Fin 0 → Fin S24x19.rank)
  reducesTo_S24x19_S_d0_1 : S24x19.ReducesTo [0, 1] S_
  bcast_S_S24x6x19 : S_.BroadcastsInDim S24x6x19 (![] : Fin 0 → Fin S24x6x19.rank)
  reducesTo_S24x6x19_S_d0_1_2 : S24x6x19.ReducesTo [0, 1, 2] S_
  bcast_S_S24x6 : S_.BroadcastsInDim S24x6 (![] : Fin 0 → Fin S24x6.rank)
  reducesTo_S24x6_S_d0_1 : S24x6.ReducesTo [0, 1] S_

variable [Facts]

def fn_part2 {F : FTy → Type} [FloatOps F] (main_arg7 : FVec F S24x6 .f32) (main_v33 : IVec S_ 1) : IVec S_ 1 :=
  let main_v34 : FVec F S24x6 .f32 := Host.absf main_arg7
  let main_cst_12 : FVec F S_ .f32 := constant S_ .f32 0x7F800000#32
  let main_v35 : FVec F S24x6 .f32 := broadcastInDim S24x6 ![] bcast_S_S24x6 main_cst_12
  let main_v36 : IVec S24x6 1 := cmpf .olt main_v34 main_v35
  let main_c_13 : IVec S_ 1 := constantI S_ 1 1#1
  let main_v37 : IVec S_ 1 := (fun x v => Host.reduce IntOp.andi x v reducesTo_S24x6_S_d0_1 h_S_) main_v36 main_c_13
  let main_v38 : IVec S_ 1 := andi main_v33 main_v37
  main_v38

def fn_part1 {F : FTy → Type} [FloatOps F] (main_arg4 : FVec F S24x19x19 .f32) (main_arg5 : FVec F S24x19 .f32) (main_arg6 : FVec F S24x6x19 .f32) (main_arg7 : FVec F S24x6 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S24x19x19 .f32 := Host.absf main_arg4
  let main_cst_6 : FVec F S_ .f32 := constant S_ .f32 0x7F800000#32
  let main_v20 : FVec F S24x19x19 .f32 := broadcastInDim S24x19x19 ![] bcast_S_S24x19x19 main_cst_6
  let main_v21 : IVec S24x19x19 1 := cmpf .olt main_v19 main_v20
  let main_c_7 : IVec S_ 1 := constantI S_ 1 1#1
  let main_v22 : IVec S_ 1 := (fun x v => Host.reduce IntOp.andi x v reducesTo_S24x19x19_S_d0_1_2 h_S_) main_v21 main_c_7
  let main_v23 : IVec S_ 1 := andi main_v18 main_v22
  let main_v24 : FVec F S24x19 .f32 := Host.absf main_arg5
  let main_cst_8 : FVec F S_ .f32 := constant S_ .f32 0x7F800000#32
  let main_v25 : FVec F S24x19 .f32 := broadcastInDim S24x19 ![] bcast_S_S24x19 main_cst_8
  let main_v26 : IVec S24x19 1 := cmpf .olt main_v24 main_v25
  let main_c_9 : IVec S_ 1 := constantI S_ 1 1#1
  let main_v27 : IVec S_ 1 := (fun x v => Host.reduce IntOp.andi x v reducesTo_S24x19_S_d0_1 h_S_) main_v26 main_c_9
  let main_v28 : IVec S_ 1 := andi main_v23 main_v27
  let main_v29 : FVec F S24x6x19 .f32 := Host.absf main_arg6
  let main_cst_10 : FVec F S_ .f32 := constant S_ .f32 0x7F800000#32
  let main_v30 : FVec F S24x6x19 .f32 := broadcastInDim S24x6x19 ![] bcast_S_S24x6x19 main_cst_10
  let main_v31 : IVec S24x6x19 1 := cmpf .olt main_v29 main_v30
  let main_c_11 : IVec S_ 1 := constantI S_ 1 1#1
  let main_v32 : IVec S_ 1 := (fun x v => Host.reduce IntOp.andi x v reducesTo_S24x6x19_S_d0_1_2 h_S_) main_v31 main_c_11
  let main_v33 : IVec S_ 1 := andi main_v28 main_v32
  fn_part2 (F := F) main_arg7 main_v33

def fn {F : FTy → Type} [FloatOps F] (main_arg0 : FVec F S131072x24x9 .f32) (main_arg1 : FVec F S131072x24x3 .f32) (main_arg2 : FVec F S6x288 .f32) (main_arg3 : FVec F S6 .f32) (main_arg4 : FVec F S24x19x19 .f32) (main_arg5 : FVec F S24x19 .f32) (main_arg6 : FVec F S24x6x19 .f32) (main_arg7 : FVec F S24x6 .f32) : IVec S_ 1 :=
  let main_v0 : FVec F S131072x24x9 .f32 := Host.absf main_arg0
  let main_cst : FVec F S_ .f32 := constant S_ .f32 0x7F800000#32
  let main_v1 : FVec F S131072x24x9 .f32 := broadcastInDim S131072x24x9 ![] bcast_S_S131072x24x9 main_cst
  let main_v2 : IVec S131072x24x9 1 := cmpf .olt main_v0 main_v1
  let main_c : IVec S_ 1 := constantI S_ 1 1#1
  let main_v3 : IVec S_ 1 := (fun x v => Host.reduce IntOp.andi x v reducesTo_S131072x24x9_S_d0_1_2 h_S_) main_v2 main_c
  let main_v4 : FVec F S131072x24x3 .f32 := Host.absf main_arg1
  let main_cst_0 : FVec F S_ .f32 := constant S_ .f32 0x7F800000#32
  let main_v5 : FVec F S131072x24x3 .f32 := broadcastInDim S131072x24x3 ![] bcast_S_S131072x24x3 main_cst_0
  let main_v6 : IVec S131072x24x3 1 := cmpf .olt main_v4 main_v5
  let main_c_1 : IVec S_ 1 := constantI S_ 1 1#1
  let main_v7 : IVec S_ 1 := (fun x v => Host.reduce IntOp.andi x v reducesTo_S131072x24x3_S_d0_1_2 h_S_) main_v6 main_c_1
  let main_v8 : IVec S_ 1 := andi main_v3 main_v7
  let main_v9 : FVec F S6x288 .f32 := Host.absf main_arg2
  let main_cst_2 : FVec F S_ .f32 := constant S_ .f32 0x7F800000#32
  let main_v10 : FVec F S6x288 .f32 := broadcastInDim S6x288 ![] bcast_S_S6x288 main_cst_2
  let main_v11 : IVec S6x288 1 := cmpf .olt main_v9 main_v10
  let main_c_3 : IVec S_ 1 := constantI S_ 1 1#1
  let main_v12 : IVec S_ 1 := (fun x v => Host.reduce IntOp.andi x v reducesTo_S6x288_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_v13 main_v16
-- ==== Kernel.lean ====
abbrev S131072x24x9 : Shape := ⟨3, ![131072, 24, 9]⟩
abbrev S131072x24x3 : Shape := ⟨3, ![131072, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S131072x216 : Shape := ⟨2, ![131072, 216]⟩
abbrev S131072x72 : Shape := ⟨2, ![131072, 72]⟩
abbrev S131072x144 : Shape := ⟨2, ![131072, 144]⟩
abbrev S8192x216 : Shape := ⟨2, ![8192, 216]⟩
abbrev S8192x72 : Shape := ⟨2, ![8192, 72]⟩
abbrev S8192x144 : Shape := ⟨2, ![8192, 144]⟩
abbrev S8192x288 : Shape := ⟨2, ![8192, 288]⟩
abbrev S288x6 : Shape := ⟨2, ![288, 6]⟩
abbrev S8192x6 : Shape := ⟨2, ![8192, 6]⟩
abbrev S1x6 : Shape := ⟨2, ![1, 6]⟩
abbrev S8192x9 : Shape := ⟨2, ![8192, 9]⟩
abbrev S8192x3 : Shape := ⟨2, ![8192, 3]⟩
abbrev S8192 : Shape := ⟨1, ![8192]⟩
abbrev S8192x1 : Shape := ⟨2, ![8192, 1]⟩
abbrev S8192x19 : Shape := ⟨2, ![8192, 19]⟩
abbrev S1x19x19 : Shape := ⟨3, ![1, 19, 19]⟩
abbrev S19x19 : Shape := ⟨2, ![19, 19]⟩
abbrev S1x19 : Shape := ⟨2, ![1, 19]⟩
abbrev S19 : Shape := ⟨1, ![19]⟩
abbrev S1x6x19 : Shape := ⟨3, ![1, 6, 19]⟩
abbrev S6x19 : Shape := ⟨2, ![6, 19]⟩
abbrev S19x6 : Shape := ⟨2, ![19, 6]⟩

abbrev nBuf : Space → Nat
  | .hbm => 11
  | .vmem => 12
  | .smem => 0
  | _ => 0

abbrev bufTy : (tb : Table) → Fin (tcTables nBuf tb) → BufTy
  | .hbm, ⟨0, _⟩ => ⟨S131072x24x9, .f32⟩
  | .hbm, ⟨1, _⟩ => ⟨S131072x24x3, .f32⟩
  | .hbm, ⟨2, _⟩ => ⟨S6x288, .f32⟩
  | .hbm, ⟨3, _⟩ => ⟨S6, .f32⟩
  | .hbm, ⟨4, _⟩ => ⟨S24x19x19, .f32⟩
  | .hbm, ⟨5, _⟩ => ⟨S24x19, .f32⟩
  | .hbm, ⟨6, _⟩ => ⟨S24x6x19, .f32⟩
  | .hbm, ⟨7, _⟩ => ⟨S24x6, .f32⟩
  | .hbm, ⟨8, _⟩ => ⟨S131072x216, .f32⟩
  | .hbm, ⟨9, _⟩ => ⟨S131072x72, .f32⟩
  | .hbm, ⟨10, _⟩ => ⟨S131072x144, .f32⟩
  | .local _ .vmem, ⟨0, _⟩ => ⟨S8192x216, .f32⟩
  | .local _ .vmem, ⟨1, _⟩ => ⟨S8192x216, .f32⟩
  | .local _ .vmem, ⟨2, _⟩ => ⟨S8192x72, .f32⟩
  | .local _ .vmem, ⟨3, _⟩ => ⟨S8192x72, .f32⟩
  | .local _ .vmem, ⟨4, _⟩ => ⟨S6x288, .f32⟩
  | .local _ .vmem, ⟨5, _⟩ => ⟨S6, .f32⟩
  | .local _ .vmem, ⟨6, _⟩ => ⟨S24x19x19, .f32⟩
  | .local _ .vmem, ⟨7, _⟩ => ⟨S24x19, .f32⟩
  | .local _ .vmem, ⟨8, _⟩ => ⟨S24x6x19, .f32⟩
  | .local _ .vmem, ⟨9, _⟩ => ⟨S24x6, .f32⟩
  | .local _ .vmem, ⟨10, _⟩ => ⟨S8192x144, .f32⟩
  | .local _ .vmem, ⟨11, _⟩ => ⟨S8192x144, .f32⟩
  | _, _ => ⟨S131072x24x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x19x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x19 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x6x19 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S131072x24x9_S131072x216 : S131072x24x9.ShapeCasts S131072x216
  shapeCasts_S131072x24x3_S131072x72 : S131072x24x3.ShapeCasts S131072x72
  inb_S8192x216_S8192x216_0_0 : ∀ a, (![0, 0] : Fin 2 → Nat) a + S8192x216.size a ≤ S8192x216.size a
  h_S8192x216 : 0 < S8192x216.numel
  shapeCasts_S8192x216_S8192x216 : S8192x216.ShapeCasts S8192x216
  inb_S8192x72_S8192x72_0_0 : ∀ a, (![0, 0] : Fin 2 → Nat) a + S8192x72.size a ≤ S8192x72.size a
  h_S8192x72 : 0 < S8192x72.numel
  shapeCasts_S8192x72_S8192x72 : S8192x72.ShapeCasts S8192x72
  concatenates_S8192x216_S8192x72_S8192x288_d1 : Shape.Concatenates [S8192x216, S8192x72] S8192x288 1
  inb_S6x288_S6x288_0_0 : ∀ a, (![0, 0] : Fin 2 → Nat) a + S6x288.size a ≤ S6x288.size a
  h_S6x288 : 0 < S6x288.numel
  inb_S6_S6_0 : ∀ a, (![0] : Fin 1 → Nat) a + S6.size a ≤ S6.size a
  h_S6 : 0 < S6.numel
  transposes_S6x288_p1_0_S288x6 : S6x288.Transposes [1, 0] S288x6
  shapeCasts_S6_S1x6 : S6.ShapeCasts S1x6
  broadcasts_S1x6_S8192x6 : S1x6.Broadcasts S8192x6
  slices_S8192x216_o0_0_S8192x9 : S8192x216.Slices ![0, 0] S8192x9
  slices_S8192x72_o0_0_S8192x3 : S8192x72.Slices ![0, 0] S8192x3
  reduces_S8192x3_S8192 : S8192x3.Reduces [1] S8192
  shapeCasts_S8192_S8192x1 : S8192.ShapeCasts S8192x1
  concatenates_S8192x9_S8192x3_S8192x1_S8192x6_S8192x19_d1 : Shape.Concatenates [S8192x9, S8192x3, S8192x1, S8192x6] S8192x19 1
  inb_S24x19x19_S1x19x19_0_0_0 : ∀ a, (![0, 0, 0] : Fin 3 → Nat) a + S1x19x19.size a ≤ S24x19x19.size a
  h_S1x19x19 : 0 < S1x19x19.numel
  shapeCasts_S1x19x19_S19x19 : S1x19x19.ShapeCasts S19x19
  inb_S24x19_S1x19_0_0 : ∀ a, (![0, 0] : Fin 2 → Nat) a + S1x19.size a ≤ S24x19.size a
  h_S1x19 : 0 < S1x19.numel
  shapeCasts_S1x19_S19 : S1x19.ShapeCasts S19
  transposes_S19x19_p1_0_S19x19 : S19x19.Transposes [1, 0] S19x19
  shapeCasts_S19_S1x19 : S19.ShapeCasts S1x19
  broadcasts_S1x19_S8192x19 : S1x19.Broadcasts S8192x19
  inb_S24x6x19_S1x6x19_0_0_0 : ∀ a, (![0, 0, 0] : Fin 3 → Nat) a + S1x6x19.size a ≤ S24x6x19.size a
  h_S1x6x19 : 0 < S1x6x19.numel
  shapeCasts_S1x6x19_S6x19 : S1x6x19.ShapeCasts S6x19
  inb_S24x6_S1x6_0_0 : ∀ a, (![0, 0] : Fin 2 → Nat) a + S1x6.size a ≤ S24x6.size a
  h_S1x6 : 0 < S1x6.numel
  shapeCasts_S1x6_S6 : S1x6.ShapeCasts S6
  transposes_S6x19_p1_0_S19x6 : S6x19.Transposes [1, 0] S19x6
  slices_S8192x216_o0_9_S8192x9 : S8192x216.Slices ![0, 9] S8192x9
  slices_S8192x72_o0_3_S8192x3 : S8192x72.Slices ![0, 3] S8192x3
  inb_S24x19x19_S1x19x19_1_0_0 : ∀ a, (![1, 0, 0] : Fin 3 → Nat) a + S1x19x19.size a ≤ S24x19x19.size a
  inb_S24x19_S1x19_1_0 : ∀ a, (![1, 0] : Fin 2 → Nat) a + S1x19.size a ≤ S24x19.size a
  inb_S24x6x19_S1x6x19_1_0_0 : ∀ a, (![1, 0, 0] : Fin 3 → Nat) a + S1x6x19.size a ≤ S24x6x19.size a
  inb_S24x6_S1x6_1_0 : ∀ a, (![1, 0] : Fin 2 → Nat) a + S1x6.size a ≤ S24x6.size a
  slices_S8192x216_o0_18_S8192x9 : S8192x216.Slices ![0, 18] S8192x9
  slices_S8192x72_o0_6_S8192x3 : S8192x72.Slices ![0, 6] S8192x3
  inb_S24x19x19_S1x19x19_2_0_0 : ∀ a, (![2, 0, 0] : Fin 3 → Nat) a + S1x19x19.size a ≤ S24x19x19.size a
  inb_S24x19_S1x19_2_0 : ∀ a, (![2, 0] : Fin 2 → Nat) a + S1x19.size a ≤ S24x19.size a
  inb_S24x6x19_S1x6x19_2_0_0 : ∀ a, (![2, 0, 0] : Fin 3 → Nat) a + S1x6x19.size a ≤ S24x6x19.size a
  inb_S24x6_S1x6_2_0 : ∀ a, (![2, 0] : Fin 2 → Nat) a + S1x6.size a ≤ S24x6.size a
  slices_S8192x216_o0_27_S8192x9 : S8192x216.Slices ![0, 27] S8192x9
  slices_S8192x72_o0_9_S8192x3 : S8192x72.Slices ![0, 9] S8192x3
  inb_S24x19x19_S1x19x19_3_0_0 : ∀ a, (![3, 0, 0] : Fin 3 → Nat) a + S1x19x19.size a ≤ S24x19x19.size a
  inb_S24x19_S1x19_3_0 : ∀ a, (![3, 0] : Fin 2 → Nat) a + S1x19.size a ≤ S24x19.size a
  inb_S24x6x19_S1x6x19_3_0_0 : ∀ a, (![3, 0, 0] : Fin 3 → Nat) a + S1x6x19.size a ≤ S24x6x19.size a
  inb_S24x6_S1x6_3_0 : ∀ a, (![3, 0] : Fin 2 → Nat) a + S1x6.size a ≤ S24x6.size a
  slices_S8192x216_o0_36_S8192x9 : S8192x216.Slices ![0, 36] S8192x9
  slices_S8192x72_o0_12_S8192x3 : S8192x72.Slices ![0, 12] S8192x3
  inb_S24x19x19_S1x19x19_4_0_0 : ∀ a, (![4, 0, 0] : Fin 3 → Nat) a + S1x19x19.size a ≤ S24x19x19.size a
  inb_S24x19_S1x19_4_0 : ∀ a, (![4, 0] : Fin 2 → Nat) a + S1x19.size a ≤ S24x19.size a
  inb_S24x6x19_S1x6x19_4_0_0 : ∀ a, (![4, 0, 0] : Fin 3 → Nat) a + S1x6x19.size a ≤ S24x6x19.size a
  inb_S24x6_S1x6_4_0 : ∀ a, (![4, 0] : Fin 2 → Nat) a + S1x6.size a ≤ S24x6.size a
  slices_S8192x216_o0_45_S8192x9 : S8192x216.Slices ![0, 45] S8192x9
  slices_S8192x72_o0_15_S8192x3 : S8192x72.Slices ![0, 15] S8192x3
  inb_S24x19x19_S1x19x19_5_0_0 : ∀ a, (![5, 0, 0] : Fin 3 → Nat) a + S1x19x19.size a ≤ S24x19x19.size a
  inb_S24x19_S1x19_5_0 : ∀ a, (![5, 0] : Fin 2 → Nat) a + S1x19.size a ≤ S24x19.size a
  inb_S24x6x19_S1x6x19_5_0_0 : ∀ a, (![5, 0, 0] : Fin 3 → Nat) a + S1x6x19.size a ≤ S24x6x19.size a
  inb_S24x6_S1x6_5_0 : ∀ a, (![5, 0] : Fin 2 → Nat) a + S1x6.size a ≤ S24x6.size a
  slices_S8192x216_o0_54_S8192x9 : S8192x216.Slices ![0, 54] S8192x9
  slices_S8192x72_o0_18_S8192x3 : S8192x72.Slices ![0, 18] S8192x3
  inb_S24x19x19_S1x19x19_6_0_0 : ∀ a, (![6, 0, 0] : Fin 3 → Nat) a + S1x19x19.size a ≤ S24x19x19.size a
  inb_S24x19_S1x19_6_0 : ∀ a, (![6, 0] : Fin 2 → Nat) a + S1x19.size a ≤ S24x19.size a
  inb_S24x6x19_S1x6x19_6_0_0 : ∀ a, (![6, 0, 0] : Fin 3 → Nat) a + S1x6x19.size a ≤ S24x6x19.size a
  inb_S24x6_S1x6_6_0 : ∀ a, (![6, 0] : Fin 2 → Nat) a + S1x6.size a ≤ S24x6.size a
  slices_S8192x216_o0_63_S8192x9 : S8192x216.Slices ![0, 63] S8192x9
  slices_S8192x72_o0_21_S8192x3 : S8192x72.Slices ![0, 21] S8192x3
  inb_S24x19x19_S1x19x19_7_0_0 : ∀ a, (![7, 0, 0] : Fin 3 → Nat) a + S1x19x19.size a ≤ S24x19x19.size a
  inb_S24x19_S1x19_7_0 : ∀ a, (![7, 0] : Fin 2 → Nat) a + S1x19.size a ≤ S24x19.size a
  inb_S24x6x19_S1x6x19_7_0_0 : ∀ a, (![7, 0, 0] : Fin 3 → Nat) a + S1x6x19.size a ≤ S24x6x19.size a
  inb_S24x6_S1x6_7_0 : ∀ a, (![7, 0] : Fin 2 → Nat) a + S1x6.size a ≤ S24x6.size a
  slices_S8192x216_o0_72_S8192x9 : S8192x216.Slices ![0, 72] S8192x9
  slices_S8192x72_o0_24_S8192x3 : S8192x72.Slices ![0, 24] S8192x3
  inb_S24x19x19_S1x19x19_8_0_0 : ∀ a, (![8, 0, 0] : Fin 3 → Nat) a + S1x19x19.size a ≤ S24x19x19.size a
  inb_S24x19_S1x19_8_0 : ∀ a, (![8, 0] : Fin 2 → Nat) a + S1x19.size a ≤ S24x19.size a
  inb_S24x6x19_S1x6x19_8_0_0 : ∀ a, (![8, 0, 0] : Fin 3 → Nat) a + S1x6x19.size a ≤ S24x6x19.size a
  inb_S24x6_S1x6_8_0 : ∀ a, (![8, 0] : Fin 2 → Nat) a + S1x6.size a ≤ S24x6.size a
  slices_S8192x216_o0_81_S8192x9 : S8192x216.Slices ![0, 81] S8192x9
  slices_S8192x72_o0_27_S8192x3 : S8192x72.Slices ![0, 27] S8192x3
  inb_S24x19x19_S1x19x19_9_0_0 : ∀ a, (![9, 0, 0] : Fin 3 → Nat) a + S1x19x19.size a ≤ S24x19x19.size a
  inb_S24x19_S1x19_9_0 : ∀ a, (![9, 0] : Fin 2 → Nat) a + S1x19.size a ≤ S24x19.size a
  inb_S24x6x19_S1x6x19_9_0_0 : ∀ a, (![9, 0, 0] : Fin 3 → Nat) a + S1x6x19.size a ≤ S24x6x19.size a
  inb_S24x6_S1x6_9_0 : ∀ a, (![9, 0] : Fin 2 → Nat) a + S1x6.size a ≤ S24x6.size a
  slices_S8192x216_o0_90_S8192x9 : S8192x216.Slices ![0, 90] S8192x9
  slices_S8192x72_o0_30_S8192x3 : S8192x72.Slices ![0, 30] S8192x3
  inb_S24x19x19_S1x19x19_10_0_0 : ∀ a, (![10, 0, 0] : Fin 3 → Nat) a + S1x19x19.size a ≤ S24x19x19.size a
  inb_S24x19_S1x19_10_0 : ∀ a, (![10, 0] : Fin 2 → Nat) a + S1x19.size a ≤ S24x19.size a
  inb_S24x6x19_S1x6x19_10_0_0 : ∀ a, (![10, 0, 0] : Fin 3 → Nat) a + S1x6x19.size a ≤ S24x6x19.size a
  inb_S24x6_S1x6_10_0 : ∀ a, (![10, 0] : Fin 2 → Nat) a + S1x6.size a ≤ S24x6.size a
  slices_S8192x216_o0_99_S8192x9 : S8192x216.Slices ![0, 99] S8192x9
  slices_S8192x72_o0_33_S8192x3 : S8192x72.Slices ![0, 33] S8192x3
  inb_S24x19x19_S1x19x19_11_0_0 : ∀ a, (![11, 0, 0] : Fin 3 → Nat) a + S1x19x19.size a ≤ S24x19x19.size a
  inb_S24x19_S1x19_11_0 : ∀ a, (![11, 0] : Fin 2 → Nat) a + S1x19.size a ≤ S24x19.size a
  inb_S24x6x19_S1x6x19_11_0_0 : ∀ a, (![11, 0, 0] : Fin 3 → Nat) a + S1x6x19.size a ≤ S24x6x19.size a
  inb_S24x6_S1x6_11_0 : ∀ a, (![11, 0] : Fin 2 → Nat) a + S1x6.size a ≤ S24x6.size a
  slices_S8192x216_o0_108_S8192x9 : S8192x216.Slices ![0, 108] S8192x9
  slices_S8192x72_o0_36_S8192x3 : S8192x72.Slices ![0, 36] S8192x3
  inb_S24x19x19_S1x19x19_12_0_0 : ∀ a, (![12, 0, 0] : Fin 3 → Nat) a + S1x19x19.size a ≤ S24x19x19.size a
  inb_S24x19_S1x19_12_0 : ∀ a, (![12, 0] : Fin 2 → Nat) a + S1x19.size a ≤ S24x19.size a
  inb_S24x6x19_S1x6x19_12_0_0 : ∀ a, (![12, 0, 0] : Fin 3 → Nat) a + S1x6x19.size a ≤ S24x6x19.size a
  inb_S24x6_S1x6_12_0 : ∀ a, (![12, 0] : Fin 2 → Nat) a + S1x6.size a ≤ S24x6.size a
  slices_S8192x216_o0_117_S8192x9 : S8192x216.Slices ![0, 117] S8192x9
  slices_S8192x72_o0_39_S8192x3 : S8192x72.Slices ![0, 39] S8192x3
  inb_S24x19x19_S1x19x19_13_0_0 : ∀ a, (![13, 0, 0] : Fin 3 → Nat) a + S1x19x19.size a ≤ S24x19x19.size a
  inb_S24x19_S1x19_13_0 : ∀ a, (![13, 0] : Fin 2 → Nat) a + S1x19.size a ≤ S24x19.size a
  inb_S24x6x19_S1x6x19_13_0_0 : ∀ a, (![13, 0, 0] : Fin 3 → Nat) a + S1x6x19.size a ≤ S24x6x19.size a
  inb_S24x6_S1x6_13_0 : ∀ a, (![13, 0] : Fin 2 → Nat) a + S1x6.size a ≤ S24x6.size a
  slices_S8192x216_o0_126_S8192x9 : S8192x216.Slices ![0, 126] S8192x9
  slices_S8192x72_o0_42_S8192x3 : S8192x72.Slices ![0, 42] S8192x3
  inb_S24x19x19_S1x19x19_14_0_0 : ∀ a, (![14, 0, 0] : Fin 3 → Nat) a + S1x19x19.size a ≤ S24x19x19.size a
  inb_S24x19_S1x19_14_0 : ∀ a, (![14, 0] : Fin 2 → Nat) a + S1x19.size a ≤ S24x19.size a
  inb_S24x6x19_S1x6x19_14_0_0 : ∀ a, (![14, 0, 0] : Fin 3 → Nat) a + S1x6x19.size a ≤ S24x6x19.size a
  inb_S24x6_S1x6_14_0 : ∀ a, (![14, 0] : Fin 2 → Nat) a + S1x6.size a ≤ S24x6.size a
  slices_S8192x216_o0_135_S8192x9 : S8192x216.Slices ![0, 135] S8192x9
  slices_S8192x72_o0_45_S8192x3 : S8192x72.Slices ![0, 45] S8192x3
  inb_S24x19x19_S1x19x19_15_0_0 : ∀ a, (![15, 0, 0] : Fin 3 → Nat) a + S1x19x19.size a ≤ S24x19x19.size a
  inb_S24x19_S1x19_15_0 : ∀ a, (![15, 0] : Fin 2 → Nat) a + S1x19.size a ≤ S24x19.size a
  inb_S24x6x19_S1x6x19_15_0_0 : ∀ a, (![15, 0, 0] : Fin 3 → Nat) a + S1x6x19.size a ≤ S24x6x19.size a
  inb_S24x6_S1x6_15_0 : ∀ a, (![15, 0] : Fin 2 → Nat) a + S1x6.size a ≤ S24x6.size a
  slices_S8192x216_o0_144_S8192x9 : S8192x216.Slices ![0, 144] S8192x9
  slices_S8192x72_o0_48_S8192x3 : S8192x72.Slices ![0, 48] S8192x3
  inb_S24x19x19_S1x19x19_16_0_0 : ∀ a, (![16, 0, 0] : Fin 3 → Nat) a + S1x19x19.size a ≤ S24x19x19.size a
  inb_S24x19_S1x19_16_0 : ∀ a, (![16, 0] : Fin 2 → Nat) a + S1x19.size a ≤ S24x19.size a
  inb_S24x6x19_S1x6x19_16_0_0 : ∀ a, (![16, 0, 0] : Fin 3 → Nat) a + S1x6x19.size a ≤ S24x6x19.size a
  inb_S24x6_S1x6_16_0 : ∀ a, (![16, 0] : Fin 2 → Nat) a + S1x6.size a ≤ S24x6.size a
  slices_S8192x216_o0_153_S8192x9 : S8192x216.Slices ![0, 153] S8192x9
  slices_S8192x72_o0_51_S8192x3 : S8192x72.Slices ![0, 51] S8192x3
  inb_S24x19x19_S1x19x19_17_0_0 : ∀ a, (![17, 0, 0] : Fin 3 → Nat) a + S1x19x19.size a ≤ S24x19x19.size a
  inb_S24x19_S1x19_17_0 : ∀ a, (![17, 0] : Fin 2 → Nat) a + S1x19.size a ≤ S24x19.size a
  inb_S24x6x19_S1x6x19_17_0_0 : ∀ a, (![17, 0, 0] : Fin 3 → Nat) a + S1x6x19.size a ≤ S24x6x19.size a
  inb_S24x6_S1x6_17_0 : ∀ a, (![17, 0] : Fin 2 → Nat) a + S1x6.size a ≤ S24x6.size a
  slices_S8192x216_o0_162_S8192x9 : S8192x216.Slices ![0, 162] S8192x9
  slices_S8192x72_o0_54_S8192x3 : S8192x72.Slices ![0, 54] S8192x3
  inb_S24x19x19_S1x19x19_18_0_0 : ∀ a, (![18, 0, 0] : Fin 3 → Nat) a + S1x19x19.size a ≤ S24x19x19.size a
  inb_S24x19_S1x19_18_0 : ∀ a, (![18, 0] : Fin 2 → Nat) a + S1x19.size a ≤ S24x19.size a
  inb_S24x6x19_S1x6x19_18_0_0 : ∀ a, (![18, 0, 0] : Fin 3 → Nat) a + S1x6x19.size a ≤ S24x6x19.size a
  inb_S24x6_S1x6_18_0 : ∀ a, (![18, 0] : Fin 2 → Nat) a + S1x6.size a ≤ S24x6.size a
  slices_S8192x216_o0_171_S8192x9 : S8192x216.Slices ![0, 171] S8192x9
  slices_S8192x72_o0_57_S8192x3 : S8192x72.Slices ![0, 57] S8192x3
  inb_S24x19x19_S1x19x19_19_0_0 : ∀ a, (![19, 0, 0] : Fin 3 → Nat) a + S1x19x19.size a ≤ S24x19x19.size a
  inb_S24x19_S1x19_19_0 : ∀ a, (![19, 0] : Fin 2 → Nat) a + S1x19.size a ≤ S24x19.size a
  inb_S24x6x19_S1x6x19_19_0_0 : ∀ a, (![19, 0, 0] : Fin 3 → Nat) a + S1x6x19.size a ≤ S24x6x19.size a
  inb_S24x6_S1x6_19_0 : ∀ a, (![19, 0] : Fin 2 → Nat) a + S1x6.size a ≤ S24x6.size a
  slices_S8192x216_o0_180_S8192x9 : S8192x216.Slices ![0, 180] S8192x9
  slices_S8192x72_o0_60_S8192x3 : S8192x72.Slices ![0, 60] S8192x3
  inb_S24x19x19_S1x19x19_20_0_0 : ∀ a, (![20, 0, 0] : Fin 3 → Nat) a + S1x19x19.size a ≤ S24x19x19.size a
  inb_S24x19_S1x19_20_0 : ∀ a, (![20, 0] : Fin 2 → Nat) a + S1x19.size a ≤ S24x19.size a
  inb_S24x6x19_S1x6x19_20_0_0 : ∀ a, (![20, 0, 0] : Fin 3 → Nat) a + S1x6x19.size a ≤ S24x6x19.size a
  inb_S24x6_S1x6_20_0 : ∀ a, (![20, 0] : Fin 2 → Nat) a + S1x6.size a ≤ S24x6.size a
  slices_S8192x216_o0_189_S8192x9 : S8192x216.Slices ![0, 189] S8192x9
  slices_S8192x72_o0_63_S8192x3 : S8192x72.Slices ![0, 63] S8192x3
  inb_S24x19x19_S1x19x19_21_0_0 : ∀ a, (![21, 0, 0] : Fin 3 → Nat) a + S1x19x19.size a ≤ S24x19x19.size a
  inb_S24x19_S1x19_21_0 : ∀ a, (![21, 0] : Fin 2 → Nat) a + S1x19.size a ≤ S24x19.size a
  inb_S24x6x19_S1x6x19_21_0_0 : ∀ a, (![21, 0, 0] : Fin 3 → Nat) a + S1x6x19.size a ≤ S24x6x19.size a
  inb_S24x6_S1x6_21_0 : ∀ a, (![21, 0] : Fin 2 → Nat) a + S1x6.size a ≤ S24x6.size a
  slices_S8192x216_o0_198_S8192x9 : S8192x216.Slices ![0, 198] S8192x9
  slices_S8192x72_o0_66_S8192x3 : S8192x72.Slices ![0, 66] S8192x3
  inb_S24x19x19_S1x19x19_22_0_0 : ∀ a, (![22, 0, 0] : Fin 3 → Nat) a + S1x19x19.size a ≤ S24x19x19.size a
  inb_S24x19_S1x19_22_0 : ∀ a, (![22, 0] : Fin 2 → Nat) a + S1x19.size a ≤ S24x19.size a
  inb_S24x6x19_S1x6x19_22_0_0 : ∀ a, (![22, 0, 0] : Fin 3 → Nat) a + S1x6x19.size a ≤ S24x6x19.size a
  inb_S24x6_S1x6_22_0 : ∀ a, (![22, 0] : Fin 2 → Nat) a + S1x6.size a ≤ S24x6.size a
  slices_S8192x216_o0_207_S8192x9 : S8192x216.Slices ![0, 207] S8192x9
  slices_S8192x72_o0_69_S8192x3 : S8192x72.Slices ![0, 69] S8192x3
  inb_S24x19x19_S1x19x19_23_0_0 : ∀ a, (![23, 0, 0] : Fin 3 → Nat) a + S1x19x19.size a ≤ S24x19x19.size a
  inb_S24x19_S1x19_23_0 : ∀ a, (![23, 0] : Fin 2 → Nat) a + S1x19.size a ≤ S24x19.size a
  inb_S24x6x19_S1x6x19_23_0_0 : ∀ a, (![23, 0, 0] : Fin 3 → Nat) a + S1x6x19.size a ≤ S24x6x19.size a
  inb_S24x6_S1x6_23_0 : ∀ a, (![23, 0] : Fin 2 → Nat) a + S1x6.size a ≤ S24x6.size a
  concatenates_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x144_d1 : Shape.Concatenates [S8192x6, S8192x6, S8192x6, S8192x6, S8192x6, S8192x6, S8192x6, S8192x6, S8192x6, S8192x6, S8192x6, S8192x6, S8192x6, S8192x6, S8192x6, S8192x6, S8192x6, S8192x6, S8192x6, S8192x6, S8192x6, S8192x6, S8192x6, S8192x6] S8192x144 1
  inb_S8192x144_S8192x144_0_0 : ∀ a, (![0, 0] : Fin 2 → Nat) a + S8192x144.size a ≤ S8192x144.size a
  h_S8192x144 : 0 < S8192x144.numel
  dot_S8192x288_S288x6_S8192x6_1_0_0_1_n_n_wf : DotDims.WF S8192x288 S288x6 S8192x6 [1] [0] [0] [1] [] []
  dot_S8192x19_S19x19_S8192x19_1_0_0_1_n_n_wf : DotDims.WF S8192x19 S19x19 S8192x19 [1] [0] [0] [1] [] []
  dot_S8192x19_S19x6_S8192x6_1_0_0_1_n_n_wf : DotDims.WF S8192x19 S19x6 S8192x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x216.size a ≤ S131072x216.size a
  hwx0_0 : ∀ i : grid0.Coords, EltTy.bits .f32 = 32 ∨ (Rect.block (s := S131072x216) S8192x216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x72.size a ≤ S131072x72.size a
  hwx0_1 : ∀ i : grid0.Coords, EltTy.bits .f32 = 32 ∨ (Rect.block (s := S131072x72) S8192x72.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x288.size a ≤ S6x288.size a
  hwx0_2 : ∀ i : grid0.Coords, EltTy.bits .f32 = 32 ∨ (Rect.block (s := S6x288) S6x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6.size a ≤ S6.size a
  hwx0_3 : ∀ i : grid0.Coords, EltTy.bits .f32 = 32 ∨ (Rect.block (s := S6) S6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x19x19.size a ≤ S24x19x19.size a
  hwx0_4 : ∀ i : grid0.Coords, EltTy.bits .f32 = 32 ∨ (Rect.block (s := S24x19x19) S24x19x19.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x19.size a ≤ S24x19.size a
  hwx0_5 : ∀ i : grid0.Coords, EltTy.bits .f32 = 32 ∨ (Rect.block (s := S24x19) S24x19.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x6x19.size a ≤ S24x6x19.size a
  hwx0_6 : ∀ i : grid0.Coords, EltTy.bits .f32 = 32 ∨ (Rect.block (s := S24x6x19) S24x6x19.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x6.size a ≤ S24x6.size a
  hwx0_7 : ∀ i : grid0.Coords, EltTy.bits .f32 = 32 ∨ (Rect.block (s := S24x6) S24x6.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x144.size a ≤ S131072x144.size a
  hwx0_8 : ∀ i : grid0.Coords, EltTy.bits .f32 = 32 ∨ (Rect.block (s := S131072x144) S8192x144.size (cc0_transform_8 i) (hinb0_8 i)).WholeWords (EltTy.packing .f32)

variable [Facts₀]

def dot_S8192x288_S288x6_S8192x6_1_0_0_1_n_n : DotDims S8192x288 S288x6 S8192x6 where
  lhsContracting := [1]
  rhsContracting := [0]
  lhsNonContracting := [0]
  rhsNonContracting := [1]
  lhsBatch := []
  rhsBatch := []
  wf := dot_S8192x288_S288x6_S8192x6_1_0_0_1_n_n_wf
def dot_S8192x19_S19x19_S8192x19_1_0_0_1_n_n : DotDims S8192x19 S19x19 S8192x19 where
  lhsContracting := [1]
  rhsContracting := [0]
  lhsNonContracting := [0]
  rhsNonContracting := [1]
  lhsBatch := []
  rhsBatch := []
  wf := dot_S8192x19_S19x19_S8192x19_1_0_0_1_n_n_wf
def dot_S8192x19_S19x6_S8192x6_1_0_0_1_n_n : DotDims S8192x19 S19x6 S8192x6 where
  lhsContracting := [1]
  rhsContracting := [0]
  lhsNonContracting := [0]
  rhsNonContracting := [1]
  lhsBatch := []
  rhsBatch := []
  wf := dot_S8192x19_S19x6_S8192x6_1_0_0_1_n_n_wf

abbrev win0_0 : Pipeline.Window sig grid0 :=
  Pipeline.Window.ofSpec (Memref.whole main_v0) S8192x216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x19x19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x19.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x6x19.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S24x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8192x144.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x24x9 : Shape := ⟨3, ![131072, 24, 9]⟩
abbrev S131072x24x3 : Shape := ⟨3, ![131072, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S131072x216 : Shape := ⟨2, ![131072, 216]⟩
abbrev S131072x72 : Shape := ⟨2, ![131072, 72]⟩
abbrev S131072x288 : Shape := ⟨2, ![131072, 288]⟩
abbrev S288x6 : Shape := ⟨2, ![288, 6]⟩
abbrev S131072x6 : Shape := ⟨2, ![131072, 6]⟩
abbrev S1x6 : Shape := ⟨2, ![1, 6]⟩
abbrev S131072x1x9 : Shape := ⟨3, ![131072, 1, 9]⟩
abbrev S131072x9 : Shape := ⟨2, ![131072, 9]⟩
abbrev S131072x1x3 : Shape := ⟨3, ![131072, 1, 3]⟩
abbrev S131072x3 : Shape := ⟨2, ![131072, 3]⟩
abbrev S_ : Shape := ⟨0, ![]⟩
abbrev S131072 : Shape := ⟨1, ![131072]⟩
abbrev S131072x1 : Shape := ⟨2, ![131072, 1]⟩
abbrev S131072x19 : Shape := ⟨2, ![131072, 19]⟩
abbrev S1x19x19 : Shape := ⟨3, ![1, 19, 19]⟩
abbrev S19x19 : Shape := ⟨2, ![19, 19]⟩
abbrev S1x19 : Shape := ⟨2, ![1, 19]⟩
abbrev S19 : Shape := ⟨1, ![19]⟩
abbrev S1x6x19 : Shape := ⟨3, ![1, 6, 19]⟩
abbrev S6x19 : Shape := ⟨2, ![6, 19]⟩
abbrev S19x6 : Shape := ⟨2, ![19, 6]⟩
abbrev S131072x96 : Shape := ⟨2, ![131072, 96]⟩
abbrev S131072x48 : Shape := ⟨2, ![131072, 48]⟩
abbrev S131072x144 : Shape := ⟨2, ![131072, 144]⟩

abbrev nBuf : Space → Nat
  | .hbm => 832
  | .vmem => 0
  | .smem => 0
  | _ => 0

abbrev hbmTy0_0 (i : Nat) : BufTy := match i % 128 with
  | 0 => ⟨S131072x24x9, .f32⟩
  | 1 => ⟨S131072x24x3, .f32⟩
  | 2 => ⟨S6x288, .f32⟩
  | 3 => ⟨S6, .f32⟩
  | 4 => ⟨S24x19x19, .f32⟩
  | 5 => ⟨S24x19, .f32⟩
  | 6 => ⟨S24x6x19, .f32⟩
  | 7 => ⟨S24x6, .f32⟩
  | 8 => ⟨S131072x216, .f32⟩
  | 9 => ⟨S131072x72, .f32⟩
  | 10 => ⟨S131072x288, .f32⟩
  | 11 => ⟨S288x6, .f32⟩
  | 12 => ⟨S131072x6, .f32⟩
  | 13 => ⟨S1x6, .f32⟩
  | 14 => ⟨S131072x6, .f32⟩
  | 15 => ⟨S131072x6, .f32⟩
  | 16 => ⟨S131072x1x9, .f32⟩
  | 17 => ⟨S131072x9, .f32⟩
  | 18 => ⟨S131072x1x3, .f32⟩
  | 19 => ⟨S131072x3, .f32⟩
  | 20 => ⟨S131072x3, .f32⟩
  | 21 => ⟨S_, .f32⟩
  | 22 => ⟨S131072, .f32⟩
  | 23 => ⟨S131072x1, .f32⟩
  | 24 => ⟨S131072x1, .f32⟩
  | 25 => ⟨S131072x19, .f32⟩
  | 26 => ⟨S1x19x19, .f32⟩
  | 27 => ⟨S19x19, .f32⟩
  | 28 => ⟨S19x19, .f32⟩
  | 29 => ⟨S131072x19, .f32⟩
  | 30 => ⟨S1x19, .f32⟩
  | 31 => ⟨S19, .f32⟩
  | 32 => ⟨S1x19, .f32⟩
  | 33 => ⟨S131072x19, .f32⟩
  | 34 => ⟨S131072x19, .f32⟩
  | 35 => ⟨S_, .f32⟩
  | 36 => ⟨S131072x19, .f32⟩
  | 37 => ⟨S131072x19, .f32⟩
  | 38 => ⟨S1x6x19, .f32⟩
  | 39 => ⟨S6x19, .f32⟩
  | 40 => ⟨S19x6, .f32⟩
  | 41 => ⟨S131072x6, .f32⟩
  | 42 => ⟨S1x6, .f32⟩
  | 43 => ⟨S6, .f32⟩
  | 44 => ⟨S1x6, .f32⟩
  | 45 => ⟨S131072x6, .f32⟩
  | 46 => ⟨S131072x6, .f32⟩
  | 47 => ⟨S131072x1x9, .f32⟩
  | 48 => ⟨S131072x9, .f32⟩
  | 49 => ⟨S131072x1x3, .f32⟩
  | 50 => ⟨S131072x3, .f32⟩
  | 51 => ⟨S131072x1x3, .f32⟩
  | 52 => ⟨S131072x3, .f32⟩
  | 53 => ⟨S131072x3, .f32⟩
  | 54 => ⟨S131072x3, .f32⟩
  | 55 => ⟨S_, .f32⟩
  | 56 => ⟨S131072, .f32⟩
  | 57 => ⟨S131072x1, .f32⟩
  | 58 => ⟨S131072x1, .f32⟩
  | 59 => ⟨S131072x19, .f32⟩
  | 60 => ⟨S1x19x19, .f32⟩
  | 61 => ⟨S19x19, .f32⟩
  | 62 => ⟨S19x19, .f32⟩
  | 63 => ⟨S131072x19, .f32⟩
  | 64 => ⟨S1x19, .f32⟩
  | 65 => ⟨S19, .f32⟩
  | 66 => ⟨S1x19, .f32⟩
  | 67 => ⟨S131072x19, .f32⟩
  | 68 => ⟨S131072x19, .f32⟩
  | 69 => ⟨S_, .f32⟩
  | 70 => ⟨S131072x19, .f32⟩
  | 71 => ⟨S131072x19, .f32⟩
  | 72 => ⟨S1x6x19, .f32⟩
  | 73 => ⟨S6x19, .f32⟩
  | 74 => ⟨S19x6, .f32⟩
  | 75 => ⟨S131072x6, .f32⟩
  | 76 => ⟨S1x6, .f32⟩
  | 77 => ⟨S6, .f32⟩
  | 78 => ⟨S1x6, .f32⟩
  | 79 => ⟨S131072x6, .f32⟩
  | 80 => ⟨S131072x6, .f32⟩
  | 81 => ⟨S131072x1x9, .f32⟩
  | 82 => ⟨S131072x9, .f32⟩
  | 83 => ⟨S131072x1x3, .f32⟩
  | 84 => ⟨S131072x3, .f32⟩
  | 85 => ⟨S131072x1x3, .f32⟩
  | 86 => ⟨S131072x3, .f32⟩
  | 87 => ⟨S131072x3, .f32⟩
  | 88 => ⟨S131072x3, .f32⟩
  | 89 => ⟨S_, .f32⟩
  | 90 => ⟨S131072, .f32⟩
  | 91 => ⟨S131072x1, .f32⟩
  | 92 => ⟨S131072x1, .f32⟩
  | 93 => ⟨S131072x19, .f32⟩
  | 94 => ⟨S1x19x19, .f32⟩
  | 95 => ⟨S19x19, .f32⟩
  | 96 => ⟨S19x19, .f32⟩
  | 97 => ⟨S131072x19, .f32⟩
  | 98 => ⟨S1x19, .f32⟩
  | 99 => ⟨S19, .f32⟩
  | 100 => ⟨S1x19, .f32⟩
  | 101 => ⟨S131072x19, .f32⟩
  | 102 => ⟨S131072x19, .f32⟩
  | 103 => ⟨S_, .f32⟩
  | 104 => ⟨S131072x19, .f32⟩
  | 105 => ⟨S131072x19, .f32⟩
  | 106 => ⟨S1x6x19, .f32⟩
  | 107 => ⟨S6x19, .f32⟩
  | 108 => ⟨S19x6, .f32⟩
  | 109 => ⟨S131072x6, .f32⟩
  | 110 => ⟨S1x6, .f32⟩
  | 111 => ⟨S6, .f32⟩
  | 112 => ⟨S1x6, .f32⟩
  | 113 => ⟨S131072x6, .f32⟩
  | 114 => ⟨S131072x6, .f32⟩
  | 115 => ⟨S131072x1x9, .f32⟩
  | 116 => ⟨S131072x9, .f32⟩
  | 117 => ⟨S131072x1x3, .f32⟩
  | 118 => ⟨S131072x3, .f32⟩
  | 119 => ⟨S131072x1x3, .f32⟩
  | 120 => ⟨S131072x3, .f32⟩
  | 121 => ⟨S131072x3, .f32⟩
  | 122 => ⟨S131072x3, .f32⟩
  | 123 => ⟨S_, .f32⟩
  | 124 => ⟨S131072, .f32⟩
  | 125 => ⟨S131072x1, .f32⟩
  | 126 => ⟨S131072x1, .f32⟩
  | 127 => ⟨S131072x19, .f32⟩
  | _ => ⟨S131072x24x9, .f32⟩

abbrev hbmTy0_1 (i : Nat) : BufTy := match i % 128 with
  | 0 => ⟨S1x19x19, .f32⟩
  | 1 => ⟨S19x19, .f32⟩
  | 2 => ⟨S19x19, .f32⟩
  | 3 => ⟨S131072x19, .f32⟩
  | 4 => ⟨S1x19, .f32⟩
  | 5 => ⟨S19, .f32⟩
  | 6 => ⟨S1x19, .f32⟩
  | 7 => ⟨S131072x19, .f32⟩
  | 8 => ⟨S131072x19, .f32⟩
  | 9 => ⟨S_, .f32⟩
  | 10 => ⟨S131072x19, .f32⟩
  | 11 => ⟨S131072x19, .f32⟩
  | 12 => ⟨S1x6x19, .f32⟩
  | 13 => ⟨S6x19, .f32⟩
  | 14 => ⟨S19x6, .f32⟩
  | 15 => ⟨S131072x6, .f32⟩
  | 16 => ⟨S1x6, .f32⟩
  | 17 => ⟨S6, .f32⟩
  | 18 => ⟨S1x6, .f32⟩
  | 19 => ⟨S131072x6, .f32⟩
  | 20 => ⟨S131072x6, .f32⟩
  | 21 => ⟨S131072x1x9, .f32⟩
  | 22 => ⟨S131072x9, .f32⟩
  | 23 => ⟨S131072x1x3, .f32⟩
  | 24 => ⟨S131072x3, .f32⟩
  | 25 => ⟨S131072x1x3, .f32⟩
  | 26 => ⟨S131072x3, .f32⟩
  | 27 => ⟨S131072x3, .f32⟩
  | 28 => ⟨S131072x3, .f32⟩
  | 29 => ⟨S_, .f32⟩
  | 30 => ⟨S131072, .f32⟩
  | 31 => ⟨S131072x1, .f32⟩
  | 32 => ⟨S131072x1, .f32⟩
  | 33 => ⟨S131072x19, .f32⟩
  | 34 => ⟨S1x19x19, .f32⟩
  | 35 => ⟨S19x19, .f32⟩
  | 36 => ⟨S19x19, .f32⟩
  | 37 => ⟨S131072x19, .f32⟩
  | 38 => ⟨S1x19, .f32⟩
  | 39 => ⟨S19, .f32⟩
  | 40 => ⟨S1x19, .f32⟩
  | 41 => ⟨S131072x19, .f32⟩
  | 42 => ⟨S131072x19, .f32⟩
  | 43 => ⟨S_, .f32⟩
  | 44 => ⟨S131072x19, .f32⟩
  | 45 => ⟨S131072x19, .f32⟩
  | 46 => ⟨S1x6x19, .f32⟩
  | 47 => ⟨S6x19, .f32⟩
  | 48 => ⟨S19x6, .f32⟩
  | 49 => ⟨S131072x6, .f32⟩
  | 50 => ⟨S1x6, .f32⟩
  | 51 => ⟨S6, .f32⟩
  | 52 => ⟨S1x6, .f32⟩
  | 53 => ⟨S131072x6, .f32⟩
  | 54 => ⟨S131072x6, .f32⟩
  | 55 => ⟨S131072x1x9, .f32⟩
  | 56 => ⟨S131072x9, .f32⟩
  | 57 => ⟨S131072x1x3, .f32⟩
  | 58 => ⟨S131072x3, .f32⟩
  | 59 => ⟨S131072x1x3, .f32⟩
  | 60 => ⟨S131072x3, .f32⟩
  | 61 => ⟨S131072x3, .f32⟩
  | 62 => ⟨S131072x3, .f32⟩
  | 63 => ⟨S_, .f32⟩
  | 64 => ⟨S131072, .f32⟩
  | 65 => ⟨S131072x1, .f32⟩
  | 66 => ⟨S131072x1, .f32⟩
  | 67 => ⟨S131072x19, .f32⟩
  | 68 => ⟨S1x19x19, .f32⟩
  | 69 => ⟨S19x19, .f32⟩
  | 70 => ⟨S19x19, .f32⟩
  | 71 => ⟨S131072x19, .f32⟩
  | 72 => ⟨S1x19, .f32⟩
  | 73 => ⟨S19, .f32⟩
  | 74 => ⟨S1x19, .f32⟩
  | 75 => ⟨S131072x19, .f32⟩
  | 76 => ⟨S131072x19, .f32⟩
  | 77 => ⟨S_, .f32⟩
  | 78 => ⟨S131072x19, .f32⟩
  | 79 => ⟨S131072x19, .f32⟩
  | 80 => ⟨S1x6x19, .f32⟩
  | 81 => ⟨S6x19, .f32⟩
  | 82 => ⟨S19x6, .f32⟩
  | 83 => ⟨S131072x6, .f32⟩
  | 84 => ⟨S1x6, .f32⟩
  | 85 => ⟨S6, .f32⟩
  | 86 => ⟨S1x6, .f32⟩
  | 87 => ⟨S131072x6, .f32⟩
  | 88 => ⟨S131072x6, .f32⟩
  | 89 => ⟨S131072x1x9, .f32⟩
  | 90 => ⟨S131072x9, .f32⟩
  | 91 => ⟨S131072x1x3, .f32⟩
  | 92 => ⟨S131072x3, .f32⟩
  | 93 => ⟨S131072x1x3, .f32⟩
  | 94 => ⟨S131072x3, .f32⟩
  | 95 => ⟨S131072x3, .f32⟩
  | 96 => ⟨S131072x3, .f32⟩
  | 97 => ⟨S_, .f32⟩
  | 98 => ⟨S131072, .f32⟩
  | 99 => ⟨S131072x1, .f32⟩
  | 100 => ⟨S131072x1, .f32⟩
  | 101 => ⟨S131072x19, .f32⟩
  | 102 => ⟨S1x19x19, .f32⟩
  | 103 => ⟨S19x19, .f32⟩
  | 104 => ⟨S19x19, .f32⟩
  | 105 => ⟨S131072x19, .f32⟩
  | 106 => ⟨S1x19, .f32⟩
  | 107 => ⟨S19, .f32⟩
  | 108 => ⟨S1x19, .f32⟩
  | 109 => ⟨S131072x19, .f32⟩
  | 110 => ⟨S131072x19, .f32⟩
  | 111 => ⟨S_, .f32⟩
  | 112 => ⟨S131072x19, .f32⟩
  | 113 => ⟨S131072x19, .f32⟩
  | 114 => ⟨S1x6x19, .f32⟩
  | 115 => ⟨S6x19, .f32⟩
  | 116 => ⟨S19x6, .f32⟩
  | 117 => ⟨S131072x6, .f32⟩
  | 118 => ⟨S1x6, .f32⟩
  | 119 => ⟨S6, .f32⟩
  | 120 => ⟨S1x6, .f32⟩
  | 121 => ⟨S131072x6, .f32⟩
  | 122 => ⟨S131072x6, .f32⟩
  | 123 => ⟨S131072x1x9, .f32⟩
  | 124 => ⟨S131072x9, .f32⟩
  | 125 => ⟨S131072x1x3, .f32⟩
  | 126 => ⟨S131072x3, .f32⟩
  | 127 => ⟨S131072x1x3, .f32⟩
  | _ => ⟨S131072x24x9, .f32⟩

abbrev hbmTy0_2 (i : Nat) : BufTy := match i % 128 with
  | 0 => ⟨S131072x3, .f32⟩
  | 1 => ⟨S131072x3, .f32⟩
  | 2 => ⟨S131072x3, .f32⟩
  | 3 => ⟨S_, .f32⟩
  | 4 => ⟨S131072, .f32⟩
  | 5 => ⟨S131072x1, .f32⟩
  | 6 => ⟨S131072x1, .f32⟩
  | 7 => ⟨S131072x19, .f32⟩
  | 8 => ⟨S1x19x19, .f32⟩
  | 9 => ⟨S19x19, .f32⟩
  | 10 => ⟨S19x19, .f32⟩
  | 11 => ⟨S131072x19, .f32⟩
  | 12 => ⟨S1x19, .f32⟩
  | 13 => ⟨S19, .f32⟩
  | 14 => ⟨S1x19, .f32⟩
  | 15 => ⟨S131072x19, .f32⟩
  | 16 => ⟨S131072x19, .f32⟩
  | 17 => ⟨S_, .f32⟩
  | 18 => ⟨S131072x19, .f32⟩
  | 19 => ⟨S131072x19, .f32⟩
  | 20 => ⟨S1x6x19, .f32⟩
  | 21 => ⟨S6x19, .f32⟩
  | 22 => ⟨S19x6, .f32⟩
  | 23 => ⟨S131072x6, .f32⟩
  | 24 => ⟨S1x6, .f32⟩
  | 25 => ⟨S6, .f32⟩
  | 26 => ⟨S1x6, .f32⟩
  | 27 => ⟨S131072x6, .f32⟩
  | 28 => ⟨S131072x6, .f32⟩
  | 29 => ⟨S131072x1x9, .f32⟩
  | 30 => ⟨S131072x9, .f32⟩
  | 31 => ⟨S131072x1x3, .f32⟩
  | 32 => ⟨S131072x3, .f32⟩
  | 33 => ⟨S131072x1x3, .f32⟩
  | 34 => ⟨S131072x3, .f32⟩
  | 35 => ⟨S131072x3, .f32⟩
  | 36 => ⟨S131072x3, .f32⟩
  | 37 => ⟨S_, .f32⟩
  | 38 => ⟨S131072, .f32⟩
  | 39 => ⟨S131072x1, .f32⟩
  | 40 => ⟨S131072x1, .f32⟩
  | 41 => ⟨S131072x19, .f32⟩
  | 42 => ⟨S1x19x19, .f32⟩
  | 43 => ⟨S19x19, .f32⟩
  | 44 => ⟨S19x19, .f32⟩
  | 45 => ⟨S131072x19, .f32⟩
  | 46 => ⟨S1x19, .f32⟩
  | 47 => ⟨S19, .f32⟩
  | 48 => ⟨S1x19, .f32⟩
  | 49 => ⟨S131072x19, .f32⟩
  | 50 => ⟨S131072x19, .f32⟩
  | 51 => ⟨S_, .f32⟩
  | 52 => ⟨S131072x19, .f32⟩
  | 53 => ⟨S131072x19, .f32⟩
  | 54 => ⟨S1x6x19, .f32⟩
  | 55 => ⟨S6x19, .f32⟩
  | 56 => ⟨S19x6, .f32⟩
  | 57 => ⟨S131072x6, .f32⟩
  | 58 => ⟨S1x6, .f32⟩
  | 59 => ⟨S6, .f32⟩
  | 60 => ⟨S1x6, .f32⟩
  | 61 => ⟨S131072x6, .f32⟩
  | 62 => ⟨S131072x6, .f32⟩
  | 63 => ⟨S131072x1x9, .f32⟩
  | 64 => ⟨S131072x9, .f32⟩
  | 65 => ⟨S131072x1x3, .f32⟩
  | 66 => ⟨S131072x3, .f32⟩
  | 67 => ⟨S131072x1x3, .f32⟩
  | 68 => ⟨S131072x3, .f32⟩
  | 69 => ⟨S131072x3, .f32⟩
  | 70 => ⟨S131072x3, .f32⟩
  | 71 => ⟨S_, .f32⟩
  | 72 => ⟨S131072, .f32⟩
  | 73 => ⟨S131072x1, .f32⟩
  | 74 => ⟨S131072x1, .f32⟩
  | 75 => ⟨S131072x19, .f32⟩
  | 76 => ⟨S1x19x19, .f32⟩
  | 77 => ⟨S19x19, .f32⟩
  | 78 => ⟨S19x19, .f32⟩
  | 79 => ⟨S131072x19, .f32⟩
  | 80 => ⟨S1x19, .f32⟩
  | 81 => ⟨S19, .f32⟩
  | 82 => ⟨S1x19, .f32⟩
  | 83 => ⟨S131072x19, .f32⟩
  | 84 => ⟨S131072x19, .f32⟩
  | 85 => ⟨S_, .f32⟩
  | 86 => ⟨S131072x19, .f32⟩
  | 87 => ⟨S131072x19, .f32⟩
  | 88 => ⟨S1x6x19, .f32⟩
  | 89 => ⟨S6x19, .f32⟩
  | 90 => ⟨S19x6, .f32⟩
  | 91 => ⟨S131072x6, .f32⟩
  | 92 => ⟨S1x6, .f32⟩
  | 93 => ⟨S6, .f32⟩
  | 94 => ⟨S1x6, .f32⟩
  | 95 => ⟨S131072x6, .f32⟩
  | 96 => ⟨S131072x6, .f32⟩
  | 97 => ⟨S131072x1x9, .f32⟩
  | 98 => ⟨S131072x9, .f32⟩
  | 99 => ⟨S131072x1x3, .f32⟩
  | 100 => ⟨S131072x3, .f32⟩
  | 101 => ⟨S131072x1x3, .f32⟩
  | 102 => ⟨S131072x3, .f32⟩
  | 103 => ⟨S131072x3, .f32⟩
  | 104 => ⟨S131072x3, .f32⟩
  | 105 => ⟨S_, .f32⟩
  | 106 => ⟨S131072, .f32⟩
  | 107 => ⟨S131072x1, .f32⟩
  | 108 => ⟨S131072x1, .f32⟩
  | 109 => ⟨S131072x19, .f32⟩
  | 110 => ⟨S1x19x19, .f32⟩
  | 111 => ⟨S19x19, .f32⟩
  | 112 => ⟨S19x19, .f32⟩
  | 113 => ⟨S131072x19, .f32⟩
  | 114 => ⟨S1x19, .f32⟩
  | 115 => ⟨S19, .f32⟩
  | 116 => ⟨S1x19, .f32⟩
  | 117 => ⟨S131072x19, .f32⟩
  | 118 => ⟨S131072x19, .f32⟩
  | 119 => ⟨S_, .f32⟩
  | 120 => ⟨S131072x19, .f32⟩
  | 121 => ⟨S131072x19, .f32⟩
  | 122 => ⟨S1x6x19, .f32⟩
  | 123 => ⟨S6x19, .f32⟩
  | 124 => ⟨S19x6, .f32⟩
  | 125 => ⟨S131072x6, .f32⟩
  | 126 => ⟨S1x6, .f32⟩
  | 127 => ⟨S6, .f32⟩
  | _ => ⟨S131072x24x9, .f32⟩

abbrev hbmTy0_3 (i : Nat) : BufTy := match i % 128 with
  | 0 => ⟨S1x6, .f32⟩
  | 1 => ⟨S131072x6, .f32⟩
  | 2 => ⟨S131072x6, .f32⟩
  | 3 => ⟨S131072x1x9, .f32⟩
  | 4 => ⟨S131072x9, .f32⟩
  | 5 => ⟨S131072x1x3, .f32⟩
  | 6 => ⟨S131072x3, .f32⟩
  | 7 => ⟨S131072x1x3, .f32⟩
  | 8 => ⟨S131072x3, .f32⟩
  | 9 => ⟨S131072x3, .f32⟩
  | 10 => ⟨S131072x3, .f32⟩
  | 11 => ⟨S_, .f32⟩
  | 12 => ⟨S131072, .f32⟩
  | 13 => ⟨S131072x1, .f32⟩
  | 14 => ⟨S131072x1, .f32⟩
  | 15 => ⟨S131072x19, .f32⟩
  | 16 => ⟨S1x19x19, .f32⟩
  | 17 => ⟨S19x19, .f32⟩
  | 18 => ⟨S19x19, .f32⟩
  | 19 => ⟨S131072x19, .f32⟩
  | 20 => ⟨S1x19, .f32⟩
  | 21 => ⟨S19, .f32⟩
  | 22 => ⟨S1x19, .f32⟩
  | 23 => ⟨S131072x19, .f32⟩
  | 24 => ⟨S131072x19, .f32⟩
  | 25 => ⟨S_, .f32⟩
  | 26 => ⟨S131072x19, .f32⟩
  | 27 => ⟨S131072x19, .f32⟩
  | 28 => ⟨S1x6x19, .f32⟩
  | 29 => ⟨S6x19, .f32⟩
  | 30 => ⟨S19x6, .f32⟩
  | 31 => ⟨S131072x6, .f32⟩
  | 32 => ⟨S1x6, .f32⟩
  | 33 => ⟨S6, .f32⟩
  | 34 => ⟨S1x6, .f32⟩
  | 35 => ⟨S131072x6, .f32⟩
  | 36 => ⟨S131072x6, .f32⟩
  | 37 => ⟨S131072x1x9, .f32⟩
  | 38 => ⟨S131072x9, .f32⟩
  | 39 => ⟨S131072x1x3, .f32⟩
  | 40 => ⟨S131072x3, .f32⟩
  | 41 => ⟨S131072x1x3, .f32⟩
  | 42 => ⟨S131072x3, .f32⟩
  | 43 => ⟨S131072x3, .f32⟩
  | 44 => ⟨S131072x3, .f32⟩
  | 45 => ⟨S_, .f32⟩
  | 46 => ⟨S131072, .f32⟩
  | 47 => ⟨S131072x1, .f32⟩
  | 48 => ⟨S131072x1, .f32⟩
  | 49 => ⟨S131072x19, .f32⟩
  | 50 => ⟨S1x19x19, .f32⟩
  | 51 => ⟨S19x19, .f32⟩
  | 52 => ⟨S19x19, .f32⟩
  | 53 => ⟨S131072x19, .f32⟩
  | 54 => ⟨S1x19, .f32⟩
  | 55 => ⟨S19, .f32⟩
  | 56 => ⟨S1x19, .f32⟩
  | 57 => ⟨S131072x19, .f32⟩
  | 58 => ⟨S131072x19, .f32⟩
  | 59 => ⟨S_, .f32⟩
  | 60 => ⟨S131072x19, .f32⟩
  | 61 => ⟨S131072x19, .f32⟩
  | 62 => ⟨S1x6x19, .f32⟩
  | 63 => ⟨S6x19, .f32⟩
  | 64 => ⟨S19x6, .f32⟩
  | 65 => ⟨S131072x6, .f32⟩
  | 66 => ⟨S1x6, .f32⟩
  | 67 => ⟨S6, .f32⟩
  | 68 => ⟨S1x6, .f32⟩
  | 69 => ⟨S131072x6, .f32⟩
  | 70 => ⟨S131072x6, .f32⟩
  | 71 => ⟨S131072x1x9, .f32⟩
  | 72 => ⟨S131072x9, .f32⟩
  | 73 => ⟨S131072x1x3, .f32⟩
  | 74 => ⟨S131072x3, .f32⟩
  | 75 => ⟨S131072x1x3, .f32⟩
  | 76 => ⟨S131072x3, .f32⟩
  | 77 => ⟨S131072x3, .f32⟩
  | 78 => ⟨S131072x3, .f32⟩
  | 79 => ⟨S_, .f32⟩
  | 80 => ⟨S131072, .f32⟩
  | 81 => ⟨S131072x1, .f32⟩
  | 82 => ⟨S131072x1, .f32⟩
  | 83 => ⟨S131072x19, .f32⟩
  | 84 => ⟨S1x19x19, .f32⟩
  | 85 => ⟨S19x19, .f32⟩
  | 86 => ⟨S19x19, .f32⟩
  | 87 => ⟨S131072x19, .f32⟩
  | 88 => ⟨S1x19, .f32⟩
  | 89 => ⟨S19, .f32⟩
  | 90 => ⟨S1x19, .f32⟩
  | 91 => ⟨S131072x19, .f32⟩
  | 92 => ⟨S131072x19, .f32⟩
  | 93 => ⟨S_, .f32⟩
  | 94 => ⟨S131072x19, .f32⟩
  | 95 => ⟨S131072x19, .f32⟩
  | 96 => ⟨S1x6x19, .f32⟩
  | 97 => ⟨S6x19, .f32⟩
  | 98 => ⟨S19x6, .f32⟩
  | 99 => ⟨S131072x6, .f32⟩
  | 100 => ⟨S1x6, .f32⟩
  | 101 => ⟨S6, .f32⟩
  | 102 => ⟨S1x6, .f32⟩
  | 103 => ⟨S131072x6, .f32⟩
  | 104 => ⟨S131072x6, .f32⟩
  | 105 => ⟨S131072x1x9, .f32⟩
  | 106 => ⟨S131072x9, .f32⟩
  | 107 => ⟨S131072x1x3, .f32⟩
  | 108 => ⟨S131072x3, .f32⟩
  | 109 => ⟨S131072x1x3, .f32⟩
  | 110 => ⟨S131072x3, .f32⟩
  | 111 => ⟨S131072x3, .f32⟩
  | 112 => ⟨S131072x3, .f32⟩
  | 113 => ⟨S_, .f32⟩
  | 114 => ⟨S131072, .f32⟩
  | 115 => ⟨S131072x1, .f32⟩
  | 116 => ⟨S131072x1, .f32⟩
  | 117 => ⟨S131072x19, .f32⟩
  | 118 => ⟨S1x19x19, .f32⟩
  | 119 => ⟨S19x19, .f32⟩
  | 120 => ⟨S19x19, .f32⟩
  | 121 => ⟨S131072x19, .f32⟩
  | 122 => ⟨S1x19, .f32⟩
  | 123 => ⟨S19, .f32⟩
  | 124 => ⟨S1x19, .f32⟩
  | 125 => ⟨S131072x19, .f32⟩
  | 126 => ⟨S131072x19, .f32⟩
  | 127 => ⟨S_, .f32⟩
  | _ => ⟨S131072x24x9, .f32⟩

abbrev hbmTy0_4 (i : Nat) : BufTy := match i % 128 with
  | 0 => ⟨S131072x19, .f32⟩
  | 1 => ⟨S131072x19, .f32⟩
  | 2 => ⟨S1x6x19, .f32⟩
  | 3 => ⟨S6x19, .f32⟩
  | 4 => ⟨S19x6, .f32⟩
  | 5 => ⟨S131072x6, .f32⟩
  | 6 => ⟨S1x6, .f32⟩
  | 7 => ⟨S6, .f32⟩
  | 8 => ⟨S1x6, .f32⟩
  | 9 => ⟨S131072x6, .f32⟩
  | 10 => ⟨S131072x6, .f32⟩
  | 11 => ⟨S131072x1x9, .f32⟩
  | 12 => ⟨S131072x9, .f32⟩
  | 13 => ⟨S131072x1x3, .f32⟩
  | 14 => ⟨S131072x3, .f32⟩
  | 15 => ⟨S131072x1x3, .f32⟩
  | 16 => ⟨S131072x3, .f32⟩
  | 17 => ⟨S131072x3, .f32⟩
  | 18 => ⟨S131072x3, .f32⟩
  | 19 => ⟨S_, .f32⟩
  | 20 => ⟨S131072, .f32⟩
  | 21 => ⟨S131072x1, .f32⟩
  | 22 => ⟨S131072x1, .f32⟩
  | 23 => ⟨S131072x19, .f32⟩
  | 24 => ⟨S1x19x19, .f32⟩
  | 25 => ⟨S19x19, .f32⟩
  | 26 => ⟨S19x19, .f32⟩
  | 27 => ⟨S131072x19, .f32⟩
  | 28 => ⟨S1x19, .f32⟩
  | 29 => ⟨S19, .f32⟩
  | 30 => ⟨S1x19, .f32⟩
  | 31 => ⟨S131072x19, .f32⟩
  | 32 => ⟨S131072x19, .f32⟩
  | 33 => ⟨S_, .f32⟩
  | 34 => ⟨S131072x19, .f32⟩
  | 35 => ⟨S131072x19, .f32⟩
  | 36 => ⟨S1x6x19, .f32⟩
  | 37 => ⟨S6x19, .f32⟩
  | 38 => ⟨S19x6, .f32⟩
  | 39 => ⟨S131072x6, .f32⟩
  | 40 => ⟨S1x6, .f32⟩
  | 41 => ⟨S6, .f32⟩
  | 42 => ⟨S1x6, .f32⟩
  | 43 => ⟨S131072x6, .f32⟩
  | 44 => ⟨S131072x6, .f32⟩
  | 45 => ⟨S131072x1x9, .f32⟩
  | 46 => ⟨S131072x9, .f32⟩
  | 47 => ⟨S131072x1x3, .f32⟩
  | 48 => ⟨S131072x3, .f32⟩
  | 49 => ⟨S131072x1x3, .f32⟩
  | 50 => ⟨S131072x3, .f32⟩
  | 51 => ⟨S131072x3, .f32⟩
  | 52 => ⟨S131072x3, .f32⟩
  | 53 => ⟨S_, .f32⟩
  | 54 => ⟨S131072, .f32⟩
  | 55 => ⟨S131072x1, .f32⟩
  | 56 => ⟨S131072x1, .f32⟩
  | 57 => ⟨S131072x19, .f32⟩
  | 58 => ⟨S1x19x19, .f32⟩
  | 59 => ⟨S19x19, .f32⟩
  | 60 => ⟨S19x19, .f32⟩
  | 61 => ⟨S131072x19, .f32⟩
  | 62 => ⟨S1x19, .f32⟩
  | 63 => ⟨S19, .f32⟩
  | 64 => ⟨S1x19, .f32⟩
  | 65 => ⟨S131072x19, .f32⟩
  | 66 => ⟨S131072x19, .f32⟩
  | 67 => ⟨S_, .f32⟩
  | 68 => ⟨S131072x19, .f32⟩
  | 69 => ⟨S131072x19, .f32⟩
  | 70 => ⟨S1x6x19, .f32⟩
  | 71 => ⟨S6x19, .f32⟩
  | 72 => ⟨S19x6, .f32⟩
  | 73 => ⟨S131072x6, .f32⟩
  | 74 => ⟨S1x6, .f32⟩
  | 75 => ⟨S6, .f32⟩
  | 76 => ⟨S1x6, .f32⟩
  | 77 => ⟨S131072x6, .f32⟩
  | 78 => ⟨S131072x6, .f32⟩
  | 79 => ⟨S131072x1x9, .f32⟩
  | 80 => ⟨S131072x9, .f32⟩
  | 81 => ⟨S131072x1x3, .f32⟩
  | 82 => ⟨S131072x3, .f32⟩
  | 83 => ⟨S131072x1x3, .f32⟩
  | 84 => ⟨S131072x3, .f32⟩
  | 85 => ⟨S131072x3, .f32⟩
  | 86 => ⟨S131072x3, .f32⟩
  | 87 => ⟨S_, .f32⟩
  | 88 => ⟨S131072, .f32⟩
  | 89 => ⟨S131072x1, .f32⟩
  | 90 => ⟨S131072x1, .f32⟩
  | 91 => ⟨S131072x19, .f32⟩
  | 92 => ⟨S1x19x19, .f32⟩
  | 93 => ⟨S19x19, .f32⟩
  | 94 => ⟨S19x19, .f32⟩
  | 95 => ⟨S131072x19, .f32⟩
  | 96 => ⟨S1x19, .f32⟩
  | 97 => ⟨S19, .f32⟩
  | 98 => ⟨S1x19, .f32⟩
  | 99 => ⟨S131072x19, .f32⟩
  | 100 => ⟨S131072x19, .f32⟩
  | 101 => ⟨S_, .f32⟩
  | 102 => ⟨S131072x19, .f32⟩
  | 103 => ⟨S131072x19, .f32⟩
  | 104 => ⟨S1x6x19, .f32⟩
  | 105 => ⟨S6x19, .f32⟩
  | 106 => ⟨S19x6, .f32⟩
  | 107 => ⟨S131072x6, .f32⟩
  | 108 => ⟨S1x6, .f32⟩
  | 109 => ⟨S6, .f32⟩
  | 110 => ⟨S1x6, .f32⟩
  | 111 => ⟨S131072x6, .f32⟩
  | 112 => ⟨S131072x6, .f32⟩
  | 113 => ⟨S131072x1x9, .f32⟩
  | 114 => ⟨S131072x9, .f32⟩
  | 115 => ⟨S131072x1x3, .f32⟩
  | 116 => ⟨S131072x3, .f32⟩
  | 117 => ⟨S131072x1x3, .f32⟩
  | 118 => ⟨S131072x3, .f32⟩
  | 119 => ⟨S131072x3, .f32⟩
  | 120 => ⟨S131072x3, .f32⟩
  | 121 => ⟨S_, .f32⟩
  | 122 => ⟨S131072, .f32⟩
  | 123 => ⟨S131072x1, .f32⟩
  | 124 => ⟨S131072x1, .f32⟩
  | 125 => ⟨S131072x19, .f32⟩
  | 126 => ⟨S1x19x19, .f32⟩
  | 127 => ⟨S19x19, .f32⟩
  | _ => ⟨S131072x24x9, .f32⟩

abbrev hbmTy0_5 (i : Nat) : BufTy := match i % 128 with
  | 0 => ⟨S19x19, .f32⟩
  | 1 => ⟨S131072x19, .f32⟩
  | 2 => ⟨S1x19, .f32⟩
  | 3 => ⟨S19, .f32⟩
  | 4 => ⟨S1x19, .f32⟩
  | 5 => ⟨S131072x19, .f32⟩
  | 6 => ⟨S131072x19, .f32⟩
  | 7 => ⟨S_, .f32⟩
  | 8 => ⟨S131072x19, .f32⟩
  | 9 => ⟨S131072x19, .f32⟩
  | 10 => ⟨S1x6x19, .f32⟩
  | 11 => ⟨S6x19, .f32⟩
  | 12 => ⟨S19x6, .f32⟩
  | 13 => ⟨S131072x6, .f32⟩
  | 14 => ⟨S1x6, .f32⟩
  | 15 => ⟨S6, .f32⟩
  | 16 => ⟨S1x6, .f32⟩
  | 17 => ⟨S131072x6, .f32⟩
  | 18 => ⟨S131072x6, .f32⟩
  | 19 => ⟨S131072x1x9, .f32⟩
  | 20 => ⟨S131072x9, .f32⟩
  | 21 => ⟨S131072x1x3, .f32⟩
  | 22 => ⟨S131072x3, .f32⟩
  | 23 => ⟨S131072x1x3, .f32⟩
  | 24 => ⟨S131072x3, .f32⟩
  | 25 => ⟨S131072x3, .f32⟩
  | 26 => ⟨S131072x3, .f32⟩
  | 27 => ⟨S_, .f32⟩
  | 28 => ⟨S131072, .f32⟩
  | 29 => ⟨S131072x1, .f32⟩
  | 30 => ⟨S131072x1, .f32⟩
  | 31 => ⟨S131072x19, .f32⟩
  | 32 => ⟨S1x19x19, .f32⟩
  | 33 => ⟨S19x19, .f32⟩
  | 34 => ⟨S19x19, .f32⟩
  | 35 => ⟨S131072x19, .f32⟩
  | 36 => ⟨S1x19, .f32⟩
  | 37 => ⟨S19, .f32⟩
  | 38 => ⟨S1x19, .f32⟩
  | 39 => ⟨S131072x19, .f32⟩
  | 40 => ⟨S131072x19, .f32⟩
  | 41 => ⟨S_, .f32⟩
  | 42 => ⟨S131072x19, .f32⟩
  | 43 => ⟨S131072x19, .f32⟩
  | 44 => ⟨S1x6x19, .f32⟩
  | 45 => ⟨S6x19, .f32⟩
  | 46 => ⟨S19x6, .f32⟩
  | 47 => ⟨S131072x6, .f32⟩
  | 48 => ⟨S1x6, .f32⟩
  | 49 => ⟨S6, .f32⟩
  | 50 => ⟨S1x6, .f32⟩
  | 51 => ⟨S131072x6, .f32⟩
  | 52 => ⟨S131072x6, .f32⟩
  | 53 => ⟨S131072x1x9, .f32⟩
  | 54 => ⟨S131072x9, .f32⟩
  | 55 => ⟨S131072x1x3, .f32⟩
  | 56 => ⟨S131072x3, .f32⟩
  | 57 => ⟨S131072x1x3, .f32⟩
  | 58 => ⟨S131072x3, .f32⟩
  | 59 => ⟨S131072x3, .f32⟩
  | 60 => ⟨S131072x3, .f32⟩
  | 61 => ⟨S_, .f32⟩
  | 62 => ⟨S131072, .f32⟩
  | 63 => ⟨S131072x1, .f32⟩
  | 64 => ⟨S131072x1, .f32⟩
  | 65 => ⟨S131072x19, .f32⟩
  | 66 => ⟨S1x19x19, .f32⟩
  | 67 => ⟨S19x19, .f32⟩
  | 68 => ⟨S19x19, .f32⟩
  | 69 => ⟨S131072x19, .f32⟩
  | 70 => ⟨S1x19, .f32⟩
  | 71 => ⟨S19, .f32⟩
  | 72 => ⟨S1x19, .f32⟩
  | 73 => ⟨S131072x19, .f32⟩
  | 74 => ⟨S131072x19, .f32⟩
  | 75 => ⟨S_, .f32⟩
  | 76 => ⟨S131072x19, .f32⟩
  | 77 => ⟨S131072x19, .f32⟩
  | 78 => ⟨S1x6x19, .f32⟩
  | 79 => ⟨S6x19, .f32⟩
  | 80 => ⟨S19x6, .f32⟩
  | 81 => ⟨S131072x6, .f32⟩
  | 82 => ⟨S1x6, .f32⟩
  | 83 => ⟨S6, .f32⟩
  | 84 => ⟨S1x6, .f32⟩
  | 85 => ⟨S131072x6, .f32⟩
  | 86 => ⟨S131072x6, .f32⟩
  | 87 => ⟨S131072x1x9, .f32⟩
  | 88 => ⟨S131072x9, .f32⟩
  | 89 => ⟨S131072x1x3, .f32⟩
  | 90 => ⟨S131072x3, .f32⟩
  | 91 => ⟨S131072x1x3, .f32⟩
  | 92 => ⟨S131072x3, .f32⟩
  | 93 => ⟨S131072x3, .f32⟩
  | 94 => ⟨S131072x3, .f32⟩
  | 95 => ⟨S_, .f32⟩
  | 96 => ⟨S131072, .f32⟩
  | 97 => ⟨S131072x1, .f32⟩
  | 98 => ⟨S131072x1, .f32⟩
  | 99 => ⟨S131072x19, .f32⟩
  | 100 => ⟨S1x19x19, .f32⟩
  | 101 => ⟨S19x19, .f32⟩
  | 102 => ⟨S19x19, .f32⟩
  | 103 => ⟨S131072x19, .f32⟩
  | 104 => ⟨S1x19, .f32⟩
  | 105 => ⟨S19, .f32⟩
  | 106 => ⟨S1x19, .f32⟩
  | 107 => ⟨S131072x19, .f32⟩
  | 108 => ⟨S131072x19, .f32⟩
  | 109 => ⟨S_, .f32⟩
  | 110 => ⟨S131072x19, .f32⟩
  | 111 => ⟨S131072x19, .f32⟩
  | 112 => ⟨S1x6x19, .f32⟩
  | 113 => ⟨S6x19, .f32⟩
  | 114 => ⟨S19x6, .f32⟩
  | 115 => ⟨S131072x6, .f32⟩
  | 116 => ⟨S1x6, .f32⟩
  | 117 => ⟨S6, .f32⟩
  | 118 => ⟨S1x6, .f32⟩
  | 119 => ⟨S131072x6, .f32⟩
  | 120 => ⟨S131072x6, .f32⟩
  | 121 => ⟨S131072x1x9, .f32⟩
  | 122 => ⟨S131072x9, .f32⟩
  | 123 => ⟨S131072x1x3, .f32⟩
  | 124 => ⟨S131072x3, .f32⟩
  | 125 => ⟨S131072x1x3, .f32⟩
  | 126 => ⟨S131072x3, .f32⟩
  | 127 => ⟨S131072x3, .f32⟩
  | _ => ⟨S131072x24x9, .f32⟩

abbrev hbmTy0_6 (i : Nat) : BufTy := match i % 128 with
  | 0 => ⟨S131072x3, .f32⟩
  | 1 => ⟨S_, .f32⟩
  | 2 => ⟨S131072, .f32⟩
  | 3 => ⟨S131072x1, .f32⟩
  | 4 => ⟨S131072x1, .f32⟩
  | 5 => ⟨S131072x19, .f32⟩
  | 6 => ⟨S1x19x19, .f32⟩
  | 7 => ⟨S19x19, .f32⟩
  | 8 => ⟨S19x19, .f32⟩
  | 9 => ⟨S131072x19, .f32⟩
  | 10 => ⟨S1x19, .f32⟩
  | 11 => ⟨S19, .f32⟩
  | 12 => ⟨S1x19, .f32⟩
  | 13 => ⟨S131072x19, .f32⟩
  | 14 => ⟨S131072x19, .f32⟩
  | 15 => ⟨S_, .f32⟩
  | 16 => ⟨S131072x19, .f32⟩
  | 17 => ⟨S131072x19, .f32⟩
  | 18 => ⟨S1x6x19, .f32⟩
  | 19 => ⟨S6x19, .f32⟩
  | 20 => ⟨S19x6, .f32⟩
  | 21 => ⟨S131072x6, .f32⟩
  | 22 => ⟨S1x6, .f32⟩
  | 23 => ⟨S6, .f32⟩
  | 24 => ⟨S1x6, .f32⟩
  | 25 => ⟨S131072x6, .f32⟩
  | 26 => ⟨S131072x6, .f32⟩
  | 27 => ⟨S131072x1x9, .f32⟩
  | 28 => ⟨S131072x9, .f32⟩
  | 29 => ⟨S131072x1x3, .f32⟩
  | 30 => ⟨S131072x3, .f32⟩
  | 31 => ⟨S131072x1x3, .f32⟩
  | 32 => ⟨S131072x3, .f32⟩
  | 33 => ⟨S131072x3, .f32⟩
  | 34 => ⟨S131072x3, .f32⟩
  | 35 => ⟨S_, .f32⟩
  | 36 => ⟨S131072, .f32⟩
  | 37 => ⟨S131072x1, .f32⟩
  | 38 => ⟨S131072x1, .f32⟩
  | 39 => ⟨S131072x19, .f32⟩
  | 40 => ⟨S1x19x19, .f32⟩
  | 41 => ⟨S19x19, .f32⟩
  | 42 => ⟨S19x19, .f32⟩
  | 43 => ⟨S131072x19, .f32⟩
  | 44 => ⟨S1x19, .f32⟩
  | 45 => ⟨S19, .f32⟩
  | 46 => ⟨S1x19, .f32⟩
  | 47 => ⟨S131072x19, .f32⟩
  | 48 => ⟨S131072x19, .f32⟩
  | 49 => ⟨S_, .f32⟩
  | 50 => ⟨S131072x19, .f32⟩
  | 51 => ⟨S131072x19, .f32⟩
  | 52 => ⟨S1x6x19, .f32⟩
  | 53 => ⟨S6x19, .f32⟩
  | 54 => ⟨S19x6, .f32⟩
  | 55 => ⟨S131072x6, .f32⟩
  | 56 => ⟨S1x6, .f32⟩
  | 57 => ⟨S6, .f32⟩
  | 58 => ⟨S1x6, .f32⟩
  | 59 => ⟨S131072x6, .f32⟩
  | 60 => ⟨S131072x6, .f32⟩
  | 61 => ⟨S131072x96, .f32⟩
  | 62 => ⟨S131072x48, .f32⟩
  | 63 => ⟨S131072x144, .f32⟩
  | _ => ⟨S131072x24x9, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S131072x24x9, .f32⟩

abbrev bufTy : (tb : Table) → Fin (tcTables nBuf tb) → BufTy
  | .hbm, ⟨i, _⟩ => hbmTy i
  | _, _ => ⟨S131072x24x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call3_cst : Ref sig .tc := ⟨.hbm, 69, rfl⟩
abbrev main_call3_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_call4_v2 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call5_cst : Ref sig .tc := ⟨.hbm, 103, rfl⟩
abbrev main_call5_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_call6_v0 : Ref sig .tc := ⟨.hbm, 122, rfl⟩
abbrev main_call6_cst : Ref sig .tc := ⟨.hbm, 123, rfl⟩
abbrev main_call6_v1 : Ref sig .tc := ⟨.hbm, 124, rfl⟩
abbrev main_call6_v2 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call7_cst : Ref sig .tc := ⟨.hbm, 137, rfl⟩
abbrev main_call7_v0 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_call8_v0 : Ref sig .tc := ⟨.hbm, 156, rfl⟩
abbrev main_call8_cst : Ref sig .tc := ⟨.hbm, 157, rfl⟩
abbrev main_call8_v1 : Ref sig .tc := ⟨.hbm, 158, rfl⟩
abbrev main_call8_v2 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_call9_cst : Ref sig .tc := ⟨.hbm, 171, rfl⟩
abbrev main_call9_v0 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call10_v0 : Ref sig .tc := ⟨.hbm, 190, rfl⟩
abbrev main_call10_cst : Ref sig .tc := ⟨.hbm, 191, rfl⟩
abbrev main_call10_v1 : Ref sig .tc := ⟨.hbm, 192, rfl⟩
abbrev main_call10_v2 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_call11_cst : Ref sig .tc := ⟨.hbm, 205, rfl⟩
abbrev main_call11_v0 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_call12_v0 : Ref sig .tc := ⟨.hbm, 224, rfl⟩
abbrev main_call12_cst : Ref sig .tc := ⟨.hbm, 225, rfl⟩
abbrev main_call12_v1 : Ref sig .tc := ⟨.hbm, 226, rfl⟩
abbrev main_call12_v2 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_call13_cst : Ref sig .tc := ⟨.hbm, 239, rfl⟩
abbrev main_call13_v0 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_call14_v0 : Ref sig .tc := ⟨.hbm, 258, rfl⟩
abbrev main_call14_cst : Ref sig .tc := ⟨.hbm, 259, rfl⟩
abbrev main_call14_v1 : Ref sig .tc := ⟨.hbm, 260, rfl⟩
abbrev main_call14_v2 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_call15_cst : Ref sig .tc := ⟨.hbm, 273, rfl⟩
abbrev main_call15_v0 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_call16_v0 : Ref sig .tc := ⟨.hbm, 292, rfl⟩
abbrev main_call16_cst : Ref sig .tc := ⟨.hbm, 293, rfl⟩
abbrev main_call16_v1 : Ref sig .tc := ⟨.hbm, 294, rfl⟩
abbrev main_call16_v2 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_call17_cst : Ref sig .tc := ⟨.hbm, 307, rfl⟩
abbrev main_call17_v0 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_call18_v0 : Ref sig .tc := ⟨.hbm, 326, rfl⟩
abbrev main_call18_cst : Ref sig .tc := ⟨.hbm, 327, rfl⟩
abbrev main_call18_v1 : Ref sig .tc := ⟨.hbm, 328, rfl⟩
abbrev main_call18_v2 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_call19_cst : Ref sig .tc := ⟨.hbm, 341, rfl⟩
abbrev main_call19_v0 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_call20_v0 : Ref sig .tc := ⟨.hbm, 360, rfl⟩
abbrev main_call20_cst : Ref sig .tc := ⟨.hbm, 361, rfl⟩
abbrev main_call20_v1 : Ref sig .tc := ⟨.hbm, 362, rfl⟩
abbrev main_call20_v2 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_call21_cst : Ref sig .tc := ⟨.hbm, 375, rfl⟩
abbrev main_call21_v0 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_call22_v0 : Ref sig .tc := ⟨.hbm, 394, rfl⟩
abbrev main_call22_cst : Ref sig .tc := ⟨.hbm, 395, rfl⟩
abbrev main_call22_v1 : Ref sig .tc := ⟨.hbm, 396, rfl⟩
abbrev main_call22_v2 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_call23_cst : Ref sig .tc := ⟨.hbm, 409, rfl⟩
abbrev main_call23_v0 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_call24_v0 : Ref sig .tc := ⟨.hbm, 428, rfl⟩
abbrev main_call24_cst : Ref sig .tc := ⟨.hbm, 429, rfl⟩
abbrev main_call24_v1 : Ref sig .tc := ⟨.hbm, 430, rfl⟩
abbrev main_call24_v2 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_call25_cst : Ref sig .tc := ⟨.hbm, 443, rfl⟩
abbrev main_call25_v0 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_call26_v0 : Ref sig .tc := ⟨.hbm, 462, rfl⟩
abbrev main_call26_cst : Ref sig .tc := ⟨.hbm, 463, rfl⟩
abbrev main_call26_v1 : Ref sig .tc := ⟨.hbm, 464, rfl⟩
abbrev main_call26_v2 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_call27_cst : Ref sig .tc := ⟨.hbm, 477, rfl⟩
abbrev main_call27_v0 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_call28_v0 : Ref sig .tc := ⟨.hbm, 496, rfl⟩
abbrev main_call28_cst : Ref sig .tc := ⟨.hbm, 497, rfl⟩
abbrev main_call28_v1 : Ref sig .tc := ⟨.hbm, 498, rfl⟩
abbrev main_call28_v2 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_call29_cst : Ref sig .tc := ⟨.hbm, 511, rfl⟩
abbrev main_call29_v0 : Ref sig .tc := ⟨.hbm, 512, rfl⟩
abbrev main_v415 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_v426 : Ref sig .tc := ⟨.hbm, 524, rfl⟩
abbrev main_v427 : Ref sig .tc := ⟨.hbm, 525, rfl⟩
abbrev main_v428 : Ref sig .tc := ⟨.hbm, 526, rfl⟩
abbrev main_v429 : Ref sig .tc := ⟨.hbm, 527, rfl⟩
abbrev main_v430 : Ref sig .tc := ⟨.hbm, 528, rfl⟩
abbrev main_v431 : Ref sig .tc := ⟨.hbm, 529, rfl⟩
abbrev main_call30_v0 : Ref sig .tc := ⟨.hbm, 530, rfl⟩
abbrev main_call30_cst : Ref sig .tc := ⟨.hbm, 531, rfl⟩
abbrev main_call30_v1 : Ref sig .tc := ⟨.hbm, 532, rfl⟩
abbrev main_call30_v2 : Ref sig .tc := ⟨.hbm, 533, rfl⟩
abbrev main_v432 : Ref sig .tc := ⟨.hbm, 534, rfl⟩
abbrev main_v433 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_v438 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_call31_cst : Ref sig .tc := ⟨.hbm, 545, rfl⟩
abbrev main_call31_v0 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_v446 : Ref sig .tc := ⟨.hbm, 550, rfl⟩
abbrev main_v447 : Ref sig .tc := ⟨.hbm, 551, rfl⟩
abbrev main_v448 : Ref sig .tc := ⟨.hbm, 552, rfl⟩
abbrev main_v449 : Ref sig .tc := ⟨.hbm, 553, rfl⟩
abbrev main_v450 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_call32_v0 : Ref sig .tc := ⟨.hbm, 564, rfl⟩
abbrev main_call32_cst : Ref sig .tc := ⟨.hbm, 565, rfl⟩
abbrev main_call32_v1 : Ref sig .tc := ⟨.hbm, 566, rfl⟩
abbrev main_call32_v2 : Ref sig .tc := ⟨.hbm, 567, rfl⟩
abbrev main_v460 : Ref sig .tc := ⟨.hbm, 568, rfl⟩
abbrev main_v461 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_call33_cst : Ref sig .tc := ⟨.hbm, 579, rfl⟩
abbrev main_call33_v0 : Ref sig .tc := ⟨.hbm, 580, rfl⟩
abbrev main_v471 : Ref sig .tc := ⟨.hbm, 581, rfl⟩
abbrev main_v472 : Ref sig .tc := ⟨.hbm, 582, rfl⟩
abbrev main_v473 : Ref sig .tc := ⟨.hbm, 583, rfl⟩
abbrev main_v474 : Ref sig .tc := ⟨.hbm, 584, rfl⟩
abbrev main_v475 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_v480 : Ref sig .tc := ⟨.hbm, 590, rfl⟩
abbrev main_v481 : Ref sig .tc := ⟨.hbm, 591, rfl⟩
abbrev main_v482 : Ref sig .tc := ⟨.hbm, 592, rfl⟩
abbrev main_v483 : Ref sig .tc := ⟨.hbm, 593, rfl⟩
abbrev main_v484 : Ref sig .tc := ⟨.hbm, 594, rfl⟩
abbrev main_v485 : Ref sig .tc := ⟨.hbm, 595, rfl⟩
abbrev main_v486 : Ref sig .tc := ⟨.hbm, 596, rfl⟩
abbrev main_v487 : Ref sig .tc := ⟨.hbm, 597, rfl⟩
abbrev main_call34_v0 : Ref sig .tc := ⟨.hbm, 598, rfl⟩
abbrev main_call34_cst : Ref sig .tc := ⟨.hbm, 599, rfl⟩
abbrev main_call34_v1 : Ref sig .tc := ⟨.hbm, 600, rfl⟩
abbrev main_call34_v2 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_v491 : Ref sig .tc := ⟨.hbm, 605, rfl⟩
abbrev main_v492 : Ref sig .tc := ⟨.hbm, 606, rfl⟩
abbrev main_v493 : Ref sig .tc := ⟨.hbm, 607, rfl⟩
abbrev main_v494 : Ref sig .tc := ⟨.hbm, 608, rfl⟩
abbrev main_v495 : Ref sig .tc := ⟨.hbm, 609, rfl⟩
abbrev main_v496 : Ref sig .tc := ⟨.hbm, 610, rfl⟩
abbrev main_v497 : Ref sig .tc := ⟨.hbm, 611, rfl⟩
abbrev main_v498 : Ref sig .tc := ⟨.hbm, 612, rfl⟩
abbrev main_call35_cst : Ref sig .tc := ⟨.hbm, 613, rfl⟩
abbrev main_call35_v0 : Ref sig .tc := ⟨.hbm, 614, rfl⟩
abbrev main_v499 : Ref sig .tc := ⟨.hbm, 615, rfl⟩
abbrev main_v500 : Ref sig .tc := ⟨.hbm, 616, rfl⟩
abbrev main_v501 : Ref sig .tc := ⟨.hbm, 617, rfl⟩
abbrev main_v502 : Ref sig .tc := ⟨.hbm, 618, rfl⟩
abbrev main_v503 : Ref sig .tc := ⟨.hbm, 619, rfl⟩
abbrev main_v504 : Ref sig .tc := ⟨.hbm, 620, rfl⟩
abbrev main_v505 : Ref sig .tc := ⟨.hbm, 621, rfl⟩
abbrev main_v506 : Ref sig .tc := ⟨.hbm, 622, rfl⟩
abbrev main_v507 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_call36_v0 : Ref sig .tc := ⟨.hbm, 632, rfl⟩
abbrev main_call36_cst : Ref sig .tc := ⟨.hbm, 633, rfl⟩
abbrev main_call36_v1 : Ref sig .tc := ⟨.hbm, 634, rfl⟩
abbrev main_call36_v2 : Ref sig .tc := ⟨.hbm, 635, rfl⟩
abbrev main_v516 : Ref sig .tc := ⟨.hbm, 636, rfl⟩
abbrev main_v517 : Ref sig .tc := ⟨.hbm, 637, rfl⟩
abbrev main_v518 : Ref sig .tc := ⟨.hbm, 638, rfl⟩
abbrev main_v519 : Ref sig .tc := ⟨.hbm, 639, rfl⟩
abbrev main_v520 : Ref sig .tc := ⟨.hbm, 640, rfl⟩
abbrev main_v521 : Ref sig .tc := ⟨.hbm, 641, rfl⟩
abbrev main_v522 : Ref sig .tc := ⟨.hbm, 642, rfl⟩
abbrev main_v523 : Ref sig .tc := ⟨.hbm, 643, rfl⟩
abbrev main_v524 : Ref sig .tc := ⟨.hbm, 644, rfl⟩
abbrev main_v525 : Ref sig .tc := ⟨.hbm, 645, rfl⟩
abbrev main_v526 : Ref sig .tc := ⟨.hbm, 646, rfl⟩
abbrev main_call37_cst : Ref sig .tc := ⟨.hbm, 647, rfl⟩
abbrev main_call37_v0 : Ref sig .tc := ⟨.hbm, 648, rfl⟩
abbrev main_v527 : Ref sig .tc := ⟨.hbm, 649, rfl⟩
abbrev main_v528 : Ref sig .tc := ⟨.hbm, 650, rfl⟩
abbrev main_v529 : Ref sig .tc := ⟨.hbm, 651, rfl⟩
abbrev main_v530 : Ref sig .tc := ⟨.hbm, 652, rfl⟩
abbrev main_v531 : Ref sig .tc := ⟨.hbm, 653, rfl⟩
abbrev main_v532 : Ref sig .tc := ⟨.hbm, 654, rfl⟩
abbrev main_v533 : Ref sig .tc := ⟨.hbm, 655, rfl⟩
abbrev main_v534 : Ref sig .tc := ⟨.hbm, 656, rfl⟩
abbrev main_v535 : Ref sig .tc := ⟨.hbm, 657, rfl⟩
abbrev main_v536 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_call38_v0 : Ref sig .tc := ⟨.hbm, 666, rfl⟩
abbrev main_call38_cst : Ref sig .tc := ⟨.hbm, 667, rfl⟩
abbrev main_call38_v1 : Ref sig .tc := ⟨.hbm, 668, rfl⟩
abbrev main_call38_v2 : Ref sig .tc := ⟨.hbm, 669, rfl⟩
abbrev main_v544 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_call39_cst : Ref sig .tc := ⟨.hbm, 681, rfl⟩
abbrev main_call39_v0 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_v562 : Ref sig .tc := ⟨.hbm, 690, rfl⟩
abbrev main_v563 : Ref sig .tc := ⟨.hbm, 691, rfl⟩
abbrev main_v564 : Ref sig .tc := ⟨.hbm, 692, rfl⟩
abbrev main_v565 : Ref sig .tc := ⟨.hbm, 693, rfl⟩
abbrev main_v566 : Ref sig .tc := ⟨.hbm, 694, rfl⟩
abbrev main_v567 : Ref sig .tc := ⟨.hbm, 695, rfl⟩
abbrev main_v568 : Ref sig .tc := ⟨.hbm, 696, rfl⟩
abbrev main_v569 : Ref sig .tc := ⟨.hbm, 697, rfl⟩
abbrev main_v570 : Ref sig .tc := ⟨.hbm, 698, rfl⟩
abbrev main_v571 : Ref sig .tc := ⟨.hbm, 699, rfl⟩
abbrev main_call40_v0 : Ref sig .tc := ⟨.hbm, 700, rfl⟩
abbrev main_call40_cst : Ref sig .tc := ⟨.hbm, 701, rfl⟩
abbrev main_call40_v1 : Ref sig .tc := ⟨.hbm, 702, rfl⟩
abbrev main_call40_v2 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_v579 : Ref sig .tc := ⟨.hbm, 711, rfl⟩
abbrev main_v580 : Ref sig .tc := ⟨.hbm, 712, rfl⟩
abbrev main_v581 : Ref sig .tc := ⟨.hbm, 713, rfl⟩
abbrev main_v582 : Ref sig .tc := ⟨.hbm, 714, rfl⟩
abbrev main_call41_cst : Ref sig .tc := ⟨.hbm, 715, rfl⟩
abbrev main_call41_v0 : Ref sig .tc := ⟨.hbm, 716, rfl⟩
abbrev main_v583 : Ref sig .tc := ⟨.hbm, 717, rfl⟩
abbrev main_v584 : Ref sig .tc := ⟨.hbm, 718, rfl⟩
abbrev main_v585 : Ref sig .tc := ⟨.hbm, 719, rfl⟩
abbrev main_v586 : Ref sig .tc := ⟨.hbm, 720, rfl⟩
abbrev main_v587 : Ref sig .tc := ⟨.hbm, 721, rfl⟩
abbrev main_v588 : Ref sig .tc := ⟨.hbm, 722, rfl⟩
abbrev main_v589 : Ref sig .tc := ⟨.hbm, 723, rfl⟩
abbrev main_v590 : Ref sig .tc := ⟨.hbm, 724, rfl⟩
abbrev main_v591 : Ref sig .tc := ⟨.hbm, 725, rfl⟩
abbrev main_v592 : Ref sig .tc := ⟨.hbm, 726, rfl⟩
abbrev main_v593 : Ref sig .tc := ⟨.hbm, 727, rfl⟩
abbrev main_v594 : Ref sig .tc := ⟨.hbm, 728, rfl⟩
abbrev main_v595 : Ref sig .tc := ⟨.hbm, 729, rfl⟩
abbrev main_v596 : Ref sig .tc := ⟨.hbm, 730, rfl⟩
abbrev main_v597 : Ref sig .tc := ⟨.hbm, 731, rfl⟩
abbrev main_v598 : Ref sig .tc := ⟨.hbm, 732, rfl⟩
abbrev main_v599 : Ref sig .tc := ⟨.hbm, 733, rfl⟩
abbrev main_call42_v0 : Ref sig .tc := ⟨.hbm, 734, rfl⟩
abbrev main_call42_cst : Ref sig .tc := ⟨.hbm, 735, rfl⟩
abbrev main_call42_v1 : Ref sig .tc := ⟨.hbm, 736, rfl⟩
abbrev main_call42_v2 : Ref sig .tc := ⟨.hbm, 737, rfl⟩
abbrev main_v600 : Ref sig .tc := ⟨.hbm, 738, rfl⟩
abbrev main_v601 : Ref sig .tc := ⟨.hbm, 739, rfl⟩
abbrev main_v602 : Ref sig .tc := ⟨.hbm, 740, rfl⟩
abbrev main_v603 : Ref sig .tc := ⟨.hbm, 741, rfl⟩
abbrev main_v604 : Ref sig .tc := ⟨.hbm, 742, rfl⟩
abbrev main_v605 : Ref sig .tc := ⟨.hbm, 743, rfl⟩
abbrev main_v606 : Ref sig .tc := ⟨.hbm, 744, rfl⟩
abbrev main_v607 : Ref sig .tc := ⟨.hbm, 745, rfl⟩
abbrev main_v608 : Ref sig .tc := ⟨.hbm, 746, rfl⟩
abbrev main_v609 : Ref sig .tc := ⟨.hbm, 747, rfl⟩
abbrev main_v610 : Ref sig .tc := ⟨.hbm, 748, rfl⟩
abbrev main_call43_cst : Ref sig .tc := ⟨.hbm, 749, rfl⟩
abbrev main_call43_v0 : Ref sig .tc := ⟨.hbm, 750, rfl⟩
abbrev main_v611 : Ref sig .tc := ⟨.hbm, 751, rfl⟩
abbrev main_v612 : Ref sig .tc := ⟨.hbm, 752, rfl⟩
abbrev main_v613 : Ref sig .tc := ⟨.hbm, 753, rfl⟩
abbrev main_v614 : Ref sig .tc := ⟨.hbm, 754, rfl⟩
abbrev main_v615 : Ref sig .tc := ⟨.hbm, 755, rfl⟩
abbrev main_v616 : Ref sig .tc := ⟨.hbm, 756, rfl⟩
abbrev main_v617 : Ref sig .tc := ⟨.hbm, 757, rfl⟩
abbrev main_v618 : Ref sig .tc := ⟨.hbm, 758, rfl⟩
abbrev main_v619 : Ref sig .tc := ⟨.hbm, 759, rfl⟩
abbrev main_v620 : Ref sig .tc := ⟨.hbm, 760, rfl⟩
abbrev main_v621 : Ref sig .tc := ⟨.hbm, 761, rfl⟩
abbrev main_v622 : Ref sig .tc := ⟨.hbm, 762, rfl⟩
abbrev main_v623 : Ref sig .tc := ⟨.hbm, 763, rfl⟩
abbrev main_v624 : Ref sig .tc := ⟨.hbm, 764, rfl⟩
abbrev main_v625 : Ref sig .tc := ⟨.hbm, 765, rfl⟩
abbrev main_v626 : Ref sig .tc := ⟨.hbm, 766, rfl⟩
abbrev main_v627 : Ref sig .tc := ⟨.hbm, 767, rfl⟩
abbrev main_call44_v0 : Ref sig .tc := ⟨.hbm, 768, rfl⟩
abbrev main_call44_cst : Ref sig .tc := ⟨.hbm, 769, rfl⟩
abbrev main_call44_v1 : Ref sig .tc := ⟨.hbm, 770, rfl⟩
abbrev main_call44_v2 : Ref sig .tc := ⟨.hbm, 771, rfl⟩
abbrev main_v628 : Ref sig .tc := ⟨.hbm, 772, rfl⟩
abbrev main_v629 : Ref sig .tc := ⟨.hbm, 773, rfl⟩
abbrev main_v630 : Ref sig .tc := ⟨.hbm, 774, rfl⟩
abbrev main_v631 : Ref sig .tc := ⟨.hbm, 775, rfl⟩
abbrev main_v632 : Ref sig .tc := ⟨.hbm, 776, rfl⟩
abbrev main_v633 : Ref sig .tc := ⟨.hbm, 777, rfl⟩
abbrev main_v634 : Ref sig .tc := ⟨.hbm, 778, rfl⟩
abbrev main_v635 : Ref sig .tc := ⟨.hbm, 779, rfl⟩
abbrev main_v636 : Ref sig .tc := ⟨.hbm, 780, rfl⟩
abbrev main_v637 : Ref sig .tc := ⟨.hbm, 781, rfl⟩
abbrev main_v638 : Ref sig .tc := ⟨.hbm, 782, rfl⟩
abbrev main_call45_cst : Ref sig .tc := ⟨.hbm, 783, rfl⟩
abbrev main_call45_v0 : Ref sig .tc := ⟨.hbm, 784, rfl⟩
abbrev main_v639 : Ref sig .tc := ⟨.hbm, 785, rfl⟩
abbrev main_v640 : Ref sig .tc := ⟨.hbm, 786, rfl⟩
abbrev main_v641 : Ref sig .tc := ⟨.hbm, 787, rfl⟩
abbrev main_v642 : Ref sig .tc := ⟨.hbm, 788, rfl⟩
abbrev main_v643 : Ref sig .tc := ⟨.hbm, 789, rfl⟩
abbrev main_v644 : Ref sig .tc := ⟨.hbm, 790, rfl⟩
abbrev main_v645 : Ref sig .tc := ⟨.hbm, 791, rfl⟩
abbrev main_v646 : Ref sig .tc := ⟨.hbm, 792, rfl⟩
abbrev main_v647 : Ref sig .tc := ⟨.hbm, 793, rfl⟩
abbrev main_v648 : Ref sig .tc := ⟨.hbm, 794, rfl⟩
abbrev main_v649 : Ref sig .tc := ⟨.hbm, 795, rfl⟩
abbrev main_v650 : Ref sig .tc := ⟨.hbm, 796, rfl⟩
abbrev main_v651 : Ref sig .tc := ⟨.hbm, 797, rfl⟩
abbrev main_v652 : Ref sig .tc := ⟨.hbm, 798, rfl⟩
abbrev main_v653 : Ref sig .tc := ⟨.hbm, 799, rfl⟩
abbrev main_v654 : Ref sig .tc := ⟨.hbm, 800, rfl⟩
abbrev main_v655 : Ref sig .tc := ⟨.hbm, 801, rfl⟩
abbrev main_call46_v0 : Ref sig .tc := ⟨.hbm, 802, rfl⟩
abbrev main_call46_cst : Ref sig .tc := ⟨.hbm, 803, rfl⟩
abbrev main_call46_v1 : Ref sig .tc := ⟨.hbm, 804, rfl⟩
abbrev main_call46_v2 : Ref sig .tc := ⟨.hbm, 805, rfl⟩
abbrev main_v656 : Ref sig .tc := ⟨.hbm, 806, rfl⟩
abbrev main_v657 : Ref sig .tc := ⟨.hbm, 807, rfl⟩
abbrev main_v658 : Ref sig .tc := ⟨.hbm, 808, rfl⟩
abbrev main_v659 : Ref sig .tc := ⟨.hbm, 809, rfl⟩
abbrev main_v660 : Ref sig .tc := ⟨.hbm, 810, rfl⟩
abbrev main_v661 : Ref sig .tc := ⟨.hbm, 811, rfl⟩
abbrev main_v662 : Ref sig .tc := ⟨.hbm, 812, rfl⟩
abbrev main_v663 : Ref sig .tc := ⟨.hbm, 813, rfl⟩
abbrev main_v664 : Ref sig .tc := ⟨.hbm, 814, rfl⟩
abbrev main_v665 : Ref sig .tc := ⟨.hbm, 815, rfl⟩
abbrev main_v666 : Ref sig .tc := ⟨.hbm, 816, rfl⟩
abbrev main_call47_cst : Ref sig .tc := ⟨.hbm, 817, rfl⟩
abbrev main_call47_v0 : Ref sig .tc := ⟨.hbm, 818, rfl⟩
abbrev main_v667 : Ref sig .tc := ⟨.hbm, 819, rfl⟩
abbrev main_v668 : Ref sig .tc := ⟨.hbm, 820, rfl⟩
abbrev main_v669 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_v673 : Ref sig .tc := ⟨.hbm, 825, rfl⟩
abbrev main_v674 : Ref sig .tc := ⟨.hbm, 826, rfl⟩
abbrev main_v675 : Ref sig .tc := ⟨.hbm, 827, rfl⟩
abbrev main_v676 : Ref sig .tc := ⟨.hbm, 828, rfl⟩
abbrev main_v677 : Ref sig .tc := ⟨.hbm, 829, rfl⟩
abbrev main_v678 : Ref sig .tc := ⟨.hbm, 830, rfl⟩
abbrev main_v679 : Ref sig .tc := ⟨.hbm, 831, rfl⟩

abbrev nD : Nat := 1
abbrev τ : Topo := Topo.v7x

variable {F : FTy → Type} [FloatOps F]

class Facts₀ : Prop where
  shapeCasts_S131072x24x9_S131072x216 : S131072x24x9.ShapeCasts S131072x216
  shapeCasts_S131072x24x3_S131072x72 : S131072x24x3.ShapeCasts S131072x72
  concatenates_S131072x216_S131072x72_S131072x288_d1 : Shape.Concatenates [S131072x216, S131072x72] S131072x288 1
  transposes_S6x288_S288x6_1_0 : S6x288.Transposes [1, 0] S288x6
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  slices_S131072x24x9_S131072x1x9_0_0_0 : S131072x24x9.Slices ![0, 0, 0] S131072x1x9
  shapeCasts_S131072x1x9_S131072x9 : S131072x1x9.ShapeCasts S131072x9
  slices_S131072x24x3_S131072x1x3_0_0_0 : S131072x24x3.Slices ![0, 0, 0] S131072x1x3
  shapeCasts_S131072x1x3_S131072x3 : S131072x1x3.ShapeCasts S131072x3
  reducesTo_S131072x3_S131072_d1 : S131072x3.ReducesTo [1] S131072
  h_S_ : 0 < S_.numel
  bcast_S131072_S131072x1_0 : S131072.BroadcastsInDim S131072x1 (![0] : Fin 1 → Fin S131072x1.rank)
  concatenates_S131072x9_S131072x3_S131072x1_S131072x6_S131072x19_d1 : Shape.Concatenates [S131072x9, S131072x3, S131072x1, S131072x6] S131072x19 1
  slices_S24x19x19_S1x19x19_0_0_0 : S24x19x19.Slices ![0, 0, 0] S1x19x19
  shapeCasts_S1x19x19_S19x19 : S1x19x19.ShapeCasts S19x19
  transposes_S19x19_S19x19_1_0 : S19x19.Transposes [1, 0] S19x19
  slices_S24x19_S1x19_0_0 : S24x19.Slices ![0, 0] S1x19
  shapeCasts_S1x19_S19 : S1x19.ShapeCasts S19
  bcast_S19_S1x19_1 : S19.BroadcastsInDim S1x19 (![1] : Fin 1 → Fin S1x19.rank)
  bcast_S1x19_S131072x19_0_1 : S1x19.BroadcastsInDim S131072x19 (![0, 1] : Fin 2 → Fin S131072x19.rank)
  bcast_S_S131072x19 : S_.BroadcastsInDim S131072x19 (![] : Fin 0 → Fin S131072x19.rank)
  slices_S24x6x19_S1x6x19_0_0_0 : S24x6x19.Slices ![0, 0, 0] S1x6x19
  shapeCasts_S1x6x19_S6x19 : S1x6x19.ShapeCasts S6x19
  transposes_S6x19_S19x6_1_0 : S6x19.Transposes [1, 0] S19x6
  slices_S24x6_S1x6_0_0 : S24x6.Slices ![0, 0] S1x6
  shapeCasts_S1x6_S6 : S1x6.ShapeCasts S6
  slices_S131072x24x9_S131072x1x9_0_1_0 : S131072x24x9.Slices ![0, 1, 0] S131072x1x9
  slices_S131072x24x3_S131072x1x3_0_1_0 : S131072x24x3.Slices ![0, 1, 0] S131072x1x3
  slices_S24x19x19_S1x19x19_1_0_0 : S24x19x19.Slices ![1, 0, 0] S1x19x19
  slices_S24x19_S1x19_1_0 : S24x19.Slices ![1, 0] S1x19
  slices_S24x6x19_S1x6x19_1_0_0 : S24x6x19.Slices ![1, 0, 0] S1x6x19
  slices_S24x6_S1x6_1_0 : S24x6.Slices ![1, 0] S1x6
  slices_S131072x24x9_S131072x1x9_0_2_0 : S131072x24x9.Slices ![0, 2, 0] S131072x1x9
  slices_S131072x24x3_S131072x1x3_0_2_0 : S131072x24x3.Slices ![0, 2, 0] S131072x1x3
  slices_S24x19x19_S1x19x19_2_0_0 : S24x19x19.Slices ![2, 0, 0] S1x19x19
  slices_S24x19_S1x19_2_0 : S24x19.Slices ![2, 0] S1x19
  slices_S24x6x19_S1x6x19_2_0_0 : S24x6x19.Slices ![2, 0, 0] S1x6x19
  slices_S24x6_S1x6_2_0 : S24x6.Slices ![2, 0] S1x6
  slices_S131072x24x9_S131072x1x9_0_3_0 : S131072x24x9.Slices ![0, 3, 0] S131072x1x9
  slices_S131072x24x3_S131072x1x3_0_3_0 : S131072x24x3.Slices ![0, 3, 0] S131072x1x3
  slices_S24x19x19_S1x19x19_3_0_0 : S24x19x19.Slices ![3, 0, 0] S1x19x19
  slices_S24x19_S1x19_3_0 : S24x19.Slices ![3, 0] S1x19
  slices_S24x6x19_S1x6x19_3_0_0 : S24x6x19.Slices ![3, 0, 0] S1x6x19
  slices_S24x6_S1x6_3_0 : S24x6.Slices ![3, 0] S1x6
  slices_S131072x24x9_S131072x1x9_0_4_0 : S131072x24x9.Slices ![0, 4, 0] S131072x1x9
  slices_S131072x24x3_S131072x1x3_0_4_0 : S131072x24x3.Slices ![0, 4, 0] S131072x1x3
  slices_S24x19x19_S1x19x19_4_0_0 : S24x19x19.Slices ![4, 0, 0] S1x19x19
  slices_S24x19_S1x19_4_0 : S24x19.Slices ![4, 0] S1x19
  slices_S24x6x19_S1x6x19_4_0_0 : S24x6x19.Slices ![4, 0, 0] S1x6x19
  slices_S24x6_S1x6_4_0 : S24x6.Slices ![4, 0] S1x6
  slices_S131072x24x9_S131072x1x9_0_5_0 : S131072x24x9.Slices ![0, 5, 0] S131072x1x9
  slices_S131072x24x3_S131072x1x3_0_5_0 : S131072x24x3.Slices ![0, 5, 0] S131072x1x3
  slices_S24x19x19_S1x19x19_5_0_0 : S24x19x19.Slices ![5, 0, 0] S1x19x19
  slices_S24x19_S1x19_5_0 : S24x19.Slices ![5, 0] S1x19
  slices_S24x6x19_S1x6x19_5_0_0 : S24x6x19.Slices ![5, 0, 0] S1x6x19
  slices_S24x6_S1x6_5_0 : S24x6.Slices ![5, 0] S1x6
  slices_S131072x24x9_S131072x1x9_0_6_0 : S131072x24x9.Slices ![0, 6, 0] S131072x1x9
  slices_S131072x24x3_S131072x1x3_0_6_0 : S131072x24x3.Slices ![0, 6, 0] S131072x1x3
  slices_S24x19x19_S1x19x19_6_0_0 : S24x19x19.Slices ![6, 0, 0] S1x19x19
  slices_S24x19_S1x19_6_0 : S24x19.Slices ![6, 0] S1x19
  slices_S24x6x19_S1x6x19_6_0_0 : S24x6x19.Slices ![6, 0, 0] S1x6x19
  slices_S24x6_S1x6_6_0 : S24x6.Slices ![6, 0] S1x6
  slices_S131072x24x9_S131072x1x9_0_7_0 : S131072x24x9.Slices ![0, 7, 0] S131072x1x9
  slices_S131072x24x3_S131072x1x3_0_7_0 : S131072x24x3.Slices ![0, 7, 0] S131072x1x3
  slices_S24x19x19_S1x19x19_7_0_0 : S24x19x19.Slices ![7, 0, 0] S1x19x19
  slices_S24x19_S1x19_7_0 : S24x19.Slices ![7, 0] S1x19
  slices_S24x6x19_S1x6x19_7_0_0 : S24x6x19.Slices ![7, 0, 0] S1x6x19
  slices_S24x6_S1x6_7_0 : S24x6.Slices ![7, 0] S1x6
  slices_S131072x24x9_S131072x1x9_0_8_0 : S131072x24x9.Slices ![0, 8, 0] S131072x1x9
  slices_S131072x24x3_S131072x1x3_0_8_0 : S131072x24x3.Slices ![0, 8, 0] S131072x1x3
  slices_S24x19x19_S1x19x19_8_0_0 : S24x19x19.Slices ![8, 0, 0] S1x19x19
  slices_S24x19_S1x19_8_0 : S24x19.Slices ![8, 0] S1x19
  slices_S24x6x19_S1x6x19_8_0_0 : S24x6x19.Slices ![8, 0, 0] S1x6x19
  slices_S24x6_S1x6_8_0 : S24x6.Slices ![8, 0] S1x6
  slices_S131072x24x9_S131072x1x9_0_9_0 : S131072x24x9.Slices ![0, 9, 0] S131072x1x9
  slices_S131072x24x3_S131072x1x3_0_9_0 : S131072x24x3.Slices ![0, 9, 0] S131072x1x3
  slices_S24x19x19_S1x19x19_9_0_0 : S24x19x19.Slices ![9, 0, 0] S1x19x19
  slices_S24x19_S1x19_9_0 : S24x19.Slices ![9, 0] S1x19
  slices_S24x6x19_S1x6x19_9_0_0 : S24x6x19.Slices ![9, 0, 0] S1x6x19
  slices_S24x6_S1x6_9_0 : S24x6.Slices ![9, 0] S1x6
  slices_S131072x24x9_S131072x1x9_0_10_0 : S131072x24x9.Slices ![0, 10, 0] S131072x1x9
  slices_S131072x24x3_S131072x1x3_0_10_0 : S131072x24x3.Slices ![0, 10, 0] S131072x1x3
  slices_S24x19x19_S1x19x19_10_0_0 : S24x19x19.Slices ![10, 0, 0] S1x19x19
  slices_S24x19_S1x19_10_0 : S24x19.Slices ![10, 0] S1x19
  slices_S24x6x19_S1x6x19_10_0_0 : S24x6x19.Slices ![10, 0, 0] S1x6x19
  slices_S24x6_S1x6_10_0 : S24x6.Slices ![10, 0] S1x6
  slices_S131072x24x9_S131072x1x9_0_11_0 : S131072x24x9.Slices ![0, 11, 0] S131072x1x9
  slices_S131072x24x3_S131072x1x3_0_11_0 : S131072x24x3.Slices ![0, 11, 0] S131072x1x3
  slices_S24x19x19_S1x19x19_11_0_0 : S24x19x19.Slices ![11, 0, 0] S1x19x19
  slices_S24x19_S1x19_11_0 : S24x19.Slices ![11, 0] S1x19
  slices_S24x6x19_S1x6x19_11_0_0 : S24x6x19.Slices ![11, 0, 0] S1x6x19
  slices_S24x6_S1x6_11_0 : S24x6.Slices ![11, 0] S1x6
  slices_S131072x24x9_S131072x1x9_0_12_0 : S131072x24x9.Slices ![0, 12, 0] S131072x1x9
  slices_S131072x24x3_S131072x1x3_0_12_0 : S131072x24x3.Slices ![0, 12, 0] S131072x1x3
  slices_S24x19x19_S1x19x19_12_0_0 : S24x19x19.Slices ![12, 0, 0] S1x19x19
  slices_S24x19_S1x19_12_0 : S24x19.Slices ![12, 0] S1x19
  slices_S24x6x19_S1x6x19_12_0_0 : S24x6x19.Slices ![12, 0, 0] S1x6x19
  slices_S24x6_S1x6_12_0 : S24x6.Slices ![12, 0] S1x6
  slices_S131072x24x9_S131072x1x9_0_13_0 : S131072x24x9.Slices ![0, 13, 0] S131072x1x9
  slices_S131072x24x3_S131072x1x3_0_13_0 : S131072x24x3.Slices ![0, 13, 0] S131072x1x3
  slices_S24x19x19_S1x19x19_13_0_0 : S24x19x19.Slices ![13, 0, 0] S1x19x19
  slices_S24x19_S1x19_13_0 : S24x19.Slices ![13, 0] S1x19
  slices_S24x6x19_S1x6x19_13_0_0 : S24x6x19.Slices ![13, 0, 0] S1x6x19
  slices_S24x6_S1x6_13_0 : S24x6.Slices ![13, 0] S1x6
  slices_S131072x24x9_S131072x1x9_0_14_0 : S131072x24x9.Slices ![0, 14, 0] S131072x1x9
  slices_S131072x24x3_S131072x1x3_0_14_0 : S131072x24x3.Slices ![0, 14, 0] S131072x1x3
  slices_S24x19x19_S1x19x19_14_0_0 : S24x19x19.Slices ![14, 0, 0] S1x19x19
  slices_S24x19_S1x19_14_0 : S24x19.Slices ![14, 0] S1x19
  slices_S24x6x19_S1x6x19_14_0_0 : S24x6x19.Slices ![14, 0, 0] S1x6x19
  slices_S24x6_S1x6_14_0 : S24x6.Slices ![14, 0] S1x6
  slices_S131072x24x9_S131072x1x9_0_15_0 : S131072x24x9.Slices ![0, 15, 0] S131072x1x9
  slices_S131072x24x3_S131072x1x3_0_15_0 : S131072x24x3.Slices ![0, 15, 0] S131072x1x3
  slices_S24x19x19_S1x19x19_15_0_0 : S24x19x19.Slices ![15, 0, 0] S1x19x19
  slices_S24x19_S1x19_15_0 : S24x19.Slices ![15, 0] S1x19
  slices_S24x6x19_S1x6x19_15_0_0 : S24x6x19.Slices ![15, 0, 0] S1x6x19
  slices_S24x6_S1x6_15_0 : S24x6.Slices ![15, 0] S1x6
  slices_S131072x24x9_S131072x1x9_0_16_0 : S131072x24x9.Slices ![0, 16, 0] S131072x1x9
  slices_S131072x24x3_S131072x1x3_0_16_0 : S131072x24x3.Slices ![0, 16, 0] S131072x1x3
  slices_S24x19x19_S1x19x19_16_0_0 : S24x19x19.Slices ![16, 0, 0] S1x19x19
  slices_S24x19_S1x19_16_0 : S24x19.Slices ![16, 0] S1x19
  slices_S24x6x19_S1x6x19_16_0_0 : S24x6x19.Slices ![16, 0, 0] S1x6x19
  slices_S24x6_S1x6_16_0 : S24x6.Slices ![16, 0] S1x6
  slices_S131072x24x9_S131072x1x9_0_17_0 : S131072x24x9.Slices ![0, 17, 0] S131072x1x9
  slices_S131072x24x3_S131072x1x3_0_17_0 : S131072x24x3.Slices ![0, 17, 0] S131072x1x3
  slices_S24x19x19_S1x19x19_17_0_0 : S24x19x19.Slices ![17, 0, 0] S1x19x19
  slices_S24x19_S1x19_17_0 : S24x19.Slices ![17, 0] S1x19
  slices_S24x6x19_S1x6x19_17_0_0 : S24x6x19.Slices ![17, 0, 0] S1x6x19
  slices_S24x6_S1x6_17_0 : S24x6.Slices ![17, 0] S1x6
  slices_S131072x24x9_S131072x1x9_0_18_0 : S131072x24x9.Slices ![0, 18, 0] S131072x1x9
  slices_S131072x24x3_S131072x1x3_0_18_0 : S131072x24x3.Slices ![0, 18, 0] S131072x1x3
  slices_S24x19x19_S1x19x19_18_0_0 : S24x19x19.Slices ![18, 0, 0] S1x19x19
  slices_S24x19_S1x19_18_0 : S24x19.Slices ![18, 0] S1x19
  slices_S24x6x19_S1x6x19_18_0_0 : S24x6x19.Slices ![18, 0, 0] S1x6x19
  slices_S24x6_S1x6_18_0 : S24x6.Slices ![18, 0] S1x6
  slices_S131072x24x9_S131072x1x9_0_19_0 : S131072x24x9.Slices ![0, 19, 0] S131072x1x9
  slices_S131072x24x3_S131072x1x3_0_19_0 : S131072x24x3.Slices ![0, 19, 0] S131072x1x3
  slices_S24x19x19_S1x19x19_19_0_0 : S24x19x19.Slices ![19, 0, 0] S1x19x19
  slices_S24x19_S1x19_19_0 : S24x19.Slices ![19, 0] S1x19
  slices_S24x6x19_S1x6x19_19_0_0 : S24x6x19.Slices ![19, 0, 0] S1x6x19
  slices_S24x6_S1x6_19_0 : S24x6.Slices ![19, 0] S1x6
  slices_S131072x24x9_S131072x1x9_0_20_0 : S131072x24x9.Slices ![0, 20, 0] S131072x1x9
  slices_S131072x24x3_S131072x1x3_0_20_0 : S131072x24x3.Slices ![0, 20, 0] S131072x1x3
  slices_S24x19x19_S1x19x19_20_0_0 : S24x19x19.Slices ![20, 0, 0] S1x19x19
  slices_S24x19_S1x19_20_0 : S24x19.Slices ![20, 0] S1x19
  slices_S24x6x19_S1x6x19_20_0_0 : S24x6x19.Slices ![20, 0, 0] S1x6x19
  slices_S24x6_S1x6_20_0 : S24x6.Slices ![20, 0] S1x6
  slices_S131072x24x9_S131072x1x9_0_21_0 : S131072x24x9.Slices ![0, 21, 0] S131072x1x9
  slices_S131072x24x3_S131072x1x3_0_21_0 : S131072x24x3.Slices ![0, 21, 0] S131072x1x3
  slices_S24x19x19_S1x19x19_21_0_0 : S24x19x19.Slices ![21, 0, 0] S1x19x19
  slices_S24x19_S1x19_21_0 : S24x19.Slices ![21, 0] S1x19
  slices_S24x6x19_S1x6x19_21_0_0 : S24x6x19.Slices ![21, 0, 0] S1x6x19
  slices_S24x6_S1x6_21_0 : S24x6.Slices ![21, 0] S1x6
  slices_S131072x24x9_S131072x1x9_0_22_0 : S131072x24x9.Slices ![0, 22, 0] S131072x1x9
  slices_S131072x24x3_S131072x1x3_0_22_0 : S131072x24x3.Slices ![0, 22, 0] S131072x1x3
  slices_S24x19x19_S1x19x19_22_0_0 : S24x19x19.Slices ![22, 0, 0] S1x19x19
  slices_S24x19_S1x19_22_0 : S24x19.Slices ![22, 0] S1x19
  slices_S24x6x19_S1x6x19_22_0_0 : S24x6x19.Slices ![22, 0, 0] S1x6x19
  slices_S24x6_S1x6_22_0 : S24x6.Slices ![22, 0] S1x6
  slices_S131072x24x9_S131072x1x9_0_23_0 : S131072x24x9.Slices ![0, 23, 0] S131072x1x9
  slices_S131072x24x3_S131072x1x3_0_23_0 : S131072x24x3.Slices ![0, 23, 0] S131072x1x3
  slices_S24x19x19_S1x19x19_23_0_0 : S24x19x19.Slices ![23, 0, 0] S1x19x19
  slices_S24x19_S1x19_23_0 : S24x19.Slices ![23, 0] S1x19
  slices_S24x6x19_S1x6x19_23_0_0 : S24x6x19.Slices ![23, 0, 0] S1x6x19
  slices_S24x6_S1x6_23_0 : S24x6.Slices ![23, 0] S1x6
  concatenates_S131072x6_S131072x6_S131072x6_S131072x6_S131072x6_S131072x6_S131072x6_S131072x6_S131072x6_S131072x6_S131072x6_S131072x6_S131072x6_S131072x6_S131072x6_S131072x6_S131072x96_d1 : Shape.Concatenates [S131072x6, S131072x6, S131072x6, S131072x6, S131072x6, S131072x6, S131072x6, S131072x6, S131072x6, S131072x6, S131072x6, S131072x6, S131072x6, S131072x6, S131072x6, S131072x6] S131072x96 1
  concatenates_S131072x6_S131072x6_S131072x6_S131072x6_S131072x6_S131072x6_S131072x6_S131072x6_S131072x48_d1 : Shape.Concatenates [S131072x6, S131072x6, S131072x6, S131072x6, S131072x6, S131072x6, S131072x6, S131072x6] S131072x48 1
  concatenates_S131072x96_S131072x48_S131072x144_d1 : Shape.Concatenates [S131072x96, S131072x48] S131072x144 1
  dot_S131072x288_S288x6_S131072x6_1_0_0_1_n_n_wf : DotDims.WF S131072x288 S288x6 S131072x6 [1] [0] [0] [1] [] []
  dot_S131072x19_S19x19_S131072x19_1_0_0_1_n_n_wf : DotDims.WF S131072x19 S19x19 S131072x19 [1] [0] [0] [1] [] []
  dot_S131072x19_S19x6_S131072x6_1_0_0_1_n_n_wf : DotDims.WF S131072x19 S19x6 S131072x6 [1] [0] [0] [1] [] []

variable [Facts₀]

def dot_S131072x288_S288x6_S131072x6_1_0_0_1_n_n : DotDims S131072x288 S288x6 S131072x6 where
  lhsContracting := [1]
  rhsContracting := [0]
  lhsNonContracting := [0]
  rhsNonContracting := [1]
  lhsBatch := []
  rhsBatch := []
  wf := dot_S131072x288_S288x6_S131072x6_1_0_0_1_n_n_wf
def dot_S131072x19_S19x19_S131072x19_1_0_0_1_n_n : DotDims S131072x19 S19x19 S131072x19 where
  lhsContracting := [1]
  rhsContracting := [0]
  lhsNonContracting := [0]
  rhsNonContracting := [1]
  lhsBatch := []
  rhsBatch := []
  wf := dot_S131072x19_S19x19_S131072x19_1_0_0_1_n_n_wf
def dot_S131072x19_S19x6_S131072x6_1_0_0_1_n_n : DotDims S131072x19 S19x6 S131072x6 where
  lhsContracting := [1]
  rhsContracting := [0]
  lhsNonContracting := [0]
  rhsNonContracting := [1]
  lhsBatch := []
  rhsBatch := []
  wf := dot_S131072x19_S19x6_S131072x6_1_0_0_1_n_n_wf

class Facts : Prop extends Facts₀ where

variable [Facts]
-- ==== Proof.JointRow.lean ====
/-
  One joint of the kinematic chain, for ONE batch row, on the extended reals.

  A joint takes the row's nine rotation entries, its three translation entries, a three-vector whose Euclidean
  length is the bone length (the joint's translation for the root, the difference from the parent's translation
  otherwise) and six features (the global features for the root, the parent's output otherwise).  It lays them side by
  side as nineteen inputs  [ rot | jtr | length | features ],  applies an affine map 19 → 19 followed by the clamp at
  zero, and then an affine map 19 → 6.  Every sum is the plain finite sum over the contracted index, so nothing here
  depends on the order of summation or on finiteness of the entries.
-/
import Idealize.ShloMosaic.PureOps.Ideal

noncomputable section

open scoped BigOperators

namespace Joint

open Idealize.ShloMosaic

/-- The value of the all-zero word. -/
abbrev zeroWord : EReal := Ideal.ofBits .f32 0x00000000#32

/-- `x · wᵀ + b`: entry `f` is `∑ g, x g · w f g + b f`. -/
def affine {n k : Nat} (x : Fin k → EReal) (w : Fin n → Fin k → EReal) (b : Fin n → EReal) (f : Fin n) : EReal :=
  (∑ g : Fin k, x g * w f g) + b f

/-- The nineteen inputs of a joint's first layer: nine rotation entries, three translation entries, the bone length,
    six features. -/
def inputs (rot : Fin 9 → EReal) (jtr : Fin 3 → EReal) (len : EReal) (ft : Fin 6 → EReal) (g : Fin 19) : EReal :=
  if h : g.val < 9 then rot ⟨g.val, h⟩
  else if h2 : g.val < 12 then jtr ⟨g.val - 9, by omega⟩
  else if g.val < 13 then len
  else ft ⟨g.val - 13, by omega⟩

/-- The Euclidean length of a three-vector: the square root of the sum of its squares. -/
def boneLen (d : Fin 3 → EReal) : EReal := Ideal.sqrt (∑ k : Fin 3, d k * d k)

/-- A joint's six outputs for one row. -/
def out (rot : Fin 9 → EReal) (jtr d : Fin 3 → EReal) (ft : Fin 6 → EReal)
    (w1 : Fin 19 → Fin 19 → EReal) (b1 : Fin 19 → EReal) (w2 : Fin 6 → Fin 19 → EReal) (b2 : Fin 6 → EReal) : Fin 6 → EReal :=
  affine (fun f => max (affine (inputs rot jtr (boneLen d) ft) w1 b1 f) zeroWord) w2 b2

end Joint

end
-- ==== Proof.LibConcat4.lean ====
/-
  Four blocks of widths 9, 3, 1 and 6 laid side by side along the lanes of an [a, 19] block, read at (p, g): lanes
  0‥8 are the first block, lanes 9‥11 the second, lane 12 the one column of the third, lanes 13‥18 the fourth.
  General in the number of rows and in the element type.
-/
import Idealize.ShloMosaic.Lib.Pipeline.Value
import Idealize.ShloMosaic.Lib.ValueIdx

noncomputable section

namespace LibConcat4

open Idealize.ShloMosaic Idealize.ShloMosaic.ValueIdx

variable {α : Type} {a : ℕ}

/-- Four blocks of widths 9, 3, 1, 6 side by side along the lanes, read at `(p, g)`. -/
theorem apply (x9 : (⟨2, ![a, 9]⟩ : Shape).Idx → α) (x3 : (⟨2, ![a, 3]⟩ : Shape).Idx → α)
    (x1 : (⟨2, ![a, 1]⟩ : Shape).Idx → α) (x6 : (⟨2, ![a, 6]⟩ : Shape).Idx → α)
    (h : Shape.Concatenates [(⟨2, ![a, 9]⟩ : Shape), ⟨2, ![a, 3]⟩, ⟨2, ![a, 1]⟩, ⟨2, ![a, 6]⟩] ⟨2, ![a, 19]⟩ 1)
    (p : Fin a) (g : Fin 19) :
    concatenate ⟨2, ![a, 19]⟩ 1 [⟨⟨2, ![a, 9]⟩, x9⟩, ⟨⟨2, ![a, 3]⟩, x3⟩, ⟨⟨2, ![a, 1]⟩, x1⟩, ⟨⟨2, ![a, 6]⟩, x6⟩] h (ix2 p g)
      = if h : g.val < 9 then x9 (ix2 p ⟨g.val, h⟩)
        else if h2 : g.val < 12 then x3 (ix2 p ⟨g.val - 9, by omega⟩)
        else if g.val < 13 then x1 (ix2 p (0 : Fin 1))
        else x6 (ix2 p ⟨g.val - 13, by omega⟩) := by
  have hg := g.isLt
  split
  · next h1 =>
    refine concatenate_apply_piece 1 [⟨⟨2, ![a, 9]⟩, x9⟩, ⟨⟨2, ![a, 3]⟩, x3⟩, ⟨⟨2, ![a, 1]⟩, x1⟩, ⟨⟨2, ![a, 6]⟩, x6⟩] h (ix2 p g) 0 (by show 0 < 4; omega) _ x9 rfl rfl 0 rfl (ix2 p ⟨g.val, h1⟩) (fun b hb => ?_) ?_
    · match b with
      | ⟨0, _⟩ => rfl
      | ⟨1, _⟩ => exact absurd rfl hb
    · show 0 + g.val = g.val; omega
  · next h1 =>
    split
    · next h2 =>
      refine concatenate_apply_piece 1 [⟨⟨2, ![a, 9]⟩, x9⟩, ⟨⟨2, ![a, 3]⟩, x3⟩, ⟨⟨2, ![a, 1]⟩, x1⟩, ⟨⟨2, ![a, 6]⟩, x6⟩] h (ix2 p g) 1 (by show 1 < 4; omega) _ x3 rfl rfl 9 rfl (ix2 p ⟨g.val - 9, by omega⟩) (fun b hb => ?_) ?_
      · match b with
        | ⟨0, _⟩ => rfl
        | ⟨1, _⟩ => exact absurd rfl hb
      · show 9 + (g.val - 9) = g.val; omega
    · next h2 =>
      split
      · next h3 =>
        refine concatenate_apply_piece 1 [⟨⟨2, ![a, 9]⟩, x9⟩, ⟨⟨2, ![a, 3]⟩, x3⟩, ⟨⟨2, ![a, 1]⟩, x1⟩, ⟨⟨2, ![a, 6]⟩, x6⟩] h (ix2 p g) 2 (by show 2 < 4; omega) _ x1 rfl rfl 12 rfl (ix2 p (0 : Fin 1)) (fun b hb => ?_) ?_
        · match b with
          | ⟨0, _⟩ => rfl
          | ⟨1, _⟩ => exact absurd rfl hb
        · show 12 + 0 = g.val; omega
      · next h3 =>
        refine concatenate_apply_piece 1 [⟨⟨2, ![a, 9]⟩, x9⟩, ⟨⟨2, ![a, 3]⟩, x3⟩, ⟨⟨2, ![a, 1]⟩, x1⟩, ⟨⟨2, ![a, 6]⟩, x6⟩] h (ix2 p g) 3 (by show 3 < 4; omega) _ x6 rfl rfl 13 rfl (ix2 p ⟨g.val - 13, by omega⟩) (fun b hb => ?_) ?_
        · match b with
          | ⟨0, _⟩ => rfl
          | ⟨1, _⟩ => exact absurd rfl hb
        · show 13 + (g.val - 13) = g.val; omega

end LibConcat4

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«118473_j66391604462155_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibHostRead.lean ====
/-
  Host reductions and a host product read at an index, on the extended reals. A host sum along the second axis of an
  [r, n] array, at row p: the initial value plus the sum over the n entries of row p. A host sum of a whole vector: the
  initial value plus the sum of its entries. A host dot_general of an [M, K] array with an [N, K] array, both contracted on
  their last axis, at (p, q): the sum over k of x[p, k] · w[q, k]. General in the extents.
-/
import Idealize.ShloMosaic.PureOps.Ideal.Laws
import Idealize.ShloMosaic.Lib.ValueIdx
import proofs.«118473_j66391604462155_2_alg».proof.Proof.LibMatmulNT
import proofs.«118473_j66391604462155_2_alg».proof.Proof.LibLaneReduce

noncomputable section

open scoped BigOperators

namespace LibHostRead

open Idealize.ShloMosaic Idealize.ShloMosaic.ValueIdx

/-- A host sum along the second axis, read at row p. -/
theorem hostRowSum_apply {r n : Nat} {u : Shape} (x : FVec Ideal ⟨2, ![r, n]⟩ .f32) (init : u.Idx → Ideal .f32)
    (h' : (⟨2, ![r, n]⟩ : Shape).ReducesTo [1] ⟨1, ![r]⟩) (hu : 0 < u.numel)
    (h : (⟨2, ![r, n]⟩ : Shape).Reduces [1] ⟨1, ![r]⟩) (p : Fin r) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h x _ (ix1 p)]
  exact congrArg (init (Shape.Idx.first hu) + ·) (Finset.sum_congr rfl fun k _ => congrArg x (LibLaneReduce.lift_lanes h p k))

/-- An index of a vector is its one coordinate. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) : ∑ i, f i = ∑ k : Fin n, f (ix1 k) :=
  (Equiv.sum_comp (idxEquiv1 (n := n)).symm f).symm

/-- A host sum of a whole vector. -/
theorem hostTotalSum_apply {n : Nat} {u : Shape} (x : FVec Ideal ⟨1, ![n]⟩ .f32) (init : u.Idx → Ideal .f32)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  rw [Ideal.hostReduceAdd_total h' (fun b => b.elim0) x _ j, sum_idx1]

/-- A host product of two arrays contracted on their last axes, read at (p, q). -/
theorem dotGeneralNT_apply {M K N : Nat} {φ₁ φ₂ : FTy} (prec : Option ContractPrecision)
    (x : FVec Ideal ⟨2, ![M, K]⟩ φ₁) (w : FVec Ideal ⟨2, ![N, K]⟩ φ₂) (p : Fin M) (q : Fin N) :
    Host.dotGeneral (DotDims.transposedRhs M K N) prec x w (ix2 p q) = ∑ k : Fin K, x (ix2 p k) * w (ix2 q k) := by
  show FloatOps.dotGeneral (DotDims.transposedRhs M K N) prec .single x w (ix2 p q) = _
  rw [Ideal.dotGeneral_apply, ← Equiv.sum_comp (contrEquiv1 (DotDims.transposedRhs M K N) K rfl rfl).symm]
  refine Finset.sum_congr rfl fun k _ => ?_
  rw [LibMatmulNT.lhsIdx_eq, LibMatmulNT.rhsIdx_eq]

end LibHostRead

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.LibVecLayout.lean ====
/-
  Vectors laid along an axis of a rank-two array, read at an index.  A vector of length n placed on axis 1 of a
  [1, n] array reads, at (u, k), its entry k; placed on axis 0 of an [a, 1] array it reads, at (p, u), its entry p; a
  scalar placed everywhere reads the scalar; and a column [a, 1] broadcast over the lanes of [a, b] reads, at (p, c),
  the column's entry of row p.  These are the layout steps of a bias row added to every row of a matrix and of a
  per-row statistic (a maximum, a sum) subtracted from every entry of its row.  General in the extents and the
  element type.
-/
import Idealize.ShloMosaic.Lib.Pipeline.Value
import Idealize.ShloMosaic.Lib.ValueIdx

namespace LibVecLayout

open Idealize.ShloMosaic Idealize.ShloMosaic.ValueIdx

variable {α : Type}

/-- A vector `[n]` placed on axis 1 of `[1, n]` reads, at `(u, k)`, its entry `k`. -/
theorem broadcastInDim_vec_row_apply {n : ℕ} (v : (⟨1, ![n]⟩ : Shape).Idx → α)
    (h : (⟨1, ![n]⟩ : Shape).BroadcastsInDim ⟨2, ![1, n]⟩ ![1]) (u : Fin 1) (k : Fin n) :
    broadcastInDim ⟨2, ![1, n]⟩ ![1] h v (ix2 u k) = v (ix1 k) := by
  refine broadcastInDim_apply _ h v (ix2 u k) (ix1 k) fun ax => ?_
  match ax with
  | ⟨0, _⟩ =>
    show k.val = if n = 1 then 0 else k.val
    split
    · have := k.isLt; omega
    · rfl

/-- A vector `[a]` placed on axis 0 of `[a, 1]` reads, at `(p, u)`, its entry `p`. -/
theorem broadcastInDim_vec_col_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar placed at every index of any shape reads the scalar. -/
theorem broadcastInDim_scalar_apply {t : Shape} (v : (⟨0, ![]⟩ : Shape).Idx → α)
    (h : (⟨0, ![]⟩ : Shape).BroadcastsInDim t ![]) (j : t.Idx) (z : (⟨0, ![]⟩ : Shape).Idx) :
    broadcastInDim t ![] h v j = v z := by
  unfold broadcastInDim
  exact congrArg v (funext fun a => a.elim0)

/-- A column `[a, 1]` broadcast over the lanes of `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibVecLayout
-- ==== Proof.RStage.lean ====
/-
  One joint of the chain as the reference computes it on the whole batch of 131072 rows, read entry by entry.

  The reference forms the same nineteen inputs  [rot | jtr | sqrt(0 + Σ dif²) | ft]  from whole-batch arrays, contracts
  them with W1ᵀ by a host dot_general, adds the bias spread along the rows, clamps at zero, contracts with W2ᵀ and
  adds the second bias.  Entry (r, q) is `Joint.out` of row r's data: the host's sum of squares starts from the zero
  word, whose value is the real zero, so it is the plain sum; each contraction is the plain sum over its index.
-/
import proofs.«118473_j66391604462155_2_alg».proof.Proof.Gen.ReferenceIdeal
import proofs.«118473_j66391604462155_2_alg».proof.Proof.JointRow
import proofs.«118473_j66391604462155_2_alg».proof.Proof.LibConcat4
import proofs.«118473_j66391604462155_2_alg».proof.Proof.LibDotGeneralNN
import proofs.«118473_j66391604462155_2_alg».proof.Proof.LibHostRead
import proofs.«118473_j66391604462155_2_alg».proof.Proof.LibBroadcastInDimPair
import proofs.«118473_j66391604462155_2_alg».proof.Proof.LibVecLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RStage

open Cert.ReferenceIdeal Cert.ReferenceIdeal.Gen Idealize.ShloMosaic Idealize.ShloMosaic.ValueIdx

variable {F : FTy → Type} [FloatOps F]

/-- The bone-length column of the batch: the square root of each row's sum of squares from the zero word. -/
def lenCol (dif : FVec F S131072x3 .f32) : FVec F S131072x1 .f32 :=
  Host.sqrt (broadcastInDim S131072x1 ![0] bcast_S131072_S131072x1_0
    (Host.reduceAdd (mulf dif dif) (constant S_ .f32 0x00000000#32) reducesTo_S131072x3_S131072_d1 h_S_))

/-- The first dense layer and its clamp at zero, W1 and b1 as the slices [1, 19, 19] and [1, 19] of the stacked weights. -/
def hidden (x : FVec F S131072x19 .f32) (W1 : FVec F S1x19x19 .f32) (B1 : FVec F S1x19 .f32) : FVec F S131072x19 .f32 :=
  maximumf (addf (Host.dotGeneral dot_S131072x19_S19x19_S131072x19_1_0_0_1_n_n none x
      (transpose S19x19 [1, 0] (shapeCast S19x19 W1 shapeCasts_S1x19x19_S19x19) transposes_S19x19_S19x19_1_0))
    (broadcastInDim S131072x19 ![0, 1] bcast_S1x19_S131072x19_0_1 (broadcastInDim S1x19 ![1] bcast_S19_S1x19_1 (shapeCast S19 B1 shapeCasts_S1x19_S19))))
    (broadcastInDim S131072x19 ![] bcast_S_S131072x19 (constant S_ .f32 0x00000000#32))

/-- The joint's six output columns on the batch. -/
def rstage (rot : FVec F S131072x9 .f32) (jtr dif : FVec F S131072x3 .f32) (ft : FVec F S131072x6 .f32)
    (W1 : FVec F S1x19x19 .f32) (B1 : FVec F S1x19 .f32) (W2 : FVec F S1x6x19 .f32) (B2 : FVec F S1x6 .f32) : FVec F S131072x6 .f32 :=
  addf (Host.dotGeneral dot_S131072x19_S19x6_S131072x6_1_0_0_1_n_n none
      (hidden (concatenate S131072x19 1 [⟨S131072x9, rot⟩, ⟨S131072x3, jtr⟩, ⟨S131072x1, lenCol dif⟩, ⟨S131072x6, ft⟩] concatenates_S131072x9_S131072x3_S131072x1_S131072x6_S131072x19_d1) W1 B1)
      (transpose S19x6 [1, 0] (shapeCast S6x19 W2 shapeCasts_S1x6x19_S6x19) transposes_S6x19_S19x6_1_0))
    (broadcastInDim S131072x6 ![0, 1] bcast_S1x6_S131072x6_0_1 (broadcastInDim S1x6 ![1] bcast_S6_S1x6_1 (shapeCast S6 B2 shapeCasts_S1x6_S6)))

/-! ## Read at an entry, on the extended reals -/

theorem lenCol_apply (dif : FVec Ideal S131072x3 .f32) (r : Fin 131072) :
    lenCol dif (ix2 r (0 : Fin 1)) = Joint.boneLen fun k => dif (ix2 r k) := by
  unfold lenCol Joint.boneLen
  show FloatOps.hostUnary .sqrt _ = _
  rw [Ideal.hostUnary_sqrt_def]
  refine congrArg Ideal.sqrt ?_
  rw [LibVecLayout.broadcastInDim_vec_col_apply,
    LibHostRead.hostRowSum_apply (mulf dif dif) _ reducesTo_S131072x3_S131072_d1 h_S_ (by decide) r]
  show Ideal.ofBits .f32 0x00000000#32 + _ = _
  rw [Ideal.ofBits_zero_f32, zero_add]
  rfl

theorem biasRow19_apply (B1 : FVec Ideal S1x19 .f32) (r : Fin 131072) (f : Fin 19) :
    broadcastInDim S131072x19 ![0, 1] bcast_S1x19_S131072x19_0_1 (broadcastInDim S1x19 ![1] bcast_S19_S1x19_1 (shapeCast S19 B1 shapeCasts_S1x19_S19)) (ix2 r f)
      = B1 (ix2 (0 : Fin 1) f) := by
  rw [broadcastInDim_row_apply, LibVecLayout.broadcastInDim_vec_row_apply, shapeCast_1a_a_apply]

theorem biasRow6_apply (B2 : FVec Ideal S1x6 .f32) (r : Fin 131072) (q : Fin 6) :
    broadcastInDim S131072x6 ![0, 1] bcast_S1x6_S131072x6_0_1 (broadcastInDim S1x6 ![1] bcast_S6_S1x6_1 (shapeCast S6 B2 shapeCasts_S1x6_S6)) (ix2 r q)
      = B2 (ix2 (0 : Fin 1) q) := by
  rw [broadcastInDim_row_apply, LibVecLayout.broadcastInDim_vec_row_apply, shapeCast_1a_a_apply]

theorem w1T_apply (W1 : FVec Ideal S1x19x19 .f32) (g f : Fin 19) :
    transpose S19x19 [1, 0] (shapeCast S19x19 W1 shapeCasts_S1x19x19_S19x19) transposes_S19x19_S19x19_1_0 (ix2 g f)
      = W1 (ix3 (0 : Fin 1) f g) := by
  rw [transpose_ix2_apply, shapeCast_1ab_ab_apply]

theorem w2T_apply (W2 : FVec Ideal S1x6x19 .f32) (f : Fin 19) (q : Fin 6) :
    transpose S19x6 [1, 0] (shapeCast S6x19 W2 shapeCasts_S1x6x19_S6x19) transposes_S6x19_S19x6_1_0 (ix2 f q)
      = W2 (ix3 (0 : Fin 1) q f) := by
  rw [transpose_ix2_apply, shapeCast_1ab_ab_apply]

theorem hidden_apply (x : FVec Ideal S131072x19 .f32) (W1 : FVec Ideal S1x19x19 .f32) (B1 : FVec Ideal S1x19 .f32) (r : Fin 131072) (f : Fin 19) :
    hidden x W1 B1 (ix2 r f)
      = max (Joint.affine (fun g => x (ix2 r g)) (fun f g => W1 (ix3 (0 : Fin 1) f g)) (fun f => B1 (ix2 (0 : Fin 1) f)) f) Joint.zeroWord := by
  unfold hidden Joint.affine
  rw [maximumf_apply, addf_apply, biasRow19_apply]
  refine congrArg₂ max (congrArg (· + _) ?_) ?_
  · refine (LibDotGeneralNN.dotGeneral_apply 131072 19 19 none .single x _ r f).trans ?_
    exact Finset.sum_congr rfl fun g _ => congrArg (x (ix2 r g) * ·) (w1T_apply W1 g f)
  · exact LibVecLayout.broadcastInDim_scalar_apply _ bcast_S_S131072x19 (ix2 r f) ix0

theorem rstage_apply (rot : FVec Ideal S131072x9 .f32) (jtr dif : FVec Ideal S131072x3 .f32) (ft : FVec Ideal S131072x6 .f32)
    (W1 : FVec Ideal S1x19x19 .f32) (B1 : FVec Ideal S1x19 .f32) (W2 : FVec Ideal S1x6x19 .f32) (B2 : FVec Ideal S1x6 .f32)
    (r : Fin 131072) (q : Fin 6) :
    rstage rot jtr dif ft W1 B1 W2 B2 (ix2 r q)
      = Joint.out (fun l => rot (ix2 r l)) (fun l => jtr (ix2 r l)) (fun l => dif (ix2 r l)) (fun l => ft (ix2 r l))
          (fun f g => W1 (ix3 (0 : Fin 1) f g)) (fun f => B1 (ix2 (0 : Fin 1) f))
          (fun d f => W2 (ix3 (0 : Fin 1) d f)) (fun d => B2 (ix2 (0 : Fin 1) d)) q := by
  unfold rstage Joint.out
  rw [addf_apply, biasRow6_apply]
  show _ = Joint.affine _ _ _ q
  unfold Joint.affine
  refine congrArg (· + _) ?_
  refine (LibDotGeneralNN.dotGeneral_apply 131072 19 6 none .single _ _ r q).trans ?_
  refine Finset.sum_congr rfl fun f _ => ?_
  rw [w2T_apply, hidden_apply]
  refine congrArg (fun z => max z Joint.zeroWord * _) ?_
  refine congrArg (fun x => Joint.affine x _ _ f) (funext fun g => ?_)
  rw [LibConcat4.apply, lenCol_apply]
  rfl

end Cert.ReferenceIdeal.RStage

end
-- ==== Proof.LibConcat2.lean ====
/-
  Two blocks of widths n₁ and n₂ laid side by side along the lanes of an [a, n₁ + n₂] block, read at (p, k): lanes
  below n₁ are the first block, the rest the second, n₁ lanes back.  General in the extents and the element type.
-/
import Idealize.ShloMosaic.Lib.Pipeline.Value
import Idealize.ShloMosaic.Lib.ValueIdx

noncomputable section

namespace LibConcat2

open Idealize.ShloMosaic Idealize.ShloMosaic.ValueIdx

variable {α : Type} {a n₁ n₂ b : ℕ}

/-- Two blocks side by side along the lanes, read at `(p, k)`: the first block below lane `n₁`, the second from there on. -/
theorem apply (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, b]⟩ 1) (hb : b = n₁ + n₂)
    (p : Fin a) (k : Fin b) :
    concatenate ⟨2, ![a, b]⟩ 1 [⟨⟨2, ![a, n₁]⟩, x₁⟩, ⟨⟨2, ![a, n₂]⟩, x₂⟩] h (ix2 p k)
      = if hk : k.val < n₁ then x₁ (ix2 p ⟨k.val, hk⟩) else x₂ (ix2 p ⟨k.val - n₁, by have := k.isLt; omega⟩) := by
  have hk' := k.isLt
  split
  · next h1 =>
    refine concatenate_apply_piece 1 [⟨⟨2, ![a, n₁]⟩, x₁⟩, ⟨⟨2, ![a, n₂]⟩, x₂⟩] h (ix2 p k) 0 (by show 0 < 2; omega) _ x₁ rfl rfl 0 rfl
      (ix2 p ⟨k.val, h1⟩) (fun c hc => ?_) ?_
    · match c with
      | ⟨0, _⟩ => rfl
      | ⟨1, _⟩ => exact absurd rfl hc
    · show 0 + k.val = k.val; omega
  · next h1 =>
    refine concatenate_apply_piece 1 [⟨⟨2, ![a, n₁]⟩, x₁⟩, ⟨⟨2, ![a, n₂]⟩, x₂⟩] h (ix2 p k) 1 (by show 1 < 2; omega) _ x₂ rfl rfl n₁ rfl
      (ix2 p ⟨k.val - n₁, by omega⟩) (fun c hc => ?_) ?_
    · match c with
      | ⟨0, _⟩ => rfl
      | ⟨1, _⟩ => exact absurd rfl hc
    · show n₁ + (k.val - n₁) = k.val; omega

end LibConcat2

end
-- ==== Proof.GlobalRow.lean ====
/-
  The six global features of ONE batch row, on the extended reals: the row's 216 rotation entries and 72 translation
  entries side by side, through an affine map 288 → 6.
-/
import proofs.«118473_j66391604462155_2_alg».proof.Proof.JointRow

noncomputable section

namespace Joint

/-- A row's 288 inputs of the global layer: 216 rotation entries, then 72 translation entries. -/
def inputs0 (rot : Fin 216 → EReal) (jtr : Fin 72 → EReal) (k : Fin 288) : EReal :=
  if h : k.val < 216 then rot ⟨k.val, h⟩ else jtr ⟨k.val - 216, by have := k.isLt; omega⟩

/-- The six global features of a row. -/
def gfeatRow (rot : Fin 216 → EReal) (jtr : Fin 72 → EReal) (w0 : Fin 6 → Fin 288 → EReal) (b0 : Fin 6 → EReal) : Fin 6 → EReal :=
  affine (inputs0 rot jtr) w0 b0

end Joint

end
-- ==== Proof.LibJointLayout.lean ====
/-
  Layout steps that pick one joint's data out of stacked arrays, read at an index.  General in the extents and the
  element type.

  * `sliceMid_apply`: of an [B, J, n] array take position o on the middle axis, [B, 1, n], and drop the unit axis:
    at (r, l) the array at (r, o, l).
  * `flatten_apply`: an [B, J, n] array viewed as [B, J·n] reads, at (r, j·n + l), the array at (r, j, l).
  * `sliceLead3_apply`, `sliceLead2_apply`: position o on the leading axis of an [J, a, b] or [J, b] stack, kept with a unit
    leading axis: at (0, f, g) or (0, f) the stack at (o, f, g) or (o, f).
  * `ldLead3_apply`, `ldLead2_apply`: the same two tiles read through a unit-stride rectangle of a buffer.
  * `ld_whole`: a buffer read through the whole-shape rectangle at zero offsets, then viewed in its own shape, is the buffer.
-/
import Idealize.ShloMosaic.Lib.Pipeline.Value
import Idealize.ShloMosaic.Lib.Pipeline.FrameBody
import Idealize.ShloMosaic.Lib.ValueIdx
import Idealize.ShloMosaic.Lib.ValueLayout

noncomputable section

namespace LibJointLayout

open Idealize.ShloMosaic Idealize.ShloMosaic.ValueIdx

variable {α : Type} {Val : EltTy → Type} {e : EltTy}

theorem sliceMid_apply {B J n : ℕ} (o : ℕ) (ho : o < J) (X : (⟨3, ![B, J, n]⟩ : Shape).Idx → α)
    (hs : (⟨3, ![B, J, n]⟩ : Shape).Slices ![0, o, 0] ⟨3, ![B, 1, n]⟩)
    (hc : (⟨3, ![B, 1, n]⟩ : Shape).ShapeCasts ⟨2, ![B, n]⟩) (r : Fin B) (l : Fin n) :
    shapeCast ⟨2, ![B, n]⟩ (extractStridedSlice ⟨3, ![B, 1, n]⟩ ![0, o, 0] X hs) hc (ix2 r l) = X (ix3 r (⟨o, ho⟩ : Fin J) l) := by
  rw [shapeCast_apply _ hc (ix2 r l) (ix3 r (0 : Fin 1) l) (by
    rw [Shape.rowMajor_val_three, Shape.rowMajor_val_two]
    show (r.val * 1 + 0) * n + l.val = r.val * n + l.val
    rw [Nat.mul_one, Nat.add_zero])]
  exact slice3_axis1_apply o X hs r (0 : Fin 1) l ⟨o, ho⟩ rfl

theorem flatten_apply {B J n N : ℕ} (X : (⟨3, ![B, J, n]⟩ : Shape).Idx → α)
    (hc : (⟨3, ![B, J, n]⟩ : Shape).ShapeCasts ⟨2, ![B, N]⟩) (r : Fin B) (j : Fin J) (l : Fin n) (k : Fin N)
    (hk : k.val = j.val * n + l.val) (hN : N = J * n) :
    shapeCast ⟨2, ![B, N]⟩ X hc (ix2 r k) = X (ix3 r j l) :=
  shapeCast_apply X hc (ix2 r k) (ix3 r j l) (by
    rw [Shape.rowMajor_val_three, Shape.rowMajor_val_two]
    show (r.val * J + j.val) * n + l.val = r.val * N + k.val
    rw [hk, hN, Nat.add_mul, Nat.mul_assoc, Nat.add_assoc])

theorem sliceLead3_apply {J a b : ℕ} (o : ℕ) (ho : o < J) (X : (⟨3, ![J, a, b]⟩ : Shape).Idx → α)
    (hs : (⟨3, ![J, a, b]⟩ : Shape).Slices ![o, 0, 0] ⟨3, ![1, a, b]⟩) (f : Fin a) (g : Fin b) :
    extractStridedSlice ⟨3, ![1, a, b]⟩ ![o, 0, 0] X hs (ix3 (0 : Fin 1) f g) = X (ix3 (⟨o, ho⟩ : Fin J) f g) :=
  extractStridedSlice_apply _ X hs _ _ fun ax => by
    match ax with
    | ⟨0, _⟩ => rfl
    | ⟨1, _⟩ => exact (Nat.zero_add _).symm
    | ⟨2, _⟩ => exact (Nat.zero_add _).symm

theorem sliceLead2_apply {J b : ℕ} (o : ℕ) (ho : o < J) (X : (⟨2, ![J, b]⟩ : Shape).Idx → α)
    (hs : (⟨2, ![J, b]⟩ : Shape).Slices ![o, 0] ⟨2, ![1, b]⟩) (f : Fin b) :
    extractStridedSlice ⟨2, ![1, b]⟩ ![o, 0] X hs (ix2 (0 : Fin 1) f) = X (ix2 (⟨o, ho⟩ : Fin J) f) :=
  extractStridedSlice_apply _ X hs _ _ fun ax => by
    match ax with
    | ⟨0, _⟩ => rfl
    | ⟨1, _⟩ => exact (Nat.zero_add _).symm

theorem ldLead3_apply {J a b : ℕ} (o : ℕ) (ho : o < J) (X : (⟨3, ![J, a, b]⟩ : Shape).Idx → Val e)
    (inb : ∀ c, (![o, 0, 0] : Fin 3 → ℕ) c + (⟨3, ![1, a, b]⟩ : Shape).size c ≤ (⟨3, ![J, a, b]⟩ : Shape).size c) (f : Fin a) (g : Fin b) :
    View.ld X (Rect.unit (s := ⟨3, ![J, a, b]⟩) ![o, 0, 0] (⟨3, ![1, a, b]⟩ : Shape).size inb) (ix3 (0 : Fin 1) f g)
      = X (ix3 (⟨o, ho⟩ : Fin J) f g) := by
  show X _ = X _
  refine congrArg X (funext fun c => Fin.ext ?_)
  match c with
  | ⟨0, _⟩ => show o + 1 * 0 = o; omega
  | ⟨1, _⟩ => show 0 + 1 * f.val = f.val; omega
  | ⟨2, _⟩ => show 0 + 1 * g.val = g.val; omega

theorem ldLead2_apply {J b : ℕ} (o : ℕ) (ho : o < J) (X : (⟨2, ![J, b]⟩ : Shape).Idx → Val e)
    (inb : ∀ c, (![o, 0] : Fin 2 → ℕ) c + (⟨2, ![1, b]⟩ : Shape).size c ≤ (⟨2, ![J, b]⟩ : Shape).size c) (f : Fin b) :
    View.ld X (Rect.unit (s := ⟨2, ![J, b]⟩) ![o, 0] (⟨2, ![1, b]⟩ : Shape).size inb) (ix2 (0 : Fin 1) f)
      = X (ix2 (⟨o, ho⟩ : Fin J) f) := by
  show X _ = X _
  refine congrArg X (funext fun c => Fin.ext ?_)
  match c with
  | ⟨0, _⟩ => show o + 1 * 0 = o; omega
  | ⟨1, _⟩ => show 0 + 1 * f.val = f.val; omega

theorem ld_whole {S : Shape} {off : Fin S.rank → ℕ} (h : off = fun _ => 0) (inb : ∀ c, off c + S.size c ≤ S.size c)
    (X : S.Idx → Val e) (hc : S.ShapeCasts S) : shapeCast S (View.ld X (Rect.unit off S.size inb)) hc = X :=
  (congrArg (fun v : S.Idx → Val e => shapeCast S v hc) (View.ld_unit_zero h inb X)).trans (shapeCast_self X hc)

end LibJointLayout

end
-- ==== Proof.RRead.lean ====
/-
  The reference on the whole batch, read row by row on the extended reals.

  For a batch row r, the reference takes joint j's nine rotation entries and three translation entries by slicing
  position j of the middle axis of the [131072, 24, 9] and [131072, 24, 3] arrays and dropping that axis, and joint j's
  weights by slicing position j of the leading axis of the stacked weight arrays.  So joint j's six outputs at row r are
  `Joint.out` of the same row data the kernel reads for that row.  The global features flatten the two arrays to
  [131072, 216] and [131072, 72] — entry (r, 9j + l) is the array at (r, j, l) — and contract them, side by side, with W0.
-/
import proofs.«118473_j66391604462155_2_alg».proof.Proof.RStage
import proofs.«118473_j66391604462155_2_alg».proof.Proof.LibConcat2
import proofs.«118473_j66391604462155_2_alg».proof.Proof.GlobalRow
import proofs.«118473_j66391604462155_2_alg».proof.Proof.LibJointLayout
import proofs.«118473_j66391604462155_2_alg».proof.Proof.LibDotGeneralNN
import proofs.«118473_j66391604462155_2_alg».proof.Proof.LibBroadcastInDimPair
import proofs.«118473_j66391604462155_2_alg».proof.Proof.LibVecLayout
import Idealize.ShloMosaic.Lib.ValueLayout

noncomputable section

open scoped BigOperators

namespace Cert.ReferenceIdeal.RRead

open Cert.ReferenceIdeal Cert.ReferenceIdeal.Gen Cert.ReferenceIdeal.RStage Idealize.ShloMosaic Idealize.ShloMosaic.ValueIdx

variable {F : FTy → Type} [FloatOps F]

/-- The reference's global features on the batch: the two arrays flattened, side by side, times W0ᵀ, plus the bias. -/
def gfeat (a0 : FVec F S131072x24x9 .f32) (a1 : FVec F S131072x24x3 .f32) (a2 : FVec F S6x288 .f32) (a3 : FVec F S6 .f32) : FVec F S131072x6 .f32 :=
  addf (Host.dotGeneral dot_S131072x288_S288x6_S131072x6_1_0_0_1_n_n none
      (concatenate S131072x288 1 [⟨S131072x216, shapeCast S131072x216 a0 shapeCasts_S131072x24x9_S131072x216⟩,
        ⟨S131072x72, shapeCast S131072x72 a1 shapeCasts_S131072x24x3_S131072x72⟩] concatenates_S131072x216_S131072x72_S131072x288_d1)
      (transpose S288x6 [1, 0] a2 transposes_S6x288_S288x6_1_0))
    (broadcastInDim S131072x6 ![0, 1] bcast_S1x6_S131072x6_0_1 (broadcastInDim S1x6 ![1] bcast_S6_S1x6_1 a3))

/-- The flattened rotations at row r, as 216 entries: entry 9j + l is the array at (r, j, l). -/
def rotRow (a0 : FVec Ideal S131072x24x9 .f32) (r : Fin 131072) (k : Fin 216) : EReal :=
  a0 (ix3 r (⟨k.val / 9, by have := k.isLt; omega⟩ : Fin 24) (⟨k.val % 9, by omega⟩ : Fin 9))

/-- The flattened translations at row r, as 72 entries: entry 3j + l is the array at (r, j, l). -/
def jtrRow (a1 : FVec Ideal S131072x24x3 .f32) (r : Fin 131072) (k : Fin 72) : EReal :=
  a1 (ix3 r (⟨k.val / 3, by have := k.isLt; omega⟩ : Fin 24) (⟨k.val % 3, by omega⟩ : Fin 3))

theorem gfeat_apply (a0 : FVec Ideal S131072x24x9 .f32) (a1 : FVec Ideal S131072x24x3 .f32) (a2 : FVec Ideal S6x288 .f32) (a3 : FVec Ideal S6 .f32)
    (r : Fin 131072) (q : Fin 6) :
    gfeat a0 a1 a2 a3 (ix2 r q) = Joint.gfeatRow (rotRow a0 r) (jtrRow a1 r) (fun d k => a2 (ix2 d k)) (fun d => a3 (ix1 d)) q := by
  unfold gfeat Joint.gfeatRow Joint.affine
  rw [addf_apply]
  refine congrArg₂ (· + ·) ?_ ?_
  · refine (LibDotGeneralNN.dotGeneral_apply 131072 288 6 none .single _ _ r q).trans ?_
    refine Finset.sum_congr rfl fun k _ => ?_
    rw [transpose_ix2_apply]
    refine congrArg (· * _) ?_
    refine (LibConcat2.apply (shapeCast S131072x216 a0 shapeCasts_S131072x24x9_S131072x216) (shapeCast S131072x72 a1 shapeCasts_S131072x24x3_S131072x72)
      concatenates_S131072x216_S131072x72_S131072x288_d1 rfl r k).trans ?_
    unfold Joint.inputs0
    have hk := k.isLt
    by_cases h1 : k.val < 216
    · rw [dif_pos h1, dif_pos h1]
      exact LibJointLayout.flatten_apply a0 _ r _ _ ⟨k.val, h1⟩ (by show k.val = k.val / 9 * 9 + k.val % 9; omega) rfl
    · rw [dif_neg h1, dif_neg h1]
      exact LibJointLayout.flatten_apply a1 _ r _ _ ⟨k.val - 216, by omega⟩
        (by show k.val - 216 = (k.val - 216) / 3 * 3 + (k.val - 216) % 3; omega) rfl
  · rw [broadcastInDim_row_apply, LibVecLayout.broadcastInDim_vec_row_apply]

/-- A joint's outputs at a batch row from the row's data, whatever the pieces are called. -/
theorem rstage_rows (rot : FVec Ideal S131072x9 .f32) (jtr dif : FVec Ideal S131072x3 .f32) (ft : FVec Ideal S131072x6 .f32)
    (W1 : FVec Ideal S1x19x19 .f32) (B1 : FVec Ideal S1x19 .f32) (W2 : FVec Ideal S1x6x19 .f32) (B2 : FVec Ideal S1x6 .f32)
    (r : Fin 131072) (q : Fin 6)
    {r9 : Fin 9 → EReal} {r3 d3 : Fin 3 → EReal} {f6 : Fin 6 → EReal}
    {w1 : Fin 19 → Fin 19 → EReal} {b1 : Fin 19 → EReal} {w2 : Fin 6 → Fin 19 → EReal} {b2 : Fin 6 → EReal}
    (h1 : ∀ l, rot (ix2 r l) = r9 l) (h2 : ∀ l, jtr (ix2 r l) = r3 l) (h3 : ∀ l, dif (ix2 r l) = d3 l) (h4 : ∀ l, ft (ix2 r l) = f6 l)
    (h5 : ∀ f g, W1 (ix3 (0 : Fin 1) f g) = w1 f g) (h6 : ∀ f, B1 (ix2 (0 : Fin 1) f) = b1 f)
    (h7 : ∀ d f, W2 (ix3 (0 : Fin 1) d f) = w2 d f) (h8 : ∀ d, B2 (ix2 (0 : Fin 1) d) = b2 d) :
    rstage rot jtr dif ft W1 B1 W2 B2 (ix2 r q) = Joint.out r9 r3 d3 f6 w1 b1 w2 b2 q := by
  rw [rstage_apply, funext h1, funext h2, funext h3, funext h4, funext fun f => funext (h5 f), funext h6,
    funext fun d => funext (h7 d), funext h8]

section joints

variable (a0 : FVec Ideal S131072x24x9 .f32) (a1 : FVec Ideal S131072x24x3 .f32) (a2 : FVec Ideal S6x288 .f32) (a3 : FVec Ideal S6 .f32) (a4 : FVec Ideal S24x19x19 .f32) (a5 : FVec Ideal S24x19 .f32) (a6 : FVec Ideal S24x6x19 .f32) (a7 : FVec Ideal S24x6 .f32) (r : Fin 131072) (j : Fin 24)
  (hs9 : S131072x24x9.Slices ![0, j.val, 0] S131072x1x9) (hc9 : S131072x1x9.ShapeCasts S131072x9)
  (hs3 : S131072x24x3.Slices ![0, j.val, 0] S131072x1x3) (hc3 : S131072x1x3.ShapeCasts S131072x3)
  (h4 : S24x19x19.Slices ![j.val, 0, 0] S1x19x19) (h5 : S24x19.Slices ![j.val, 0] S1x19)
  (h6 : S24x6x19.Slices ![j.val, 0, 0] S1x6x19) (h7 : S24x6.Slices ![j.val, 0] S1x6)
  (ft : FVec Ideal S131072x6 .f32) (q : Fin 6)

/-- A non-root joint at batch row r. -/
theorem rjoint_apply (par : Fin 24) (hsp3 : S131072x24x3.Slices ![0, par.val, 0] S131072x1x3) :
    rstage (shapeCast S131072x9 (extractStridedSlice S131072x1x9 ![0, j.val, 0] a0 hs9) hc9)
      (shapeCast S131072x3 (extractStridedSlice S131072x1x3 ![0, j.val, 0] a1 hs3) hc3)
      (subf (shapeCast S131072x3 (extractStridedSlice S131072x1x3 ![0, j.val, 0] a1 hs3) hc3)
        (shapeCast S131072x3 (extractStridedSlice S131072x1x3 ![0, par.val, 0] a1 hsp3) hc3)) ft
      (extractStridedSlice S1x19x19 ![j.val, 0, 0] a4 h4) (extractStridedSlice S1x19 ![j.val, 0] a5 h5)
      (extractStridedSlice S1x6x19 ![j.val, 0, 0] a6 h6) (extractStridedSlice S1x6 ![j.val, 0] a7 h7) (ix2 r q)
    = Joint.out (fun l => a0 (ix3 r j l)) (fun l => a1 (ix3 r j l)) (fun l => a1 (ix3 r j l) - a1 (ix3 r par l)) (fun l => ft (ix2 r l))
        (fun f g => a4 (ix3 j f g)) (fun f => a5 (ix2 j f)) (fun d f => a6 (ix3 j d f)) (fun d => a7 (ix2 j d)) q := by
  refine rstage_rows _ _ _ _ _ _ _ _ r q
    (fun l => LibJointLayout.sliceMid_apply j.val j.isLt a0 hs9 hc9 r l)
    (fun l => LibJointLayout.sliceMid_apply j.val j.isLt a1 hs3 hc3 r l)
    (fun l => ?_) (fun _ => rfl)
    (fun f g => LibJointLayout.sliceLead3_apply j.val j.isLt a4 h4 f g) (fun f => LibJointLayout.sliceLead2_apply j.val j.isLt a5 h5 f)
    (fun d f => LibJointLayout.sliceLead3_apply j.val j.isLt a6 h6 d f) (fun d => LibJointLayout.sliceLead2_apply j.val j.isLt a7 h7 d)
  rw [subf_apply, LibJointLayout.sliceMid_apply j.val j.isLt a1 hs3 hc3 r l, LibJointLayout.sliceMid_apply par.val par.isLt a1 hsp3 hc3 r l]

/-- The root joint at batch row r. -/
theorem rroot_apply :
    rstage (shapeCast S131072x9 (extractStridedSlice S131072x1x9 ![0, j.val, 0] a0 hs9) hc9)
      (shapeCast S131072x3 (extractStridedSlice S131072x1x3 ![0, j.val, 0] a1 hs3) hc3)
      (shapeCast S131072x3 (extractStridedSlice S131072x1x3 ![0, j.val, 0] a1 hs3) hc3) ft
      (extractStridedSlice S1x19x19 ![j.val, 0, 0] a4 h4) (extractStridedSlice S1x19 ![j.val, 0] a5 h5)
      (extractStridedSlice S1x6x19 ![j.val, 0, 0] a6 h6) (extractStridedSlice S1x6 ![j.val, 0] a7 h7) (ix2 r q)
    = Joint.out (fun l => a0 (ix3 r j l)) (fun l => a1 (ix3 r j l)) (fun l => a1 (ix3 r j l)) (fun l => ft (ix2 r l))
        (fun f g => a4 (ix3 j f g)) (fun f => a5 (ix2 j f)) (fun d f => a6 (ix3 j d f)) (fun d => a7 (ix2 j d)) q :=
  rstage_rows _ _ _ _ _ _ _ _ r q
    (fun l => LibJointLayout.sliceMid_apply j.val j.isLt a0 hs9 hc9 r l)
    (fun l => LibJointLayout.sliceMid_apply j.val j.isLt a1 hs3 hc3 r l)
    (fun l => LibJointLayout.sliceMid_apply j.val j.isLt a1 hs3 hc3 r l) (fun _ => rfl)
    (fun f g => LibJointLayout.sliceLead3_apply j.val j.isLt a4 h4 f g) (fun f => LibJointLayout.sliceLead2_apply j.val j.isLt a5 h5 f)
    (fun d f => LibJointLayout.sliceLead3_apply j.val j.isLt a6 h6 d f) (fun d => LibJointLayout.sliceLead2_apply j.val j.isLt a7 h7 d)

end joints

end Cert.ReferenceIdeal.RRead

end
-- ==== Proof.RTree.lean ====
/-
  The reference on the whole batch, joint by joint.

  The reference forms the six global features of every row and then walks the kinematic tree in index order: joint j
  takes position j of the joint axis of the rotation and translation arrays, the difference of its translations from its
  parent's (the root: its own), the parent's six output columns (the root: the global features) and position j of the
  four stacked weight arrays, and produces six output columns (`RStage.rstage`).  The result lays the 24 outputs side by
  side, the first sixteen and the last eight each joined first.  The definitions below name these values as functions
  of the eight argument arrays.
-/
import proofs.«118473_j66391604462155_2_alg».proof.Proof.RRead

noncomputable section

namespace Cert.ReferenceIdeal.RTree

open Cert.ReferenceIdeal Cert.ReferenceIdeal.Gen Cert.ReferenceIdeal.RStage Idealize.ShloMosaic Idealize.ShloMosaic.ValueIdx

variable {F : FTy → Type} [FloatOps F]

/-- Joint 0's six output columns on the batch (the root: fed by the global features). -/
def rout0 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 0, 0] a0 slices_S131072x24x9_S131072x1x9_0_0_0) shapeCasts_S131072x1x9_S131072x9) (shapeCast S131072x3 (extractStridedSlice S131072x1x3 ![0, 0, 0] a1 slices_S131072x24x3_S131072x1x3_0_0_0) shapeCasts_S131072x1x3_S131072x3) (shapeCast S131072x3 (extractStridedSlice S131072x1x3 ![0, 0, 0] a1 slices_S131072x24x3_S131072x1x3_0_0_0) shapeCasts_S131072x1x3_S131072x3) (RRead.gfeat a0 a1 a2 a3)
    (extractStridedSlice S1x19x19 ![0, 0, 0] a4 slices_S24x19x19_S1x19x19_0_0_0) (extractStridedSlice S1x19 ![0, 0] a5 slices_S24x19_S1x19_0_0)
    (extractStridedSlice S1x6x19 ![0, 0, 0] a6 slices_S24x6x19_S1x6x19_0_0_0) (extractStridedSlice S1x6 ![0, 0] a7 slices_S24x6_S1x6_0_0)

/-- Joint 1's six output columns on the batch (fed by joint 0's). -/
def rout1 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 1, 0] a0 slices_S131072x24x9_S131072x1x9_0_1_0) shapeCasts_S131072x1x9_S131072x9) (shapeCast S131072x3 (extractStridedSlice S131072x1x3 ![0, 1, 0] a1 slices_S131072x24x3_S131072x1x3_0_1_0) shapeCasts_S131072x1x3_S131072x3) (subf (shapeCast S131072x3 (extractStridedSlice S131072x1x3 ![0, 1, 0] a1 slices_S131072x24x3_S131072x1x3_0_1_0) shapeCasts_S131072x1x3_S131072x3) (shapeCast S131072x3 (extractStridedSlice S131072x1x3 ![0, 0, 0] a1 slices_S131072x24x3_S131072x1x3_0_0_0) shapeCasts_S131072x1x3_S131072x3)) (rout0 a0 a1 a2 a3 a4 a5 a6 a7)
    (extractStridedSlice S1x19x19 ![1, 0, 0] a4 slices_S24x19x19_S1x19x19_1_0_0) (extractStridedSlice S1x19 ![1, 0] a5 slices_S24x19_S1x19_1_0)
    (extractStridedSlice S1x6x19 ![1, 0, 0] a6 slices_S24x6x19_S1x6x19_1_0_0) (extractStridedSlice S1x6 ![1, 0] a7 slices_S24x6_S1x6_1_0)

/-- Joint 2's six output columns on the batch (fed by joint 0's). -/
def rout2 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 2, 0] a0 slices_S131072x24x9_S131072x1x9_0_2_0) shapeCasts_S131072x1x9_S131072x9) (shapeCast S131072x3 (extractStridedSlice S131072x1x3 ![0, 2, 0] a1 slices_S131072x24x3_S131072x1x3_0_2_0) shapeCasts_S131072x1x3_S131072x3) (subf (shapeCast S131072x3 (extractStridedSlice S131072x1x3 ![0, 2, 0] a1 slices_S131072x24x3_S131072x1x3_0_2_0) shapeCasts_S131072x1x3_S131072x3) (shapeCast S131072x3 (extractStridedSlice S131072x1x3 ![0, 0, 0] a1 slices_S131072x24x3_S131072x1x3_0_0_0) shapeCasts_S131072x1x3_S131072x3)) (rout0 a0 a1 a2 a3 a4 a5 a6 a7)
    (extractStridedSlice S1x19x19 ![2, 0, 0] a4 slices_S24x19x19_S1x19x19_2_0_0) (extractStridedSlice S1x19 ![2, 0] a5 slices_S24x19_S1x19_2_0)
    (extractStridedSlice S1x6x19 ![2, 0, 0] a6 slices_S24x6x19_S1x6x19_2_0_0) (extractStridedSlice S1x6 ![2, 0] a7 slices_S24x6_S1x6_2_0)

/-- Joint 3's six output columns on the batch (fed by joint 0's). -/
def rout3 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 3, 0] a0 slices_S131072x24x9_S131072x1x9_0_3_0) shapeCasts_S131072x1x9_S131072x9) (shapeCast S131072x3 (extractStridedSlice S131072x1x3 ![0, 3, 0] a1 slices_S131072x24x3_S131072x1x3_0_3_0) shapeCasts_S131072x1x3_S131072x3) (subf (shapeCast S131072x3 (extractStridedSlice S131072x1x3 ![0, 3, 0] a1 slices_S131072x24x3_S131072x1x3_0_3_0) shapeCasts_S131072x1x3_S131072x3) (shapeCast S131072x3 (extractStridedSlice S131072x1x3 ![0, 0, 0] a1 slices_S131072x24x3_S131072x1x3_0_0_0) shapeCasts_S131072x1x3_S131072x3)) (rout0 a0 a1 a2 a3 a4 a5 a6 a7)
    (extractStridedSlice S1x19x19 ![3, 0, 0] a4 slices_S24x19x19_S1x19x19_3_0_0) (extractStridedSlice S1x19 ![3, 0] a5 slices_S24x19_S1x19_3_0)
    (extractStridedSlice S1x6x19 ![3, 0, 0] a6 slices_S24x6x19_S1x6x19_3_0_0) (extractStridedSlice S1x6 ![3, 0] a7 slices_S24x6_S1x6_3_0)

/-- Joint 4's six output columns on the batch (fed by joint 1's). -/
def rout4 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 4, 0] a0 slices_S131072x24x9_S131072x1x9_0_4_0) shapeCasts_S131072x1x9_S131072x9) (shapeCast S131072x3 (extractStridedSlice S131072x1x3 ![0, 4, 0] a1 slices_S131072x24x3_S131072x1x3_0_4_0) shapeCasts_S131072x1x3_S131072x3) (subf (shapeCast S131072x3 (extractStridedSlice S131072x1x3 ![0, 4, 0] a1 slices_S131072x24x3_S131072x1x3_0_4_0) shapeCasts_S131072x1x3_S131072x3) (shapeCast S131072x3 (extractStridedSlice S131072x1x3 ![0, 1, 0] a1 slices_S131072x24x3_S131072x1x3_0_1_0) shapeCasts_S131072x1x3_S131072x3)) (rout1 a0 a1 a2 a3 a4 a5 a6 a7)
    (extractStridedSlice S1x19x19 ![4, 0, 0] a4 slices_S24x19x19_S1x19x19_4_0_0) (extractStridedSlice S1x19 ![4, 0] a5 slices_S24x19_S1x19_4_0)
    (extractStridedSlice S1x6x19 ![4, 0, 0] a6 slices_S24x6x19_S1x6x19_4_0_0) (extractStridedSlice S1x6 ![4, 0] a7 slices_S24x6_S1x6_4_0)

/-- Joint 5's six output columns on the batch (fed by joint 2's). -/
def rout5 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 5, 0] a0 slices_S131072x24x9_S131072x1x9_0_5_0) shapeCasts_S131072x1x9_S131072x9) (shapeCast S131072x3 (extractStridedSlice S131072x1x3 ![0, 5, 0] a1 slices_S131072x24x3_S131072x1x3_0_5_0) shapeCasts_S131072x1x3_S131072x3) (subf (shapeCast S131072x3 (extractStridedSlice S131072x1x3 ![0, 5, 0] a1 slices_S131072x24x3_S131072x1x3_0_5_0) shapeCasts_S131072x1x3_S131072x3) (shapeCast S131072x3 (extractStridedSlice S131072x1x3 ![0, 2, 0] a1 slices_S131072x24x3_S131072x1x3_0_2_0) shapeCasts_S131072x1x3_S131072x3)) (rout2 a0 a1 a2 a3 a4 a5 a6 a7)
    (extractStridedSlice S1x19x19 ![5, 0, 0] a4 slices_S24x19x19_S1x19x19_5_0_0) (extractStridedSlice S1x19 ![5, 0] a5 slices_S24x19_S1x19_5_0)
    (extractStridedSlice S1x6x19 ![5, 0, 0] a6 slices_S24x6x19_S1x6x19_5_0_0) (extractStridedSlice S1x6 ![5, 0] a7 slices_S24x6_S1x6_5_0)

/-- Joint 6's six output columns on the batch (fed by joint 3's). -/
def rout6 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 6, 0] a0 slices_S131072x24x9_S131072x1x9_0_6_0) shapeCasts_S131072x1x9_S131072x9) (shapeCast S131072x3 (extractStridedSlice S131072x1x3 ![0, 6, 0] a1 slices_S131072x24x3_S131072x1x3_0_6_0) shapeCasts_S131072x1x3_S131072x3) (subf (shapeCast S131072x3 (extractStridedSlice S131072x1x3 ![0, 6, 0] a1 slices_S131072x24x3_S131072x1x3_0_6_0) shapeCasts_S131072x1x3_S131072x3) (shapeCast S131072x3 (extractStridedSlice S131072x1x3 ![0, 3, 0] a1 slices_S131072x24x3_S131072x1x3_0_3_0) shapeCasts_S131072x1x3_S131072x3)) (rout3 a0 a1 a2 a3 a4 a5 a6 a7)
    (extractStridedSlice S1x19x19 ![6, 0, 0] a4 slices_S24x19x19_S1x19x19_6_0_0) (extractStridedSlice S1x19 ![6, 0] a5 slices_S24x19_S1x19_6_0)
    (extractStridedSlice S1x6x19 ![6, 0, 0] a6 slices_S24x6x19_S1x6x19_6_0_0) (extractStridedSlice S1x6 ![6, 0] a7 slices_S24x6_S1x6_6_0)

/-- Joint 7's six output columns on the batch (fed by joint 4's). -/
def rout7 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 7, 0] a0 slices_S131072x24x9_S131072x1x9_0_7_0) shapeCasts_S131072x1x9_S131072x9) (shapeCast S131072x3 (extractStridedSlice S131072x1x3 ![0, 7, 0] a1 slices_S131072x24x3_S131072x1x3_0_7_0) shapeCasts_S131072x1x3_S131072x3) (subf (shapeCast S131072x3 (extractStridedSlice S131072x1x3 ![0, 7, 0] a1 slices_S131072x24x3_S131072x1x3_0_7_0) shapeCasts_S131072x1x3_S131072x3) (shapeCast S131072x3 (extractStridedSlice S131072x1x3 ![0, 4, 0] a1 slices_S131072x24x3_S131072x1x3_0_4_0) shapeCasts_S131072x1x3_S131072x3)) (rout4 a0 a1 a2 a3 a4 a5 a6 a7)
    (extractStridedSlice S1x19x19 ![7, 0, 0] a4 slices_S24x19x19_S1x19x19_7_0_0) (extractStridedSlice S1x19 ![7, 0] a5 slices_S24x19_S1x19_7_0)
    (extractStridedSlice S1x6x19 ![7, 0, 0] a6 slices_S24x6x19_S1x6x19_7_0_0) (extractStridedSlice S1x6 ![7, 0] a7 slices_S24x6_S1x6_7_0)

/-- Joint 8's six output columns on the batch (fed by joint 5's). -/
def rout8 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 8, 0] a0 slices_S131072x24x9_S131072x1x9_0_8_0) shapeCasts_S131072x1x9_S131072x9) (shapeCast S131072x3 (extractStridedSlice S131072x1x3 ![0, 8, 0] a1 slices_S131072x24x3_S131072x1x3_0_8_0) shapeCasts_S131072x1x3_S131072x3) (subf (shapeCast S131072x3 (extractStridedSlice S131072x1x3 ![0, 8, 0] a1 slices_S131072x24x3_S131072x1x3_0_8_0) shapeCasts_S131072x1x3_S131072x3) (shapeCast S131072x3 (extractStridedSlice S131072x1x3 ![0, 5, 0] a1 slices_S131072x24x3_S131072x1x3_0_5_0) shapeCasts_S131072x1x3_S131072x3)) (rout5 a0 a1 a2 a3 a4 a5 a6 a7)
    (extractStridedSlice S1x19x19 ![8, 0, 0] a4 slices_S24x19x19_S1x19x19_8_0_0) (extractStridedSlice S1x19 ![8, 0] a5 slices_S24x19_S1x19_8_0)
    (extractStridedSlice S1x6x19 ![8, 0, 0] a6 slices_S24x6x19_S1x6x19_8_0_0) (extractStridedSlice S1x6 ![8, 0] a7 slices_S24x6_S1x6_8_0)

/-- Joint 9's six output columns on the batch (fed by joint 6's). -/
def rout9 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 9, 0] a0 slices_S131072x24x9_S131072x1x9_0_9_0) shapeCasts_S131072x1x9_S131072x9) (shapeCast S131072x3 (extractStridedSlice S131072x1x3 ![0, 9, 0] a1 slices_S131072x24x3_S131072x1x3_0_9_0) shapeCasts_S131072x1x3_S131072x3) (subf (shapeCast S131072x3 (extractStridedSlice S131072x1x3 ![0, 9, 0] a1 slices_S131072x24x3_S131072x1x3_0_9_0) shapeCasts_S131072x1x3_S131072x3) (shapeCast S131072x3 (extractStridedSlice S131072x1x3 ![0, 6, 0] a1 slices_S131072x24x3_S131072x1x3_0_6_0) shapeCasts_S131072x1x3_S131072x3)) (rout6 a0 a1 a2 a3 a4 a5 a6 a7)
    (extractStridedSlice S1x19x19 ![9, 0, 0] a4 slices_S24x19x19_S1x19x19_9_0_0) (extractStridedSlice S1x19 ![9, 0] a5 slices_S24x19_S1x19_9_0)
    (extractStridedSlice S1x6x19 ![9, 0, 0] a6 slices_S24x6x19_S1x6x19_9_0_0) (extractStridedSlice S1x6 ![9, 0] a7 slices_S24x6_S1x6_9_0)

/-- Joint 10's six output columns on the batch (fed by joint 7's). -/
def rout10 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 10, 0] a0 slices_S131072x24x9_S131072x1x9_0_10_0) shapeCasts_S131072x1x9_S131072x9) (shapeCast S131072x3 (extractStridedSlice S131072x1x3 ![0, 10, 0] a1 slices_S131072x24x3_S131072x1x3_0_10_0) shapeCasts_S131072x1x3_S131072x3) (subf (shapeCast S131072x3 (extractStridedSlice S131072x1x3 ![0, 10, 0] a1 slices_S131072x24x3_S131072x1x3_0_10_0) shapeCasts_S131072x1x3_S131072x3) (shapeCast S131072x3 (extractStridedSlice S131072x1x3 ![0, 7, 0] a1 slices_S131072x24x3_S131072x1x3_0_7_0) shapeCasts_S131072x1x3_S131072x3)) (rout7 a0 a1 a2 a3 a4 a5 a6 a7)
    (extractStridedSlice S1x19x19 ![10, 0, 0] a4 slices_S24x19x19_S1x19x19_10_0_0) (extractStridedSlice S1x19 ![10, 0] a5 slices_S24x19_S1x19_10_0)
    (extractStridedSlice S1x6x19 ![10, 0, 0] a6 slices_S24x6x19_S1x6x19_10_0_0) (extractStridedSlice S1x6 ![10, 0] a7 slices_S24x6_S1x6_10_0)

/-- Joint 11's six output columns on the batch (fed by joint 8's). -/
def rout11 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 11, 0] a0 slices_S131072x24x9_S131072x1x9_0_11_0) shapeCasts_S131072x1x9_S131072x9) (shapeCast S131072x3 (extractStridedSlice S131072x1x3 ![0, 11, 0] a1 slices_S131072x24x3_S131072x1x3_0_11_0) shapeCasts_S131072x1x3_S131072x3) (subf (shapeCast S131072x3 (extractStridedSlice S131072x1x3 ![0, 11, 0] a1 slices_S131072x24x3_S131072x1x3_0_11_0) shapeCasts_S131072x1x3_S131072x3) (shapeCast S131072x3 (extractStridedSlice S131072x1x3 ![0, 8, 0] a1 slices_S131072x24x3_S131072x1x3_0_8_0) shapeCasts_S131072x1x3_S131072x3)) (rout8 a0 a1 a2 a3 a4 a5 a6 a7)
    (extractStridedSlice S1x19x19 ![11, 0, 0] a4 slices_S24x19x19_S1x19x19_11_0_0) (extractStridedSlice S1x19 ![11, 0] a5 slices_S24x19_S1x19_11_0)
    (extractStridedSlice S1x6x19 ![11, 0, 0] a6 slices_S24x6x19_S1x6x19_11_0_0) (extractStridedSlice S1x6 ![11, 0] a7 slices_S24x6_S1x6_11_0)

/-- Joint 12's six output columns on the batch (fed by joint 9's). -/
def rout12 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 12, 0] a0 slices_S131072x24x9_S131072x1x9_0_12_0) shapeCasts_S131072x1x9_S131072x9) (shapeCast S131072x3 (extractStridedSlice S131072x1x3 ![0, 12, 0] a1 slices_S131072x24x3_S131072x1x3_0_12_0) shapeCasts_S131072x1x3_S131072x3) (subf (shapeCast S131072x3 (extractStridedSlice S131072x1x3 ![0, 12, 0] a1 slices_S131072x24x3_S131072x1x3_0_12_0) shapeCasts_S131072x1x3_S131072x3) (shapeCast S131072x3 (extractStridedSlice S131072x1x3 ![0, 9, 0] a1 slices_S131072x24x3_S131072x1x3_0_9_0) shapeCasts_S131072x1x3_S131072x3)) (rout9 a0 a1 a2 a3 a4 a5 a6 a7)
    (extractStridedSlice S1x19x19 ![12, 0, 0] a4 slices_S24x19x19_S1x19x19_12_0_0) (extractStridedSlice S1x19 ![12, 0] a5 slices_S24x19_S1x19_12_0)
    (extractStridedSlice S1x6x19 ![12, 0, 0] a6 slices_S24x6x19_S1x6x19_12_0_0) (extractStridedSlice S1x6 ![12, 0] a7 slices_S24x6_S1x6_12_0)

/-- Joint 13's six output columns on the batch (fed by joint 9's). -/
def rout13 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 13, 0] a0 slices_S131072x24x9_S131072x1x9_0_13_0) shapeCasts_S131072x1x9_S131072x9) (shapeCast S131072x3 (extractStridedSlice S131072x1x3 ![0, 13, 0] a1 slices_S131072x24x3_S131072x1x3_0_13_0) shapeCasts_S131072x1x3_S131072x3) (subf (shapeCast S131072x3 (extractStridedSlice S131072x1x3 ![0, 13, 0] a1 slices_S131072x24x3_S131072x1x3_0_13_0) shapeCasts_S131072x1x3_S131072x3) (shapeCast S131072x3 (extractStridedSlice S131072x1x3 ![0, 9, 0] a1 slices_S131072x24x3_S131072x1x3_0_9_0) shapeCasts_S131072x1x3_S131072x3)) (rout9 a0 a1 a2 a3 a4 a5 a6 a7)
    (extractStridedSlice S1x19x19 ![13, 0, 0] a4 slices_S24x19x19_S1x19x19_13_0_0) (extractStridedSlice S1x19 ![13, 0] a5 slices_S24x19_S1x19_13_0)
    (extractStridedSlice S1x6x19 ![13, 0, 0] a6 slices_S24x6x19_S1x6x19_13_0_0) (extractStridedSlice S1x6 ![13, 0] a7 slices_S24x6_S1x6_13_0)

/-- Joint 14's six output columns on the batch (fed by joint 9's). -/
def rout14 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 14, 0] a0 slices_S131072x24x9_S131072x1x9_0_14_0) shapeCasts_S131072x1x9_S131072x9) (shapeCast S131072x3 (extractStridedSlice S131072x1x3 ![0, 14, 0] a1 slices_S131072x24x3_S131072x1x3_0_14_0) shapeCasts_S131072x1x3_S131072x3) (subf (shapeCast S131072x3 (extractStridedSlice S131072x1x3 ![0, 14, 0] a1 slices_S131072x24x3_S131072x1x3_0_14_0) shapeCasts_S131072x1x3_S131072x3) (shapeCast S131072x3 (extractStridedSlice S131072x1x3 ![0, 9, 0] a1 slices_S131072x24x3_S131072x1x3_0_9_0) shapeCasts_S131072x1x3_S131072x3)) (rout9 a0 a1 a2 a3 a4 a5 a6 a7)
    (extractStridedSlice S1x19x19 ![14, 0, 0] a4 slices_S24x19x19_S1x19x19_14_0_0) (extractStridedSlice S1x19 ![14, 0] a5 slices_S24x19_S1x19_14_0)
    (extractStridedSlice S1x6x19 ![14, 0, 0] a6 slices_S24x6x19_S1x6x19_14_0_0) (extractStridedSlice S1x6 ![14, 0] a7 slices_S24x6_S1x6_14_0)

/-- Joint 15's six output columns on the batch (fed by joint 12's). -/
def rout15 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 15, 0] a0 slices_S131072x24x9_S131072x1x9_0_15_0) shapeCasts_S131072x1x9_S131072x9) (shapeCast S131072x3 (extractStridedSlice S131072x1x3 ![0, 15, 0] a1 slices_S131072x24x3_S131072x1x3_0_15_0) shapeCasts_S131072x1x3_S131072x3) (subf (shapeCast S131072x3 (extractStridedSlice S131072x1x3 ![0, 15, 0] a1 slices_S131072x24x3_S131072x1x3_0_15_0) shapeCasts_S131072x1x3_S131072x3) (shapeCast S131072x3 (extractStridedSlice S131072x1x3 ![0, 12, 0] a1 slices_S131072x24x3_S131072x1x3_0_12_0) shapeCasts_S131072x1x3_S131072x3)) (rout12 a0 a1 a2 a3 a4 a5 a6 a7)
    (extractStridedSlice S1x19x19 ![15, 0, 0] a4 slices_S24x19x19_S1x19x19_15_0_0) (extractStridedSlice S1x19 ![15, 0] a5 slices_S24x19_S1x19_15_0)
    (extractStridedSlice S1x6x19 ![15, 0, 0] a6 slices_S24x6x19_S1x6x19_15_0_0) (extractStridedSlice S1x6 ![15, 0] a7 slices_S24x6_S1x6_15_0)

/-- Joint 16's six output columns on the batch (fed by joint 13's). -/
def rout16 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 16, 0] a0 slices_S131072x24x9_S131072x1x9_0_16_0) shapeCasts_S131072x1x9_S131072x9) (shapeCast S131072x3 (extractStridedSlice S131072x1x3 ![0, 16, 0] a1 slices_S131072x24x3_S131072x1x3_0_16_0) shapeCasts_S131072x1x3_S131072x3) (subf (shapeCast S131072x3 (extractStridedSlice S131072x1x3 ![0, 16, 0] a1 slices_S131072x24x3_S131072x1x3_0_16_0) shapeCasts_S131072x1x3_S131072x3) (shapeCast S131072x3 (extractStridedSlice S131072x1x3 ![0, 13, 0] a1 slices_S131072x24x3_S131072x1x3_0_13_0) shapeCasts_S131072x1x3_S131072x3)) (rout13 a0 a1 a2 a3 a4 a5 a6 a7)
    (extractStridedSlice S1x19x19 ![16, 0, 0] a4 slices_S24x19x19_S1x19x19_16_0_0) (extractStridedSlice S1x19 ![16, 0] a5 slices_S24x19_S1x19_16_0)
    (extractStridedSlice S1x6x19 ![16, 0, 0] a6 slices_S24x6x19_S1x6x19_16_0_0) (extractStridedSlice S1x6 ![16, 0] a7 slices_S24x6_S1x6_16_0)

/-- Joint 17's six output columns on the batch (fed by joint 14's). -/
def rout17 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 17, 0] a0 slices_S131072x24x9_S131072x1x9_0_17_0) shapeCasts_S131072x1x9_S131072x9) (shapeCast S131072x3 (extractStridedSlice S131072x1x3 ![0, 17, 0] a1 slices_S131072x24x3_S131072x1x3_0_17_0) shapeCasts_S131072x1x3_S131072x3) (subf (shapeCast S131072x3 (extractStridedSlice S131072x1x3 ![0, 17, 0] a1 slices_S131072x24x3_S131072x1x3_0_17_0) shapeCasts_S131072x1x3_S131072x3) (shapeCast S131072x3 (extractStridedSlice S131072x1x3 ![0, 14, 0] a1 slices_S131072x24x3_S131072x1x3_0_14_0) shapeCasts_S131072x1x3_S131072x3)) (rout14 a0 a1 a2 a3 a4 a5 a6 a7)
    (extractStridedSlice S1x19x19 ![17, 0, 0] a4 slices_S24x19x19_S1x19x19_17_0_0) (extractStridedSlice S1x19 ![17, 0] a5 slices_S24x19_S1x19_17_0)
    (extractStridedSlice S1x6x19 ![17, 0, 0] a6 slices_S24x6x19_S1x6x19_17_0_0) (extractStridedSlice S1x6 ![17, 0] a7 slices_S24x6_S1x6_17_0)

/-- Joint 18's six output columns on the batch (fed by joint 16's). -/
def rout18 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 18, 0] a0 slices_S131072x24x9_S131072x1x9_0_18_0) shapeCasts_S131072x1x9_S131072x9) (shapeCast S131072x3 (extractStridedSlice S131072x1x3 ![0, 18, 0] a1 slices_S131072x24x3_S131072x1x3_0_18_0) shapeCasts_S131072x1x3_S131072x3) (subf (shapeCast S131072x3 (extractStridedSlice S131072x1x3 ![0, 18, 0] a1 slices_S131072x24x3_S131072x1x3_0_18_0) shapeCasts_S131072x1x3_S131072x3) (shapeCast S131072x3 (extractStridedSlice S131072x1x3 ![0, 16, 0] a1 slices_S131072x24x3_S131072x1x3_0_16_0) shapeCasts_S131072x1x3_S131072x3)) (rout16 a0 a1 a2 a3 a4 a5 a6 a7)
    (extractStridedSlice S1x19x19 ![18, 0, 0] a4 slices_S24x19x19_S1x19x19_18_0_0) (extractStridedSlice S1x19 ![18, 0] a5 slices_S24x19_S1x19_18_0)
    (extractStridedSlice S1x6x19 ![18, 0, 0] a6 slices_S24x6x19_S1x6x19_18_0_0) (extractStridedSlice S1x6 ![18, 0] a7 slices_S24x6_S1x6_18_0)

/-- Joint 19's six output columns on the batch (fed by joint 17's). -/
def rout19 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 19, 0] a0 slices_S131072x24x9_S131072x1x9_0_19_0) shapeCasts_S131072x1x9_S131072x9) (shapeCast S131072x3 (extractStridedSlice S131072x1x3 ![0, 19, 0] a1 slices_S131072x24x3_S131072x1x3_0_19_0) shapeCasts_S131072x1x3_S131072x3) (subf (shapeCast S131072x3 (extractStridedSlice S131072x1x3 ![0, 19, 0] a1 slices_S131072x24x3_S131072x1x3_0_19_0) shapeCasts_S131072x1x3_S131072x3) (shapeCast S131072x3 (extractStridedSlice S131072x1x3 ![0, 17, 0] a1 slices_S131072x24x3_S131072x1x3_0_17_0) shapeCasts_S131072x1x3_S131072x3)) (rout17 a0 a1 a2 a3 a4 a5 a6 a7)
    (extractStridedSlice S1x19x19 ![19, 0, 0] a4 slices_S24x19x19_S1x19x19_19_0_0) (extractStridedSlice S1x19 ![19, 0] a5 slices_S24x19_S1x19_19_0)
    (extractStridedSlice S1x6x19 ![19, 0, 0] a6 slices_S24x6x19_S1x6x19_19_0_0) (extractStridedSlice S1x6 ![19, 0] a7 slices_S24x6_S1x6_19_0)

/-- Joint 20's six output columns on the batch (fed by joint 18's). -/
def rout20 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 20, 0] a0 slices_S131072x24x9_S131072x1x9_0_20_0) shapeCasts_S131072x1x9_S131072x9) (shapeCast S131072x3 (extractStridedSlice S131072x1x3 ![0, 20, 0] a1 slices_S131072x24x3_S131072x1x3_0_20_0) shapeCasts_S131072x1x3_S131072x3) (subf (shapeCast S131072x3 (extractStridedSlice S131072x1x3 ![0, 20, 0] a1 slices_S131072x24x3_S131072x1x3_0_20_0) shapeCasts_S131072x1x3_S131072x3) (shapeCast S131072x3 (extractStridedSlice S131072x1x3 ![0, 18, 0] a1 slices_S131072x24x3_S131072x1x3_0_18_0) shapeCasts_S131072x1x3_S131072x3)) (rout18 a0 a1 a2 a3 a4 a5 a6 a7)
    (extractStridedSlice S1x19x19 ![20, 0, 0] a4 slices_S24x19x19_S1x19x19_20_0_0) (extractStridedSlice S1x19 ![20, 0] a5 slices_S24x19_S1x19_20_0)
    (extractStridedSlice S1x6x19 ![20, 0, 0] a6 slices_S24x6x19_S1x6x19_20_0_0) (extractStridedSlice S1x6 ![20, 0] a7 slices_S24x6_S1x6_20_0)

/-- Joint 21's six output columns on the batch (fed by joint 19's). -/
def rout21 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 21, 0] a0 slices_S131072x24x9_S131072x1x9_0_21_0) shapeCasts_S131072x1x9_S131072x9) (shapeCast S131072x3 (extractStridedSlice S131072x1x3 ![0, 21, 0] a1 slices_S131072x24x3_S131072x1x3_0_21_0) shapeCasts_S131072x1x3_S131072x3) (subf (shapeCast S131072x3 (extractStridedSlice S131072x1x3 ![0, 21, 0] a1 slices_S131072x24x3_S131072x1x3_0_21_0) shapeCasts_S131072x1x3_S131072x3) (shapeCast S131072x3 (extractStridedSlice S131072x1x3 ![0, 19, 0] a1 slices_S131072x24x3_S131072x1x3_0_19_0) shapeCasts_S131072x1x3_S131072x3)) (rout19 a0 a1 a2 a3 a4 a5 a6 a7)
    (extractStridedSlice S1x19x19 ![21, 0, 0] a4 slices_S24x19x19_S1x19x19_21_0_0) (extractStridedSlice S1x19 ![21, 0] a5 slices_S24x19_S1x19_21_0)
    (extractStridedSlice S1x6x19 ![21, 0, 0] a6 slices_S24x6x19_S1x6x19_21_0_0) (extractStridedSlice S1x6 ![21, 0] a7 slices_S24x6_S1x6_21_0)

/-- Joint 22's six output columns on the batch (fed by joint 20's). -/
def rout22 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 22, 0] a0 slices_S131072x24x9_S131072x1x9_0_22_0) shapeCasts_S131072x1x9_S131072x9) (shapeCast S131072x3 (extractStridedSlice S131072x1x3 ![0, 22, 0] a1 slices_S131072x24x3_S131072x1x3_0_22_0) shapeCasts_S131072x1x3_S131072x3) (subf (shapeCast S131072x3 (extractStridedSlice S131072x1x3 ![0, 22, 0] a1 slices_S131072x24x3_S131072x1x3_0_22_0) shapeCasts_S131072x1x3_S131072x3) (shapeCast S131072x3 (extractStridedSlice S131072x1x3 ![0, 20, 0] a1 slices_S131072x24x3_S131072x1x3_0_20_0) shapeCasts_S131072x1x3_S131072x3)) (rout20 a0 a1 a2 a3 a4 a5 a6 a7)
    (extractStridedSlice S1x19x19 ![22, 0, 0] a4 slices_S24x19x19_S1x19x19_22_0_0) (extractStridedSlice S1x19 ![22, 0] a5 slices_S24x19_S1x19_22_0)
    (extractStridedSlice S1x6x19 ![22, 0, 0] a6 slices_S24x6x19_S1x6x19_22_0_0) (extractStridedSlice S1x6 ![22, 0] a7 slices_S24x6_S1x6_22_0)

/-- Joint 23's six output columns on the batch (fed by joint 21's). -/
def rout23 (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x6 .f32 :=
  rstage (shapeCast S131072x9 (extractStridedSlice S131072x1x9 ![0, 23, 0] a0 slices_S131072x24x9_S131072x1x9_0_23_0) shapeCasts_S131072x1x9_S131072x9) (shapeCast S131072x3 (extractStridedSlice S131072x1x3 ![0, 23, 0] a1 slices_S131072x24x3_S131072x1x3_0_23_0) shapeCasts_S131072x1x3_S131072x3) (subf (shapeCast S131072x3 (extractStridedSlice S131072x1x3 ![0, 23, 0] a1 slices_S131072x24x3_S131072x1x3_0_23_0) shapeCasts_S131072x1x3_S131072x3) (shapeCast S131072x3 (extractStridedSlice S131072x1x3 ![0, 21, 0] a1 slices_S131072x24x3_S131072x1x3_0_21_0) shapeCasts_S131072x1x3_S131072x3)) (rout21 a0 a1 a2 a3 a4 a5 a6 a7)
    (extractStridedSlice S1x19x19 ![23, 0, 0] a4 slices_S24x19x19_S1x19x19_23_0_0) (extractStridedSlice S1x19 ![23, 0] a5 slices_S24x19_S1x19_23_0)
    (extractStridedSlice S1x6x19 ![23, 0, 0] a6 slices_S24x6x19_S1x6x19_23_0_0) (extractStridedSlice S1x6 ![23, 0] a7 slices_S24x6_S1x6_23_0)

/-- The first sixteen outputs side by side. -/
def groupA (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x96 .f32 :=
  concatenate S131072x96 1 [⟨S131072x6, rout0 a0 a1 a2 a3 a4 a5 a6 a7⟩, ⟨S131072x6, rout1 a0 a1 a2 a3 a4 a5 a6 a7⟩, ⟨S131072x6, rout2 a0 a1 a2 a3 a4 a5 a6 a7⟩, ⟨S131072x6, rout3 a0 a1 a2 a3 a4 a5 a6 a7⟩, ⟨S131072x6, rout4 a0 a1 a2 a3 a4 a5 a6 a7⟩, ⟨S131072x6, rout5 a0 a1 a2 a3 a4 a5 a6 a7⟩, ⟨S131072x6, rout6 a0 a1 a2 a3 a4 a5 a6 a7⟩, ⟨S131072x6, rout7 a0 a1 a2 a3 a4 a5 a6 a7⟩, ⟨S131072x6, rout8 a0 a1 a2 a3 a4 a5 a6 a7⟩, ⟨S131072x6, rout9 a0 a1 a2 a3 a4 a5 a6 a7⟩, ⟨S131072x6, rout10 a0 a1 a2 a3 a4 a5 a6 a7⟩, ⟨S131072x6, rout11 a0 a1 a2 a3 a4 a5 a6 a7⟩, ⟨S131072x6, rout12 a0 a1 a2 a3 a4 a5 a6 a7⟩, ⟨S131072x6, rout13 a0 a1 a2 a3 a4 a5 a6 a7⟩, ⟨S131072x6, rout14 a0 a1 a2 a3 a4 a5 a6 a7⟩, ⟨S131072x6, rout15 a0 a1 a2 a3 a4 a5 a6 a7⟩] concatenates_S131072x6_S131072x6_S131072x6_S131072x6_S131072x6_S131072x6_S131072x6_S131072x6_S131072x6_S131072x6_S131072x6_S131072x6_S131072x6_S131072x6_S131072x6_S131072x6_S131072x96_d1

/-- The last eight outputs side by side. -/
def groupB (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x48 .f32 :=
  concatenate S131072x48 1 [⟨S131072x6, rout16 a0 a1 a2 a3 a4 a5 a6 a7⟩, ⟨S131072x6, rout17 a0 a1 a2 a3 a4 a5 a6 a7⟩, ⟨S131072x6, rout18 a0 a1 a2 a3 a4 a5 a6 a7⟩, ⟨S131072x6, rout19 a0 a1 a2 a3 a4 a5 a6 a7⟩, ⟨S131072x6, rout20 a0 a1 a2 a3 a4 a5 a6 a7⟩, ⟨S131072x6, rout21 a0 a1 a2 a3 a4 a5 a6 a7⟩, ⟨S131072x6, rout22 a0 a1 a2 a3 a4 a5 a6 a7⟩, ⟨S131072x6, rout23 a0 a1 a2 a3 a4 a5 a6 a7⟩] concatenates_S131072x6_S131072x6_S131072x6_S131072x6_S131072x6_S131072x6_S131072x6_S131072x6_S131072x48_d1

/-- The reference's result: the 24 outputs side by side. -/
def result (a0 : FVec F S131072x24x9 .f32) (a1 : FVec F S131072x24x3 .f32) (a2 : FVec F S6x288 .f32) (a3 : FVec F S6 .f32) (a4 : FVec F S24x19x19 .f32) (a5 : FVec F S24x19 .f32) (a6 : FVec F S24x6x19 .f32) (a7 : FVec F S24x6 .f32) : FVec F S131072x144 .f32 :=
  concatenate S131072x144 1 [⟨S131072x96, groupA a0 a1 a2 a3 a4 a5 a6 a7⟩, ⟨S131072x48, groupB a0 a1 a2 a3 a4 a5 a6 a7⟩] concatenates_S131072x96_S131072x48_S131072x144_d1

end Cert.ReferenceIdeal.RTree

end
-- ==== Proof.RefStretchG.lean ====
/-
  One stretch of the reference's host program — the global features: the two arrays flattened, laid side by side, contracted with W0, plus the bias — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsG : List (HloOp τ sig (Elt F)) :=
  [ reshape main_arg0 main_v0 rfl shapeCasts_S131072x24x9_S131072x216,
    reshape main_arg1 main_v1 rfl shapeCasts_S131072x24x3_S131072x72,
    binary main_v0 main_v1 main_v2 ((fun a b => concatenate S131072x288 1 [⟨S131072x216, a⟩, ⟨S131072x72, b⟩] concatenates_S131072x216_S131072x72_S131072x288_d1) : (⟨S131072x216, .f32⟩ : BufTy).Contents (Elt F) → (⟨S131072x72, .f32⟩ : BufTy).Contents (Elt F) → (⟨S131072x288, .f32⟩ : BufTy).Contents (Elt F)),
    unary main_arg2 main_v3 ((transpose S288x6 [1, 0] · transposes_S6x288_S288x6_1_0) : (⟨S6x288, .f32⟩ : BufTy).Contents (Elt F) → (⟨S288x6, .f32⟩ : BufTy).Contents (Elt F)),
    binary main_v2 main_v3 main_v4 ((fun l r => Host.dotGeneral dot_S131072x288_S288x6_S131072x6_1_0_0_1_n_n none l r) : (⟨S131072x288, .f32⟩ : BufTy).Contents (Elt F) → (⟨S288x6, .f32⟩ : BufTy).Contents (Elt F) → (⟨S131072x6, .f32⟩ : BufTy).Contents (Elt F)),
    unary main_arg3 main_v5 (broadcastInDim S1x6 ![1] bcast_S6_S1x6_1 : (⟨S6, .f32⟩ : BufTy).Contents (Elt F) → (⟨S1x6, .f32⟩ : BufTy).Contents (Elt F)),
    unary main_v5 main_v6 (broadcastInDim S131072x6 ![0, 1] bcast_S1x6_S131072x6_0_1 : (⟨S1x6, .f32⟩ : BufTy).Contents (Elt F) → (⟨S131072x6, .f32⟩ : BufTy).Contents (Elt F)),
    binary main_v4 main_v6 main_v7 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wG : List (Ref sig .tc) := [main_v0, main_v1, main_v2, main_v3, main_v4, main_v5, main_v6, main_v7]

theorem G_writes : (opsG : List (HloOp τ sig (Elt F))).Forall fun op => op.writes ⊆ (wG.map (Proc.devRef (τ := τ) .tc)).toFinset := by
  simp only [List.Forall, nullary_writes, unary_writes, binary_writes, reshape_writes, nary_writes, Finset.singleton_subset_iff,
    List.mem_toFinset, List.mem_map]
  exact ⟨⟨main_v0, by decide, rfl⟩, ⟨main_v1, by decide, rfl⟩, ⟨main_v2, by decide, rfl⟩, ⟨main_v3, by decide, rfl⟩, ⟨main_v4, by decide, rfl⟩, ⟨main_v5, by decide, rfl⟩, ⟨main_v6, by decide, rfl⟩, ⟨main_v7, by decide, rfl⟩⟩

/-- A buffer the stretch does not write keeps its contents. -/
theorem G_keep (W : Valuation τ sig (Elt F)) (r : Ref sig .tc) (hr : r ∉ wG) :
    after opsG W (Proc.devRef .tc r) = W (Proc.devRef .tc r) :=
  after_of_writes_sub opsG W G_writes hr

theorem G_sub : (opsG : List (HloOp τ sig (Elt F))).Forall fun op => op.bufs ⊆ tcRefs τ sig :=
  ⟨reshape_bufs_sub .., reshape_bufs_sub .., binary_bufs_sub .., unary_bufs_sub .., binary_bufs_sub .., unary_bufs_sub .., unary_bufs_sub .., binary_bufs_sub ..⟩

theorem G_fresh : (opsG : List (HloOp τ sig (Elt F))).Forall fun op => op.fresh = ∅ := by
  simp only [List.Forall]; repeat' constructor

/-- After the stretch the global-feature buffer holds `RRead.gfeat` of the four arrays it reads. -/
theorem G_out (W : Valuation τ sig (Elt F)) :
    after opsG W (Proc.devRef .tc main_v7)
      = RRead.gfeat (W (Proc.devRef .tc main_arg0)) (W (Proc.devRef .tc main_arg1)) (W (Proc.devRef .tc main_arg2)) (W (Proc.devRef .tc main_arg3)) := by
  after_results_simp <;> rfl

end Cert.ReferenceIdeal.HRun

end
-- ==== Proof.RefStretchJ0.lean ====
/-
  One stretch of the reference's host program — joint 0: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ0 : List (HloOp τ sig (Elt F)) :=
  [ unary main_arg0 main_v8 ((extractStridedSlice S131072x1x9 ![0, 0, 0] · slices_S131072x24x9_S131072x1x9_0_0_0) : (⟨S131072x24x9, .f32⟩ : BufTy).Contents (Elt F) → (⟨S131072x1x9, .f32⟩ : BufTy).Contents (Elt F)),
    reshape main_v8 main_v9 rfl shapeCasts_S131072x1x9_S131072x9,
    unary main_arg1 main_v10 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v10 main_v11 rfl shapeCasts_S131072x1x3_S131072x3,
    TRef.binary (TRef.of (T := ⟨S131072x3, .f32⟩) main_v11) (TRef.of (T := ⟨S131072x3, .f32⟩) main_v11) (TRef.of (T := ⟨S131072x3, .f32⟩) main_call0_v0) mulf,
    TRef.nullary (TRef.of (T := ⟨S_, .f32⟩) main_call0_cst) (constant S_ .f32 0x00000000#32),
    TRef.binary (TRef.of (T := ⟨S131072x3, .f32⟩) main_call0_v0) (TRef.of (T := ⟨S_, .f32⟩) main_call0_cst) (TRef.of (T := ⟨S131072, .f32⟩) main_call0_v1) (fun x v => Host.reduceAdd x v reducesTo_S131072x3_S131072_d1 h_S_),
    TRef.unary (TRef.of (T := ⟨S131072, .f32⟩) main_call0_v1) (TRef.of (T := ⟨S131072x1, .f32⟩) main_call0_v2) (broadcastInDim S131072x1 ![0] bcast_S131072_S131072x1_0),
    TRef.unary (TRef.of (T := ⟨S131072x1, .f32⟩) main_call0_v2) (TRef.of (T := ⟨S131072x1, .f32⟩) main_v12) Host.sqrt,
    nary ![main_v9, main_v11, main_v12, main_v7] main_v13 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v14 ((extractStridedSlice S1x19x19 ![0, 0, 0] · slices_S24x19x19_S1x19x19_0_0_0) : (⟨S24x19x19, .f32⟩ : BufTy).Contents (Elt F) → (⟨S1x19x19, .f32⟩ : BufTy).Contents (Elt F)),
    reshape main_v14 main_v15 rfl shapeCasts_S1x19x19_S19x19,
    unary main_v15 main_v16 ((transpose S19x19 [1, 0] · transposes_S19x19_S19x19_1_0) : (⟨S19x19, .f32⟩ : BufTy).Contents (Elt F) → (⟨S19x19, .f32⟩ : BufTy).Contents (Elt F)),
    binary main_v13 main_v16 main_v17 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v18 ((extractStridedSlice S1x19 ![0, 0] · slices_S24x19_S1x19_0_0) : (⟨S24x19, .f32⟩ : BufTy).Contents (Elt F) → (⟨S1x19, .f32⟩ : BufTy).Contents (Elt F)),
    reshape main_v18 main_v19 rfl shapeCasts_S1x19_S19,
    unary main_v19 main_v20 (broadcastInDim S1x19 ![1] bcast_S19_S1x19_1 : (⟨S19, .f32⟩ : BufTy).Contents (Elt F) → (⟨S1x19, .f32⟩ : BufTy).Contents (Elt F)),
    unary main_v20 main_v21 (broadcastInDim S131072x19 ![0, 1] bcast_S1x19_S131072x19_0_1 : (⟨S1x19, .f32⟩ : BufTy).Contents (Elt F) → (⟨S131072x19, .f32⟩ : BufTy).Contents (Elt F)),
    binary main_v17 main_v21 main_v22 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x19, .f32⟩) main_call1_v0) (broadcastInDim S131072x19 ![] bcast_S_S131072x19),
    TRef.binary (TRef.of (T := ⟨S131072x19, .f32⟩) main_v22) (TRef.of (T := ⟨S131072x19, .f32⟩) main_call1_v0) (TRef.of (T := ⟨S131072x19, .f32⟩) main_v23) maximumf,
    unary main_arg6 main_v24 ((extractStridedSlice S1x6x19 ![0, 0, 0] · slices_S24x6x19_S1x6x19_0_0_0) : (⟨S24x6x19, .f32⟩ : BufTy).Contents (Elt F) → (⟨S1x6x19, .f32⟩ : BufTy).Contents (Elt F)),
    reshape main_v24 main_v25 rfl shapeCasts_S1x6x19_S6x19,
    unary main_v25 main_v26 ((transpose S19x6 [1, 0] · transposes_S6x19_S19x6_1_0) : (⟨S6x19, .f32⟩ : BufTy).Contents (Elt F) → (⟨S19x6, .f32⟩ : BufTy).Contents (Elt F)),
    binary main_v23 main_v26 main_v27 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v28 ((extractStridedSlice S1x6 ![0, 0] · slices_S24x6_S1x6_0_0) : (⟨S24x6, .f32⟩ : BufTy).Contents (Elt F) → (⟨S1x6, .f32⟩ : BufTy).Contents (Elt F)),
    reshape main_v28 main_v29 rfl shapeCasts_S1x6_S6,
    unary main_v29 main_v30 (broadcastInDim S1x6 ![1] bcast_S6_S1x6_1 : (⟨S6, .f32⟩ : BufTy).Contents (Elt F) → (⟨S1x6, .f32⟩ : BufTy).Contents (Elt F)),
    unary main_v30 main_v31 (broadcastInDim S131072x6 ![0, 1] bcast_S1x6_S131072x6_0_1 : (⟨S1x6, .f32⟩ : BufTy).Contents (Elt F) → (⟨S131072x6, .f32⟩ : BufTy).Contents (Elt F)),
    binary main_v27 main_v31 main_v32 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ0 : List (Ref sig .tc) := [main_v8, main_v9, main_v10, main_v11, main_call0_v0, main_call0_cst, main_call0_v1, main_call0_v2, main_v12, main_v13, main_v14, main_v15, main_v16, main_v17, main_v18, main_v19, main_v20, main_v21, main_v22, main_call1_cst, main_call1_v0, main_v23, main_v24, main_v25, main_v26, main_v27, main_v28, main_v29, main_v30, main_v31, main_v32]

theorem J0_writes : (opsJ0 : List (HloOp τ sig (Elt F))).Forall fun op => op.writes ⊆ (wJ0.map (Proc.devRef (τ := τ) .tc)).toFinset := by
  simp only [List.Forall, nullary_writes, unary_writes, binary_writes, reshape_writes, nary_writes, Finset.singleton_subset_iff,
    List.mem_toFinset, List.mem_map]
  exact ⟨⟨main_v8, by decide, rfl⟩, ⟨main_v9, by decide, rfl⟩, ⟨main_v10, by decide, rfl⟩, ⟨main_v11, by decide, rfl⟩, ⟨main_call0_v0, by decide, rfl⟩, ⟨main_call0_cst, by decide, rfl⟩, ⟨main_call0_v1, by decide, rfl⟩, ⟨main_call0_v2, by decide, rfl⟩, ⟨main_v12, by decide, rfl⟩, ⟨main_v13, by decide, rfl⟩, ⟨main_v14, by decide, rfl⟩, ⟨main_v15, by decide, rfl⟩, ⟨main_v16, by decide, rfl⟩, ⟨main_v17, by decide, rfl⟩, ⟨main_v18, by decide, rfl⟩, ⟨main_v19, by decide, rfl⟩, ⟨main_v20, by decide, rfl⟩, ⟨main_v21, by decide, rfl⟩, ⟨main_v22, by decide, rfl⟩, ⟨main_call1_cst, by decide, rfl⟩, ⟨main_call1_v0, by decide, rfl⟩, ⟨main_v23, by decide, rfl⟩, ⟨main_v24, by decide, rfl⟩, ⟨main_v25, by decide, rfl⟩, ⟨main_v26, by decide, rfl⟩, ⟨main_v27, by decide, rfl⟩, ⟨main_v28, by decide, rfl⟩, ⟨main_v29, by decide, rfl⟩, ⟨main_v30, by decide, rfl⟩, ⟨main_v31, by decide, rfl⟩, ⟨main_v32, by decide, rfl⟩⟩

/-- A buffer the stretch does not write keeps its contents. -/
theorem J0_keep (W : Valuation τ sig (Elt F)) (r : Ref sig .tc) (hr : r ∉ wJ0) :
    after opsJ0 W (Proc.devRef .tc r) = W (Proc.devRef .tc r) :=
  after_of_writes_sub opsJ0 W J0_writes hr

theorem J0_sub : (opsJ0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J0_fresh : (opsJ0 : List (HloOp τ sig (Elt F))).Forall fun op => op.fresh = ∅ := by
  simp only [List.Forall]; repeat' constructor

/-- After the stretch joint 0's output buffer holds `rstage` of what the stretch reads: the two argument arrays, the global features, and the four weight arrays. -/
theorem J0_out (W : Valuation τ sig (Elt F)) :
    after opsJ0 W (Proc.devRef .tc main_v32)
      = rstage (shapeCast S131072x9 (extractStridedSlice S131072x1x9 ![0, 0, 0] (W (Proc.devRef .tc main_arg0)) slices_S131072x24x9_S131072x1x9_0_0_0) shapeCasts_S131072x1x9_S131072x9) (shapeCast S131072x3 (extractStridedSlice S131072x1x3 ![0, 0, 0] (W (Proc.devRef .tc main_arg1)) slices_S131072x24x3_S131072x1x3_0_0_0) shapeCasts_S131072x1x3_S131072x3) (shapeCast S131072x3 (extractStridedSlice S131072x1x3 ![0, 0, 0] (W (Proc.devRef .tc main_arg1)) slices_S131072x24x3_S131072x1x3_0_0_0) shapeCasts_S131072x1x3_S131072x3) (W (Proc.devRef .tc main_v7))
        (extractStridedSlice S1x19x19 ![0, 0, 0] (W (Proc.devRef .tc main_arg4)) slices_S24x19x19_S1x19x19_0_0_0) (extractStridedSlice S1x19 ![0, 0] (W (Proc.devRef .tc main_arg5)) slices_S24x19_S1x19_0_0)
        (extractStridedSlice S1x6x19 ![0, 0, 0] (W (Proc.devRef .tc main_arg6)) slices_S24x6x19_S1x6x19_0_0_0) (extractStridedSlice S1x6 ![0, 0] (W (Proc.devRef .tc main_arg7)) slices_S24x6_S1x6_0_0) := by
  after_results_simp <;> rfl

end Cert.ReferenceIdeal.HRun

end
-- ==== Proof.RefStretchJ1.lean ====
/-
  One stretch of the reference's host program — joint 1: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ1 : List (HloOp τ sig (Elt F)) :=
  [ unary main_arg0 main_v33 ((extractStridedSlice S131072x1x9 ![0, 1, 0] · slices_S131072x24x9_S131072x1x9_0_1_0) : (⟨S131072x24x9, .f32⟩ : BufTy).Contents (Elt F) → (⟨S131072x1x9, .f32⟩ : BufTy).Contents (Elt F)),
    reshape main_v33 main_v34 rfl shapeCasts_S131072x1x9_S131072x9,
    unary main_arg1 main_v35 ((extractStridedSlice S131072x1x3 ![0, 1, 0] · slices_S131072x24x3_S131072x1x3_0_1_0) : (⟨S131072x24x3, .f32⟩ : BufTy).Contents (Elt F) → (⟨S131072x1x3, .f32⟩ : BufTy).Contents (Elt F)),
    reshape main_v35 main_v36 rfl shapeCasts_S131072x1x3_S131072x3,
    unary main_arg1 main_v37 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v37 main_v38 rfl shapeCasts_S131072x1x3_S131072x3,
    binary main_v36 main_v38 main_v39 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v39) (TRef.of (T := ⟨S131072x3, .f32⟩) main_v39) (TRef.of (T := ⟨S131072x3, .f32⟩) main_call2_v0) mulf,
    TRef.nullary (TRef.of (T := ⟨S_, .f32⟩) main_call2_cst) (constant S_ .f32 0x00000000#32),
    TRef.binary (TRef.of (T := ⟨S131072x3, .f32⟩) main_call2_v0) (TRef.of (T := ⟨S_, .f32⟩) main_call2_cst) (TRef.of (T := ⟨S131072, .f32⟩) main_call2_v1) (fun x v => Host.reduceAdd x v reducesTo_S131072x3_S131072_d1 h_S_),
    TRef.unary (TRef.of (T := ⟨S131072, .f32⟩) main_call2_v1) (TRef.of (T := ⟨S131072x1, .f32⟩) main_call2_v2) (broadcastInDim S131072x1 ![0] bcast_S131072_S131072x1_0),
    TRef.unary (TRef.of (T := ⟨S131072x1, .f32⟩) main_call2_v2) (TRef.of (T := ⟨S131072x1, .f32⟩) main_v40) Host.sqrt,
    nary ![main_v34, main_v36, main_v40, main_v32] main_v41 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v42 ((extractStridedSlice S1x19x19 ![1, 0, 0] · slices_S24x19x19_S1x19x19_1_0_0) : (⟨S24x19x19, .f32⟩ : BufTy).Contents (Elt F) → (⟨S1x19x19, .f32⟩ : BufTy).Contents (Elt F)),
    reshape main_v42 main_v43 rfl shapeCasts_S1x19x19_S19x19,
    unary main_v43 main_v44 ((transpose S19x19 [1, 0] · transposes_S19x19_S19x19_1_0) : (⟨S19x19, .f32⟩ : BufTy).Contents (Elt F) → (⟨S19x19, .f32⟩ : BufTy).Contents (Elt F)),
    binary main_v41 main_v44 main_v45 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v46 ((extractStridedSlice S1x19 ![1, 0] · slices_S24x19_S1x19_1_0) : (⟨S24x19, .f32⟩ : BufTy).Contents (Elt F) → (⟨S1x19, .f32⟩ : BufTy).Contents (Elt F)),
    reshape main_v46 main_v47 rfl shapeCasts_S1x19_S19,
    unary main_v47 main_v48 (broadcastInDim S1x19 ![1] bcast_S19_S1x19_1 : (⟨S19, .f32⟩ : BufTy).Contents (Elt F) → (⟨S1x19, .f32⟩ : BufTy).Contents (Elt F)),
    unary main_v48 main_v49 (broadcastInDim S131072x19 ![0, 1] bcast_S1x19_S131072x19_0_1 : (⟨S1x19, .f32⟩ : BufTy).Contents (Elt F) → (⟨S131072x19, .f32⟩ : BufTy).Contents (Elt F)),
    binary main_v45 main_v49 main_v50 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S131072x19, .f32⟩) main_call3_v0) (broadcastInDim S131072x19 ![] bcast_S_S131072x19),
    TRef.binary (TRef.of (T := ⟨S131072x19, .f32⟩) main_v50) (TRef.of (T := ⟨S131072x19, .f32⟩) main_call3_v0) (TRef.of (T := ⟨S131072x19, .f32⟩) main_v51) maximumf,
    unary main_arg6 main_v52 ((extractStridedSlice S1x6x19 ![1, 0, 0] · slices_S24x6x19_S1x6x19_1_0_0) : (⟨S24x6x19, .f32⟩ : BufTy).Contents (Elt F) → (⟨S1x6x19, .f32⟩ : BufTy).Contents (Elt F)),
    reshape main_v52 main_v53 rfl shapeCasts_S1x6x19_S6x19,
    unary main_v53 main_v54 ((transpose S19x6 [1, 0] · transposes_S6x19_S19x6_1_0) : (⟨S6x19, .f32⟩ : BufTy).Contents (Elt F) → (⟨S19x6, .f32⟩ : BufTy).Contents (Elt F)),
    binary main_v51 main_v54 main_v55 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v56 ((extractStridedSlice S1x6 ![1, 0] · slices_S24x6_S1x6_1_0) : (⟨S24x6, .f32⟩ : BufTy).Contents (Elt F) → (⟨S1x6, .f32⟩ : BufTy).Contents (Elt F)),
    reshape main_v56 main_v57 rfl shapeCasts_S1x6_S6,
    unary main_v57 main_v58 (broadcastInDim S1x6 ![1] bcast_S6_S1x6_1 : (⟨S6, .f32⟩ : BufTy).Contents (Elt F) → (⟨S1x6, .f32⟩ : BufTy).Contents (Elt F)),
    unary main_v58 main_v59 (broadcastInDim S131072x6 ![0, 1] bcast_S1x6_S131072x6_0_1 : (⟨S1x6, .f32⟩ : BufTy).Contents (Elt F) → (⟨S131072x6, .f32⟩ : BufTy).Contents (Elt F)),
    binary main_v55 main_v59 main_v60 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ1 : List (Ref sig .tc) := [main_v33, main_v34, main_v35, main_v36, main_v37, main_v38, main_v39, main_call2_v0, main_call2_cst, main_call2_v1, main_call2_v2, main_v40, main_v41, main_v42, main_v43, main_v44, main_v45, main_v46, main_v47, main_v48, main_v49, main_v50, main_call3_cst, main_call3_v0, main_v51, main_v52, main_v53, main_v54, main_v55, main_v56, main_v57, main_v58, main_v59, main_v60]

theorem J1_writes : (opsJ1 : List (HloOp τ sig (Elt F))).Forall fun op => op.writes ⊆ (wJ1.map (Proc.devRef (τ := τ) .tc)).toFinset := by
  simp only [List.Forall, nullary_writes, unary_writes, binary_writes, reshape_writes, nary_writes, Finset.singleton_subset_iff,
    List.mem_toFinset, List.mem_map]
  exact ⟨⟨main_v33, by decide, rfl⟩, ⟨main_v34, by decide, rfl⟩, ⟨main_v35, by decide, rfl⟩, ⟨main_v36, by decide, rfl⟩, ⟨main_v37, by decide, rfl⟩, ⟨main_v38, by decide, rfl⟩, ⟨main_v39, by decide, rfl⟩, ⟨main_call2_v0, by decide, rfl⟩, ⟨main_call2_cst, by decide, rfl⟩, ⟨main_call2_v1, by decide, rfl⟩, ⟨main_call2_v2, by decide, rfl⟩, ⟨main_v40, by decide, rfl⟩, ⟨main_v41, by decide, rfl⟩, ⟨main_v42, by decide, rfl⟩, ⟨main_v43, by decide, rfl⟩, ⟨main_v44, by decide, rfl⟩, ⟨main_v45, by decide, rfl⟩, ⟨main_v46, by decide, rfl⟩, ⟨main_v47, by decide, rfl⟩, ⟨main_v48, by decide, rfl⟩, ⟨main_v49, by decide, rfl⟩, ⟨main_v50, by decide, rfl⟩, ⟨main_call3_cst, by decide, rfl⟩, ⟨main_call3_v0, by decide, rfl⟩, ⟨main_v51, by decide, rfl⟩, ⟨main_v52, by decide, rfl⟩, ⟨main_v53, by decide, rfl⟩, ⟨main_v54, by decide, rfl⟩, ⟨main_v55, by decide, rfl⟩, ⟨main_v56, by decide, rfl⟩, ⟨main_v57, by decide, rfl⟩, ⟨main_v58, by decide, rfl⟩, ⟨main_v59, by decide, rfl⟩, ⟨main_v60, by decide, rfl⟩⟩

/-- A buffer the stretch does not write keeps its contents. -/
theorem J1_keep (W : Valuation τ sig (Elt F)) (r : Ref sig .tc) (hr : r ∉ wJ1) :
    after opsJ1 W (Proc.devRef .tc r) = W (Proc.devRef .tc r) :=
  after_of_writes_sub opsJ1 W J1_writes hr

theorem J1_sub : (opsJ1 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J1_fresh : (opsJ1 : List (HloOp τ sig (Elt F))).Forall fun op => op.fresh = ∅ := by
  simp only [List.Forall]; repeat' constructor

/-- After the stretch joint 1's output buffer holds `rstage` of what the stretch reads: the two argument arrays, joint 0's output, and the four weight arrays. -/
theorem J1_out (W : Valuation τ sig (Elt F)) :
    after opsJ1 W (Proc.devRef .tc main_v60)
      = rstage (shapeCast S131072x9 (extractStridedSlice S131072x1x9 ![0, 1, 0] (W (Proc.devRef .tc main_arg0)) slices_S131072x24x9_S131072x1x9_0_1_0) shapeCasts_S131072x1x9_S131072x9) (shapeCast S131072x3 (extractStridedSlice S131072x1x3 ![0, 1, 0] (W (Proc.devRef .tc main_arg1)) slices_S131072x24x3_S131072x1x3_0_1_0) shapeCasts_S131072x1x3_S131072x3) (subf (shapeCast S131072x3 (extractStridedSlice S131072x1x3 ![0, 1, 0] (W (Proc.devRef .tc main_arg1)) slices_S131072x24x3_S131072x1x3_0_1_0) shapeCasts_S131072x1x3_S131072x3) (shapeCast S131072x3 (extractStridedSlice S131072x1x3 ![0, 0, 0] (W (Proc.devRef .tc main_arg1)) slices_S131072x24x3_S131072x1x3_0_0_0) shapeCasts_S131072x1x3_S131072x3)) (W (Proc.devRef .tc main_v32))
        (extractStridedSlice S1x19x19 ![1, 0, 0] (W (Proc.devRef .tc main_arg4)) slices_S24x19x19_S1x19x19_1_0_0) (extractStridedSlice S1x19 ![1, 0] (W (Proc.devRef .tc main_arg5)) slices_S24x19_S1x19_1_0)
        (extractStridedSlice S1x6x19 ![1, 0, 0] (W (Proc.devRef .tc main_arg6)) slices_S24x6x19_S1x6x19_1_0_0) (extractStridedSlice S1x6 ![1, 0] (W (Proc.devRef .tc main_arg7)) slices_S24x6_S1x6_1_0) := by
  after_results_simp <;> rfl

end Cert.ReferenceIdeal.HRun

end
-- ==== Proof.RefStretchJ2.lean ====
/-
  One stretch of the reference's host program — joint 2: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ2 : List (HloOp τ sig (Elt F)) :=
  [ unary main_arg0 main_v61 ((extractStridedSlice S131072x1x9 ![0, 2, 0] · slices_S131072x24x9_S131072x1x9_0_2_0) : (⟨S131072x24x9, .f32⟩ : BufTy).Contents (Elt F) → (⟨S131072x1x9, .f32⟩ : BufTy).Contents (Elt F)),
    reshape main_v61 main_v62 rfl shapeCasts_S131072x1x9_S131072x9,
    unary main_arg1 main_v63 ((extractStridedSlice S131072x1x3 ![0, 2, 0] · slices_S131072x24x3_S131072x1x3_0_2_0) : (⟨S131072x24x3, .f32⟩ : BufTy).Contents (Elt F) → (⟨S131072x1x3, .f32⟩ : BufTy).Contents (Elt F)),
    reshape main_v63 main_v64 rfl shapeCasts_S131072x1x3_S131072x3,
    unary main_arg1 main_v65 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v65 main_v66 rfl shapeCasts_S131072x1x3_S131072x3,
    binary main_v64 main_v66 main_v67 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v67) (TRef.of (T := ⟨S131072x3, .f32⟩) main_v67) (TRef.of (T := ⟨S131072x3, .f32⟩) main_call4_v0) mulf,
    TRef.nullary (TRef.of (T := ⟨S_, .f32⟩) main_call4_cst) (constant S_ .f32 0x00000000#32),
    TRef.binary (TRef.of (T := ⟨S131072x3, .f32⟩) main_call4_v0) (TRef.of (T := ⟨S_, .f32⟩) main_call4_cst) (TRef.of (T := ⟨S131072, .f32⟩) main_call4_v1) (fun x v => Host.reduceAdd x v reducesTo_S131072x3_S131072_d1 h_S_),
    TRef.unary (TRef.of (T := ⟨S131072, .f32⟩) main_call4_v1) (TRef.of (T := ⟨S131072x1, .f32⟩) main_call4_v2) (broadcastInDim S131072x1 ![0] bcast_S131072_S131072x1_0),
    TRef.unary (TRef.of (T := ⟨S131072x1, .f32⟩) main_call4_v2) (TRef.of (T := ⟨S131072x1, .f32⟩) main_v68) Host.sqrt,
    nary ![main_v62, main_v64, main_v68, main_v32] main_v69 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v70 ((extractStridedSlice S1x19x19 ![2, 0, 0] · slices_S24x19x19_S1x19x19_2_0_0) : (⟨S24x19x19, .f32⟩ : BufTy).Contents (Elt F) → (⟨S1x19x19, .f32⟩ : BufTy).Contents (Elt F)),
    reshape main_v70 main_v71 rfl shapeCasts_S1x19x19_S19x19,
    unary main_v71 main_v72 ((transpose S19x19 [1, 0] · transposes_S19x19_S19x19_1_0) : (⟨S19x19, .f32⟩ : BufTy).Contents (Elt F) → (⟨S19x19, .f32⟩ : BufTy).Contents (Elt F)),
    binary main_v69 main_v72 main_v73 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v74 ((extractStridedSlice S1x19 ![2, 0] · slices_S24x19_S1x19_2_0) : (⟨S24x19, .f32⟩ : BufTy).Contents (Elt F) → (⟨S1x19, .f32⟩ : BufTy).Contents (Elt F)),
    reshape main_v74 main_v75 rfl shapeCasts_S1x19_S19,
    unary main_v75 main_v76 (broadcastInDim S1x19 ![1] bcast_S19_S1x19_1 : (⟨S19, .f32⟩ : BufTy).Contents (Elt F) → (⟨S1x19, .f32⟩ : BufTy).Contents (Elt F)),
    unary main_v76 main_v77 (broadcastInDim S131072x19 ![0, 1] bcast_S1x19_S131072x19_0_1 : (⟨S1x19, .f32⟩ : BufTy).Contents (Elt F) → (⟨S131072x19, .f32⟩ : BufTy).Contents (Elt F)),
    binary main_v73 main_v77 main_v78 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S131072x19, .f32⟩) main_call5_v0) (broadcastInDim S131072x19 ![] bcast_S_S131072x19),
    TRef.binary (TRef.of (T := ⟨S131072x19, .f32⟩) main_v78) (TRef.of (T := ⟨S131072x19, .f32⟩) main_call5_v0) (TRef.of (T := ⟨S131072x19, .f32⟩) main_v79) maximumf,
    unary main_arg6 main_v80 ((extractStridedSlice S1x6x19 ![2, 0, 0] · slices_S24x6x19_S1x6x19_2_0_0) : (⟨S24x6x19, .f32⟩ : BufTy).Contents (Elt F) → (⟨S1x6x19, .f32⟩ : BufTy).Contents (Elt F)),
    reshape main_v80 main_v81 rfl shapeCasts_S1x6x19_S6x19,
    unary main_v81 main_v82 ((transpose S19x6 [1, 0] · transposes_S6x19_S19x6_1_0) : (⟨S6x19, .f32⟩ : BufTy).Contents (Elt F) → (⟨S19x6, .f32⟩ : BufTy).Contents (Elt F)),
    binary main_v79 main_v82 main_v83 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v84 ((extractStridedSlice S1x6 ![2, 0] · slices_S24x6_S1x6_2_0) : (⟨S24x6, .f32⟩ : BufTy).Contents (Elt F) → (⟨S1x6, .f32⟩ : BufTy).Contents (Elt F)),
    reshape main_v84 main_v85 rfl shapeCasts_S1x6_S6,
    unary main_v85 main_v86 (broadcastInDim S1x6 ![1] bcast_S6_S1x6_1 : (⟨S6, .f32⟩ : BufTy).Contents (Elt F) → (⟨S1x6, .f32⟩ : BufTy).Contents (Elt F)),
    unary main_v86 main_v87 (broadcastInDim S131072x6 ![0, 1] bcast_S1x6_S131072x6_0_1 : (⟨S1x6, .f32⟩ : BufTy).Contents (Elt F) → (⟨S131072x6, .f32⟩ : BufTy).Contents (Elt F)),
    binary main_v83 main_v87 main_v88 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ2 : List (Ref sig .tc) := [main_v61, main_v62, main_v63, main_v64, main_v65, main_v66, main_v67, main_call4_v0, main_call4_cst, main_call4_v1, main_call4_v2, main_v68, main_v69, main_v70, main_v71, main_v72, main_v73, main_v74, main_v75, main_v76, main_v77, main_v78, main_call5_cst, main_call5_v0, main_v79, main_v80, main_v81, main_v82, main_v83, main_v84, main_v85, main_v86, main_v87, main_v88]

theorem J2_writes : (opsJ2 : List (HloOp τ sig (Elt F))).Forall fun op => op.writes ⊆ (wJ2.map (Proc.devRef (τ := τ) .tc)).toFinset := by
  simp only [List.Forall, nullary_writes, unary_writes, binary_writes, reshape_writes, nary_writes, Finset.singleton_subset_iff,
    List.mem_toFinset, List.mem_map]
  exact ⟨⟨main_v61, by decide, rfl⟩, ⟨main_v62, by decide, rfl⟩, ⟨main_v63, by decide, rfl⟩, ⟨main_v64, by decide, rfl⟩, ⟨main_v65, by decide, rfl⟩, ⟨main_v66, by decide, rfl⟩, ⟨main_v67, by decide, rfl⟩, ⟨main_call4_v0, by decide, rfl⟩, ⟨main_call4_cst, by decide, rfl⟩, ⟨main_call4_v1, by decide, rfl⟩, ⟨main_call4_v2, by decide, rfl⟩, ⟨main_v68, by decide, rfl⟩, ⟨main_v69, by decide, rfl⟩, ⟨main_v70, by decide, rfl⟩, ⟨main_v71, by decide, rfl⟩, ⟨main_v72, by decide, rfl⟩, ⟨main_v73, by decide, rfl⟩, ⟨main_v74, by decide, rfl⟩, ⟨main_v75, by decide, rfl⟩, ⟨main_v76, by decide, rfl⟩, ⟨main_v77, by decide, rfl⟩, ⟨main_v78, by decide, rfl⟩, ⟨main_call5_cst, by decide, rfl⟩, ⟨main_call5_v0, by decide, rfl⟩, ⟨main_v79, by decide, rfl⟩, ⟨main_v80, by decide, rfl⟩, ⟨main_v81, by decide, rfl⟩, ⟨main_v82, by decide, rfl⟩, ⟨main_v83, by decide, rfl⟩, ⟨main_v84, by decide, rfl⟩, ⟨main_v85, by decide, rfl⟩, ⟨main_v86, by decide, rfl⟩, ⟨main_v87, by decide, rfl⟩, ⟨main_v88, by decide, rfl⟩⟩

/-- A buffer the stretch does not write keeps its contents. -/
theorem J2_keep (W : Valuation τ sig (Elt F)) (r : Ref sig .tc) (hr : r ∉ wJ2) :
    after opsJ2 W (Proc.devRef .tc r) = W (Proc.devRef .tc r) :=
  after_of_writes_sub opsJ2 W J2_writes hr

theorem J2_sub : (opsJ2 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J2_fresh : (opsJ2 : List (HloOp τ sig (Elt F))).Forall fun op => op.fresh = ∅ := by
  simp only [List.Forall]; repeat' constructor

/-- After the stretch joint 2's output buffer holds `rstage` of what the stretch reads: the two argument arrays, joint 0's output, and the four weight arrays. -/
theorem J2_out (W : Valuation τ sig (Elt F)) :
    after opsJ2 W (Proc.devRef .tc main_v88)
      = rstage (shapeCast S131072x9 (extractStridedSlice S131072x1x9 ![0, 2, 0] (W (Proc.devRef .tc main_arg0)) slices_S131072x24x9_S131072x1x9_0_2_0) shapeCasts_S131072x1x9_S131072x9) (shapeCast S131072x3 (extractStridedSlice S131072x1x3 ![0, 2, 0] (W (Proc.devRef .tc main_arg1)) slices_S131072x24x3_S131072x1x3_0_2_0) shapeCasts_S131072x1x3_S131072x3) (subf (shapeCast S131072x3 (extractStridedSlice S131072x1x3 ![0, 2, 0] (W (Proc.devRef .tc main_arg1)) slices_S131072x24x3_S131072x1x3_0_2_0) shapeCasts_S131072x1x3_S131072x3) (shapeCast S131072x3 (extractStridedSlice S131072x1x3 ![0, 0, 0] (W (Proc.devRef .tc main_arg1)) slices_S131072x24x3_S131072x1x3_0_0_0) shapeCasts_S131072x1x3_S131072x3)) (W (Proc.devRef .tc main_v32))
        (extractStridedSlice S1x19x19 ![2, 0, 0] (W (Proc.devRef .tc main_arg4)) slices_S24x19x19_S1x19x19_2_0_0) (extractStridedSlice S1x19 ![2, 0] (W (Proc.devRef .tc main_arg5)) slices_S24x19_S1x19_2_0)
        (extractStridedSlice S1x6x19 ![2, 0, 0] (W (Proc.devRef .tc main_arg6)) slices_S24x6x19_S1x6x19_2_0_0) (extractStridedSlice S1x6 ![2, 0] (W (Proc.devRef .tc main_arg7)) slices_S24x6_S1x6_2_0) := by
  after_results_simp <;> rfl

end Cert.ReferenceIdeal.HRun

end
-- ==== Proof.RefStretchJ3.lean ====
/-
  One stretch of the reference's host program — joint 3: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ3 : List (HloOp τ sig (Elt F)) :=
  [ unary main_arg0 main_v89 ((extractStridedSlice S131072x1x9 ![0, 3, 0] · slices_S131072x24x9_S131072x1x9_0_3_0) : (⟨S131072x24x9, .f32⟩ : BufTy).Contents (Elt F) → (⟨S131072x1x9, .f32⟩ : BufTy).Contents (Elt F)),
    reshape main_v89 main_v90 rfl shapeCasts_S131072x1x9_S131072x9,
    unary main_arg1 main_v91 ((extractStridedSlice S131072x1x3 ![0, 3, 0] · slices_S131072x24x3_S131072x1x3_0_3_0) : (⟨S131072x24x3, .f32⟩ : BufTy).Contents (Elt F) → (⟨S131072x1x3, .f32⟩ : BufTy).Contents (Elt F)),
    reshape main_v91 main_v92 rfl shapeCasts_S131072x1x3_S131072x3,
    unary main_arg1 main_v93 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v93 main_v94 rfl shapeCasts_S131072x1x3_S131072x3,
    binary main_v92 main_v94 main_v95 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v95) (TRef.of (T := ⟨S131072x3, .f32⟩) main_v95) (TRef.of (T := ⟨S131072x3, .f32⟩) main_call6_v0) mulf,
    TRef.nullary (TRef.of (T := ⟨S_, .f32⟩) main_call6_cst) (constant S_ .f32 0x00000000#32),
    TRef.binary (TRef.of (T := ⟨S131072x3, .f32⟩) main_call6_v0) (TRef.of (T := ⟨S_, .f32⟩) main_call6_cst) (TRef.of (T := ⟨S131072, .f32⟩) main_call6_v1) (fun x v => Host.reduceAdd x v reducesTo_S131072x3_S131072_d1 h_S_),
    TRef.unary (TRef.of (T := ⟨S131072, .f32⟩) main_call6_v1) (TRef.of (T := ⟨S131072x1, .f32⟩) main_call6_v2) (broadcastInDim S131072x1 ![0] bcast_S131072_S131072x1_0),
    TRef.unary (TRef.of (T := ⟨S131072x1, .f32⟩) main_call6_v2) (TRef.of (T := ⟨S131072x1, .f32⟩) main_v96) Host.sqrt,
    nary ![main_v90, main_v92, main_v96, main_v32] main_v97 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v98 ((extractStridedSlice S1x19x19 ![3, 0, 0] · slices_S24x19x19_S1x19x19_3_0_0) : (⟨S24x19x19, .f32⟩ : BufTy).Contents (Elt F) → (⟨S1x19x19, .f32⟩ : BufTy).Contents (Elt F)),
    reshape main_v98 main_v99 rfl shapeCasts_S1x19x19_S19x19,
    unary main_v99 main_v100 ((transpose S19x19 [1, 0] · transposes_S19x19_S19x19_1_0) : (⟨S19x19, .f32⟩ : BufTy).Contents (Elt F) → (⟨S19x19, .f32⟩ : BufTy).Contents (Elt F)),
    binary main_v97 main_v100 main_v101 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v102 ((extractStridedSlice S1x19 ![3, 0] · slices_S24x19_S1x19_3_0) : (⟨S24x19, .f32⟩ : BufTy).Contents (Elt F) → (⟨S1x19, .f32⟩ : BufTy).Contents (Elt F)),
    reshape main_v102 main_v103 rfl shapeCasts_S1x19_S19,
    unary main_v103 main_v104 (broadcastInDim S1x19 ![1] bcast_S19_S1x19_1 : (⟨S19, .f32⟩ : BufTy).Contents (Elt F) → (⟨S1x19, .f32⟩ : BufTy).Contents (Elt F)),
    unary main_v104 main_v105 (broadcastInDim S131072x19 ![0, 1] bcast_S1x19_S131072x19_0_1 : (⟨S1x19, .f32⟩ : BufTy).Contents (Elt F) → (⟨S131072x19, .f32⟩ : BufTy).Contents (Elt F)),
    binary main_v101 main_v105 main_v106 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S131072x19, .f32⟩) main_call7_v0) (broadcastInDim S131072x19 ![] bcast_S_S131072x19),
    TRef.binary (TRef.of (T := ⟨S131072x19, .f32⟩) main_v106) (TRef.of (T := ⟨S131072x19, .f32⟩) main_call7_v0) (TRef.of (T := ⟨S131072x19, .f32⟩) main_v107) maximumf,
    unary main_arg6 main_v108 ((extractStridedSlice S1x6x19 ![3, 0, 0] · slices_S24x6x19_S1x6x19_3_0_0) : (⟨S24x6x19, .f32⟩ : BufTy).Contents (Elt F) → (⟨S1x6x19, .f32⟩ : BufTy).Contents (Elt F)),
    reshape main_v108 main_v109 rfl shapeCasts_S1x6x19_S6x19,
    unary main_v109 main_v110 ((transpose S19x6 [1, 0] · transposes_S6x19_S19x6_1_0) : (⟨S6x19, .f32⟩ : BufTy).Contents (Elt F) → (⟨S19x6, .f32⟩ : BufTy).Contents (Elt F)),
    binary main_v107 main_v110 main_v111 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v112 ((extractStridedSlice S1x6 ![3, 0] · slices_S24x6_S1x6_3_0) : (⟨S24x6, .f32⟩ : BufTy).Contents (Elt F) → (⟨S1x6, .f32⟩ : BufTy).Contents (Elt F)),
    reshape main_v112 main_v113 rfl shapeCasts_S1x6_S6,
    unary main_v113 main_v114 (broadcastInDim S1x6 ![1] bcast_S6_S1x6_1 : (⟨S6, .f32⟩ : BufTy).Contents (Elt F) → (⟨S1x6, .f32⟩ : BufTy).Contents (Elt F)),
    unary main_v114 main_v115 (broadcastInDim S131072x6 ![0, 1] bcast_S1x6_S131072x6_0_1 : (⟨S1x6, .f32⟩ : BufTy).Contents (Elt F) → (⟨S131072x6, .f32⟩ : BufTy).Contents (Elt F)),
    binary main_v111 main_v115 main_v116 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ3 : List (Ref sig .tc) := [main_v89, main_v90, main_v91, main_v92, main_v93, main_v94, main_v95, main_call6_v0, main_call6_cst, main_call6_v1, main_call6_v2, main_v96, main_v97, main_v98, main_v99, main_v100, main_v101, main_v102, main_v103, main_v104, main_v105, main_v106, main_call7_cst, main_call7_v0, main_v107, main_v108, main_v109, main_v110, main_v111, main_v112, main_v113, main_v114, main_v115, main_v116]

theorem J3_writes : (opsJ3 : List (HloOp τ sig (Elt F))).Forall fun op => op.writes ⊆ (wJ3.map (Proc.devRef (τ := τ) .tc)).toFinset := by
  simp only [List.Forall, nullary_writes, unary_writes, binary_writes, reshape_writes, nary_writes, Finset.singleton_subset_iff,
    List.mem_toFinset, List.mem_map]
  exact ⟨⟨main_v89, by decide, rfl⟩, ⟨main_v90, by decide, rfl⟩, ⟨main_v91, by decide, rfl⟩, ⟨main_v92, by decide, rfl⟩, ⟨main_v93, by decide, rfl⟩, ⟨main_v94, by decide, rfl⟩, ⟨main_v95, by decide, rfl⟩, ⟨main_call6_v0, by decide, rfl⟩, ⟨main_call6_cst, by decide, rfl⟩, ⟨main_call6_v1, by decide, rfl⟩, ⟨main_call6_v2, by decide, rfl⟩, ⟨main_v96, by decide, rfl⟩, ⟨main_v97, by decide, rfl⟩, ⟨main_v98, by decide, rfl⟩, ⟨main_v99, by decide, rfl⟩, ⟨main_v100, by decide, rfl⟩, ⟨main_v101, by decide, rfl⟩, ⟨main_v102, by decide, rfl⟩, ⟨main_v103, by decide, rfl⟩, ⟨main_v104, by decide, rfl⟩, ⟨main_v105, by decide, rfl⟩, ⟨main_v106, by decide, rfl⟩, ⟨main_call7_cst, by decide, rfl⟩, ⟨main_call7_v0, by decide, rfl⟩, ⟨main_v107, by decide, rfl⟩, ⟨main_v108, by decide, rfl⟩, ⟨main_v109, by decide, rfl⟩, ⟨main_v110, by decide, rfl⟩, ⟨main_v111, by decide, rfl⟩, ⟨main_v112, by decide, rfl⟩, ⟨main_v113, by decide, rfl⟩, ⟨main_v114, by decide, rfl⟩, ⟨main_v115, by decide, rfl⟩, ⟨main_v116, by decide, rfl⟩⟩

/-- A buffer the stretch does not write keeps its contents. -/
theorem J3_keep (W : Valuation τ sig (Elt F)) (r : Ref sig .tc) (hr : r ∉ wJ3) :
    after opsJ3 W (Proc.devRef .tc r) = W (Proc.devRef .tc r) :=
  after_of_writes_sub opsJ3 W J3_writes hr

theorem J3_sub : (opsJ3 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J3_fresh : (opsJ3 : List (HloOp τ sig (Elt F))).Forall fun op => op.fresh = ∅ := by
  simp only [List.Forall]; repeat' constructor

/-- After the stretch joint 3's output buffer holds `rstage` of what the stretch reads: the two argument arrays, joint 0's output, and the four weight arrays. -/
theorem J3_out (W : Valuation τ sig (Elt F)) :
    after opsJ3 W (Proc.devRef .tc main_v116)
      = rstage (shapeCast S131072x9 (extractStridedSlice S131072x1x9 ![0, 3, 0] (W (Proc.devRef .tc main_arg0)) slices_S131072x24x9_S131072x1x9_0_3_0) shapeCasts_S131072x1x9_S131072x9) (shapeCast S131072x3 (extractStridedSlice S131072x1x3 ![0, 3, 0] (W (Proc.devRef .tc main_arg1)) slices_S131072x24x3_S131072x1x3_0_3_0) shapeCasts_S131072x1x3_S131072x3) (subf (shapeCast S131072x3 (extractStridedSlice S131072x1x3 ![0, 3, 0] (W (Proc.devRef .tc main_arg1)) slices_S131072x24x3_S131072x1x3_0_3_0) shapeCasts_S131072x1x3_S131072x3) (shapeCast S131072x3 (extractStridedSlice S131072x1x3 ![0, 0, 0] (W (Proc.devRef .tc main_arg1)) slices_S131072x24x3_S131072x1x3_0_0_0) shapeCasts_S131072x1x3_S131072x3)) (W (Proc.devRef .tc main_v32))
        (extractStridedSlice S1x19x19 ![3, 0, 0] (W (Proc.devRef .tc main_arg4)) slices_S24x19x19_S1x19x19_3_0_0) (extractStridedSlice S1x19 ![3, 0] (W (Proc.devRef .tc main_arg5)) slices_S24x19_S1x19_3_0)
        (extractStridedSlice S1x6x19 ![3, 0, 0] (W (Proc.devRef .tc main_arg6)) slices_S24x6x19_S1x6x19_3_0_0) (extractStridedSlice S1x6 ![3, 0] (W (Proc.devRef .tc main_arg7)) slices_S24x6_S1x6_3_0) := by
  after_results_simp <;> rfl

end Cert.ReferenceIdeal.HRun

end
-- ==== Proof.RefStretchJ4.lean ====
/-
  One stretch of the reference's host program — joint 4: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ4 : List (HloOp τ sig (Elt F)) :=
  [ unary main_arg0 main_v117 ((extractStridedSlice S131072x1x9 ![0, 4, 0] · slices_S131072x24x9_S131072x1x9_0_4_0) : (⟨S131072x24x9, .f32⟩ : BufTy).Contents (Elt F) → (⟨S131072x1x9, .f32⟩ : BufTy).Contents (Elt F)),
    reshape main_v117 main_v118 rfl shapeCasts_S131072x1x9_S131072x9,
    unary main_arg1 main_v119 ((extractStridedSlice S131072x1x3 ![0, 4, 0] · slices_S131072x24x3_S131072x1x3_0_4_0) : (⟨S131072x24x3, .f32⟩ : BufTy).Contents (Elt F) → (⟨S131072x1x3, .f32⟩ : BufTy).Contents (Elt F)),
    reshape main_v119 main_v120 rfl shapeCasts_S131072x1x3_S131072x3,
    unary main_arg1 main_v121 ((extractStridedSlice S131072x1x3 ![0, 1, 0] · slices_S131072x24x3_S131072x1x3_0_1_0) : (⟨S131072x24x3, .f32⟩ : BufTy).Contents (Elt F) → (⟨S131072x1x3, .f32⟩ : BufTy).Contents (Elt F)),
    reshape main_v121 main_v122 rfl shapeCasts_S131072x1x3_S131072x3,
    binary main_v120 main_v122 main_v123 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v123) (TRef.of (T := ⟨S131072x3, .f32⟩) main_v123) (TRef.of (T := ⟨S131072x3, .f32⟩) main_call8_v0) mulf,
    TRef.nullary (TRef.of (T := ⟨S_, .f32⟩) main_call8_cst) (constant S_ .f32 0x00000000#32),
    TRef.binary (TRef.of (T := ⟨S131072x3, .f32⟩) main_call8_v0) (TRef.of (T := ⟨S_, .f32⟩) main_call8_cst) (TRef.of (T := ⟨S131072, .f32⟩) main_call8_v1) (fun x v => Host.reduceAdd x v reducesTo_S131072x3_S131072_d1 h_S_),
    TRef.unary (TRef.of (T := ⟨S131072, .f32⟩) main_call8_v1) (TRef.of (T := ⟨S131072x1, .f32⟩) main_call8_v2) (broadcastInDim S131072x1 ![0] bcast_S131072_S131072x1_0),
    TRef.unary (TRef.of (T := ⟨S131072x1, .f32⟩) main_call8_v2) (TRef.of (T := ⟨S131072x1, .f32⟩) main_v124) Host.sqrt,
    nary ![main_v118, main_v120, main_v124, main_v60] main_v125 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v126 ((extractStridedSlice S1x19x19 ![4, 0, 0] · slices_S24x19x19_S1x19x19_4_0_0) : (⟨S24x19x19, .f32⟩ : BufTy).Contents (Elt F) → (⟨S1x19x19, .f32⟩ : BufTy).Contents (Elt F)),
    reshape main_v126 main_v127 rfl shapeCasts_S1x19x19_S19x19,
    unary main_v127 main_v128 ((transpose S19x19 [1, 0] · transposes_S19x19_S19x19_1_0) : (⟨S19x19, .f32⟩ : BufTy).Contents (Elt F) → (⟨S19x19, .f32⟩ : BufTy).Contents (Elt F)),
    binary main_v125 main_v128 main_v129 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v130 ((extractStridedSlice S1x19 ![4, 0] · slices_S24x19_S1x19_4_0) : (⟨S24x19, .f32⟩ : BufTy).Contents (Elt F) → (⟨S1x19, .f32⟩ : BufTy).Contents (Elt F)),
    reshape main_v130 main_v131 rfl shapeCasts_S1x19_S19,
    unary main_v131 main_v132 (broadcastInDim S1x19 ![1] bcast_S19_S1x19_1 : (⟨S19, .f32⟩ : BufTy).Contents (Elt F) → (⟨S1x19, .f32⟩ : BufTy).Contents (Elt F)),
    unary main_v132 main_v133 (broadcastInDim S131072x19 ![0, 1] bcast_S1x19_S131072x19_0_1 : (⟨S1x19, .f32⟩ : BufTy).Contents (Elt F) → (⟨S131072x19, .f32⟩ : BufTy).Contents (Elt F)),
    binary main_v129 main_v133 main_v134 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x19, .f32⟩) main_call9_v0) (broadcastInDim S131072x19 ![] bcast_S_S131072x19),
    TRef.binary (TRef.of (T := ⟨S131072x19, .f32⟩) main_v134) (TRef.of (T := ⟨S131072x19, .f32⟩) main_call9_v0) (TRef.of (T := ⟨S131072x19, .f32⟩) main_v135) maximumf,
    unary main_arg6 main_v136 ((extractStridedSlice S1x6x19 ![4, 0, 0] · slices_S24x6x19_S1x6x19_4_0_0) : (⟨S24x6x19, .f32⟩ : BufTy).Contents (Elt F) → (⟨S1x6x19, .f32⟩ : BufTy).Contents (Elt F)),
    reshape main_v136 main_v137 rfl shapeCasts_S1x6x19_S6x19,
    unary main_v137 main_v138 ((transpose S19x6 [1, 0] · transposes_S6x19_S19x6_1_0) : (⟨S6x19, .f32⟩ : BufTy).Contents (Elt F) → (⟨S19x6, .f32⟩ : BufTy).Contents (Elt F)),
    binary main_v135 main_v138 main_v139 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v140 ((extractStridedSlice S1x6 ![4, 0] · slices_S24x6_S1x6_4_0) : (⟨S24x6, .f32⟩ : BufTy).Contents (Elt F) → (⟨S1x6, .f32⟩ : BufTy).Contents (Elt F)),
    reshape main_v140 main_v141 rfl shapeCasts_S1x6_S6,
    unary main_v141 main_v142 (broadcastInDim S1x6 ![1] bcast_S6_S1x6_1 : (⟨S6, .f32⟩ : BufTy).Contents (Elt F) → (⟨S1x6, .f32⟩ : BufTy).Contents (Elt F)),
    unary main_v142 main_v143 (broadcastInDim S131072x6 ![0, 1] bcast_S1x6_S131072x6_0_1 : (⟨S1x6, .f32⟩ : BufTy).Contents (Elt F) → (⟨S131072x6, .f32⟩ : BufTy).Contents (Elt F)),
    binary main_v139 main_v143 main_v144 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ4 : List (Ref sig .tc) := [main_v117, main_v118, main_v119, main_v120, main_v121, main_v122, main_v123, main_call8_v0, main_call8_cst, main_call8_v1, main_call8_v2, main_v124, main_v125, main_v126, main_v127, main_v128, main_v129, main_v130, main_v131, main_v132, main_v133, main_v134, main_call9_cst, main_call9_v0, main_v135, main_v136, main_v137, main_v138, main_v139, main_v140, main_v141, main_v142, main_v143, main_v144]

theorem J4_writes : (opsJ4 : List (HloOp τ sig (Elt F))).Forall fun op => op.writes ⊆ (wJ4.map (Proc.devRef (τ := τ) .tc)).toFinset := by
  simp only [List.Forall, nullary_writes, unary_writes, binary_writes, reshape_writes, nary_writes, Finset.singleton_subset_iff,
    List.mem_toFinset, List.mem_map]
  exact ⟨⟨main_v117, by decide, rfl⟩, ⟨main_v118, by decide, rfl⟩, ⟨main_v119, by decide, rfl⟩, ⟨main_v120, by decide, rfl⟩, ⟨main_v121, by decide, rfl⟩, ⟨main_v122, by decide, rfl⟩, ⟨main_v123, by decide, rfl⟩, ⟨main_call8_v0, by decide, rfl⟩, ⟨main_call8_cst, by decide, rfl⟩, ⟨main_call8_v1, by decide, rfl⟩, ⟨main_call8_v2, by decide, rfl⟩, ⟨main_v124, by decide, rfl⟩, ⟨main_v125, by decide, rfl⟩, ⟨main_v126, by decide, rfl⟩, ⟨main_v127, by decide, rfl⟩, ⟨main_v128, by decide, rfl⟩, ⟨main_v129, by decide, rfl⟩, ⟨main_v130, by decide, rfl⟩, ⟨main_v131, by decide, rfl⟩, ⟨main_v132, by decide, rfl⟩, ⟨main_v133, by decide, rfl⟩, ⟨main_v134, by decide, rfl⟩, ⟨main_call9_cst, by decide, rfl⟩, ⟨main_call9_v0, by decide, rfl⟩, ⟨main_v135, by decide, rfl⟩, ⟨main_v136, by decide, rfl⟩, ⟨main_v137, by decide, rfl⟩, ⟨main_v138, by decide, rfl⟩, ⟨main_v139, by decide, rfl⟩, ⟨main_v140, by decide, rfl⟩, ⟨main_v141, by decide, rfl⟩, ⟨main_v142, by decide, rfl⟩, ⟨main_v143, by decide, rfl⟩, ⟨main_v144, by decide, rfl⟩⟩

/-- A buffer the stretch does not write keeps its contents. -/
theorem J4_keep (W : Valuation τ sig (Elt F)) (r : Ref sig .tc) (hr : r ∉ wJ4) :
    after opsJ4 W (Proc.devRef .tc r) = W (Proc.devRef .tc r) :=
  after_of_writes_sub opsJ4 W J4_writes hr

theorem J4_sub : (opsJ4 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J4_fresh : (opsJ4 : List (HloOp τ sig (Elt F))).Forall fun op => op.fresh = ∅ := by
  simp only [List.Forall]; repeat' constructor

/-- After the stretch joint 4's output buffer holds `rstage` of what the stretch reads: the two argument arrays, joint 1's output, and the four weight arrays. -/
theorem J4_out (W : Valuation τ sig (Elt F)) :
    after opsJ4 W (Proc.devRef .tc main_v144)
      = rstage (shapeCast S131072x9 (extractStridedSlice S131072x1x9 ![0, 4, 0] (W (Proc.devRef .tc main_arg0)) slices_S131072x24x9_S131072x1x9_0_4_0) shapeCasts_S131072x1x9_S131072x9) (shapeCast S131072x3 (extractStridedSlice S131072x1x3 ![0, 4, 0] (W (Proc.devRef .tc main_arg1)) slices_S131072x24x3_S131072x1x3_0_4_0) shapeCasts_S131072x1x3_S131072x3) (subf (shapeCast S131072x3 (extractStridedSlice S131072x1x3 ![0, 4, 0] (W (Proc.devRef .tc main_arg1)) slices_S131072x24x3_S131072x1x3_0_4_0) shapeCasts_S131072x1x3_S131072x3) (shapeCast S131072x3 (extractStridedSlice S131072x1x3 ![0, 1, 0] (W (Proc.devRef .tc main_arg1)) slices_S131072x24x3_S131072x1x3_0_1_0) shapeCasts_S131072x1x3_S131072x3)) (W (Proc.devRef .tc main_v60))
        (extractStridedSlice S1x19x19 ![4, 0, 0] (W (Proc.devRef .tc main_arg4)) slices_S24x19x19_S1x19x19_4_0_0) (extractStridedSlice S1x19 ![4, 0] (W (Proc.devRef .tc main_arg5)) slices_S24x19_S1x19_4_0)
        (extractStridedSlice S1x6x19 ![4, 0, 0] (W (Proc.devRef .tc main_arg6)) slices_S24x6x19_S1x6x19_4_0_0) (extractStridedSlice S1x6 ![4, 0] (W (Proc.devRef .tc main_arg7)) slices_S24x6_S1x6_4_0) := by
  after_results_simp <;> rfl

end Cert.ReferenceIdeal.HRun

end
-- ==== Proof.RefStretchJ5.lean ====
/-
  One stretch of the reference's host program — joint 5: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ5 : List (HloOp τ sig (Elt F)) :=
  [ unary main_arg0 main_v145 ((extractStridedSlice S131072x1x9 ![0, 5, 0] · slices_S131072x24x9_S131072x1x9_0_5_0) : (⟨S131072x24x9, .f32⟩ : BufTy).Contents (Elt F) → (⟨S131072x1x9, .f32⟩ : BufTy).Contents (Elt F)),
    reshape main_v145 main_v146 rfl shapeCasts_S131072x1x9_S131072x9,
    unary main_arg1 main_v147 ((extractStridedSlice S131072x1x3 ![0, 5, 0] · slices_S131072x24x3_S131072x1x3_0_5_0) : (⟨S131072x24x3, .f32⟩ : BufTy).Contents (Elt F) → (⟨S131072x1x3, .f32⟩ : BufTy).Contents (Elt F)),
    reshape main_v147 main_v148 rfl shapeCasts_S131072x1x3_S131072x3,
    unary main_arg1 main_v149 ((extractStridedSlice S131072x1x3 ![0, 2, 0] · slices_S131072x24x3_S131072x1x3_0_2_0) : (⟨S131072x24x3, .f32⟩ : BufTy).Contents (Elt F) → (⟨S131072x1x3, .f32⟩ : BufTy).Contents (Elt F)),
    reshape main_v149 main_v150 rfl shapeCasts_S131072x1x3_S131072x3,
    binary main_v148 main_v150 main_v151 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v151) (TRef.of (T := ⟨S131072x3, .f32⟩) main_v151) (TRef.of (T := ⟨S131072x3, .f32⟩) main_call10_v0) mulf,
    TRef.nullary (TRef.of (T := ⟨S_, .f32⟩) main_call10_cst) (constant S_ .f32 0x00000000#32),
    TRef.binary (TRef.of (T := ⟨S131072x3, .f32⟩) main_call10_v0) (TRef.of (T := ⟨S_, .f32⟩) main_call10_cst) (TRef.of (T := ⟨S131072, .f32⟩) main_call10_v1) (fun x v => Host.reduceAdd x v reducesTo_S131072x3_S131072_d1 h_S_),
    TRef.unary (TRef.of (T := ⟨S131072, .f32⟩) main_call10_v1) (TRef.of (T := ⟨S131072x1, .f32⟩) main_call10_v2) (broadcastInDim S131072x1 ![0] bcast_S131072_S131072x1_0),
    TRef.unary (TRef.of (T := ⟨S131072x1, .f32⟩) main_call10_v2) (TRef.of (T := ⟨S131072x1, .f32⟩) main_v152) Host.sqrt,
    nary ![main_v146, main_v148, main_v152, main_v88] main_v153 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v154 ((extractStridedSlice S1x19x19 ![5, 0, 0] · slices_S24x19x19_S1x19x19_5_0_0) : (⟨S24x19x19, .f32⟩ : BufTy).Contents (Elt F) → (⟨S1x19x19, .f32⟩ : BufTy).Contents (Elt F)),
    reshape main_v154 main_v155 rfl shapeCasts_S1x19x19_S19x19,
    unary main_v155 main_v156 ((transpose S19x19 [1, 0] · transposes_S19x19_S19x19_1_0) : (⟨S19x19, .f32⟩ : BufTy).Contents (Elt F) → (⟨S19x19, .f32⟩ : BufTy).Contents (Elt F)),
    binary main_v153 main_v156 main_v157 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v158 ((extractStridedSlice S1x19 ![5, 0] · slices_S24x19_S1x19_5_0) : (⟨S24x19, .f32⟩ : BufTy).Contents (Elt F) → (⟨S1x19, .f32⟩ : BufTy).Contents (Elt F)),
    reshape main_v158 main_v159 rfl shapeCasts_S1x19_S19,
    unary main_v159 main_v160 (broadcastInDim S1x19 ![1] bcast_S19_S1x19_1 : (⟨S19, .f32⟩ : BufTy).Contents (Elt F) → (⟨S1x19, .f32⟩ : BufTy).Contents (Elt F)),
    unary main_v160 main_v161 (broadcastInDim S131072x19 ![0, 1] bcast_S1x19_S131072x19_0_1 : (⟨S1x19, .f32⟩ : BufTy).Contents (Elt F) → (⟨S131072x19, .f32⟩ : BufTy).Contents (Elt F)),
    binary main_v157 main_v161 main_v162 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S131072x19, .f32⟩) main_call11_v0) (broadcastInDim S131072x19 ![] bcast_S_S131072x19),
    TRef.binary (TRef.of (T := ⟨S131072x19, .f32⟩) main_v162) (TRef.of (T := ⟨S131072x19, .f32⟩) main_call11_v0) (TRef.of (T := ⟨S131072x19, .f32⟩) main_v163) maximumf,
    unary main_arg6 main_v164 ((extractStridedSlice S1x6x19 ![5, 0, 0] · slices_S24x6x19_S1x6x19_5_0_0) : (⟨S24x6x19, .f32⟩ : BufTy).Contents (Elt F) → (⟨S1x6x19, .f32⟩ : BufTy).Contents (Elt F)),
    reshape main_v164 main_v165 rfl shapeCasts_S1x6x19_S6x19,
    unary main_v165 main_v166 ((transpose S19x6 [1, 0] · transposes_S6x19_S19x6_1_0) : (⟨S6x19, .f32⟩ : BufTy).Contents (Elt F) → (⟨S19x6, .f32⟩ : BufTy).Contents (Elt F)),
    binary main_v163 main_v166 main_v167 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v168 ((extractStridedSlice S1x6 ![5, 0] · slices_S24x6_S1x6_5_0) : (⟨S24x6, .f32⟩ : BufTy).Contents (Elt F) → (⟨S1x6, .f32⟩ : BufTy).Contents (Elt F)),
    reshape main_v168 main_v169 rfl shapeCasts_S1x6_S6,
    unary main_v169 main_v170 (broadcastInDim S1x6 ![1] bcast_S6_S1x6_1 : (⟨S6, .f32⟩ : BufTy).Contents (Elt F) → (⟨S1x6, .f32⟩ : BufTy).Contents (Elt F)),
    unary main_v170 main_v171 (broadcastInDim S131072x6 ![0, 1] bcast_S1x6_S131072x6_0_1 : (⟨S1x6, .f32⟩ : BufTy).Contents (Elt F) → (⟨S131072x6, .f32⟩ : BufTy).Contents (Elt F)),
    binary main_v167 main_v171 main_v172 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ5 : List (Ref sig .tc) := [main_v145, main_v146, main_v147, main_v148, main_v149, main_v150, main_v151, main_call10_v0, main_call10_cst, main_call10_v1, main_call10_v2, main_v152, main_v153, main_v154, main_v155, main_v156, main_v157, main_v158, main_v159, main_v160, main_v161, main_v162, main_call11_cst, main_call11_v0, main_v163, main_v164, main_v165, main_v166, main_v167, main_v168, main_v169, main_v170, main_v171, main_v172]

theorem J5_writes : (opsJ5 : List (HloOp τ sig (Elt F))).Forall fun op => op.writes ⊆ (wJ5.map (Proc.devRef (τ := τ) .tc)).toFinset := by
  simp only [List.Forall, nullary_writes, unary_writes, binary_writes, reshape_writes, nary_writes, Finset.singleton_subset_iff,
    List.mem_toFinset, List.mem_map]
  exact ⟨⟨main_v145, by decide, rfl⟩, ⟨main_v146, by decide, rfl⟩, ⟨main_v147, by decide, rfl⟩, ⟨main_v148, by decide, rfl⟩, ⟨main_v149, by decide, rfl⟩, ⟨main_v150, by decide, rfl⟩, ⟨main_v151, by decide, rfl⟩, ⟨main_call10_v0, by decide, rfl⟩, ⟨main_call10_cst, by decide, rfl⟩, ⟨main_call10_v1, by decide, rfl⟩, ⟨main_call10_v2, by decide, rfl⟩, ⟨main_v152, by decide, rfl⟩, ⟨main_v153, by decide, rfl⟩, ⟨main_v154, by decide, rfl⟩, ⟨main_v155, by decide, rfl⟩, ⟨main_v156, by decide, rfl⟩, ⟨main_v157, by decide, rfl⟩, ⟨main_v158, by decide, rfl⟩, ⟨main_v159, by decide, rfl⟩, ⟨main_v160, by decide, rfl⟩, ⟨main_v161, by decide, rfl⟩, ⟨main_v162, by decide, rfl⟩, ⟨main_call11_cst, by decide, rfl⟩, ⟨main_call11_v0, by decide, rfl⟩, ⟨main_v163, by decide, rfl⟩, ⟨main_v164, by decide, rfl⟩, ⟨main_v165, by decide, rfl⟩, ⟨main_v166, by decide, rfl⟩, ⟨main_v167, by decide, rfl⟩, ⟨main_v168, by decide, rfl⟩, ⟨main_v169, by decide, rfl⟩, ⟨main_v170, by decide, rfl⟩, ⟨main_v171, by decide, rfl⟩, ⟨main_v172, by decide, rfl⟩⟩

/-- A buffer the stretch does not write keeps its contents. -/
theorem J5_keep (W : Valuation τ sig (Elt F)) (r : Ref sig .tc) (hr : r ∉ wJ5) :
    after opsJ5 W (Proc.devRef .tc r) = W (Proc.devRef .tc r) :=
  after_of_writes_sub opsJ5 W J5_writes hr

theorem J5_sub : (opsJ5 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J5_fresh : (opsJ5 : List (HloOp τ sig (Elt F))).Forall fun op => op.fresh = ∅ := by
  simp only [List.Forall]; repeat' constructor

/-- After the stretch joint 5's output buffer holds `rstage` of what the stretch reads: the two argument arrays, joint 2's output, and the four weight arrays. -/
theorem J5_out (W : Valuation τ sig (Elt F)) :
    after opsJ5 W (Proc.devRef .tc main_v172)
      = rstage (shapeCast S131072x9 (extractStridedSlice S131072x1x9 ![0, 5, 0] (W (Proc.devRef .tc main_arg0)) slices_S131072x24x9_S131072x1x9_0_5_0) shapeCasts_S131072x1x9_S131072x9) (shapeCast S131072x3 (extractStridedSlice S131072x1x3 ![0, 5, 0] (W (Proc.devRef .tc main_arg1)) slices_S131072x24x3_S131072x1x3_0_5_0) shapeCasts_S131072x1x3_S131072x3) (subf (shapeCast S131072x3 (extractStridedSlice S131072x1x3 ![0, 5, 0] (W (Proc.devRef .tc main_arg1)) slices_S131072x24x3_S131072x1x3_0_5_0) shapeCasts_S131072x1x3_S131072x3) (shapeCast S131072x3 (extractStridedSlice S131072x1x3 ![0, 2, 0] (W (Proc.devRef .tc main_arg1)) slices_S131072x24x3_S131072x1x3_0_2_0) shapeCasts_S131072x1x3_S131072x3)) (W (Proc.devRef .tc main_v88))
        (extractStridedSlice S1x19x19 ![5, 0, 0] (W (Proc.devRef .tc main_arg4)) slices_S24x19x19_S1x19x19_5_0_0) (extractStridedSlice S1x19 ![5, 0] (W (Proc.devRef .tc main_arg5)) slices_S24x19_S1x19_5_0)
        (extractStridedSlice S1x6x19 ![5, 0, 0] (W (Proc.devRef .tc main_arg6)) slices_S24x6x19_S1x6x19_5_0_0) (extractStridedSlice S1x6 ![5, 0] (W (Proc.devRef .tc main_arg7)) slices_S24x6_S1x6_5_0) := by
  after_results_simp <;> rfl

end Cert.ReferenceIdeal.HRun

end
-- ==== Proof.RefStretchJ6.lean ====
/-
  One stretch of the reference's host program — joint 6: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ6 : List (HloOp τ sig (Elt F)) :=
  [ unary main_arg0 main_v173 ((extractStridedSlice S131072x1x9 ![0, 6, 0] · slices_S131072x24x9_S131072x1x9_0_6_0) : (⟨S131072x24x9, .f32⟩ : BufTy).Contents (Elt F) → (⟨S131072x1x9, .f32⟩ : BufTy).Contents (Elt F)),
    reshape main_v173 main_v174 rfl shapeCasts_S131072x1x9_S131072x9,
    unary main_arg1 main_v175 ((extractStridedSlice S131072x1x3 ![0, 6, 0] · slices_S131072x24x3_S131072x1x3_0_6_0) : (⟨S131072x24x3, .f32⟩ : BufTy).Contents (Elt F) → (⟨S131072x1x3, .f32⟩ : BufTy).Contents (Elt F)),
    reshape main_v175 main_v176 rfl shapeCasts_S131072x1x3_S131072x3,
    unary main_arg1 main_v177 ((extractStridedSlice S131072x1x3 ![0, 3, 0] · slices_S131072x24x3_S131072x1x3_0_3_0) : (⟨S131072x24x3, .f32⟩ : BufTy).Contents (Elt F) → (⟨S131072x1x3, .f32⟩ : BufTy).Contents (Elt F)),
    reshape main_v177 main_v178 rfl shapeCasts_S131072x1x3_S131072x3,
    binary main_v176 main_v178 main_v179 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v179) (TRef.of (T := ⟨S131072x3, .f32⟩) main_v179) (TRef.of (T := ⟨S131072x3, .f32⟩) main_call12_v0) mulf,
    TRef.nullary (TRef.of (T := ⟨S_, .f32⟩) main_call12_cst) (constant S_ .f32 0x00000000#32),
    TRef.binary (TRef.of (T := ⟨S131072x3, .f32⟩) main_call12_v0) (TRef.of (T := ⟨S_, .f32⟩) main_call12_cst) (TRef.of (T := ⟨S131072, .f32⟩) main_call12_v1) (fun x v => Host.reduceAdd x v reducesTo_S131072x3_S131072_d1 h_S_),
    TRef.unary (TRef.of (T := ⟨S131072, .f32⟩) main_call12_v1) (TRef.of (T := ⟨S131072x1, .f32⟩) main_call12_v2) (broadcastInDim S131072x1 ![0] bcast_S131072_S131072x1_0),
    TRef.unary (TRef.of (T := ⟨S131072x1, .f32⟩) main_call12_v2) (TRef.of (T := ⟨S131072x1, .f32⟩) main_v180) Host.sqrt,
    nary ![main_v174, main_v176, main_v180, main_v116] main_v181 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v182 ((extractStridedSlice S1x19x19 ![6, 0, 0] · slices_S24x19x19_S1x19x19_6_0_0) : (⟨S24x19x19, .f32⟩ : BufTy).Contents (Elt F) → (⟨S1x19x19, .f32⟩ : BufTy).Contents (Elt F)),
    reshape main_v182 main_v183 rfl shapeCasts_S1x19x19_S19x19,
    unary main_v183 main_v184 ((transpose S19x19 [1, 0] · transposes_S19x19_S19x19_1_0) : (⟨S19x19, .f32⟩ : BufTy).Contents (Elt F) → (⟨S19x19, .f32⟩ : BufTy).Contents (Elt F)),
    binary main_v181 main_v184 main_v185 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v186 ((extractStridedSlice S1x19 ![6, 0] · slices_S24x19_S1x19_6_0) : (⟨S24x19, .f32⟩ : BufTy).Contents (Elt F) → (⟨S1x19, .f32⟩ : BufTy).Contents (Elt F)),
    reshape main_v186 main_v187 rfl shapeCasts_S1x19_S19,
    unary main_v187 main_v188 (broadcastInDim S1x19 ![1] bcast_S19_S1x19_1 : (⟨S19, .f32⟩ : BufTy).Contents (Elt F) → (⟨S1x19, .f32⟩ : BufTy).Contents (Elt F)),
    unary main_v188 main_v189 (broadcastInDim S131072x19 ![0, 1] bcast_S1x19_S131072x19_0_1 : (⟨S1x19, .f32⟩ : BufTy).Contents (Elt F) → (⟨S131072x19, .f32⟩ : BufTy).Contents (Elt F)),
    binary main_v185 main_v189 main_v190 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S131072x19, .f32⟩) main_call13_v0) (broadcastInDim S131072x19 ![] bcast_S_S131072x19),
    TRef.binary (TRef.of (T := ⟨S131072x19, .f32⟩) main_v190) (TRef.of (T := ⟨S131072x19, .f32⟩) main_call13_v0) (TRef.of (T := ⟨S131072x19, .f32⟩) main_v191) maximumf,
    unary main_arg6 main_v192 ((extractStridedSlice S1x6x19 ![6, 0, 0] · slices_S24x6x19_S1x6x19_6_0_0) : (⟨S24x6x19, .f32⟩ : BufTy).Contents (Elt F) → (⟨S1x6x19, .f32⟩ : BufTy).Contents (Elt F)),
    reshape main_v192 main_v193 rfl shapeCasts_S1x6x19_S6x19,
    unary main_v193 main_v194 ((transpose S19x6 [1, 0] · transposes_S6x19_S19x6_1_0) : (⟨S6x19, .f32⟩ : BufTy).Contents (Elt F) → (⟨S19x6, .f32⟩ : BufTy).Contents (Elt F)),
    binary main_v191 main_v194 main_v195 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v196 ((extractStridedSlice S1x6 ![6, 0] · slices_S24x6_S1x6_6_0) : (⟨S24x6, .f32⟩ : BufTy).Contents (Elt F) → (⟨S1x6, .f32⟩ : BufTy).Contents (Elt F)),
    reshape main_v196 main_v197 rfl shapeCasts_S1x6_S6,
    unary main_v197 main_v198 (broadcastInDim S1x6 ![1] bcast_S6_S1x6_1 : (⟨S6, .f32⟩ : BufTy).Contents (Elt F) → (⟨S1x6, .f32⟩ : BufTy).Contents (Elt F)),
    unary main_v198 main_v199 (broadcastInDim S131072x6 ![0, 1] bcast_S1x6_S131072x6_0_1 : (⟨S1x6, .f32⟩ : BufTy).Contents (Elt F) → (⟨S131072x6, .f32⟩ : BufTy).Contents (Elt F)),
    binary main_v195 main_v199 main_v200 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ6 : List (Ref sig .tc) := [main_v173, main_v174, main_v175, main_v176, main_v177, main_v178, main_v179, main_call12_v0, main_call12_cst, main_call12_v1, main_call12_v2, main_v180, main_v181, main_v182, main_v183, main_v184, main_v185, main_v186, main_v187, main_v188, main_v189, main_v190, main_call13_cst, main_call13_v0, main_v191, main_v192, main_v193, main_v194, main_v195, main_v196, main_v197, main_v198, main_v199, main_v200]

theorem J6_writes : (opsJ6 : List (HloOp τ sig (Elt F))).Forall fun op => op.writes ⊆ (wJ6.map (Proc.devRef (τ := τ) .tc)).toFinset := by
  simp only [List.Forall, nullary_writes, unary_writes, binary_writes, reshape_writes, nary_writes, Finset.singleton_subset_iff,
    List.mem_toFinset, List.mem_map]
  exact ⟨⟨main_v173, by decide, rfl⟩, ⟨main_v174, by decide, rfl⟩, ⟨main_v175, by decide, rfl⟩, ⟨main_v176, by decide, rfl⟩, ⟨main_v177, by decide, rfl⟩, ⟨main_v178, by decide, rfl⟩, ⟨main_v179, by decide, rfl⟩, ⟨main_call12_v0, by decide, rfl⟩, ⟨main_call12_cst, by decide, rfl⟩, ⟨main_call12_v1, by decide, rfl⟩, ⟨main_call12_v2, by decide, rfl⟩, ⟨main_v180, by decide, rfl⟩, ⟨main_v181, by decide, rfl⟩, ⟨main_v182, by decide, rfl⟩, ⟨main_v183, by decide, rfl⟩, ⟨main_v184, by decide, rfl⟩, ⟨main_v185, by decide, rfl⟩, ⟨main_v186, by decide, rfl⟩, ⟨main_v187, by decide, rfl⟩, ⟨main_v188, by decide, rfl⟩, ⟨main_v189, by decide, rfl⟩, ⟨main_v190, by decide, rfl⟩, ⟨main_call13_cst, by decide, rfl⟩, ⟨main_call13_v0, by decide, rfl⟩, ⟨main_v191, by decide, rfl⟩, ⟨main_v192, by decide, rfl⟩, ⟨main_v193, by decide, rfl⟩, ⟨main_v194, by decide, rfl⟩, ⟨main_v195, by decide, rfl⟩, ⟨main_v196, by decide, rfl⟩, ⟨main_v197, by decide, rfl⟩, ⟨main_v198, by decide, rfl⟩, ⟨main_v199, by decide, rfl⟩, ⟨main_v200, by decide, rfl⟩⟩

/-- A buffer the stretch does not write keeps its contents. -/
theorem J6_keep (W : Valuation τ sig (Elt F)) (r : Ref sig .tc) (hr : r ∉ wJ6) :
    after opsJ6 W (Proc.devRef .tc r) = W (Proc.devRef .tc r) :=
  after_of_writes_sub opsJ6 W J6_writes hr

theorem J6_sub : (opsJ6 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J6_fresh : (opsJ6 : List (HloOp τ sig (Elt F))).Forall fun op => op.fresh = ∅ := by
  simp only [List.Forall]; repeat' constructor

/-- After the stretch joint 6's output buffer holds `rstage` of what the stretch reads: the two argument arrays, joint 3's output, and the four weight arrays. -/
theorem J6_out (W : Valuation τ sig (Elt F)) :
    after opsJ6 W (Proc.devRef .tc main_v200)
      = rstage (shapeCast S131072x9 (extractStridedSlice S131072x1x9 ![0, 6, 0] (W (Proc.devRef .tc main_arg0)) slices_S131072x24x9_S131072x1x9_0_6_0) shapeCasts_S131072x1x9_S131072x9) (shapeCast S131072x3 (extractStridedSlice S131072x1x3 ![0, 6, 0] (W (Proc.devRef .tc main_arg1)) slices_S131072x24x3_S131072x1x3_0_6_0) shapeCasts_S131072x1x3_S131072x3) (subf (shapeCast S131072x3 (extractStridedSlice S131072x1x3 ![0, 6, 0] (W (Proc.devRef .tc main_arg1)) slices_S131072x24x3_S131072x1x3_0_6_0) shapeCasts_S131072x1x3_S131072x3) (shapeCast S131072x3 (extractStridedSlice S131072x1x3 ![0, 3, 0] (W (Proc.devRef .tc main_arg1)) slices_S131072x24x3_S131072x1x3_0_3_0) shapeCasts_S131072x1x3_S131072x3)) (W (Proc.devRef .tc main_v116))
        (extractStridedSlice S1x19x19 ![6, 0, 0] (W (Proc.devRef .tc main_arg4)) slices_S24x19x19_S1x19x19_6_0_0) (extractStridedSlice S1x19 ![6, 0] (W (Proc.devRef .tc main_arg5)) slices_S24x19_S1x19_6_0)
        (extractStridedSlice S1x6x19 ![6, 0, 0] (W (Proc.devRef .tc main_arg6)) slices_S24x6x19_S1x6x19_6_0_0) (extractStridedSlice S1x6 ![6, 0] (W (Proc.devRef .tc main_arg7)) slices_S24x6_S1x6_6_0) := by
  after_results_simp <;> rfl

end Cert.ReferenceIdeal.HRun

end
-- ==== Proof.RefStretchJ7.lean ====
/-
  One stretch of the reference's host program — joint 7: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ7 : List (HloOp τ sig (Elt F)) :=
  [ unary main_arg0 main_v201 ((extractStridedSlice S131072x1x9 ![0, 7, 0] · slices_S131072x24x9_S131072x1x9_0_7_0) : (⟨S131072x24x9, .f32⟩ : BufTy).Contents (Elt F) → (⟨S131072x1x9, .f32⟩ : BufTy).Contents (Elt F)),
    reshape main_v201 main_v202 rfl shapeCasts_S131072x1x9_S131072x9,
    unary main_arg1 main_v203 ((extractStridedSlice S131072x1x3 ![0, 7, 0] · slices_S131072x24x3_S131072x1x3_0_7_0) : (⟨S131072x24x3, .f32⟩ : BufTy).Contents (Elt F) → (⟨S131072x1x3, .f32⟩ : BufTy).Contents (Elt F)),
    reshape main_v203 main_v204 rfl shapeCasts_S131072x1x3_S131072x3,
    unary main_arg1 main_v205 ((extractStridedSlice S131072x1x3 ![0, 4, 0] · slices_S131072x24x3_S131072x1x3_0_4_0) : (⟨S131072x24x3, .f32⟩ : BufTy).Contents (Elt F) → (⟨S131072x1x3, .f32⟩ : BufTy).Contents (Elt F)),
    reshape main_v205 main_v206 rfl shapeCasts_S131072x1x3_S131072x3,
    binary main_v204 main_v206 main_v207 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v207) (TRef.of (T := ⟨S131072x3, .f32⟩) main_v207) (TRef.of (T := ⟨S131072x3, .f32⟩) main_call14_v0) mulf,
    TRef.nullary (TRef.of (T := ⟨S_, .f32⟩) main_call14_cst) (constant S_ .f32 0x00000000#32),
    TRef.binary (TRef.of (T := ⟨S131072x3, .f32⟩) main_call14_v0) (TRef.of (T := ⟨S_, .f32⟩) main_call14_cst) (TRef.of (T := ⟨S131072, .f32⟩) main_call14_v1) (fun x v => Host.reduceAdd x v reducesTo_S131072x3_S131072_d1 h_S_),
    TRef.unary (TRef.of (T := ⟨S131072, .f32⟩) main_call14_v1) (TRef.of (T := ⟨S131072x1, .f32⟩) main_call14_v2) (broadcastInDim S131072x1 ![0] bcast_S131072_S131072x1_0),
    TRef.unary (TRef.of (T := ⟨S131072x1, .f32⟩) main_call14_v2) (TRef.of (T := ⟨S131072x1, .f32⟩) main_v208) Host.sqrt,
    nary ![main_v202, main_v204, main_v208, main_v144] main_v209 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v210 ((extractStridedSlice S1x19x19 ![7, 0, 0] · slices_S24x19x19_S1x19x19_7_0_0) : (⟨S24x19x19, .f32⟩ : BufTy).Contents (Elt F) → (⟨S1x19x19, .f32⟩ : BufTy).Contents (Elt F)),
    reshape main_v210 main_v211 rfl shapeCasts_S1x19x19_S19x19,
    unary main_v211 main_v212 ((transpose S19x19 [1, 0] · transposes_S19x19_S19x19_1_0) : (⟨S19x19, .f32⟩ : BufTy).Contents (Elt F) → (⟨S19x19, .f32⟩ : BufTy).Contents (Elt F)),
    binary main_v209 main_v212 main_v213 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v214 ((extractStridedSlice S1x19 ![7, 0] · slices_S24x19_S1x19_7_0) : (⟨S24x19, .f32⟩ : BufTy).Contents (Elt F) → (⟨S1x19, .f32⟩ : BufTy).Contents (Elt F)),
    reshape main_v214 main_v215 rfl shapeCasts_S1x19_S19,
    unary main_v215 main_v216 (broadcastInDim S1x19 ![1] bcast_S19_S1x19_1 : (⟨S19, .f32⟩ : BufTy).Contents (Elt F) → (⟨S1x19, .f32⟩ : BufTy).Contents (Elt F)),
    unary main_v216 main_v217 (broadcastInDim S131072x19 ![0, 1] bcast_S1x19_S131072x19_0_1 : (⟨S1x19, .f32⟩ : BufTy).Contents (Elt F) → (⟨S131072x19, .f32⟩ : BufTy).Contents (Elt F)),
    binary main_v213 main_v217 main_v218 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S131072x19, .f32⟩) main_call15_v0) (broadcastInDim S131072x19 ![] bcast_S_S131072x19),
    TRef.binary (TRef.of (T := ⟨S131072x19, .f32⟩) main_v218) (TRef.of (T := ⟨S131072x19, .f32⟩) main_call15_v0) (TRef.of (T := ⟨S131072x19, .f32⟩) main_v219) maximumf,
    unary main_arg6 main_v220 ((extractStridedSlice S1x6x19 ![7, 0, 0] · slices_S24x6x19_S1x6x19_7_0_0) : (⟨S24x6x19, .f32⟩ : BufTy).Contents (Elt F) → (⟨S1x6x19, .f32⟩ : BufTy).Contents (Elt F)),
    reshape main_v220 main_v221 rfl shapeCasts_S1x6x19_S6x19,
    unary main_v221 main_v222 ((transpose S19x6 [1, 0] · transposes_S6x19_S19x6_1_0) : (⟨S6x19, .f32⟩ : BufTy).Contents (Elt F) → (⟨S19x6, .f32⟩ : BufTy).Contents (Elt F)),
    binary main_v219 main_v222 main_v223 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v224 ((extractStridedSlice S1x6 ![7, 0] · slices_S24x6_S1x6_7_0) : (⟨S24x6, .f32⟩ : BufTy).Contents (Elt F) → (⟨S1x6, .f32⟩ : BufTy).Contents (Elt F)),
    reshape main_v224 main_v225 rfl shapeCasts_S1x6_S6,
    unary main_v225 main_v226 (broadcastInDim S1x6 ![1] bcast_S6_S1x6_1 : (⟨S6, .f32⟩ : BufTy).Contents (Elt F) → (⟨S1x6, .f32⟩ : BufTy).Contents (Elt F)),
    unary main_v226 main_v227 (broadcastInDim S131072x6 ![0, 1] bcast_S1x6_S131072x6_0_1 : (⟨S1x6, .f32⟩ : BufTy).Contents (Elt F) → (⟨S131072x6, .f32⟩ : BufTy).Contents (Elt F)),
    binary main_v223 main_v227 main_v228 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ7 : List (Ref sig .tc) := [main_v201, main_v202, main_v203, main_v204, main_v205, main_v206, main_v207, main_call14_v0, main_call14_cst, main_call14_v1, main_call14_v2, main_v208, main_v209, main_v210, main_v211, main_v212, main_v213, main_v214, main_v215, main_v216, main_v217, main_v218, main_call15_cst, main_call15_v0, main_v219, main_v220, main_v221, main_v222, main_v223, main_v224, main_v225, main_v226, main_v227, main_v228]

theorem J7_writes : (opsJ7 : List (HloOp τ sig (Elt F))).Forall fun op => op.writes ⊆ (wJ7.map (Proc.devRef (τ := τ) .tc)).toFinset := by
  simp only [List.Forall, nullary_writes, unary_writes, binary_writes, reshape_writes, nary_writes, Finset.singleton_subset_iff,
    List.mem_toFinset, List.mem_map]
  exact ⟨⟨main_v201, by decide, rfl⟩, ⟨main_v202, by decide, rfl⟩, ⟨main_v203, by decide, rfl⟩, ⟨main_v204, by decide, rfl⟩, ⟨main_v205, by decide, rfl⟩, ⟨main_v206, by decide, rfl⟩, ⟨main_v207, by decide, rfl⟩, ⟨main_call14_v0, by decide, rfl⟩, ⟨main_call14_cst, by decide, rfl⟩, ⟨main_call14_v1, by decide, rfl⟩, ⟨main_call14_v2, by decide, rfl⟩, ⟨main_v208, by decide, rfl⟩, ⟨main_v209, by decide, rfl⟩, ⟨main_v210, by decide, rfl⟩, ⟨main_v211, by decide, rfl⟩, ⟨main_v212, by decide, rfl⟩, ⟨main_v213, by decide, rfl⟩, ⟨main_v214, by decide, rfl⟩, ⟨main_v215, by decide, rfl⟩, ⟨main_v216, by decide, rfl⟩, ⟨main_v217, by decide, rfl⟩, ⟨main_v218, by decide, rfl⟩, ⟨main_call15_cst, by decide, rfl⟩, ⟨main_call15_v0, by decide, rfl⟩, ⟨main_v219, by decide, rfl⟩, ⟨main_v220, by decide, rfl⟩, ⟨main_v221, by decide, rfl⟩, ⟨main_v222, by decide, rfl⟩, ⟨main_v223, by decide, rfl⟩, ⟨main_v224, by decide, rfl⟩, ⟨main_v225, by decide, rfl⟩, ⟨main_v226, by decide, rfl⟩, ⟨main_v227, by decide, rfl⟩, ⟨main_v228, by decide, rfl⟩⟩

/-- A buffer the stretch does not write keeps its contents. -/
theorem J7_keep (W : Valuation τ sig (Elt F)) (r : Ref sig .tc) (hr : r ∉ wJ7) :
    after opsJ7 W (Proc.devRef .tc r) = W (Proc.devRef .tc r) :=
  after_of_writes_sub opsJ7 W J7_writes hr

theorem J7_sub : (opsJ7 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J7_fresh : (opsJ7 : List (HloOp τ sig (Elt F))).Forall fun op => op.fresh = ∅ := by
  simp only [List.Forall]; repeat' constructor

/-- After the stretch joint 7's output buffer holds `rstage` of what the stretch reads: the two argument arrays, joint 4's output, and the four weight arrays. -/
theorem J7_out (W : Valuation τ sig (Elt F)) :
    after opsJ7 W (Proc.devRef .tc main_v228)
      = rstage (shapeCast S131072x9 (extractStridedSlice S131072x1x9 ![0, 7, 0] (W (Proc.devRef .tc main_arg0)) slices_S131072x24x9_S131072x1x9_0_7_0) shapeCasts_S131072x1x9_S131072x9) (shapeCast S131072x3 (extractStridedSlice S131072x1x3 ![0, 7, 0] (W (Proc.devRef .tc main_arg1)) slices_S131072x24x3_S131072x1x3_0_7_0) shapeCasts_S131072x1x3_S131072x3) (subf (shapeCast S131072x3 (extractStridedSlice S131072x1x3 ![0, 7, 0] (W (Proc.devRef .tc main_arg1)) slices_S131072x24x3_S131072x1x3_0_7_0) shapeCasts_S131072x1x3_S131072x3) (shapeCast S131072x3 (extractStridedSlice S131072x1x3 ![0, 4, 0] (W (Proc.devRef .tc main_arg1)) slices_S131072x24x3_S131072x1x3_0_4_0) shapeCasts_S131072x1x3_S131072x3)) (W (Proc.devRef .tc main_v144))
        (extractStridedSlice S1x19x19 ![7, 0, 0] (W (Proc.devRef .tc main_arg4)) slices_S24x19x19_S1x19x19_7_0_0) (extractStridedSlice S1x19 ![7, 0] (W (Proc.devRef .tc main_arg5)) slices_S24x19_S1x19_7_0)
        (extractStridedSlice S1x6x19 ![7, 0, 0] (W (Proc.devRef .tc main_arg6)) slices_S24x6x19_S1x6x19_7_0_0) (extractStridedSlice S1x6 ![7, 0] (W (Proc.devRef .tc main_arg7)) slices_S24x6_S1x6_7_0) := by
  after_results_simp <;> rfl

end Cert.ReferenceIdeal.HRun

end
-- ==== Proof.RefStretchJ8.lean ====
/-
  One stretch of the reference's host program — joint 8: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ8 : List (HloOp τ sig (Elt F)) :=
  [ unary main_arg0 main_v229 ((extractStridedSlice S131072x1x9 ![0, 8, 0] · slices_S131072x24x9_S131072x1x9_0_8_0) : (⟨S131072x24x9, .f32⟩ : BufTy).Contents (Elt F) → (⟨S131072x1x9, .f32⟩ : BufTy).Contents (Elt F)),
    reshape main_v229 main_v230 rfl shapeCasts_S131072x1x9_S131072x9,
    unary main_arg1 main_v231 ((extractStridedSlice S131072x1x3 ![0, 8, 0] · slices_S131072x24x3_S131072x1x3_0_8_0) : (⟨S131072x24x3, .f32⟩ : BufTy).Contents (Elt F) → (⟨S131072x1x3, .f32⟩ : BufTy).Contents (Elt F)),
    reshape main_v231 main_v232 rfl shapeCasts_S131072x1x3_S131072x3,
    unary main_arg1 main_v233 ((extractStridedSlice S131072x1x3 ![0, 5, 0] · slices_S131072x24x3_S131072x1x3_0_5_0) : (⟨S131072x24x3, .f32⟩ : BufTy).Contents (Elt F) → (⟨S131072x1x3, .f32⟩ : BufTy).Contents (Elt F)),
    reshape main_v233 main_v234 rfl shapeCasts_S131072x1x3_S131072x3,
    binary main_v232 main_v234 main_v235 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v235) (TRef.of (T := ⟨S131072x3, .f32⟩) main_v235) (TRef.of (T := ⟨S131072x3, .f32⟩) main_call16_v0) mulf,
    TRef.nullary (TRef.of (T := ⟨S_, .f32⟩) main_call16_cst) (constant S_ .f32 0x00000000#32),
    TRef.binary (TRef.of (T := ⟨S131072x3, .f32⟩) main_call16_v0) (TRef.of (T := ⟨S_, .f32⟩) main_call16_cst) (TRef.of (T := ⟨S131072, .f32⟩) main_call16_v1) (fun x v => Host.reduceAdd x v reducesTo_S131072x3_S131072_d1 h_S_),
    TRef.unary (TRef.of (T := ⟨S131072, .f32⟩) main_call16_v1) (TRef.of (T := ⟨S131072x1, .f32⟩) main_call16_v2) (broadcastInDim S131072x1 ![0] bcast_S131072_S131072x1_0),
    TRef.unary (TRef.of (T := ⟨S131072x1, .f32⟩) main_call16_v2) (TRef.of (T := ⟨S131072x1, .f32⟩) main_v236) Host.sqrt,
    nary ![main_v230, main_v232, main_v236, main_v172] main_v237 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v238 ((extractStridedSlice S1x19x19 ![8, 0, 0] · slices_S24x19x19_S1x19x19_8_0_0) : (⟨S24x19x19, .f32⟩ : BufTy).Contents (Elt F) → (⟨S1x19x19, .f32⟩ : BufTy).Contents (Elt F)),
    reshape main_v238 main_v239 rfl shapeCasts_S1x19x19_S19x19,
    unary main_v239 main_v240 ((transpose S19x19 [1, 0] · transposes_S19x19_S19x19_1_0) : (⟨S19x19, .f32⟩ : BufTy).Contents (Elt F) → (⟨S19x19, .f32⟩ : BufTy).Contents (Elt F)),
    binary main_v237 main_v240 main_v241 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v242 ((extractStridedSlice S1x19 ![8, 0] · slices_S24x19_S1x19_8_0) : (⟨S24x19, .f32⟩ : BufTy).Contents (Elt F) → (⟨S1x19, .f32⟩ : BufTy).Contents (Elt F)),
    reshape main_v242 main_v243 rfl shapeCasts_S1x19_S19,
    unary main_v243 main_v244 (broadcastInDim S1x19 ![1] bcast_S19_S1x19_1 : (⟨S19, .f32⟩ : BufTy).Contents (Elt F) → (⟨S1x19, .f32⟩ : BufTy).Contents (Elt F)),
    unary main_v244 main_v245 (broadcastInDim S131072x19 ![0, 1] bcast_S1x19_S131072x19_0_1 : (⟨S1x19, .f32⟩ : BufTy).Contents (Elt F) → (⟨S131072x19, .f32⟩ : BufTy).Contents (Elt F)),
    binary main_v241 main_v245 main_v246 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S131072x19, .f32⟩) main_call17_v0) (broadcastInDim S131072x19 ![] bcast_S_S131072x19),
    TRef.binary (TRef.of (T := ⟨S131072x19, .f32⟩) main_v246) (TRef.of (T := ⟨S131072x19, .f32⟩) main_call17_v0) (TRef.of (T := ⟨S131072x19, .f32⟩) main_v247) maximumf,
    unary main_arg6 main_v248 ((extractStridedSlice S1x6x19 ![8, 0, 0] · slices_S24x6x19_S1x6x19_8_0_0) : (⟨S24x6x19, .f32⟩ : BufTy).Contents (Elt F) → (⟨S1x6x19, .f32⟩ : BufTy).Contents (Elt F)),
    reshape main_v248 main_v249 rfl shapeCasts_S1x6x19_S6x19,
    unary main_v249 main_v250 ((transpose S19x6 [1, 0] · transposes_S6x19_S19x6_1_0) : (⟨S6x19, .f32⟩ : BufTy).Contents (Elt F) → (⟨S19x6, .f32⟩ : BufTy).Contents (Elt F)),
    binary main_v247 main_v250 main_v251 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v252 ((extractStridedSlice S1x6 ![8, 0] · slices_S24x6_S1x6_8_0) : (⟨S24x6, .f32⟩ : BufTy).Contents (Elt F) → (⟨S1x6, .f32⟩ : BufTy).Contents (Elt F)),
    reshape main_v252 main_v253 rfl shapeCasts_S1x6_S6,
    unary main_v253 main_v254 (broadcastInDim S1x6 ![1] bcast_S6_S1x6_1 : (⟨S6, .f32⟩ : BufTy).Contents (Elt F) → (⟨S1x6, .f32⟩ : BufTy).Contents (Elt F)),
    unary main_v254 main_v255 (broadcastInDim S131072x6 ![0, 1] bcast_S1x6_S131072x6_0_1 : (⟨S1x6, .f32⟩ : BufTy).Contents (Elt F) → (⟨S131072x6, .f32⟩ : BufTy).Contents (Elt F)),
    binary main_v251 main_v255 main_v256 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ8 : List (Ref sig .tc) := [main_v229, main_v230, main_v231, main_v232, main_v233, main_v234, main_v235, main_call16_v0, main_call16_cst, main_call16_v1, main_call16_v2, main_v236, main_v237, main_v238, main_v239, main_v240, main_v241, main_v242, main_v243, main_v244, main_v245, main_v246, main_call17_cst, main_call17_v0, main_v247, main_v248, main_v249, main_v250, main_v251, main_v252, main_v253, main_v254, main_v255, main_v256]

theorem J8_writes : (opsJ8 : List (HloOp τ sig (Elt F))).Forall fun op => op.writes ⊆ (wJ8.map (Proc.devRef (τ := τ) .tc)).toFinset := by
  simp only [List.Forall, nullary_writes, unary_writes, binary_writes, reshape_writes, nary_writes, Finset.singleton_subset_iff,
    List.mem_toFinset, List.mem_map]
  exact ⟨⟨main_v229, by decide, rfl⟩, ⟨main_v230, by decide, rfl⟩, ⟨main_v231, by decide, rfl⟩, ⟨main_v232, by decide, rfl⟩, ⟨main_v233, by decide, rfl⟩, ⟨main_v234, by decide, rfl⟩, ⟨main_v235, by decide, rfl⟩, ⟨main_call16_v0, by decide, rfl⟩, ⟨main_call16_cst, by decide, rfl⟩, ⟨main_call16_v1, by decide, rfl⟩, ⟨main_call16_v2, by decide, rfl⟩, ⟨main_v236, by decide, rfl⟩, ⟨main_v237, by decide, rfl⟩, ⟨main_v238, by decide, rfl⟩, ⟨main_v239, by decide, rfl⟩, ⟨main_v240, by decide, rfl⟩, ⟨main_v241, by decide, rfl⟩, ⟨main_v242, by decide, rfl⟩, ⟨main_v243, by decide, rfl⟩, ⟨main_v244, by decide, rfl⟩, ⟨main_v245, by decide, rfl⟩, ⟨main_v246, by decide, rfl⟩, ⟨main_call17_cst, by decide, rfl⟩, ⟨main_call17_v0, by decide, rfl⟩, ⟨main_v247, by decide, rfl⟩, ⟨main_v248, by decide, rfl⟩, ⟨main_v249, by decide, rfl⟩, ⟨main_v250, by decide, rfl⟩, ⟨main_v251, by decide, rfl⟩, ⟨main_v252, by decide, rfl⟩, ⟨main_v253, by decide, rfl⟩, ⟨main_v254, by decide, rfl⟩, ⟨main_v255, by decide, rfl⟩, ⟨main_v256, by decide, rfl⟩⟩

/-- A buffer the stretch does not write keeps its contents. -/
theorem J8_keep (W : Valuation τ sig (Elt F)) (r : Ref sig .tc) (hr : r ∉ wJ8) :
    after opsJ8 W (Proc.devRef .tc r) = W (Proc.devRef .tc r) :=
  after_of_writes_sub opsJ8 W J8_writes hr

theorem J8_sub : (opsJ8 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J8_fresh : (opsJ8 : List (HloOp τ sig (Elt F))).Forall fun op => op.fresh = ∅ := by
  simp only [List.Forall]; repeat' constructor

/-- After the stretch joint 8's output buffer holds `rstage` of what the stretch reads: the two argument arrays, joint 5's output, and the four weight arrays. -/
theorem J8_out (W : Valuation τ sig (Elt F)) :
    after opsJ8 W (Proc.devRef .tc main_v256)
      = rstage (shapeCast S131072x9 (extractStridedSlice S131072x1x9 ![0, 8, 0] (W (Proc.devRef .tc main_arg0)) slices_S131072x24x9_S131072x1x9_0_8_0) shapeCasts_S131072x1x9_S131072x9) (shapeCast S131072x3 (extractStridedSlice S131072x1x3 ![0, 8, 0] (W (Proc.devRef .tc main_arg1)) slices_S131072x24x3_S131072x1x3_0_8_0) shapeCasts_S131072x1x3_S131072x3) (subf (shapeCast S131072x3 (extractStridedSlice S131072x1x3 ![0, 8, 0] (W (Proc.devRef .tc main_arg1)) slices_S131072x24x3_S131072x1x3_0_8_0) shapeCasts_S131072x1x3_S131072x3) (shapeCast S131072x3 (extractStridedSlice S131072x1x3 ![0, 5, 0] (W (Proc.devRef .tc main_arg1)) slices_S131072x24x3_S131072x1x3_0_5_0) shapeCasts_S131072x1x3_S131072x3)) (W (Proc.devRef .tc main_v172))
        (extractStridedSlice S1x19x19 ![8, 0, 0] (W (Proc.devRef .tc main_arg4)) slices_S24x19x19_S1x19x19_8_0_0) (extractStridedSlice S1x19 ![8, 0] (W (Proc.devRef .tc main_arg5)) slices_S24x19_S1x19_8_0)
        (extractStridedSlice S1x6x19 ![8, 0, 0] (W (Proc.devRef .tc main_arg6)) slices_S24x6x19_S1x6x19_8_0_0) (extractStridedSlice S1x6 ![8, 0] (W (Proc.devRef .tc main_arg7)) slices_S24x6_S1x6_8_0) := by
  after_results_simp <;> rfl

end Cert.ReferenceIdeal.HRun

end
-- ==== Proof.RefStretchJ9.lean ====
/-
  One stretch of the reference's host program — joint 9: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ9 : List (HloOp τ sig (Elt F)) :=
  [ unary main_arg0 main_v257 ((extractStridedSlice S131072x1x9 ![0, 9, 0] · slices_S131072x24x9_S131072x1x9_0_9_0) : (⟨S131072x24x9, .f32⟩ : BufTy).Contents (Elt F) → (⟨S131072x1x9, .f32⟩ : BufTy).Contents (Elt F)),
    reshape main_v257 main_v258 rfl shapeCasts_S131072x1x9_S131072x9,
    unary main_arg1 main_v259 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v259 main_v260 rfl shapeCasts_S131072x1x3_S131072x3,
    unary main_arg1 main_v261 ((extractStridedSlice S131072x1x3 ![0, 6, 0] · slices_S131072x24x3_S131072x1x3_0_6_0) : (⟨S131072x24x3, .f32⟩ : BufTy).Contents (Elt F) → (⟨S131072x1x3, .f32⟩ : BufTy).Contents (Elt F)),
    reshape main_v261 main_v262 rfl shapeCasts_S131072x1x3_S131072x3,
    binary main_v260 main_v262 main_v263 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v263) (TRef.of (T := ⟨S131072x3, .f32⟩) main_v263) (TRef.of (T := ⟨S131072x3, .f32⟩) main_call18_v0) mulf,
    TRef.nullary (TRef.of (T := ⟨S_, .f32⟩) main_call18_cst) (constant S_ .f32 0x00000000#32),
    TRef.binary (TRef.of (T := ⟨S131072x3, .f32⟩) main_call18_v0) (TRef.of (T := ⟨S_, .f32⟩) main_call18_cst) (TRef.of (T := ⟨S131072, .f32⟩) main_call18_v1) (fun x v => Host.reduceAdd x v reducesTo_S131072x3_S131072_d1 h_S_),
    TRef.unary (TRef.of (T := ⟨S131072, .f32⟩) main_call18_v1) (TRef.of (T := ⟨S131072x1, .f32⟩) main_call18_v2) (broadcastInDim S131072x1 ![0] bcast_S131072_S131072x1_0),
    TRef.unary (TRef.of (T := ⟨S131072x1, .f32⟩) main_call18_v2) (TRef.of (T := ⟨S131072x1, .f32⟩) main_v264) Host.sqrt,
    nary ![main_v258, main_v260, main_v264, main_v200] main_v265 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v266 ((extractStridedSlice S1x19x19 ![9, 0, 0] · slices_S24x19x19_S1x19x19_9_0_0) : (⟨S24x19x19, .f32⟩ : BufTy).Contents (Elt F) → (⟨S1x19x19, .f32⟩ : BufTy).Contents (Elt F)),
    reshape main_v266 main_v267 rfl shapeCasts_S1x19x19_S19x19,
    unary main_v267 main_v268 ((transpose S19x19 [1, 0] · transposes_S19x19_S19x19_1_0) : (⟨S19x19, .f32⟩ : BufTy).Contents (Elt F) → (⟨S19x19, .f32⟩ : BufTy).Contents (Elt F)),
    binary main_v265 main_v268 main_v269 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v270 ((extractStridedSlice S1x19 ![9, 0] · slices_S24x19_S1x19_9_0) : (⟨S24x19, .f32⟩ : BufTy).Contents (Elt F) → (⟨S1x19, .f32⟩ : BufTy).Contents (Elt F)),
    reshape main_v270 main_v271 rfl shapeCasts_S1x19_S19,
    unary main_v271 main_v272 (broadcastInDim S1x19 ![1] bcast_S19_S1x19_1 : (⟨S19, .f32⟩ : BufTy).Contents (Elt F) → (⟨S1x19, .f32⟩ : BufTy).Contents (Elt F)),
    unary main_v272 main_v273 (broadcastInDim S131072x19 ![0, 1] bcast_S1x19_S131072x19_0_1 : (⟨S1x19, .f32⟩ : BufTy).Contents (Elt F) → (⟨S131072x19, .f32⟩ : BufTy).Contents (Elt F)),
    binary main_v269 main_v273 main_v274 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S131072x19, .f32⟩) main_call19_v0) (broadcastInDim S131072x19 ![] bcast_S_S131072x19),
    TRef.binary (TRef.of (T := ⟨S131072x19, .f32⟩) main_v274) (TRef.of (T := ⟨S131072x19, .f32⟩) main_call19_v0) (TRef.of (T := ⟨S131072x19, .f32⟩) main_v275) maximumf,
    unary main_arg6 main_v276 ((extractStridedSlice S1x6x19 ![9, 0, 0] · slices_S24x6x19_S1x6x19_9_0_0) : (⟨S24x6x19, .f32⟩ : BufTy).Contents (Elt F) → (⟨S1x6x19, .f32⟩ : BufTy).Contents (Elt F)),
    reshape main_v276 main_v277 rfl shapeCasts_S1x6x19_S6x19,
    unary main_v277 main_v278 ((transpose S19x6 [1, 0] · transposes_S6x19_S19x6_1_0) : (⟨S6x19, .f32⟩ : BufTy).Contents (Elt F) → (⟨S19x6, .f32⟩ : BufTy).Contents (Elt F)),
    binary main_v275 main_v278 main_v279 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v280 ((extractStridedSlice S1x6 ![9, 0] · slices_S24x6_S1x6_9_0) : (⟨S24x6, .f32⟩ : BufTy).Contents (Elt F) → (⟨S1x6, .f32⟩ : BufTy).Contents (Elt F)),
    reshape main_v280 main_v281 rfl shapeCasts_S1x6_S6,
    unary main_v281 main_v282 (broadcastInDim S1x6 ![1] bcast_S6_S1x6_1 : (⟨S6, .f32⟩ : BufTy).Contents (Elt F) → (⟨S1x6, .f32⟩ : BufTy).Contents (Elt F)),
    unary main_v282 main_v283 (broadcastInDim S131072x6 ![0, 1] bcast_S1x6_S131072x6_0_1 : (⟨S1x6, .f32⟩ : BufTy).Contents (Elt F) → (⟨S131072x6, .f32⟩ : BufTy).Contents (Elt F)),
    binary main_v279 main_v283 main_v284 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ9 : List (Ref sig .tc) := [main_v257, main_v258, main_v259, main_v260, main_v261, main_v262, main_v263, main_call18_v0, main_call18_cst, main_call18_v1, main_call18_v2, main_v264, main_v265, main_v266, main_v267, main_v268, main_v269, main_v270, main_v271, main_v272, main_v273, main_v274, main_call19_cst, main_call19_v0, main_v275, main_v276, main_v277, main_v278, main_v279, main_v280, main_v281, main_v282, main_v283, main_v284]

theorem J9_writes : (opsJ9 : List (HloOp τ sig (Elt F))).Forall fun op => op.writes ⊆ (wJ9.map (Proc.devRef (τ := τ) .tc)).toFinset := by
  simp only [List.Forall, nullary_writes, unary_writes, binary_writes, reshape_writes, nary_writes, Finset.singleton_subset_iff,
    List.mem_toFinset, List.mem_map]
  exact ⟨⟨main_v257, by decide, rfl⟩, ⟨main_v258, by decide, rfl⟩, ⟨main_v259, by decide, rfl⟩, ⟨main_v260, by decide, rfl⟩, ⟨main_v261, by decide, rfl⟩, ⟨main_v262, by decide, rfl⟩, ⟨main_v263, by decide, rfl⟩, ⟨main_call18_v0, by decide, rfl⟩, ⟨main_call18_cst, by decide, rfl⟩, ⟨main_call18_v1, by decide, rfl⟩, ⟨main_call18_v2, by decide, rfl⟩, ⟨main_v264, by decide, rfl⟩, ⟨main_v265, by decide, rfl⟩, ⟨main_v266, by decide, rfl⟩, ⟨main_v267, by decide, rfl⟩, ⟨main_v268, by decide, rfl⟩, ⟨main_v269, by decide, rfl⟩, ⟨main_v270, by decide, rfl⟩, ⟨main_v271, by decide, rfl⟩, ⟨main_v272, by decide, rfl⟩, ⟨main_v273, by decide, rfl⟩, ⟨main_v274, by decide, rfl⟩, ⟨main_call19_cst, by decide, rfl⟩, ⟨main_call19_v0, by decide, rfl⟩, ⟨main_v275, by decide, rfl⟩, ⟨main_v276, by decide, rfl⟩, ⟨main_v277, by decide, rfl⟩, ⟨main_v278, by decide, rfl⟩, ⟨main_v279, by decide, rfl⟩, ⟨main_v280, by decide, rfl⟩, ⟨main_v281, by decide, rfl⟩, ⟨main_v282, by decide, rfl⟩, ⟨main_v283, by decide, rfl⟩, ⟨main_v284, by decide, rfl⟩⟩

/-- A buffer the stretch does not write keeps its contents. -/
theorem J9_keep (W : Valuation τ sig (Elt F)) (r : Ref sig .tc) (hr : r ∉ wJ9) :
    after opsJ9 W (Proc.devRef .tc r) = W (Proc.devRef .tc r) :=
  after_of_writes_sub opsJ9 W J9_writes hr

theorem J9_sub : (opsJ9 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J9_fresh : (opsJ9 : List (HloOp τ sig (Elt F))).Forall fun op => op.fresh = ∅ := by
  simp only [List.Forall]; repeat' constructor

/-- After the stretch joint 9's output buffer holds `rstage` of what the stretch reads: the two argument arrays, joint 6's output, and the four weight arrays. -/
theorem J9_out (W : Valuation τ sig (Elt F)) :
    after opsJ9 W (Proc.devRef .tc main_v284)
      = rstage (shapeCast S131072x9 (extractStridedSlice S131072x1x9 ![0, 9, 0] (W (Proc.devRef .tc main_arg0)) slices_S131072x24x9_S131072x1x9_0_9_0) shapeCasts_S131072x1x9_S131072x9) (shapeCast S131072x3 (extractStridedSlice S131072x1x3 ![0, 9, 0] (W (Proc.devRef .tc main_arg1)) slices_S131072x24x3_S131072x1x3_0_9_0) shapeCasts_S131072x1x3_S131072x3) (subf (shapeCast S131072x3 (extractStridedSlice S131072x1x3 ![0, 9, 0] (W (Proc.devRef .tc main_arg1)) slices_S131072x24x3_S131072x1x3_0_9_0) shapeCasts_S131072x1x3_S131072x3) (shapeCast S131072x3 (extractStridedSlice S131072x1x3 ![0, 6, 0] (W (Proc.devRef .tc main_arg1)) slices_S131072x24x3_S131072x1x3_0_6_0) shapeCasts_S131072x1x3_S131072x3)) (W (Proc.devRef .tc main_v200))
        (extractStridedSlice S1x19x19 ![9, 0, 0] (W (Proc.devRef .tc main_arg4)) slices_S24x19x19_S1x19x19_9_0_0) (extractStridedSlice S1x19 ![9, 0] (W (Proc.devRef .tc main_arg5)) slices_S24x19_S1x19_9_0)
        (extractStridedSlice S1x6x19 ![9, 0, 0] (W (Proc.devRef .tc main_arg6)) slices_S24x6x19_S1x6x19_9_0_0) (extractStridedSlice S1x6 ![9, 0] (W (Proc.devRef .tc main_arg7)) slices_S24x6_S1x6_9_0) := by
  after_results_simp <;> rfl

end Cert.ReferenceIdeal.HRun

end
-- ==== Proof.RefStretchJ10.lean ====
/-
  One stretch of the reference's host program — joint 10: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ10 : List (HloOp τ sig (Elt F)) :=
  [ unary main_arg0 main_v285 ((extractStridedSlice S131072x1x9 ![0, 10, 0] · slices_S131072x24x9_S131072x1x9_0_10_0) : (⟨S131072x24x9, .f32⟩ : BufTy).Contents (Elt F) → (⟨S131072x1x9, .f32⟩ : BufTy).Contents (Elt F)),
    reshape main_v285 main_v286 rfl shapeCasts_S131072x1x9_S131072x9,
    unary main_arg1 main_v287 ((extractStridedSlice S131072x1x3 ![0, 10, 0] · slices_S131072x24x3_S131072x1x3_0_10_0) : (⟨S131072x24x3, .f32⟩ : BufTy).Contents (Elt F) → (⟨S131072x1x3, .f32⟩ : BufTy).Contents (Elt F)),
    reshape main_v287 main_v288 rfl shapeCasts_S131072x1x3_S131072x3,
    unary main_arg1 main_v289 ((extractStridedSlice S131072x1x3 ![0, 7, 0] · slices_S131072x24x3_S131072x1x3_0_7_0) : (⟨S131072x24x3, .f32⟩ : BufTy).Contents (Elt F) → (⟨S131072x1x3, .f32⟩ : BufTy).Contents (Elt F)),
    reshape main_v289 main_v290 rfl shapeCasts_S131072x1x3_S131072x3,
    binary main_v288 main_v290 main_v291 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v291) (TRef.of (T := ⟨S131072x3, .f32⟩) main_v291) (TRef.of (T := ⟨S131072x3, .f32⟩) main_call20_v0) mulf,
    TRef.nullary (TRef.of (T := ⟨S_, .f32⟩) main_call20_cst) (constant S_ .f32 0x00000000#32),
    TRef.binary (TRef.of (T := ⟨S131072x3, .f32⟩) main_call20_v0) (TRef.of (T := ⟨S_, .f32⟩) main_call20_cst) (TRef.of (T := ⟨S131072, .f32⟩) main_call20_v1) (fun x v => Host.reduceAdd x v reducesTo_S131072x3_S131072_d1 h_S_),
    TRef.unary (TRef.of (T := ⟨S131072, .f32⟩) main_call20_v1) (TRef.of (T := ⟨S131072x1, .f32⟩) main_call20_v2) (broadcastInDim S131072x1 ![0] bcast_S131072_S131072x1_0),
    TRef.unary (TRef.of (T := ⟨S131072x1, .f32⟩) main_call20_v2) (TRef.of (T := ⟨S131072x1, .f32⟩) main_v292) Host.sqrt,
    nary ![main_v286, main_v288, main_v292, main_v228] main_v293 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v294 ((extractStridedSlice S1x19x19 ![10, 0, 0] · slices_S24x19x19_S1x19x19_10_0_0) : (⟨S24x19x19, .f32⟩ : BufTy).Contents (Elt F) → (⟨S1x19x19, .f32⟩ : BufTy).Contents (Elt F)),
    reshape main_v294 main_v295 rfl shapeCasts_S1x19x19_S19x19,
    unary main_v295 main_v296 ((transpose S19x19 [1, 0] · transposes_S19x19_S19x19_1_0) : (⟨S19x19, .f32⟩ : BufTy).Contents (Elt F) → (⟨S19x19, .f32⟩ : BufTy).Contents (Elt F)),
    binary main_v293 main_v296 main_v297 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v298 ((extractStridedSlice S1x19 ![10, 0] · slices_S24x19_S1x19_10_0) : (⟨S24x19, .f32⟩ : BufTy).Contents (Elt F) → (⟨S1x19, .f32⟩ : BufTy).Contents (Elt F)),
    reshape main_v298 main_v299 rfl shapeCasts_S1x19_S19,
    unary main_v299 main_v300 (broadcastInDim S1x19 ![1] bcast_S19_S1x19_1 : (⟨S19, .f32⟩ : BufTy).Contents (Elt F) → (⟨S1x19, .f32⟩ : BufTy).Contents (Elt F)),
    unary main_v300 main_v301 (broadcastInDim S131072x19 ![0, 1] bcast_S1x19_S131072x19_0_1 : (⟨S1x19, .f32⟩ : BufTy).Contents (Elt F) → (⟨S131072x19, .f32⟩ : BufTy).Contents (Elt F)),
    binary main_v297 main_v301 main_v302 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S131072x19, .f32⟩) main_call21_v0) (broadcastInDim S131072x19 ![] bcast_S_S131072x19),
    TRef.binary (TRef.of (T := ⟨S131072x19, .f32⟩) main_v302) (TRef.of (T := ⟨S131072x19, .f32⟩) main_call21_v0) (TRef.of (T := ⟨S131072x19, .f32⟩) main_v303) maximumf,
    unary main_arg6 main_v304 ((extractStridedSlice S1x6x19 ![10, 0, 0] · slices_S24x6x19_S1x6x19_10_0_0) : (⟨S24x6x19, .f32⟩ : BufTy).Contents (Elt F) → (⟨S1x6x19, .f32⟩ : BufTy).Contents (Elt F)),
    reshape main_v304 main_v305 rfl shapeCasts_S1x6x19_S6x19,
    unary main_v305 main_v306 ((transpose S19x6 [1, 0] · transposes_S6x19_S19x6_1_0) : (⟨S6x19, .f32⟩ : BufTy).Contents (Elt F) → (⟨S19x6, .f32⟩ : BufTy).Contents (Elt F)),
    binary main_v303 main_v306 main_v307 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v308 ((extractStridedSlice S1x6 ![10, 0] · slices_S24x6_S1x6_10_0) : (⟨S24x6, .f32⟩ : BufTy).Contents (Elt F) → (⟨S1x6, .f32⟩ : BufTy).Contents (Elt F)),
    reshape main_v308 main_v309 rfl shapeCasts_S1x6_S6,
    unary main_v309 main_v310 (broadcastInDim S1x6 ![1] bcast_S6_S1x6_1 : (⟨S6, .f32⟩ : BufTy).Contents (Elt F) → (⟨S1x6, .f32⟩ : BufTy).Contents (Elt F)),
    unary main_v310 main_v311 (broadcastInDim S131072x6 ![0, 1] bcast_S1x6_S131072x6_0_1 : (⟨S1x6, .f32⟩ : BufTy).Contents (Elt F) → (⟨S131072x6, .f32⟩ : BufTy).Contents (Elt F)),
    binary main_v307 main_v311 main_v312 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ10 : List (Ref sig .tc) := [main_v285, main_v286, main_v287, main_v288, main_v289, main_v290, main_v291, main_call20_v0, main_call20_cst, main_call20_v1, main_call20_v2, main_v292, main_v293, main_v294, main_v295, main_v296, main_v297, main_v298, main_v299, main_v300, main_v301, main_v302, main_call21_cst, main_call21_v0, main_v303, main_v304, main_v305, main_v306, main_v307, main_v308, main_v309, main_v310, main_v311, main_v312]

theorem J10_writes : (opsJ10 : List (HloOp τ sig (Elt F))).Forall fun op => op.writes ⊆ (wJ10.map (Proc.devRef (τ := τ) .tc)).toFinset := by
  simp only [List.Forall, nullary_writes, unary_writes, binary_writes, reshape_writes, nary_writes, Finset.singleton_subset_iff,
    List.mem_toFinset, List.mem_map]
  exact ⟨⟨main_v285, by decide, rfl⟩, ⟨main_v286, by decide, rfl⟩, ⟨main_v287, by decide, rfl⟩, ⟨main_v288, by decide, rfl⟩, ⟨main_v289, by decide, rfl⟩, ⟨main_v290, by decide, rfl⟩, ⟨main_v291, by decide, rfl⟩, ⟨main_call20_v0, by decide, rfl⟩, ⟨main_call20_cst, by decide, rfl⟩, ⟨main_call20_v1, by decide, rfl⟩, ⟨main_call20_v2, by decide, rfl⟩, ⟨main_v292, by decide, rfl⟩, ⟨main_v293, by decide, rfl⟩, ⟨main_v294, by decide, rfl⟩, ⟨main_v295, by decide, rfl⟩, ⟨main_v296, by decide, rfl⟩, ⟨main_v297, by decide, rfl⟩, ⟨main_v298, by decide, rfl⟩, ⟨main_v299, by decide, rfl⟩, ⟨main_v300, by decide, rfl⟩, ⟨main_v301, by decide, rfl⟩, ⟨main_v302, by decide, rfl⟩, ⟨main_call21_cst, by decide, rfl⟩, ⟨main_call21_v0, by decide, rfl⟩, ⟨main_v303, by decide, rfl⟩, ⟨main_v304, by decide, rfl⟩, ⟨main_v305, by decide, rfl⟩, ⟨main_v306, by decide, rfl⟩, ⟨main_v307, by decide, rfl⟩, ⟨main_v308, by decide, rfl⟩, ⟨main_v309, by decide, rfl⟩, ⟨main_v310, by decide, rfl⟩, ⟨main_v311, by decide, rfl⟩, ⟨main_v312, by decide, rfl⟩⟩

/-- A buffer the stretch does not write keeps its contents. -/
theorem J10_keep (W : Valuation τ sig (Elt F)) (r : Ref sig .tc) (hr : r ∉ wJ10) :
    after opsJ10 W (Proc.devRef .tc r) = W (Proc.devRef .tc r) :=
  after_of_writes_sub opsJ10 W J10_writes hr

theorem J10_sub : (opsJ10 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J10_fresh : (opsJ10 : List (HloOp τ sig (Elt F))).Forall fun op => op.fresh = ∅ := by
  simp only [List.Forall]; repeat' constructor

/-- After the stretch joint 10's output buffer holds `rstage` of what the stretch reads: the two argument arrays, joint 7's output, and the four weight arrays. -/
theorem J10_out (W : Valuation τ sig (Elt F)) :
    after opsJ10 W (Proc.devRef .tc main_v312)
      = rstage (shapeCast S131072x9 (extractStridedSlice S131072x1x9 ![0, 10, 0] (W (Proc.devRef .tc main_arg0)) slices_S131072x24x9_S131072x1x9_0_10_0) shapeCasts_S131072x1x9_S131072x9) (shapeCast S131072x3 (extractStridedSlice S131072x1x3 ![0, 10, 0] (W (Proc.devRef .tc main_arg1)) slices_S131072x24x3_S131072x1x3_0_10_0) shapeCasts_S131072x1x3_S131072x3) (subf (shapeCast S131072x3 (extractStridedSlice S131072x1x3 ![0, 10, 0] (W (Proc.devRef .tc main_arg1)) slices_S131072x24x3_S131072x1x3_0_10_0) shapeCasts_S131072x1x3_S131072x3) (shapeCast S131072x3 (extractStridedSlice S131072x1x3 ![0, 7, 0] (W (Proc.devRef .tc main_arg1)) slices_S131072x24x3_S131072x1x3_0_7_0) shapeCasts_S131072x1x3_S131072x3)) (W (Proc.devRef .tc main_v228))
        (extractStridedSlice S1x19x19 ![10, 0, 0] (W (Proc.devRef .tc main_arg4)) slices_S24x19x19_S1x19x19_10_0_0) (extractStridedSlice S1x19 ![10, 0] (W (Proc.devRef .tc main_arg5)) slices_S24x19_S1x19_10_0)
        (extractStridedSlice S1x6x19 ![10, 0, 0] (W (Proc.devRef .tc main_arg6)) slices_S24x6x19_S1x6x19_10_0_0) (extractStridedSlice S1x6 ![10, 0] (W (Proc.devRef .tc main_arg7)) slices_S24x6_S1x6_10_0) := by
  after_results_simp <;> rfl

end Cert.ReferenceIdeal.HRun

end
-- ==== Proof.RefStretchJ11.lean ====
/-
  One stretch of the reference's host program — joint 11: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ11 : List (HloOp τ sig (Elt F)) :=
  [ unary main_arg0 main_v313 ((extractStridedSlice S131072x1x9 ![0, 11, 0] · slices_S131072x24x9_S131072x1x9_0_11_0) : (⟨S131072x24x9, .f32⟩ : BufTy).Contents (Elt F) → (⟨S131072x1x9, .f32⟩ : BufTy).Contents (Elt F)),
    reshape main_v313 main_v314 rfl shapeCasts_S131072x1x9_S131072x9,
    unary main_arg1 main_v315 ((extractStridedSlice S131072x1x3 ![0, 11, 0] · slices_S131072x24x3_S131072x1x3_0_11_0) : (⟨S131072x24x3, .f32⟩ : BufTy).Contents (Elt F) → (⟨S131072x1x3, .f32⟩ : BufTy).Contents (Elt F)),
    reshape main_v315 main_v316 rfl shapeCasts_S131072x1x3_S131072x3,
    unary main_arg1 main_v317 ((extractStridedSlice S131072x1x3 ![0, 8, 0] · slices_S131072x24x3_S131072x1x3_0_8_0) : (⟨S131072x24x3, .f32⟩ : BufTy).Contents (Elt F) → (⟨S131072x1x3, .f32⟩ : BufTy).Contents (Elt F)),
    reshape main_v317 main_v318 rfl shapeCasts_S131072x1x3_S131072x3,
    binary main_v316 main_v318 main_v319 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v319) (TRef.of (T := ⟨S131072x3, .f32⟩) main_v319) (TRef.of (T := ⟨S131072x3, .f32⟩) main_call22_v0) mulf,
    TRef.nullary (TRef.of (T := ⟨S_, .f32⟩) main_call22_cst) (constant S_ .f32 0x00000000#32),
    TRef.binary (TRef.of (T := ⟨S131072x3, .f32⟩) main_call22_v0) (TRef.of (T := ⟨S_, .f32⟩) main_call22_cst) (TRef.of (T := ⟨S131072, .f32⟩) main_call22_v1) (fun x v => Host.reduceAdd x v reducesTo_S131072x3_S131072_d1 h_S_),
    TRef.unary (TRef.of (T := ⟨S131072, .f32⟩) main_call22_v1) (TRef.of (T := ⟨S131072x1, .f32⟩) main_call22_v2) (broadcastInDim S131072x1 ![0] bcast_S131072_S131072x1_0),
    TRef.unary (TRef.of (T := ⟨S131072x1, .f32⟩) main_call22_v2) (TRef.of (T := ⟨S131072x1, .f32⟩) main_v320) Host.sqrt,
    nary ![main_v314, main_v316, main_v320, main_v256] main_v321 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v322 ((extractStridedSlice S1x19x19 ![11, 0, 0] · slices_S24x19x19_S1x19x19_11_0_0) : (⟨S24x19x19, .f32⟩ : BufTy).Contents (Elt F) → (⟨S1x19x19, .f32⟩ : BufTy).Contents (Elt F)),
    reshape main_v322 main_v323 rfl shapeCasts_S1x19x19_S19x19,
    unary main_v323 main_v324 ((transpose S19x19 [1, 0] · transposes_S19x19_S19x19_1_0) : (⟨S19x19, .f32⟩ : BufTy).Contents (Elt F) → (⟨S19x19, .f32⟩ : BufTy).Contents (Elt F)),
    binary main_v321 main_v324 main_v325 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v326 ((extractStridedSlice S1x19 ![11, 0] · slices_S24x19_S1x19_11_0) : (⟨S24x19, .f32⟩ : BufTy).Contents (Elt F) → (⟨S1x19, .f32⟩ : BufTy).Contents (Elt F)),
    reshape main_v326 main_v327 rfl shapeCasts_S1x19_S19,
    unary main_v327 main_v328 (broadcastInDim S1x19 ![1] bcast_S19_S1x19_1 : (⟨S19, .f32⟩ : BufTy).Contents (Elt F) → (⟨S1x19, .f32⟩ : BufTy).Contents (Elt F)),
    unary main_v328 main_v329 (broadcastInDim S131072x19 ![0, 1] bcast_S1x19_S131072x19_0_1 : (⟨S1x19, .f32⟩ : BufTy).Contents (Elt F) → (⟨S131072x19, .f32⟩ : BufTy).Contents (Elt F)),
    binary main_v325 main_v329 main_v330 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S131072x19, .f32⟩) main_call23_v0) (broadcastInDim S131072x19 ![] bcast_S_S131072x19),
    TRef.binary (TRef.of (T := ⟨S131072x19, .f32⟩) main_v330) (TRef.of (T := ⟨S131072x19, .f32⟩) main_call23_v0) (TRef.of (T := ⟨S131072x19, .f32⟩) main_v331) maximumf,
    unary main_arg6 main_v332 ((extractStridedSlice S1x6x19 ![11, 0, 0] · slices_S24x6x19_S1x6x19_11_0_0) : (⟨S24x6x19, .f32⟩ : BufTy).Contents (Elt F) → (⟨S1x6x19, .f32⟩ : BufTy).Contents (Elt F)),
    reshape main_v332 main_v333 rfl shapeCasts_S1x6x19_S6x19,
    unary main_v333 main_v334 ((transpose S19x6 [1, 0] · transposes_S6x19_S19x6_1_0) : (⟨S6x19, .f32⟩ : BufTy).Contents (Elt F) → (⟨S19x6, .f32⟩ : BufTy).Contents (Elt F)),
    binary main_v331 main_v334 main_v335 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v336 ((extractStridedSlice S1x6 ![11, 0] · slices_S24x6_S1x6_11_0) : (⟨S24x6, .f32⟩ : BufTy).Contents (Elt F) → (⟨S1x6, .f32⟩ : BufTy).Contents (Elt F)),
    reshape main_v336 main_v337 rfl shapeCasts_S1x6_S6,
    unary main_v337 main_v338 (broadcastInDim S1x6 ![1] bcast_S6_S1x6_1 : (⟨S6, .f32⟩ : BufTy).Contents (Elt F) → (⟨S1x6, .f32⟩ : BufTy).Contents (Elt F)),
    unary main_v338 main_v339 (broadcastInDim S131072x6 ![0, 1] bcast_S1x6_S131072x6_0_1 : (⟨S1x6, .f32⟩ : BufTy).Contents (Elt F) → (⟨S131072x6, .f32⟩ : BufTy).Contents (Elt F)),
    binary main_v335 main_v339 main_v340 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ11 : List (Ref sig .tc) := [main_v313, main_v314, main_v315, main_v316, main_v317, main_v318, main_v319, main_call22_v0, main_call22_cst, main_call22_v1, main_call22_v2, main_v320, main_v321, main_v322, main_v323, main_v324, main_v325, main_v326, main_v327, main_v328, main_v329, main_v330, main_call23_cst, main_call23_v0, main_v331, main_v332, main_v333, main_v334, main_v335, main_v336, main_v337, main_v338, main_v339, main_v340]

theorem J11_writes : (opsJ11 : List (HloOp τ sig (Elt F))).Forall fun op => op.writes ⊆ (wJ11.map (Proc.devRef (τ := τ) .tc)).toFinset := by
  simp only [List.Forall, nullary_writes, unary_writes, binary_writes, reshape_writes, nary_writes, Finset.singleton_subset_iff,
    List.mem_toFinset, List.mem_map]
  exact ⟨⟨main_v313, by decide, rfl⟩, ⟨main_v314, by decide, rfl⟩, ⟨main_v315, by decide, rfl⟩, ⟨main_v316, by decide, rfl⟩, ⟨main_v317, by decide, rfl⟩, ⟨main_v318, by decide, rfl⟩, ⟨main_v319, by decide, rfl⟩, ⟨main_call22_v0, by decide, rfl⟩, ⟨main_call22_cst, by decide, rfl⟩, ⟨main_call22_v1, by decide, rfl⟩, ⟨main_call22_v2, by decide, rfl⟩, ⟨main_v320, by decide, rfl⟩, ⟨main_v321, by decide, rfl⟩, ⟨main_v322, by decide, rfl⟩, ⟨main_v323, by decide, rfl⟩, ⟨main_v324, by decide, rfl⟩, ⟨main_v325, by decide, rfl⟩, ⟨main_v326, by decide, rfl⟩, ⟨main_v327, by decide, rfl⟩, ⟨main_v328, by decide, rfl⟩, ⟨main_v329, by decide, rfl⟩, ⟨main_v330, by decide, rfl⟩, ⟨main_call23_cst, by decide, rfl⟩, ⟨main_call23_v0, by decide, rfl⟩, ⟨main_v331, by decide, rfl⟩, ⟨main_v332, by decide, rfl⟩, ⟨main_v333, by decide, rfl⟩, ⟨main_v334, by decide, rfl⟩, ⟨main_v335, by decide, rfl⟩, ⟨main_v336, by decide, rfl⟩, ⟨main_v337, by decide, rfl⟩, ⟨main_v338, by decide, rfl⟩, ⟨main_v339, by decide, rfl⟩, ⟨main_v340, by decide, rfl⟩⟩

/-- A buffer the stretch does not write keeps its contents. -/
theorem J11_keep (W : Valuation τ sig (Elt F)) (r : Ref sig .tc) (hr : r ∉ wJ11) :
    after opsJ11 W (Proc.devRef .tc r) = W (Proc.devRef .tc r) :=
  after_of_writes_sub opsJ11 W J11_writes hr

theorem J11_sub : (opsJ11 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J11_fresh : (opsJ11 : List (HloOp τ sig (Elt F))).Forall fun op => op.fresh = ∅ := by
  simp only [List.Forall]; repeat' constructor

/-- After the stretch joint 11's output buffer holds `rstage` of what the stretch reads: the two argument arrays, joint 8's output, and the four weight arrays. -/
theorem J11_out (W : Valuation τ sig (Elt F)) :
    after opsJ11 W (Proc.devRef .tc main_v340)
      = rstage (shapeCast S131072x9 (extractStridedSlice S131072x1x9 ![0, 11, 0] (W (Proc.devRef .tc main_arg0)) slices_S131072x24x9_S131072x1x9_0_11_0) shapeCasts_S131072x1x9_S131072x9) (shapeCast S131072x3 (extractStridedSlice S131072x1x3 ![0, 11, 0] (W (Proc.devRef .tc main_arg1)) slices_S131072x24x3_S131072x1x3_0_11_0) shapeCasts_S131072x1x3_S131072x3) (subf (shapeCast S131072x3 (extractStridedSlice S131072x1x3 ![0, 11, 0] (W (Proc.devRef .tc main_arg1)) slices_S131072x24x3_S131072x1x3_0_11_0) shapeCasts_S131072x1x3_S131072x3) (shapeCast S131072x3 (extractStridedSlice S131072x1x3 ![0, 8, 0] (W (Proc.devRef .tc main_arg1)) slices_S131072x24x3_S131072x1x3_0_8_0) shapeCasts_S131072x1x3_S131072x3)) (W (Proc.devRef .tc main_v256))
        (extractStridedSlice S1x19x19 ![11, 0, 0] (W (Proc.devRef .tc main_arg4)) slices_S24x19x19_S1x19x19_11_0_0) (extractStridedSlice S1x19 ![11, 0] (W (Proc.devRef .tc main_arg5)) slices_S24x19_S1x19_11_0)
        (extractStridedSlice S1x6x19 ![11, 0, 0] (W (Proc.devRef .tc main_arg6)) slices_S24x6x19_S1x6x19_11_0_0) (extractStridedSlice S1x6 ![11, 0] (W (Proc.devRef .tc main_arg7)) slices_S24x6_S1x6_11_0) := by
  after_results_simp <;> rfl

end Cert.ReferenceIdeal.HRun

end
-- ==== Proof.RefStretchJ12.lean ====
/-
  One stretch of the reference's host program — joint 12: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ12 : List (HloOp τ sig (Elt F)) :=
  [ unary main_arg0 main_v341 ((extractStridedSlice S131072x1x9 ![0, 12, 0] · slices_S131072x24x9_S131072x1x9_0_12_0) : (⟨S131072x24x9, .f32⟩ : BufTy).Contents (Elt F) → (⟨S131072x1x9, .f32⟩ : BufTy).Contents (Elt F)),
    reshape main_v341 main_v342 rfl shapeCasts_S131072x1x9_S131072x9,
    unary main_arg1 main_v343 ((extractStridedSlice S131072x1x3 ![0, 12, 0] · slices_S131072x24x3_S131072x1x3_0_12_0) : (⟨S131072x24x3, .f32⟩ : BufTy).Contents (Elt F) → (⟨S131072x1x3, .f32⟩ : BufTy).Contents (Elt F)),
    reshape main_v343 main_v344 rfl shapeCasts_S131072x1x3_S131072x3,
    unary main_arg1 main_v345 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v345 main_v346 rfl shapeCasts_S131072x1x3_S131072x3,
    binary main_v344 main_v346 main_v347 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v347) (TRef.of (T := ⟨S131072x3, .f32⟩) main_v347) (TRef.of (T := ⟨S131072x3, .f32⟩) main_call24_v0) mulf,
    TRef.nullary (TRef.of (T := ⟨S_, .f32⟩) main_call24_cst) (constant S_ .f32 0x00000000#32),
    TRef.binary (TRef.of (T := ⟨S131072x3, .f32⟩) main_call24_v0) (TRef.of (T := ⟨S_, .f32⟩) main_call24_cst) (TRef.of (T := ⟨S131072, .f32⟩) main_call24_v1) (fun x v => Host.reduceAdd x v reducesTo_S131072x3_S131072_d1 h_S_),
    TRef.unary (TRef.of (T := ⟨S131072, .f32⟩) main_call24_v1) (TRef.of (T := ⟨S131072x1, .f32⟩) main_call24_v2) (broadcastInDim S131072x1 ![0] bcast_S131072_S131072x1_0),
    TRef.unary (TRef.of (T := ⟨S131072x1, .f32⟩) main_call24_v2) (TRef.of (T := ⟨S131072x1, .f32⟩) main_v348) Host.sqrt,
    nary ![main_v342, main_v344, main_v348, main_v284] main_v349 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v350 ((extractStridedSlice S1x19x19 ![12, 0, 0] · slices_S24x19x19_S1x19x19_12_0_0) : (⟨S24x19x19, .f32⟩ : BufTy).Contents (Elt F) → (⟨S1x19x19, .f32⟩ : BufTy).Contents (Elt F)),
    reshape main_v350 main_v351 rfl shapeCasts_S1x19x19_S19x19,
    unary main_v351 main_v352 ((transpose S19x19 [1, 0] · transposes_S19x19_S19x19_1_0) : (⟨S19x19, .f32⟩ : BufTy).Contents (Elt F) → (⟨S19x19, .f32⟩ : BufTy).Contents (Elt F)),
    binary main_v349 main_v352 main_v353 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v354 ((extractStridedSlice S1x19 ![12, 0] · slices_S24x19_S1x19_12_0) : (⟨S24x19, .f32⟩ : BufTy).Contents (Elt F) → (⟨S1x19, .f32⟩ : BufTy).Contents (Elt F)),
    reshape main_v354 main_v355 rfl shapeCasts_S1x19_S19,
    unary main_v355 main_v356 (broadcastInDim S1x19 ![1] bcast_S19_S1x19_1 : (⟨S19, .f32⟩ : BufTy).Contents (Elt F) → (⟨S1x19, .f32⟩ : BufTy).Contents (Elt F)),
    unary main_v356 main_v357 (broadcastInDim S131072x19 ![0, 1] bcast_S1x19_S131072x19_0_1 : (⟨S1x19, .f32⟩ : BufTy).Contents (Elt F) → (⟨S131072x19, .f32⟩ : BufTy).Contents (Elt F)),
    binary main_v353 main_v357 main_v358 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S131072x19, .f32⟩) main_call25_v0) (broadcastInDim S131072x19 ![] bcast_S_S131072x19),
    TRef.binary (TRef.of (T := ⟨S131072x19, .f32⟩) main_v358) (TRef.of (T := ⟨S131072x19, .f32⟩) main_call25_v0) (TRef.of (T := ⟨S131072x19, .f32⟩) main_v359) maximumf,
    unary main_arg6 main_v360 ((extractStridedSlice S1x6x19 ![12, 0, 0] · slices_S24x6x19_S1x6x19_12_0_0) : (⟨S24x6x19, .f32⟩ : BufTy).Contents (Elt F) → (⟨S1x6x19, .f32⟩ : BufTy).Contents (Elt F)),
    reshape main_v360 main_v361 rfl shapeCasts_S1x6x19_S6x19,
    unary main_v361 main_v362 ((transpose S19x6 [1, 0] · transposes_S6x19_S19x6_1_0) : (⟨S6x19, .f32⟩ : BufTy).Contents (Elt F) → (⟨S19x6, .f32⟩ : BufTy).Contents (Elt F)),
    binary main_v359 main_v362 main_v363 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v364 ((extractStridedSlice S1x6 ![12, 0] · slices_S24x6_S1x6_12_0) : (⟨S24x6, .f32⟩ : BufTy).Contents (Elt F) → (⟨S1x6, .f32⟩ : BufTy).Contents (Elt F)),
    reshape main_v364 main_v365 rfl shapeCasts_S1x6_S6,
    unary main_v365 main_v366 (broadcastInDim S1x6 ![1] bcast_S6_S1x6_1 : (⟨S6, .f32⟩ : BufTy).Contents (Elt F) → (⟨S1x6, .f32⟩ : BufTy).Contents (Elt F)),
    unary main_v366 main_v367 (broadcastInDim S131072x6 ![0, 1] bcast_S1x6_S131072x6_0_1 : (⟨S1x6, .f32⟩ : BufTy).Contents (Elt F) → (⟨S131072x6, .f32⟩ : BufTy).Contents (Elt F)),
    binary main_v363 main_v367 main_v368 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ12 : List (Ref sig .tc) := [main_v341, main_v342, main_v343, main_v344, main_v345, main_v346, main_v347, main_call24_v0, main_call24_cst, main_call24_v1, main_call24_v2, main_v348, main_v349, main_v350, main_v351, main_v352, main_v353, main_v354, main_v355, main_v356, main_v357, main_v358, main_call25_cst, main_call25_v0, main_v359, main_v360, main_v361, main_v362, main_v363, main_v364, main_v365, main_v366, main_v367, main_v368]

theorem J12_writes : (opsJ12 : List (HloOp τ sig (Elt F))).Forall fun op => op.writes ⊆ (wJ12.map (Proc.devRef (τ := τ) .tc)).toFinset := by
  simp only [List.Forall, nullary_writes, unary_writes, binary_writes, reshape_writes, nary_writes, Finset.singleton_subset_iff,
    List.mem_toFinset, List.mem_map]
  exact ⟨⟨main_v341, by decide, rfl⟩, ⟨main_v342, by decide, rfl⟩, ⟨main_v343, by decide, rfl⟩, ⟨main_v344, by decide, rfl⟩, ⟨main_v345, by decide, rfl⟩, ⟨main_v346, by decide, rfl⟩, ⟨main_v347, by decide, rfl⟩, ⟨main_call24_v0, by decide, rfl⟩, ⟨main_call24_cst, by decide, rfl⟩, ⟨main_call24_v1, by decide, rfl⟩, ⟨main_call24_v2, by decide, rfl⟩, ⟨main_v348, by decide, rfl⟩, ⟨main_v349, by decide, rfl⟩, ⟨main_v350, by decide, rfl⟩, ⟨main_v351, by decide, rfl⟩, ⟨main_v352, by decide, rfl⟩, ⟨main_v353, by decide, rfl⟩, ⟨main_v354, by decide, rfl⟩, ⟨main_v355, by decide, rfl⟩, ⟨main_v356, by decide, rfl⟩, ⟨main_v357, by decide, rfl⟩, ⟨main_v358, by decide, rfl⟩, ⟨main_call25_cst, by decide, rfl⟩, ⟨main_call25_v0, by decide, rfl⟩, ⟨main_v359, by decide, rfl⟩, ⟨main_v360, by decide, rfl⟩, ⟨main_v361, by decide, rfl⟩, ⟨main_v362, by decide, rfl⟩, ⟨main_v363, by decide, rfl⟩, ⟨main_v364, by decide, rfl⟩, ⟨main_v365, by decide, rfl⟩, ⟨main_v366, by decide, rfl⟩, ⟨main_v367, by decide, rfl⟩, ⟨main_v368, by decide, rfl⟩⟩

/-- A buffer the stretch does not write keeps its contents. -/
theorem J12_keep (W : Valuation τ sig (Elt F)) (r : Ref sig .tc) (hr : r ∉ wJ12) :
    after opsJ12 W (Proc.devRef .tc r) = W (Proc.devRef .tc r) :=
  after_of_writes_sub opsJ12 W J12_writes hr

theorem J12_sub : (opsJ12 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J12_fresh : (opsJ12 : List (HloOp τ sig (Elt F))).Forall fun op => op.fresh = ∅ := by
  simp only [List.Forall]; repeat' constructor

/-- After the stretch joint 12's output buffer holds `rstage` of what the stretch reads: the two argument arrays, joint 9's output, and the four weight arrays. -/
theorem J12_out (W : Valuation τ sig (Elt F)) :
    after opsJ12 W (Proc.devRef .tc main_v368)
      = rstage (shapeCast S131072x9 (extractStridedSlice S131072x1x9 ![0, 12, 0] (W (Proc.devRef .tc main_arg0)) slices_S131072x24x9_S131072x1x9_0_12_0) shapeCasts_S131072x1x9_S131072x9) (shapeCast S131072x3 (extractStridedSlice S131072x1x3 ![0, 12, 0] (W (Proc.devRef .tc main_arg1)) slices_S131072x24x3_S131072x1x3_0_12_0) shapeCasts_S131072x1x3_S131072x3) (subf (shapeCast S131072x3 (extractStridedSlice S131072x1x3 ![0, 12, 0] (W (Proc.devRef .tc main_arg1)) slices_S131072x24x3_S131072x1x3_0_12_0) shapeCasts_S131072x1x3_S131072x3) (shapeCast S131072x3 (extractStridedSlice S131072x1x3 ![0, 9, 0] (W (Proc.devRef .tc main_arg1)) slices_S131072x24x3_S131072x1x3_0_9_0) shapeCasts_S131072x1x3_S131072x3)) (W (Proc.devRef .tc main_v284))
        (extractStridedSlice S1x19x19 ![12, 0, 0] (W (Proc.devRef .tc main_arg4)) slices_S24x19x19_S1x19x19_12_0_0) (extractStridedSlice S1x19 ![12, 0] (W (Proc.devRef .tc main_arg5)) slices_S24x19_S1x19_12_0)
        (extractStridedSlice S1x6x19 ![12, 0, 0] (W (Proc.devRef .tc main_arg6)) slices_S24x6x19_S1x6x19_12_0_0) (extractStridedSlice S1x6 ![12, 0] (W (Proc.devRef .tc main_arg7)) slices_S24x6_S1x6_12_0) := by
  after_results_simp <;> rfl

end Cert.ReferenceIdeal.HRun

end
-- ==== Proof.RefStretchJ13.lean ====
/-
  One stretch of the reference's host program — joint 13: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ13 : List (HloOp τ sig (Elt F)) :=
  [ unary main_arg0 main_v369 ((extractStridedSlice S131072x1x9 ![0, 13, 0] · slices_S131072x24x9_S131072x1x9_0_13_0) : (⟨S131072x24x9, .f32⟩ : BufTy).Contents (Elt F) → (⟨S131072x1x9, .f32⟩ : BufTy).Contents (Elt F)),
    reshape main_v369 main_v370 rfl shapeCasts_S131072x1x9_S131072x9,
    unary main_arg1 main_v371 ((extractStridedSlice S131072x1x3 ![0, 13, 0] · slices_S131072x24x3_S131072x1x3_0_13_0) : (⟨S131072x24x3, .f32⟩ : BufTy).Contents (Elt F) → (⟨S131072x1x3, .f32⟩ : BufTy).Contents (Elt F)),
    reshape main_v371 main_v372 rfl shapeCasts_S131072x1x3_S131072x3,
    unary main_arg1 main_v373 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v373 main_v374 rfl shapeCasts_S131072x1x3_S131072x3,
    binary main_v372 main_v374 main_v375 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v375) (TRef.of (T := ⟨S131072x3, .f32⟩) main_v375) (TRef.of (T := ⟨S131072x3, .f32⟩) main_call26_v0) mulf,
    TRef.nullary (TRef.of (T := ⟨S_, .f32⟩) main_call26_cst) (constant S_ .f32 0x00000000#32),
    TRef.binary (TRef.of (T := ⟨S131072x3, .f32⟩) main_call26_v0) (TRef.of (T := ⟨S_, .f32⟩) main_call26_cst) (TRef.of (T := ⟨S131072, .f32⟩) main_call26_v1) (fun x v => Host.reduceAdd x v reducesTo_S131072x3_S131072_d1 h_S_),
    TRef.unary (TRef.of (T := ⟨S131072, .f32⟩) main_call26_v1) (TRef.of (T := ⟨S131072x1, .f32⟩) main_call26_v2) (broadcastInDim S131072x1 ![0] bcast_S131072_S131072x1_0),
    TRef.unary (TRef.of (T := ⟨S131072x1, .f32⟩) main_call26_v2) (TRef.of (T := ⟨S131072x1, .f32⟩) main_v376) Host.sqrt,
    nary ![main_v370, main_v372, main_v376, main_v284] main_v377 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v378 ((extractStridedSlice S1x19x19 ![13, 0, 0] · slices_S24x19x19_S1x19x19_13_0_0) : (⟨S24x19x19, .f32⟩ : BufTy).Contents (Elt F) → (⟨S1x19x19, .f32⟩ : BufTy).Contents (Elt F)),
    reshape main_v378 main_v379 rfl shapeCasts_S1x19x19_S19x19,
    unary main_v379 main_v380 ((transpose S19x19 [1, 0] · transposes_S19x19_S19x19_1_0) : (⟨S19x19, .f32⟩ : BufTy).Contents (Elt F) → (⟨S19x19, .f32⟩ : BufTy).Contents (Elt F)),
    binary main_v377 main_v380 main_v381 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v382 ((extractStridedSlice S1x19 ![13, 0] · slices_S24x19_S1x19_13_0) : (⟨S24x19, .f32⟩ : BufTy).Contents (Elt F) → (⟨S1x19, .f32⟩ : BufTy).Contents (Elt F)),
    reshape main_v382 main_v383 rfl shapeCasts_S1x19_S19,
    unary main_v383 main_v384 (broadcastInDim S1x19 ![1] bcast_S19_S1x19_1 : (⟨S19, .f32⟩ : BufTy).Contents (Elt F) → (⟨S1x19, .f32⟩ : BufTy).Contents (Elt F)),
    unary main_v384 main_v385 (broadcastInDim S131072x19 ![0, 1] bcast_S1x19_S131072x19_0_1 : (⟨S1x19, .f32⟩ : BufTy).Contents (Elt F) → (⟨S131072x19, .f32⟩ : BufTy).Contents (Elt F)),
    binary main_v381 main_v385 main_v386 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S131072x19, .f32⟩) main_call27_v0) (broadcastInDim S131072x19 ![] bcast_S_S131072x19),
    TRef.binary (TRef.of (T := ⟨S131072x19, .f32⟩) main_v386) (TRef.of (T := ⟨S131072x19, .f32⟩) main_call27_v0) (TRef.of (T := ⟨S131072x19, .f32⟩) main_v387) maximumf,
    unary main_arg6 main_v388 ((extractStridedSlice S1x6x19 ![13, 0, 0] · slices_S24x6x19_S1x6x19_13_0_0) : (⟨S24x6x19, .f32⟩ : BufTy).Contents (Elt F) → (⟨S1x6x19, .f32⟩ : BufTy).Contents (Elt F)),
    reshape main_v388 main_v389 rfl shapeCasts_S1x6x19_S6x19,
    unary main_v389 main_v390 ((transpose S19x6 [1, 0] · transposes_S6x19_S19x6_1_0) : (⟨S6x19, .f32⟩ : BufTy).Contents (Elt F) → (⟨S19x6, .f32⟩ : BufTy).Contents (Elt F)),
    binary main_v387 main_v390 main_v391 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v392 ((extractStridedSlice S1x6 ![13, 0] · slices_S24x6_S1x6_13_0) : (⟨S24x6, .f32⟩ : BufTy).Contents (Elt F) → (⟨S1x6, .f32⟩ : BufTy).Contents (Elt F)),
    reshape main_v392 main_v393 rfl shapeCasts_S1x6_S6,
    unary main_v393 main_v394 (broadcastInDim S1x6 ![1] bcast_S6_S1x6_1 : (⟨S6, .f32⟩ : BufTy).Contents (Elt F) → (⟨S1x6, .f32⟩ : BufTy).Contents (Elt F)),
    unary main_v394 main_v395 (broadcastInDim S131072x6 ![0, 1] bcast_S1x6_S131072x6_0_1 : (⟨S1x6, .f32⟩ : BufTy).Contents (Elt F) → (⟨S131072x6, .f32⟩ : BufTy).Contents (Elt F)),
    binary main_v391 main_v395 main_v396 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ13 : List (Ref sig .tc) := [main_v369, main_v370, main_v371, main_v372, main_v373, main_v374, main_v375, main_call26_v0, main_call26_cst, main_call26_v1, main_call26_v2, main_v376, main_v377, main_v378, main_v379, main_v380, main_v381, main_v382, main_v383, main_v384, main_v385, main_v386, main_call27_cst, main_call27_v0, main_v387, main_v388, main_v389, main_v390, main_v391, main_v392, main_v393, main_v394, main_v395, main_v396]

theorem J13_writes : (opsJ13 : List (HloOp τ sig (Elt F))).Forall fun op => op.writes ⊆ (wJ13.map (Proc.devRef (τ := τ) .tc)).toFinset := by
  simp only [List.Forall, nullary_writes, unary_writes, binary_writes, reshape_writes, nary_writes, Finset.singleton_subset_iff,
    List.mem_toFinset, List.mem_map]
  exact ⟨⟨main_v369, by decide, rfl⟩, ⟨main_v370, by decide, rfl⟩, ⟨main_v371, by decide, rfl⟩, ⟨main_v372, by decide, rfl⟩, ⟨main_v373, by decide, rfl⟩, ⟨main_v374, by decide, rfl⟩, ⟨main_v375, by decide, rfl⟩, ⟨main_call26_v0, by decide, rfl⟩, ⟨main_call26_cst, by decide, rfl⟩, ⟨main_call26_v1, by decide, rfl⟩, ⟨main_call26_v2, by decide, rfl⟩, ⟨main_v376, by decide, rfl⟩, ⟨main_v377, by decide, rfl⟩, ⟨main_v378, by decide, rfl⟩, ⟨main_v379, by decide, rfl⟩, ⟨main_v380, by decide, rfl⟩, ⟨main_v381, by decide, rfl⟩, ⟨main_v382, by decide, rfl⟩, ⟨main_v383, by decide, rfl⟩, ⟨main_v384, by decide, rfl⟩, ⟨main_v385, by decide, rfl⟩, ⟨main_v386, by decide, rfl⟩, ⟨main_call27_cst, by decide, rfl⟩, ⟨main_call27_v0, by decide, rfl⟩, ⟨main_v387, by decide, rfl⟩, ⟨main_v388, by decide, rfl⟩, ⟨main_v389, by decide, rfl⟩, ⟨main_v390, by decide, rfl⟩, ⟨main_v391, by decide, rfl⟩, ⟨main_v392, by decide, rfl⟩, ⟨main_v393, by decide, rfl⟩, ⟨main_v394, by decide, rfl⟩, ⟨main_v395, by decide, rfl⟩, ⟨main_v396, by decide, rfl⟩⟩

/-- A buffer the stretch does not write keeps its contents. -/
theorem J13_keep (W : Valuation τ sig (Elt F)) (r : Ref sig .tc) (hr : r ∉ wJ13) :
    after opsJ13 W (Proc.devRef .tc r) = W (Proc.devRef .tc r) :=
  after_of_writes_sub opsJ13 W J13_writes hr

theorem J13_sub : (opsJ13 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J13_fresh : (opsJ13 : List (HloOp τ sig (Elt F))).Forall fun op => op.fresh = ∅ := by
  simp only [List.Forall]; repeat' constructor

/-- After the stretch joint 13's output buffer holds `rstage` of what the stretch reads: the two argument arrays, joint 9's output, and the four weight arrays. -/
theorem J13_out (W : Valuation τ sig (Elt F)) :
    after opsJ13 W (Proc.devRef .tc main_v396)
      = rstage (shapeCast S131072x9 (extractStridedSlice S131072x1x9 ![0, 13, 0] (W (Proc.devRef .tc main_arg0)) slices_S131072x24x9_S131072x1x9_0_13_0) shapeCasts_S131072x1x9_S131072x9) (shapeCast S131072x3 (extractStridedSlice S131072x1x3 ![0, 13, 0] (W (Proc.devRef .tc main_arg1)) slices_S131072x24x3_S131072x1x3_0_13_0) shapeCasts_S131072x1x3_S131072x3) (subf (shapeCast S131072x3 (extractStridedSlice S131072x1x3 ![0, 13, 0] (W (Proc.devRef .tc main_arg1)) slices_S131072x24x3_S131072x1x3_0_13_0) shapeCasts_S131072x1x3_S131072x3) (shapeCast S131072x3 (extractStridedSlice S131072x1x3 ![0, 9, 0] (W (Proc.devRef .tc main_arg1)) slices_S131072x24x3_S131072x1x3_0_9_0) shapeCasts_S131072x1x3_S131072x3)) (W (Proc.devRef .tc main_v284))
        (extractStridedSlice S1x19x19 ![13, 0, 0] (W (Proc.devRef .tc main_arg4)) slices_S24x19x19_S1x19x19_13_0_0) (extractStridedSlice S1x19 ![13, 0] (W (Proc.devRef .tc main_arg5)) slices_S24x19_S1x19_13_0)
        (extractStridedSlice S1x6x19 ![13, 0, 0] (W (Proc.devRef .tc main_arg6)) slices_S24x6x19_S1x6x19_13_0_0) (extractStridedSlice S1x6 ![13, 0] (W (Proc.devRef .tc main_arg7)) slices_S24x6_S1x6_13_0) := by
  after_results_simp <;> rfl

end Cert.ReferenceIdeal.HRun

end
-- ==== Proof.RefStretchJ14.lean ====
/-
  One stretch of the reference's host program — joint 14: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ14 : List (HloOp τ sig (Elt F)) :=
  [ unary main_arg0 main_v397 ((extractStridedSlice S131072x1x9 ![0, 14, 0] · slices_S131072x24x9_S131072x1x9_0_14_0) : (⟨S131072x24x9, .f32⟩ : BufTy).Contents (Elt F) → (⟨S131072x1x9, .f32⟩ : BufTy).Contents (Elt F)),
    reshape main_v397 main_v398 rfl shapeCasts_S131072x1x9_S131072x9,
    unary main_arg1 main_v399 ((extractStridedSlice S131072x1x3 ![0, 14, 0] · slices_S131072x24x3_S131072x1x3_0_14_0) : (⟨S131072x24x3, .f32⟩ : BufTy).Contents (Elt F) → (⟨S131072x1x3, .f32⟩ : BufTy).Contents (Elt F)),
    reshape main_v399 main_v400 rfl shapeCasts_S131072x1x3_S131072x3,
    unary main_arg1 main_v401 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v401 main_v402 rfl shapeCasts_S131072x1x3_S131072x3,
    binary main_v400 main_v402 main_v403 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v403) (TRef.of (T := ⟨S131072x3, .f32⟩) main_v403) (TRef.of (T := ⟨S131072x3, .f32⟩) main_call28_v0) mulf,
    TRef.nullary (TRef.of (T := ⟨S_, .f32⟩) main_call28_cst) (constant S_ .f32 0x00000000#32),
    TRef.binary (TRef.of (T := ⟨S131072x3, .f32⟩) main_call28_v0) (TRef.of (T := ⟨S_, .f32⟩) main_call28_cst) (TRef.of (T := ⟨S131072, .f32⟩) main_call28_v1) (fun x v => Host.reduceAdd x v reducesTo_S131072x3_S131072_d1 h_S_),
    TRef.unary (TRef.of (T := ⟨S131072, .f32⟩) main_call28_v1) (TRef.of (T := ⟨S131072x1, .f32⟩) main_call28_v2) (broadcastInDim S131072x1 ![0] bcast_S131072_S131072x1_0),
    TRef.unary (TRef.of (T := ⟨S131072x1, .f32⟩) main_call28_v2) (TRef.of (T := ⟨S131072x1, .f32⟩) main_v404) Host.sqrt,
    nary ![main_v398, main_v400, main_v404, main_v284] main_v405 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v406 ((extractStridedSlice S1x19x19 ![14, 0, 0] · slices_S24x19x19_S1x19x19_14_0_0) : (⟨S24x19x19, .f32⟩ : BufTy).Contents (Elt F) → (⟨S1x19x19, .f32⟩ : BufTy).Contents (Elt F)),
    reshape main_v406 main_v407 rfl shapeCasts_S1x19x19_S19x19,
    unary main_v407 main_v408 ((transpose S19x19 [1, 0] · transposes_S19x19_S19x19_1_0) : (⟨S19x19, .f32⟩ : BufTy).Contents (Elt F) → (⟨S19x19, .f32⟩ : BufTy).Contents (Elt F)),
    binary main_v405 main_v408 main_v409 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v410 ((extractStridedSlice S1x19 ![14, 0] · slices_S24x19_S1x19_14_0) : (⟨S24x19, .f32⟩ : BufTy).Contents (Elt F) → (⟨S1x19, .f32⟩ : BufTy).Contents (Elt F)),
    reshape main_v410 main_v411 rfl shapeCasts_S1x19_S19,
    unary main_v411 main_v412 (broadcastInDim S1x19 ![1] bcast_S19_S1x19_1 : (⟨S19, .f32⟩ : BufTy).Contents (Elt F) → (⟨S1x19, .f32⟩ : BufTy).Contents (Elt F)),
    unary main_v412 main_v413 (broadcastInDim S131072x19 ![0, 1] bcast_S1x19_S131072x19_0_1 : (⟨S1x19, .f32⟩ : BufTy).Contents (Elt F) → (⟨S131072x19, .f32⟩ : BufTy).Contents (Elt F)),
    binary main_v409 main_v413 main_v414 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S131072x19, .f32⟩) main_call29_v0) (broadcastInDim S131072x19 ![] bcast_S_S131072x19),
    TRef.binary (TRef.of (T := ⟨S131072x19, .f32⟩) main_v414) (TRef.of (T := ⟨S131072x19, .f32⟩) main_call29_v0) (TRef.of (T := ⟨S131072x19, .f32⟩) main_v415) maximumf,
    unary main_arg6 main_v416 ((extractStridedSlice S1x6x19 ![14, 0, 0] · slices_S24x6x19_S1x6x19_14_0_0) : (⟨S24x6x19, .f32⟩ : BufTy).Contents (Elt F) → (⟨S1x6x19, .f32⟩ : BufTy).Contents (Elt F)),
    reshape main_v416 main_v417 rfl shapeCasts_S1x6x19_S6x19,
    unary main_v417 main_v418 ((transpose S19x6 [1, 0] · transposes_S6x19_S19x6_1_0) : (⟨S6x19, .f32⟩ : BufTy).Contents (Elt F) → (⟨S19x6, .f32⟩ : BufTy).Contents (Elt F)),
    binary main_v415 main_v418 main_v419 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v420 ((extractStridedSlice S1x6 ![14, 0] · slices_S24x6_S1x6_14_0) : (⟨S24x6, .f32⟩ : BufTy).Contents (Elt F) → (⟨S1x6, .f32⟩ : BufTy).Contents (Elt F)),
    reshape main_v420 main_v421 rfl shapeCasts_S1x6_S6,
    unary main_v421 main_v422 (broadcastInDim S1x6 ![1] bcast_S6_S1x6_1 : (⟨S6, .f32⟩ : BufTy).Contents (Elt F) → (⟨S1x6, .f32⟩ : BufTy).Contents (Elt F)),
    unary main_v422 main_v423 (broadcastInDim S131072x6 ![0, 1] bcast_S1x6_S131072x6_0_1 : (⟨S1x6, .f32⟩ : BufTy).Contents (Elt F) → (⟨S131072x6, .f32⟩ : BufTy).Contents (Elt F)),
    binary main_v419 main_v423 main_v424 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ14 : List (Ref sig .tc) := [main_v397, main_v398, main_v399, main_v400, main_v401, main_v402, main_v403, main_call28_v0, main_call28_cst, main_call28_v1, main_call28_v2, main_v404, main_v405, main_v406, main_v407, main_v408, main_v409, main_v410, main_v411, main_v412, main_v413, main_v414, main_call29_cst, main_call29_v0, main_v415, main_v416, main_v417, main_v418, main_v419, main_v420, main_v421, main_v422, main_v423, main_v424]

theorem J14_writes : (opsJ14 : List (HloOp τ sig (Elt F))).Forall fun op => op.writes ⊆ (wJ14.map (Proc.devRef (τ := τ) .tc)).toFinset := by
  simp only [List.Forall, nullary_writes, unary_writes, binary_writes, reshape_writes, nary_writes, Finset.singleton_subset_iff,
    List.mem_toFinset, List.mem_map]
  exact ⟨⟨main_v397, by decide, rfl⟩, ⟨main_v398, by decide, rfl⟩, ⟨main_v399, by decide, rfl⟩, ⟨main_v400, by decide, rfl⟩, ⟨main_v401, by decide, rfl⟩, ⟨main_v402, by decide, rfl⟩, ⟨main_v403, by decide, rfl⟩, ⟨main_call28_v0, by decide, rfl⟩, ⟨main_call28_cst, by decide, rfl⟩, ⟨main_call28_v1, by decide, rfl⟩, ⟨main_call28_v2, by decide, rfl⟩, ⟨main_v404, by decide, rfl⟩, ⟨main_v405, by decide, rfl⟩, ⟨main_v406, by decide, rfl⟩, ⟨main_v407, by decide, rfl⟩, ⟨main_v408, by decide, rfl⟩, ⟨main_v409, by decide, rfl⟩, ⟨main_v410, by decide, rfl⟩, ⟨main_v411, by decide, rfl⟩, ⟨main_v412, by decide, rfl⟩, ⟨main_v413, by decide, rfl⟩, ⟨main_v414, by decide, rfl⟩, ⟨main_call29_cst, by decide, rfl⟩, ⟨main_call29_v0, by decide, rfl⟩, ⟨main_v415, by decide, rfl⟩, ⟨main_v416, by decide, rfl⟩, ⟨main_v417, by decide, rfl⟩, ⟨main_v418, by decide, rfl⟩, ⟨main_v419, by decide, rfl⟩, ⟨main_v420, by decide, rfl⟩, ⟨main_v421, by decide, rfl⟩, ⟨main_v422, by decide, rfl⟩, ⟨main_v423, by decide, rfl⟩, ⟨main_v424, by decide, rfl⟩⟩

/-- A buffer the stretch does not write keeps its contents. -/
theorem J14_keep (W : Valuation τ sig (Elt F)) (r : Ref sig .tc) (hr : r ∉ wJ14) :
    after opsJ14 W (Proc.devRef .tc r) = W (Proc.devRef .tc r) :=
  after_of_writes_sub opsJ14 W J14_writes hr

theorem J14_sub : (opsJ14 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J14_fresh : (opsJ14 : List (HloOp τ sig (Elt F))).Forall fun op => op.fresh = ∅ := by
  simp only [List.Forall]; repeat' constructor

/-- After the stretch joint 14's output buffer holds `rstage` of what the stretch reads: the two argument arrays, joint 9's output, and the four weight arrays. -/
theorem J14_out (W : Valuation τ sig (Elt F)) :
    after opsJ14 W (Proc.devRef .tc main_v424)
      = rstage (shapeCast S131072x9 (extractStridedSlice S131072x1x9 ![0, 14, 0] (W (Proc.devRef .tc main_arg0)) slices_S131072x24x9_S131072x1x9_0_14_0) shapeCasts_S131072x1x9_S131072x9) (shapeCast S131072x3 (extractStridedSlice S131072x1x3 ![0, 14, 0] (W (Proc.devRef .tc main_arg1)) slices_S131072x24x3_S131072x1x3_0_14_0) shapeCasts_S131072x1x3_S131072x3) (subf (shapeCast S131072x3 (extractStridedSlice S131072x1x3 ![0, 14, 0] (W (Proc.devRef .tc main_arg1)) slices_S131072x24x3_S131072x1x3_0_14_0) shapeCasts_S131072x1x3_S131072x3) (shapeCast S131072x3 (extractStridedSlice S131072x1x3 ![0, 9, 0] (W (Proc.devRef .tc main_arg1)) slices_S131072x24x3_S131072x1x3_0_9_0) shapeCasts_S131072x1x3_S131072x3)) (W (Proc.devRef .tc main_v284))
        (extractStridedSlice S1x19x19 ![14, 0, 0] (W (Proc.devRef .tc main_arg4)) slices_S24x19x19_S1x19x19_14_0_0) (extractStridedSlice S1x19 ![14, 0] (W (Proc.devRef .tc main_arg5)) slices_S24x19_S1x19_14_0)
        (extractStridedSlice S1x6x19 ![14, 0, 0] (W (Proc.devRef .tc main_arg6)) slices_S24x6x19_S1x6x19_14_0_0) (extractStridedSlice S1x6 ![14, 0] (W (Proc.devRef .tc main_arg7)) slices_S24x6_S1x6_14_0) := by
  after_results_simp <;> rfl

end Cert.ReferenceIdeal.HRun

end
-- ==== Proof.RefStretchJ15.lean ====
/-
  One stretch of the reference's host program — joint 15: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ15 : List (HloOp τ sig (Elt F)) :=
  [ unary main_arg0 main_v425 ((extractStridedSlice S131072x1x9 ![0, 15, 0] · slices_S131072x24x9_S131072x1x9_0_15_0) : (⟨S131072x24x9, .f32⟩ : BufTy).Contents (Elt F) → (⟨S131072x1x9, .f32⟩ : BufTy).Contents (Elt F)),
    reshape main_v425 main_v426 rfl shapeCasts_S131072x1x9_S131072x9,
    unary main_arg1 main_v427 ((extractStridedSlice S131072x1x3 ![0, 15, 0] · slices_S131072x24x3_S131072x1x3_0_15_0) : (⟨S131072x24x3, .f32⟩ : BufTy).Contents (Elt F) → (⟨S131072x1x3, .f32⟩ : BufTy).Contents (Elt F)),
    reshape main_v427 main_v428 rfl shapeCasts_S131072x1x3_S131072x3,
    unary main_arg1 main_v429 ((extractStridedSlice S131072x1x3 ![0, 12, 0] · slices_S131072x24x3_S131072x1x3_0_12_0) : (⟨S131072x24x3, .f32⟩ : BufTy).Contents (Elt F) → (⟨S131072x1x3, .f32⟩ : BufTy).Contents (Elt F)),
    reshape main_v429 main_v430 rfl shapeCasts_S131072x1x3_S131072x3,
    binary main_v428 main_v430 main_v431 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v431) (TRef.of (T := ⟨S131072x3, .f32⟩) main_v431) (TRef.of (T := ⟨S131072x3, .f32⟩) main_call30_v0) mulf,
    TRef.nullary (TRef.of (T := ⟨S_, .f32⟩) main_call30_cst) (constant S_ .f32 0x00000000#32),
    TRef.binary (TRef.of (T := ⟨S131072x3, .f32⟩) main_call30_v0) (TRef.of (T := ⟨S_, .f32⟩) main_call30_cst) (TRef.of (T := ⟨S131072, .f32⟩) main_call30_v1) (fun x v => Host.reduceAdd x v reducesTo_S131072x3_S131072_d1 h_S_),
    TRef.unary (TRef.of (T := ⟨S131072, .f32⟩) main_call30_v1) (TRef.of (T := ⟨S131072x1, .f32⟩) main_call30_v2) (broadcastInDim S131072x1 ![0] bcast_S131072_S131072x1_0),
    TRef.unary (TRef.of (T := ⟨S131072x1, .f32⟩) main_call30_v2) (TRef.of (T := ⟨S131072x1, .f32⟩) main_v432) Host.sqrt,
    nary ![main_v426, main_v428, main_v432, main_v368] main_v433 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v434 ((extractStridedSlice S1x19x19 ![15, 0, 0] · slices_S24x19x19_S1x19x19_15_0_0) : (⟨S24x19x19, .f32⟩ : BufTy).Contents (Elt F) → (⟨S1x19x19, .f32⟩ : BufTy).Contents (Elt F)),
    reshape main_v434 main_v435 rfl shapeCasts_S1x19x19_S19x19,
    unary main_v435 main_v436 ((transpose S19x19 [1, 0] · transposes_S19x19_S19x19_1_0) : (⟨S19x19, .f32⟩ : BufTy).Contents (Elt F) → (⟨S19x19, .f32⟩ : BufTy).Contents (Elt F)),
    binary main_v433 main_v436 main_v437 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v438 ((extractStridedSlice S1x19 ![15, 0] · slices_S24x19_S1x19_15_0) : (⟨S24x19, .f32⟩ : BufTy).Contents (Elt F) → (⟨S1x19, .f32⟩ : BufTy).Contents (Elt F)),
    reshape main_v438 main_v439 rfl shapeCasts_S1x19_S19,
    unary main_v439 main_v440 (broadcastInDim S1x19 ![1] bcast_S19_S1x19_1 : (⟨S19, .f32⟩ : BufTy).Contents (Elt F) → (⟨S1x19, .f32⟩ : BufTy).Contents (Elt F)),
    unary main_v440 main_v441 (broadcastInDim S131072x19 ![0, 1] bcast_S1x19_S131072x19_0_1 : (⟨S1x19, .f32⟩ : BufTy).Contents (Elt F) → (⟨S131072x19, .f32⟩ : BufTy).Contents (Elt F)),
    binary main_v437 main_v441 main_v442 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S131072x19, .f32⟩) main_call31_v0) (broadcastInDim S131072x19 ![] bcast_S_S131072x19),
    TRef.binary (TRef.of (T := ⟨S131072x19, .f32⟩) main_v442) (TRef.of (T := ⟨S131072x19, .f32⟩) main_call31_v0) (TRef.of (T := ⟨S131072x19, .f32⟩) main_v443) maximumf,
    unary main_arg6 main_v444 ((extractStridedSlice S1x6x19 ![15, 0, 0] · slices_S24x6x19_S1x6x19_15_0_0) : (⟨S24x6x19, .f32⟩ : BufTy).Contents (Elt F) → (⟨S1x6x19, .f32⟩ : BufTy).Contents (Elt F)),
    reshape main_v444 main_v445 rfl shapeCasts_S1x6x19_S6x19,
    unary main_v445 main_v446 ((transpose S19x6 [1, 0] · transposes_S6x19_S19x6_1_0) : (⟨S6x19, .f32⟩ : BufTy).Contents (Elt F) → (⟨S19x6, .f32⟩ : BufTy).Contents (Elt F)),
    binary main_v443 main_v446 main_v447 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v448 ((extractStridedSlice S1x6 ![15, 0] · slices_S24x6_S1x6_15_0) : (⟨S24x6, .f32⟩ : BufTy).Contents (Elt F) → (⟨S1x6, .f32⟩ : BufTy).Contents (Elt F)),
    reshape main_v448 main_v449 rfl shapeCasts_S1x6_S6,
    unary main_v449 main_v450 (broadcastInDim S1x6 ![1] bcast_S6_S1x6_1 : (⟨S6, .f32⟩ : BufTy).Contents (Elt F) → (⟨S1x6, .f32⟩ : BufTy).Contents (Elt F)),
    unary main_v450 main_v451 (broadcastInDim S131072x6 ![0, 1] bcast_S1x6_S131072x6_0_1 : (⟨S1x6, .f32⟩ : BufTy).Contents (Elt F) → (⟨S131072x6, .f32⟩ : BufTy).Contents (Elt F)),
    binary main_v447 main_v451 main_v452 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ15 : List (Ref sig .tc) := [main_v425, main_v426, main_v427, main_v428, main_v429, main_v430, main_v431, main_call30_v0, main_call30_cst, main_call30_v1, main_call30_v2, main_v432, main_v433, main_v434, main_v435, main_v436, main_v437, main_v438, main_v439, main_v440, main_v441, main_v442, main_call31_cst, main_call31_v0, main_v443, main_v444, main_v445, main_v446, main_v447, main_v448, main_v449, main_v450, main_v451, main_v452]

theorem J15_writes : (opsJ15 : List (HloOp τ sig (Elt F))).Forall fun op => op.writes ⊆ (wJ15.map (Proc.devRef (τ := τ) .tc)).toFinset := by
  simp only [List.Forall, nullary_writes, unary_writes, binary_writes, reshape_writes, nary_writes, Finset.singleton_subset_iff,
    List.mem_toFinset, List.mem_map]
  exact ⟨⟨main_v425, by decide, rfl⟩, ⟨main_v426, by decide, rfl⟩, ⟨main_v427, by decide, rfl⟩, ⟨main_v428, by decide, rfl⟩, ⟨main_v429, by decide, rfl⟩, ⟨main_v430, by decide, rfl⟩, ⟨main_v431, by decide, rfl⟩, ⟨main_call30_v0, by decide, rfl⟩, ⟨main_call30_cst, by decide, rfl⟩, ⟨main_call30_v1, by decide, rfl⟩, ⟨main_call30_v2, by decide, rfl⟩, ⟨main_v432, by decide, rfl⟩, ⟨main_v433, by decide, rfl⟩, ⟨main_v434, by decide, rfl⟩, ⟨main_v435, by decide, rfl⟩, ⟨main_v436, by decide, rfl⟩, ⟨main_v437, by decide, rfl⟩, ⟨main_v438, by decide, rfl⟩, ⟨main_v439, by decide, rfl⟩, ⟨main_v440, by decide, rfl⟩, ⟨main_v441, by decide, rfl⟩, ⟨main_v442, by decide, rfl⟩, ⟨main_call31_cst, by decide, rfl⟩, ⟨main_call31_v0, by decide, rfl⟩, ⟨main_v443, by decide, rfl⟩, ⟨main_v444, by decide, rfl⟩, ⟨main_v445, by decide, rfl⟩, ⟨main_v446, by decide, rfl⟩, ⟨main_v447, by decide, rfl⟩, ⟨main_v448, by decide, rfl⟩, ⟨main_v449, by decide, rfl⟩, ⟨main_v450, by decide, rfl⟩, ⟨main_v451, by decide, rfl⟩, ⟨main_v452, by decide, rfl⟩⟩

/-- A buffer the stretch does not write keeps its contents. -/
theorem J15_keep (W : Valuation τ sig (Elt F)) (r : Ref sig .tc) (hr : r ∉ wJ15) :
    after opsJ15 W (Proc.devRef .tc r) = W (Proc.devRef .tc r) :=
  after_of_writes_sub opsJ15 W J15_writes hr

theorem J15_sub : (opsJ15 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J15_fresh : (opsJ15 : List (HloOp τ sig (Elt F))).Forall fun op => op.fresh = ∅ := by
  simp only [List.Forall]; repeat' constructor

/-- After the stretch joint 15's output buffer holds `rstage` of what the stretch reads: the two argument arrays, joint 12's output, and the four weight arrays. -/
theorem J15_out (W : Valuation τ sig (Elt F)) :
    after opsJ15 W (Proc.devRef .tc main_v452)
      = rstage (shapeCast S131072x9 (extractStridedSlice S131072x1x9 ![0, 15, 0] (W (Proc.devRef .tc main_arg0)) slices_S131072x24x9_S131072x1x9_0_15_0) shapeCasts_S131072x1x9_S131072x9) (shapeCast S131072x3 (extractStridedSlice S131072x1x3 ![0, 15, 0] (W (Proc.devRef .tc main_arg1)) slices_S131072x24x3_S131072x1x3_0_15_0) shapeCasts_S131072x1x3_S131072x3) (subf (shapeCast S131072x3 (extractStridedSlice S131072x1x3 ![0, 15, 0] (W (Proc.devRef .tc main_arg1)) slices_S131072x24x3_S131072x1x3_0_15_0) shapeCasts_S131072x1x3_S131072x3) (shapeCast S131072x3 (extractStridedSlice S131072x1x3 ![0, 12, 0] (W (Proc.devRef .tc main_arg1)) slices_S131072x24x3_S131072x1x3_0_12_0) shapeCasts_S131072x1x3_S131072x3)) (W (Proc.devRef .tc main_v368))
        (extractStridedSlice S1x19x19 ![15, 0, 0] (W (Proc.devRef .tc main_arg4)) slices_S24x19x19_S1x19x19_15_0_0) (extractStridedSlice S1x19 ![15, 0] (W (Proc.devRef .tc main_arg5)) slices_S24x19_S1x19_15_0)
        (extractStridedSlice S1x6x19 ![15, 0, 0] (W (Proc.devRef .tc main_arg6)) slices_S24x6x19_S1x6x19_15_0_0) (extractStridedSlice S1x6 ![15, 0] (W (Proc.devRef .tc main_arg7)) slices_S24x6_S1x6_15_0) := by
  after_results_simp <;> rfl

end Cert.ReferenceIdeal.HRun

end
-- ==== Proof.RefStretchJ16.lean ====
/-
  One stretch of the reference's host program — joint 16: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ16 : List (HloOp τ sig (Elt F)) :=
  [ unary main_arg0 main_v453 ((extractStridedSlice S131072x1x9 ![0, 16, 0] · slices_S131072x24x9_S131072x1x9_0_16_0) : (⟨S131072x24x9, .f32⟩ : BufTy).Contents (Elt F) → (⟨S131072x1x9, .f32⟩ : BufTy).Contents (Elt F)),
    reshape main_v453 main_v454 rfl shapeCasts_S131072x1x9_S131072x9,
    unary main_arg1 main_v455 ((extractStridedSlice S131072x1x3 ![0, 16, 0] · slices_S131072x24x3_S131072x1x3_0_16_0) : (⟨S131072x24x3, .f32⟩ : BufTy).Contents (Elt F) → (⟨S131072x1x3, .f32⟩ : BufTy).Contents (Elt F)),
    reshape main_v455 main_v456 rfl shapeCasts_S131072x1x3_S131072x3,
    unary main_arg1 main_v457 ((extractStridedSlice S131072x1x3 ![0, 13, 0] · slices_S131072x24x3_S131072x1x3_0_13_0) : (⟨S131072x24x3, .f32⟩ : BufTy).Contents (Elt F) → (⟨S131072x1x3, .f32⟩ : BufTy).Contents (Elt F)),
    reshape main_v457 main_v458 rfl shapeCasts_S131072x1x3_S131072x3,
    binary main_v456 main_v458 main_v459 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v459) (TRef.of (T := ⟨S131072x3, .f32⟩) main_v459) (TRef.of (T := ⟨S131072x3, .f32⟩) main_call32_v0) mulf,
    TRef.nullary (TRef.of (T := ⟨S_, .f32⟩) main_call32_cst) (constant S_ .f32 0x00000000#32),
    TRef.binary (TRef.of (T := ⟨S131072x3, .f32⟩) main_call32_v0) (TRef.of (T := ⟨S_, .f32⟩) main_call32_cst) (TRef.of (T := ⟨S131072, .f32⟩) main_call32_v1) (fun x v => Host.reduceAdd x v reducesTo_S131072x3_S131072_d1 h_S_),
    TRef.unary (TRef.of (T := ⟨S131072, .f32⟩) main_call32_v1) (TRef.of (T := ⟨S131072x1, .f32⟩) main_call32_v2) (broadcastInDim S131072x1 ![0] bcast_S131072_S131072x1_0),
    TRef.unary (TRef.of (T := ⟨S131072x1, .f32⟩) main_call32_v2) (TRef.of (T := ⟨S131072x1, .f32⟩) main_v460) Host.sqrt,
    nary ![main_v454, main_v456, main_v460, main_v396] main_v461 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v462 ((extractStridedSlice S1x19x19 ![16, 0, 0] · slices_S24x19x19_S1x19x19_16_0_0) : (⟨S24x19x19, .f32⟩ : BufTy).Contents (Elt F) → (⟨S1x19x19, .f32⟩ : BufTy).Contents (Elt F)),
    reshape main_v462 main_v463 rfl shapeCasts_S1x19x19_S19x19,
    unary main_v463 main_v464 ((transpose S19x19 [1, 0] · transposes_S19x19_S19x19_1_0) : (⟨S19x19, .f32⟩ : BufTy).Contents (Elt F) → (⟨S19x19, .f32⟩ : BufTy).Contents (Elt F)),
    binary main_v461 main_v464 main_v465 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v466 ((extractStridedSlice S1x19 ![16, 0] · slices_S24x19_S1x19_16_0) : (⟨S24x19, .f32⟩ : BufTy).Contents (Elt F) → (⟨S1x19, .f32⟩ : BufTy).Contents (Elt F)),
    reshape main_v466 main_v467 rfl shapeCasts_S1x19_S19,
    unary main_v467 main_v468 (broadcastInDim S1x19 ![1] bcast_S19_S1x19_1 : (⟨S19, .f32⟩ : BufTy).Contents (Elt F) → (⟨S1x19, .f32⟩ : BufTy).Contents (Elt F)),
    unary main_v468 main_v469 (broadcastInDim S131072x19 ![0, 1] bcast_S1x19_S131072x19_0_1 : (⟨S1x19, .f32⟩ : BufTy).Contents (Elt F) → (⟨S131072x19, .f32⟩ : BufTy).Contents (Elt F)),
    binary main_v465 main_v469 main_v470 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S131072x19, .f32⟩) main_call33_v0) (broadcastInDim S131072x19 ![] bcast_S_S131072x19),
    TRef.binary (TRef.of (T := ⟨S131072x19, .f32⟩) main_v470) (TRef.of (T := ⟨S131072x19, .f32⟩) main_call33_v0) (TRef.of (T := ⟨S131072x19, .f32⟩) main_v471) maximumf,
    unary main_arg6 main_v472 ((extractStridedSlice S1x6x19 ![16, 0, 0] · slices_S24x6x19_S1x6x19_16_0_0) : (⟨S24x6x19, .f32⟩ : BufTy).Contents (Elt F) → (⟨S1x6x19, .f32⟩ : BufTy).Contents (Elt F)),
    reshape main_v472 main_v473 rfl shapeCasts_S1x6x19_S6x19,
    unary main_v473 main_v474 ((transpose S19x6 [1, 0] · transposes_S6x19_S19x6_1_0) : (⟨S6x19, .f32⟩ : BufTy).Contents (Elt F) → (⟨S19x6, .f32⟩ : BufTy).Contents (Elt F)),
    binary main_v471 main_v474 main_v475 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v476 ((extractStridedSlice S1x6 ![16, 0] · slices_S24x6_S1x6_16_0) : (⟨S24x6, .f32⟩ : BufTy).Contents (Elt F) → (⟨S1x6, .f32⟩ : BufTy).Contents (Elt F)),
    reshape main_v476 main_v477 rfl shapeCasts_S1x6_S6,
    unary main_v477 main_v478 (broadcastInDim S1x6 ![1] bcast_S6_S1x6_1 : (⟨S6, .f32⟩ : BufTy).Contents (Elt F) → (⟨S1x6, .f32⟩ : BufTy).Contents (Elt F)),
    unary main_v478 main_v479 (broadcastInDim S131072x6 ![0, 1] bcast_S1x6_S131072x6_0_1 : (⟨S1x6, .f32⟩ : BufTy).Contents (Elt F) → (⟨S131072x6, .f32⟩ : BufTy).Contents (Elt F)),
    binary main_v475 main_v479 main_v480 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ16 : List (Ref sig .tc) := [main_v453, main_v454, main_v455, main_v456, main_v457, main_v458, main_v459, main_call32_v0, main_call32_cst, main_call32_v1, main_call32_v2, main_v460, main_v461, main_v462, main_v463, main_v464, main_v465, main_v466, main_v467, main_v468, main_v469, main_v470, main_call33_cst, main_call33_v0, main_v471, main_v472, main_v473, main_v474, main_v475, main_v476, main_v477, main_v478, main_v479, main_v480]

theorem J16_writes : (opsJ16 : List (HloOp τ sig (Elt F))).Forall fun op => op.writes ⊆ (wJ16.map (Proc.devRef (τ := τ) .tc)).toFinset := by
  simp only [List.Forall, nullary_writes, unary_writes, binary_writes, reshape_writes, nary_writes, Finset.singleton_subset_iff,
    List.mem_toFinset, List.mem_map]
  exact ⟨⟨main_v453, by decide, rfl⟩, ⟨main_v454, by decide, rfl⟩, ⟨main_v455, by decide, rfl⟩, ⟨main_v456, by decide, rfl⟩, ⟨main_v457, by decide, rfl⟩, ⟨main_v458, by decide, rfl⟩, ⟨main_v459, by decide, rfl⟩, ⟨main_call32_v0, by decide, rfl⟩, ⟨main_call32_cst, by decide, rfl⟩, ⟨main_call32_v1, by decide, rfl⟩, ⟨main_call32_v2, by decide, rfl⟩, ⟨main_v460, by decide, rfl⟩, ⟨main_v461, by decide, rfl⟩, ⟨main_v462, by decide, rfl⟩, ⟨main_v463, by decide, rfl⟩, ⟨main_v464, by decide, rfl⟩, ⟨main_v465, by decide, rfl⟩, ⟨main_v466, by decide, rfl⟩, ⟨main_v467, by decide, rfl⟩, ⟨main_v468, by decide, rfl⟩, ⟨main_v469, by decide, rfl⟩, ⟨main_v470, by decide, rfl⟩, ⟨main_call33_cst, by decide, rfl⟩, ⟨main_call33_v0, by decide, rfl⟩, ⟨main_v471, by decide, rfl⟩, ⟨main_v472, by decide, rfl⟩, ⟨main_v473, by decide, rfl⟩, ⟨main_v474, by decide, rfl⟩, ⟨main_v475, by decide, rfl⟩, ⟨main_v476, by decide, rfl⟩, ⟨main_v477, by decide, rfl⟩, ⟨main_v478, by decide, rfl⟩, ⟨main_v479, by decide, rfl⟩, ⟨main_v480, by decide, rfl⟩⟩

/-- A buffer the stretch does not write keeps its contents. -/
theorem J16_keep (W : Valuation τ sig (Elt F)) (r : Ref sig .tc) (hr : r ∉ wJ16) :
    after opsJ16 W (Proc.devRef .tc r) = W (Proc.devRef .tc r) :=
  after_of_writes_sub opsJ16 W J16_writes hr

theorem J16_sub : (opsJ16 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J16_fresh : (opsJ16 : List (HloOp τ sig (Elt F))).Forall fun op => op.fresh = ∅ := by
  simp only [List.Forall]; repeat' constructor

/-- After the stretch joint 16's output buffer holds `rstage` of what the stretch reads: the two argument arrays, joint 13's output, and the four weight arrays. -/
theorem J16_out (W : Valuation τ sig (Elt F)) :
    after opsJ16 W (Proc.devRef .tc main_v480)
      = rstage (shapeCast S131072x9 (extractStridedSlice S131072x1x9 ![0, 16, 0] (W (Proc.devRef .tc main_arg0)) slices_S131072x24x9_S131072x1x9_0_16_0) shapeCasts_S131072x1x9_S131072x9) (shapeCast S131072x3 (extractStridedSlice S131072x1x3 ![0, 16, 0] (W (Proc.devRef .tc main_arg1)) slices_S131072x24x3_S131072x1x3_0_16_0) shapeCasts_S131072x1x3_S131072x3) (subf (shapeCast S131072x3 (extractStridedSlice S131072x1x3 ![0, 16, 0] (W (Proc.devRef .tc main_arg1)) slices_S131072x24x3_S131072x1x3_0_16_0) shapeCasts_S131072x1x3_S131072x3) (shapeCast S131072x3 (extractStridedSlice S131072x1x3 ![0, 13, 0] (W (Proc.devRef .tc main_arg1)) slices_S131072x24x3_S131072x1x3_0_13_0) shapeCasts_S131072x1x3_S131072x3)) (W (Proc.devRef .tc main_v396))
        (extractStridedSlice S1x19x19 ![16, 0, 0] (W (Proc.devRef .tc main_arg4)) slices_S24x19x19_S1x19x19_16_0_0) (extractStridedSlice S1x19 ![16, 0] (W (Proc.devRef .tc main_arg5)) slices_S24x19_S1x19_16_0)
        (extractStridedSlice S1x6x19 ![16, 0, 0] (W (Proc.devRef .tc main_arg6)) slices_S24x6x19_S1x6x19_16_0_0) (extractStridedSlice S1x6 ![16, 0] (W (Proc.devRef .tc main_arg7)) slices_S24x6_S1x6_16_0) := by
  after_results_simp <;> rfl

end Cert.ReferenceIdeal.HRun

end
-- ==== Proof.RefStretchJ17.lean ====
/-
  One stretch of the reference's host program — joint 17: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ17 : List (HloOp τ sig (Elt F)) :=
  [ unary main_arg0 main_v481 ((extractStridedSlice S131072x1x9 ![0, 17, 0] · slices_S131072x24x9_S131072x1x9_0_17_0) : (⟨S131072x24x9, .f32⟩ : BufTy).Contents (Elt F) → (⟨S131072x1x9, .f32⟩ : BufTy).Contents (Elt F)),
    reshape main_v481 main_v482 rfl shapeCasts_S131072x1x9_S131072x9,
    unary main_arg1 main_v483 ((extractStridedSlice S131072x1x3 ![0, 17, 0] · slices_S131072x24x3_S131072x1x3_0_17_0) : (⟨S131072x24x3, .f32⟩ : BufTy).Contents (Elt F) → (⟨S131072x1x3, .f32⟩ : BufTy).Contents (Elt F)),
    reshape main_v483 main_v484 rfl shapeCasts_S131072x1x3_S131072x3,
    unary main_arg1 main_v485 ((extractStridedSlice S131072x1x3 ![0, 14, 0] · slices_S131072x24x3_S131072x1x3_0_14_0) : (⟨S131072x24x3, .f32⟩ : BufTy).Contents (Elt F) → (⟨S131072x1x3, .f32⟩ : BufTy).Contents (Elt F)),
    reshape main_v485 main_v486 rfl shapeCasts_S131072x1x3_S131072x3,
    binary main_v484 main_v486 main_v487 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v487) (TRef.of (T := ⟨S131072x3, .f32⟩) main_v487) (TRef.of (T := ⟨S131072x3, .f32⟩) main_call34_v0) mulf,
    TRef.nullary (TRef.of (T := ⟨S_, .f32⟩) main_call34_cst) (constant S_ .f32 0x00000000#32),
    TRef.binary (TRef.of (T := ⟨S131072x3, .f32⟩) main_call34_v0) (TRef.of (T := ⟨S_, .f32⟩) main_call34_cst) (TRef.of (T := ⟨S131072, .f32⟩) main_call34_v1) (fun x v => Host.reduceAdd x v reducesTo_S131072x3_S131072_d1 h_S_),
    TRef.unary (TRef.of (T := ⟨S131072, .f32⟩) main_call34_v1) (TRef.of (T := ⟨S131072x1, .f32⟩) main_call34_v2) (broadcastInDim S131072x1 ![0] bcast_S131072_S131072x1_0),
    TRef.unary (TRef.of (T := ⟨S131072x1, .f32⟩) main_call34_v2) (TRef.of (T := ⟨S131072x1, .f32⟩) main_v488) Host.sqrt,
    nary ![main_v482, main_v484, main_v488, main_v424] main_v489 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v490 ((extractStridedSlice S1x19x19 ![17, 0, 0] · slices_S24x19x19_S1x19x19_17_0_0) : (⟨S24x19x19, .f32⟩ : BufTy).Contents (Elt F) → (⟨S1x19x19, .f32⟩ : BufTy).Contents (Elt F)),
    reshape main_v490 main_v491 rfl shapeCasts_S1x19x19_S19x19,
    unary main_v491 main_v492 ((transpose S19x19 [1, 0] · transposes_S19x19_S19x19_1_0) : (⟨S19x19, .f32⟩ : BufTy).Contents (Elt F) → (⟨S19x19, .f32⟩ : BufTy).Contents (Elt F)),
    binary main_v489 main_v492 main_v493 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v494 ((extractStridedSlice S1x19 ![17, 0] · slices_S24x19_S1x19_17_0) : (⟨S24x19, .f32⟩ : BufTy).Contents (Elt F) → (⟨S1x19, .f32⟩ : BufTy).Contents (Elt F)),
    reshape main_v494 main_v495 rfl shapeCasts_S1x19_S19,
    unary main_v495 main_v496 (broadcastInDim S1x19 ![1] bcast_S19_S1x19_1 : (⟨S19, .f32⟩ : BufTy).Contents (Elt F) → (⟨S1x19, .f32⟩ : BufTy).Contents (Elt F)),
    unary main_v496 main_v497 (broadcastInDim S131072x19 ![0, 1] bcast_S1x19_S131072x19_0_1 : (⟨S1x19, .f32⟩ : BufTy).Contents (Elt F) → (⟨S131072x19, .f32⟩ : BufTy).Contents (Elt F)),
    binary main_v493 main_v497 main_v498 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S131072x19, .f32⟩) main_call35_v0) (broadcastInDim S131072x19 ![] bcast_S_S131072x19),
    TRef.binary (TRef.of (T := ⟨S131072x19, .f32⟩) main_v498) (TRef.of (T := ⟨S131072x19, .f32⟩) main_call35_v0) (TRef.of (T := ⟨S131072x19, .f32⟩) main_v499) maximumf,
    unary main_arg6 main_v500 ((extractStridedSlice S1x6x19 ![17, 0, 0] · slices_S24x6x19_S1x6x19_17_0_0) : (⟨S24x6x19, .f32⟩ : BufTy).Contents (Elt F) → (⟨S1x6x19, .f32⟩ : BufTy).Contents (Elt F)),
    reshape main_v500 main_v501 rfl shapeCasts_S1x6x19_S6x19,
    unary main_v501 main_v502 ((transpose S19x6 [1, 0] · transposes_S6x19_S19x6_1_0) : (⟨S6x19, .f32⟩ : BufTy).Contents (Elt F) → (⟨S19x6, .f32⟩ : BufTy).Contents (Elt F)),
    binary main_v499 main_v502 main_v503 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v504 ((extractStridedSlice S1x6 ![17, 0] · slices_S24x6_S1x6_17_0) : (⟨S24x6, .f32⟩ : BufTy).Contents (Elt F) → (⟨S1x6, .f32⟩ : BufTy).Contents (Elt F)),
    reshape main_v504 main_v505 rfl shapeCasts_S1x6_S6,
    unary main_v505 main_v506 (broadcastInDim S1x6 ![1] bcast_S6_S1x6_1 : (⟨S6, .f32⟩ : BufTy).Contents (Elt F) → (⟨S1x6, .f32⟩ : BufTy).Contents (Elt F)),
    unary main_v506 main_v507 (broadcastInDim S131072x6 ![0, 1] bcast_S1x6_S131072x6_0_1 : (⟨S1x6, .f32⟩ : BufTy).Contents (Elt F) → (⟨S131072x6, .f32⟩ : BufTy).Contents (Elt F)),
    binary main_v503 main_v507 main_v508 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ17 : List (Ref sig .tc) := [main_v481, main_v482, main_v483, main_v484, main_v485, main_v486, main_v487, main_call34_v0, main_call34_cst, main_call34_v1, main_call34_v2, main_v488, main_v489, main_v490, main_v491, main_v492, main_v493, main_v494, main_v495, main_v496, main_v497, main_v498, main_call35_cst, main_call35_v0, main_v499, main_v500, main_v501, main_v502, main_v503, main_v504, main_v505, main_v506, main_v507, main_v508]

theorem J17_writes : (opsJ17 : List (HloOp τ sig (Elt F))).Forall fun op => op.writes ⊆ (wJ17.map (Proc.devRef (τ := τ) .tc)).toFinset := by
  simp only [List.Forall, nullary_writes, unary_writes, binary_writes, reshape_writes, nary_writes, Finset.singleton_subset_iff,
    List.mem_toFinset, List.mem_map]
  exact ⟨⟨main_v481, by decide, rfl⟩, ⟨main_v482, by decide, rfl⟩, ⟨main_v483, by decide, rfl⟩, ⟨main_v484, by decide, rfl⟩, ⟨main_v485, by decide, rfl⟩, ⟨main_v486, by decide, rfl⟩, ⟨main_v487, by decide, rfl⟩, ⟨main_call34_v0, by decide, rfl⟩, ⟨main_call34_cst, by decide, rfl⟩, ⟨main_call34_v1, by decide, rfl⟩, ⟨main_call34_v2, by decide, rfl⟩, ⟨main_v488, by decide, rfl⟩, ⟨main_v489, by decide, rfl⟩, ⟨main_v490, by decide, rfl⟩, ⟨main_v491, by decide, rfl⟩, ⟨main_v492, by decide, rfl⟩, ⟨main_v493, by decide, rfl⟩, ⟨main_v494, by decide, rfl⟩, ⟨main_v495, by decide, rfl⟩, ⟨main_v496, by decide, rfl⟩, ⟨main_v497, by decide, rfl⟩, ⟨main_v498, by decide, rfl⟩, ⟨main_call35_cst, by decide, rfl⟩, ⟨main_call35_v0, by decide, rfl⟩, ⟨main_v499, by decide, rfl⟩, ⟨main_v500, by decide, rfl⟩, ⟨main_v501, by decide, rfl⟩, ⟨main_v502, by decide, rfl⟩, ⟨main_v503, by decide, rfl⟩, ⟨main_v504, by decide, rfl⟩, ⟨main_v505, by decide, rfl⟩, ⟨main_v506, by decide, rfl⟩, ⟨main_v507, by decide, rfl⟩, ⟨main_v508, by decide, rfl⟩⟩

/-- A buffer the stretch does not write keeps its contents. -/
theorem J17_keep (W : Valuation τ sig (Elt F)) (r : Ref sig .tc) (hr : r ∉ wJ17) :
    after opsJ17 W (Proc.devRef .tc r) = W (Proc.devRef .tc r) :=
  after_of_writes_sub opsJ17 W J17_writes hr

theorem J17_sub : (opsJ17 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J17_fresh : (opsJ17 : List (HloOp τ sig (Elt F))).Forall fun op => op.fresh = ∅ := by
  simp only [List.Forall]; repeat' constructor

/-- After the stretch joint 17's output buffer holds `rstage` of what the stretch reads: the two argument arrays, joint 14's output, and the four weight arrays. -/
theorem J17_out (W : Valuation τ sig (Elt F)) :
    after opsJ17 W (Proc.devRef .tc main_v508)
      = rstage (shapeCast S131072x9 (extractStridedSlice S131072x1x9 ![0, 17, 0] (W (Proc.devRef .tc main_arg0)) slices_S131072x24x9_S131072x1x9_0_17_0) shapeCasts_S131072x1x9_S131072x9) (shapeCast S131072x3 (extractStridedSlice S131072x1x3 ![0, 17, 0] (W (Proc.devRef .tc main_arg1)) slices_S131072x24x3_S131072x1x3_0_17_0) shapeCasts_S131072x1x3_S131072x3) (subf (shapeCast S131072x3 (extractStridedSlice S131072x1x3 ![0, 17, 0] (W (Proc.devRef .tc main_arg1)) slices_S131072x24x3_S131072x1x3_0_17_0) shapeCasts_S131072x1x3_S131072x3) (shapeCast S131072x3 (extractStridedSlice S131072x1x3 ![0, 14, 0] (W (Proc.devRef .tc main_arg1)) slices_S131072x24x3_S131072x1x3_0_14_0) shapeCasts_S131072x1x3_S131072x3)) (W (Proc.devRef .tc main_v424))
        (extractStridedSlice S1x19x19 ![17, 0, 0] (W (Proc.devRef .tc main_arg4)) slices_S24x19x19_S1x19x19_17_0_0) (extractStridedSlice S1x19 ![17, 0] (W (Proc.devRef .tc main_arg5)) slices_S24x19_S1x19_17_0)
        (extractStridedSlice S1x6x19 ![17, 0, 0] (W (Proc.devRef .tc main_arg6)) slices_S24x6x19_S1x6x19_17_0_0) (extractStridedSlice S1x6 ![17, 0] (W (Proc.devRef .tc main_arg7)) slices_S24x6_S1x6_17_0) := by
  after_results_simp <;> rfl

end Cert.ReferenceIdeal.HRun

end
-- ==== Proof.RefStretchJ18.lean ====
/-
  One stretch of the reference's host program — joint 18: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ18 : List (HloOp τ sig (Elt F)) :=
  [ unary main_arg0 main_v509 ((extractStridedSlice S131072x1x9 ![0, 18, 0] · slices_S131072x24x9_S131072x1x9_0_18_0) : (⟨S131072x24x9, .f32⟩ : BufTy).Contents (Elt F) → (⟨S131072x1x9, .f32⟩ : BufTy).Contents (Elt F)),
    reshape main_v509 main_v510 rfl shapeCasts_S131072x1x9_S131072x9,
    unary main_arg1 main_v511 ((extractStridedSlice S131072x1x3 ![0, 18, 0] · slices_S131072x24x3_S131072x1x3_0_18_0) : (⟨S131072x24x3, .f32⟩ : BufTy).Contents (Elt F) → (⟨S131072x1x3, .f32⟩ : BufTy).Contents (Elt F)),
    reshape main_v511 main_v512 rfl shapeCasts_S131072x1x3_S131072x3,
    unary main_arg1 main_v513 ((extractStridedSlice S131072x1x3 ![0, 16, 0] · slices_S131072x24x3_S131072x1x3_0_16_0) : (⟨S131072x24x3, .f32⟩ : BufTy).Contents (Elt F) → (⟨S131072x1x3, .f32⟩ : BufTy).Contents (Elt F)),
    reshape main_v513 main_v514 rfl shapeCasts_S131072x1x3_S131072x3,
    binary main_v512 main_v514 main_v515 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v515) (TRef.of (T := ⟨S131072x3, .f32⟩) main_v515) (TRef.of (T := ⟨S131072x3, .f32⟩) main_call36_v0) mulf,
    TRef.nullary (TRef.of (T := ⟨S_, .f32⟩) main_call36_cst) (constant S_ .f32 0x00000000#32),
    TRef.binary (TRef.of (T := ⟨S131072x3, .f32⟩) main_call36_v0) (TRef.of (T := ⟨S_, .f32⟩) main_call36_cst) (TRef.of (T := ⟨S131072, .f32⟩) main_call36_v1) (fun x v => Host.reduceAdd x v reducesTo_S131072x3_S131072_d1 h_S_),
    TRef.unary (TRef.of (T := ⟨S131072, .f32⟩) main_call36_v1) (TRef.of (T := ⟨S131072x1, .f32⟩) main_call36_v2) (broadcastInDim S131072x1 ![0] bcast_S131072_S131072x1_0),
    TRef.unary (TRef.of (T := ⟨S131072x1, .f32⟩) main_call36_v2) (TRef.of (T := ⟨S131072x1, .f32⟩) main_v516) Host.sqrt,
    nary ![main_v510, main_v512, main_v516, main_v480] main_v517 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v518 ((extractStridedSlice S1x19x19 ![18, 0, 0] · slices_S24x19x19_S1x19x19_18_0_0) : (⟨S24x19x19, .f32⟩ : BufTy).Contents (Elt F) → (⟨S1x19x19, .f32⟩ : BufTy).Contents (Elt F)),
    reshape main_v518 main_v519 rfl shapeCasts_S1x19x19_S19x19,
    unary main_v519 main_v520 ((transpose S19x19 [1, 0] · transposes_S19x19_S19x19_1_0) : (⟨S19x19, .f32⟩ : BufTy).Contents (Elt F) → (⟨S19x19, .f32⟩ : BufTy).Contents (Elt F)),
    binary main_v517 main_v520 main_v521 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v522 ((extractStridedSlice S1x19 ![18, 0] · slices_S24x19_S1x19_18_0) : (⟨S24x19, .f32⟩ : BufTy).Contents (Elt F) → (⟨S1x19, .f32⟩ : BufTy).Contents (Elt F)),
    reshape main_v522 main_v523 rfl shapeCasts_S1x19_S19,
    unary main_v523 main_v524 (broadcastInDim S1x19 ![1] bcast_S19_S1x19_1 : (⟨S19, .f32⟩ : BufTy).Contents (Elt F) → (⟨S1x19, .f32⟩ : BufTy).Contents (Elt F)),
    unary main_v524 main_v525 (broadcastInDim S131072x19 ![0, 1] bcast_S1x19_S131072x19_0_1 : (⟨S1x19, .f32⟩ : BufTy).Contents (Elt F) → (⟨S131072x19, .f32⟩ : BufTy).Contents (Elt F)),
    binary main_v521 main_v525 main_v526 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S131072x19, .f32⟩) main_call37_v0) (broadcastInDim S131072x19 ![] bcast_S_S131072x19),
    TRef.binary (TRef.of (T := ⟨S131072x19, .f32⟩) main_v526) (TRef.of (T := ⟨S131072x19, .f32⟩) main_call37_v0) (TRef.of (T := ⟨S131072x19, .f32⟩) main_v527) maximumf,
    unary main_arg6 main_v528 ((extractStridedSlice S1x6x19 ![18, 0, 0] · slices_S24x6x19_S1x6x19_18_0_0) : (⟨S24x6x19, .f32⟩ : BufTy).Contents (Elt F) → (⟨S1x6x19, .f32⟩ : BufTy).Contents (Elt F)),
    reshape main_v528 main_v529 rfl shapeCasts_S1x6x19_S6x19,
    unary main_v529 main_v530 ((transpose S19x6 [1, 0] · transposes_S6x19_S19x6_1_0) : (⟨S6x19, .f32⟩ : BufTy).Contents (Elt F) → (⟨S19x6, .f32⟩ : BufTy).Contents (Elt F)),
    binary main_v527 main_v530 main_v531 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v532 ((extractStridedSlice S1x6 ![18, 0] · slices_S24x6_S1x6_18_0) : (⟨S24x6, .f32⟩ : BufTy).Contents (Elt F) → (⟨S1x6, .f32⟩ : BufTy).Contents (Elt F)),
    reshape main_v532 main_v533 rfl shapeCasts_S1x6_S6,
    unary main_v533 main_v534 (broadcastInDim S1x6 ![1] bcast_S6_S1x6_1 : (⟨S6, .f32⟩ : BufTy).Contents (Elt F) → (⟨S1x6, .f32⟩ : BufTy).Contents (Elt F)),
    unary main_v534 main_v535 (broadcastInDim S131072x6 ![0, 1] bcast_S1x6_S131072x6_0_1 : (⟨S1x6, .f32⟩ : BufTy).Contents (Elt F) → (⟨S131072x6, .f32⟩ : BufTy).Contents (Elt F)),
    binary main_v531 main_v535 main_v536 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ18 : List (Ref sig .tc) := [main_v509, main_v510, main_v511, main_v512, main_v513, main_v514, main_v515, main_call36_v0, main_call36_cst, main_call36_v1, main_call36_v2, main_v516, main_v517, main_v518, main_v519, main_v520, main_v521, main_v522, main_v523, main_v524, main_v525, main_v526, main_call37_cst, main_call37_v0, main_v527, main_v528, main_v529, main_v530, main_v531, main_v532, main_v533, main_v534, main_v535, main_v536]

theorem J18_writes : (opsJ18 : List (HloOp τ sig (Elt F))).Forall fun op => op.writes ⊆ (wJ18.map (Proc.devRef (τ := τ) .tc)).toFinset := by
  simp only [List.Forall, nullary_writes, unary_writes, binary_writes, reshape_writes, nary_writes, Finset.singleton_subset_iff,
    List.mem_toFinset, List.mem_map]
  exact ⟨⟨main_v509, by decide, rfl⟩, ⟨main_v510, by decide, rfl⟩, ⟨main_v511, by decide, rfl⟩, ⟨main_v512, by decide, rfl⟩, ⟨main_v513, by decide, rfl⟩, ⟨main_v514, by decide, rfl⟩, ⟨main_v515, by decide, rfl⟩, ⟨main_call36_v0, by decide, rfl⟩, ⟨main_call36_cst, by decide, rfl⟩, ⟨main_call36_v1, by decide, rfl⟩, ⟨main_call36_v2, by decide, rfl⟩, ⟨main_v516, by decide, rfl⟩, ⟨main_v517, by decide, rfl⟩, ⟨main_v518, by decide, rfl⟩, ⟨main_v519, by decide, rfl⟩, ⟨main_v520, by decide, rfl⟩, ⟨main_v521, by decide, rfl⟩, ⟨main_v522, by decide, rfl⟩, ⟨main_v523, by decide, rfl⟩, ⟨main_v524, by decide, rfl⟩, ⟨main_v525, by decide, rfl⟩, ⟨main_v526, by decide, rfl⟩, ⟨main_call37_cst, by decide, rfl⟩, ⟨main_call37_v0, by decide, rfl⟩, ⟨main_v527, by decide, rfl⟩, ⟨main_v528, by decide, rfl⟩, ⟨main_v529, by decide, rfl⟩, ⟨main_v530, by decide, rfl⟩, ⟨main_v531, by decide, rfl⟩, ⟨main_v532, by decide, rfl⟩, ⟨main_v533, by decide, rfl⟩, ⟨main_v534, by decide, rfl⟩, ⟨main_v535, by decide, rfl⟩, ⟨main_v536, by decide, rfl⟩⟩

/-- A buffer the stretch does not write keeps its contents. -/
theorem J18_keep (W : Valuation τ sig (Elt F)) (r : Ref sig .tc) (hr : r ∉ wJ18) :
    after opsJ18 W (Proc.devRef .tc r) = W (Proc.devRef .tc r) :=
  after_of_writes_sub opsJ18 W J18_writes hr

theorem J18_sub : (opsJ18 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J18_fresh : (opsJ18 : List (HloOp τ sig (Elt F))).Forall fun op => op.fresh = ∅ := by
  simp only [List.Forall]; repeat' constructor

/-- After the stretch joint 18's output buffer holds `rstage` of what the stretch reads: the two argument arrays, joint 16's output, and the four weight arrays. -/
theorem J18_out (W : Valuation τ sig (Elt F)) :
    after opsJ18 W (Proc.devRef .tc main_v536)
      = rstage (shapeCast S131072x9 (extractStridedSlice S131072x1x9 ![0, 18, 0] (W (Proc.devRef .tc main_arg0)) slices_S131072x24x9_S131072x1x9_0_18_0) shapeCasts_S131072x1x9_S131072x9) (shapeCast S131072x3 (extractStridedSlice S131072x1x3 ![0, 18, 0] (W (Proc.devRef .tc main_arg1)) slices_S131072x24x3_S131072x1x3_0_18_0) shapeCasts_S131072x1x3_S131072x3) (subf (shapeCast S131072x3 (extractStridedSlice S131072x1x3 ![0, 18, 0] (W (Proc.devRef .tc main_arg1)) slices_S131072x24x3_S131072x1x3_0_18_0) shapeCasts_S131072x1x3_S131072x3) (shapeCast S131072x3 (extractStridedSlice S131072x1x3 ![0, 16, 0] (W (Proc.devRef .tc main_arg1)) slices_S131072x24x3_S131072x1x3_0_16_0) shapeCasts_S131072x1x3_S131072x3)) (W (Proc.devRef .tc main_v480))
        (extractStridedSlice S1x19x19 ![18, 0, 0] (W (Proc.devRef .tc main_arg4)) slices_S24x19x19_S1x19x19_18_0_0) (extractStridedSlice S1x19 ![18, 0] (W (Proc.devRef .tc main_arg5)) slices_S24x19_S1x19_18_0)
        (extractStridedSlice S1x6x19 ![18, 0, 0] (W (Proc.devRef .tc main_arg6)) slices_S24x6x19_S1x6x19_18_0_0) (extractStridedSlice S1x6 ![18, 0] (W (Proc.devRef .tc main_arg7)) slices_S24x6_S1x6_18_0) := by
  after_results_simp <;> rfl

end Cert.ReferenceIdeal.HRun

end
-- ==== Proof.RefStretchJ19.lean ====
/-
  One stretch of the reference's host program — joint 19: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ19 : List (HloOp τ sig (Elt F)) :=
  [ unary main_arg0 main_v537 ((extractStridedSlice S131072x1x9 ![0, 19, 0] · slices_S131072x24x9_S131072x1x9_0_19_0) : (⟨S131072x24x9, .f32⟩ : BufTy).Contents (Elt F) → (⟨S131072x1x9, .f32⟩ : BufTy).Contents (Elt F)),
    reshape main_v537 main_v538 rfl shapeCasts_S131072x1x9_S131072x9,
    unary main_arg1 main_v539 ((extractStridedSlice S131072x1x3 ![0, 19, 0] · slices_S131072x24x3_S131072x1x3_0_19_0) : (⟨S131072x24x3, .f32⟩ : BufTy).Contents (Elt F) → (⟨S131072x1x3, .f32⟩ : BufTy).Contents (Elt F)),
    reshape main_v539 main_v540 rfl shapeCasts_S131072x1x3_S131072x3,
    unary main_arg1 main_v541 ((extractStridedSlice S131072x1x3 ![0, 17, 0] · slices_S131072x24x3_S131072x1x3_0_17_0) : (⟨S131072x24x3, .f32⟩ : BufTy).Contents (Elt F) → (⟨S131072x1x3, .f32⟩ : BufTy).Contents (Elt F)),
    reshape main_v541 main_v542 rfl shapeCasts_S131072x1x3_S131072x3,
    binary main_v540 main_v542 main_v543 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v543) (TRef.of (T := ⟨S131072x3, .f32⟩) main_v543) (TRef.of (T := ⟨S131072x3, .f32⟩) main_call38_v0) mulf,
    TRef.nullary (TRef.of (T := ⟨S_, .f32⟩) main_call38_cst) (constant S_ .f32 0x00000000#32),
    TRef.binary (TRef.of (T := ⟨S131072x3, .f32⟩) main_call38_v0) (TRef.of (T := ⟨S_, .f32⟩) main_call38_cst) (TRef.of (T := ⟨S131072, .f32⟩) main_call38_v1) (fun x v => Host.reduceAdd x v reducesTo_S131072x3_S131072_d1 h_S_),
    TRef.unary (TRef.of (T := ⟨S131072, .f32⟩) main_call38_v1) (TRef.of (T := ⟨S131072x1, .f32⟩) main_call38_v2) (broadcastInDim S131072x1 ![0] bcast_S131072_S131072x1_0),
    TRef.unary (TRef.of (T := ⟨S131072x1, .f32⟩) main_call38_v2) (TRef.of (T := ⟨S131072x1, .f32⟩) main_v544) Host.sqrt,
    nary ![main_v538, main_v540, main_v544, main_v508] main_v545 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v546 ((extractStridedSlice S1x19x19 ![19, 0, 0] · slices_S24x19x19_S1x19x19_19_0_0) : (⟨S24x19x19, .f32⟩ : BufTy).Contents (Elt F) → (⟨S1x19x19, .f32⟩ : BufTy).Contents (Elt F)),
    reshape main_v546 main_v547 rfl shapeCasts_S1x19x19_S19x19,
    unary main_v547 main_v548 ((transpose S19x19 [1, 0] · transposes_S19x19_S19x19_1_0) : (⟨S19x19, .f32⟩ : BufTy).Contents (Elt F) → (⟨S19x19, .f32⟩ : BufTy).Contents (Elt F)),
    binary main_v545 main_v548 main_v549 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v550 ((extractStridedSlice S1x19 ![19, 0] · slices_S24x19_S1x19_19_0) : (⟨S24x19, .f32⟩ : BufTy).Contents (Elt F) → (⟨S1x19, .f32⟩ : BufTy).Contents (Elt F)),
    reshape main_v550 main_v551 rfl shapeCasts_S1x19_S19,
    unary main_v551 main_v552 (broadcastInDim S1x19 ![1] bcast_S19_S1x19_1 : (⟨S19, .f32⟩ : BufTy).Contents (Elt F) → (⟨S1x19, .f32⟩ : BufTy).Contents (Elt F)),
    unary main_v552 main_v553 (broadcastInDim S131072x19 ![0, 1] bcast_S1x19_S131072x19_0_1 : (⟨S1x19, .f32⟩ : BufTy).Contents (Elt F) → (⟨S131072x19, .f32⟩ : BufTy).Contents (Elt F)),
    binary main_v549 main_v553 main_v554 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call39_cst) (constant S_ .f32 0x00000000#32),
    TRef.unary (TRef.of (T := ⟨S_, .f32⟩) main_call39_cst) (TRef.of (T := ⟨S131072x19, .f32⟩) main_call39_v0) (broadcastInDim S131072x19 ![] bcast_S_S131072x19),
    TRef.binary (TRef.of (T := ⟨S131072x19, .f32⟩) main_v554) (TRef.of (T := ⟨S131072x19, .f32⟩) main_call39_v0) (TRef.of (T := ⟨S131072x19, .f32⟩) main_v555) maximumf,
    unary main_arg6 main_v556 ((extractStridedSlice S1x6x19 ![19, 0, 0] · slices_S24x6x19_S1x6x19_19_0_0) : (⟨S24x6x19, .f32⟩ : BufTy).Contents (Elt F) → (⟨S1x6x19, .f32⟩ : BufTy).Contents (Elt F)),
    reshape main_v556 main_v557 rfl shapeCasts_S1x6x19_S6x19,
    unary main_v557 main_v558 ((transpose S19x6 [1, 0] · transposes_S6x19_S19x6_1_0) : (⟨S6x19, .f32⟩ : BufTy).Contents (Elt F) → (⟨S19x6, .f32⟩ : BufTy).Contents (Elt F)),
    binary main_v555 main_v558 main_v559 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v560 ((extractStridedSlice S1x6 ![19, 0] · slices_S24x6_S1x6_19_0) : (⟨S24x6, .f32⟩ : BufTy).Contents (Elt F) → (⟨S1x6, .f32⟩ : BufTy).Contents (Elt F)),
    reshape main_v560 main_v561 rfl shapeCasts_S1x6_S6,
    unary main_v561 main_v562 (broadcastInDim S1x6 ![1] bcast_S6_S1x6_1 : (⟨S6, .f32⟩ : BufTy).Contents (Elt F) → (⟨S1x6, .f32⟩ : BufTy).Contents (Elt F)),
    unary main_v562 main_v563 (broadcastInDim S131072x6 ![0, 1] bcast_S1x6_S131072x6_0_1 : (⟨S1x6, .f32⟩ : BufTy).Contents (Elt F) → (⟨S131072x6, .f32⟩ : BufTy).Contents (Elt F)),
    binary main_v559 main_v563 main_v564 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ19 : List (Ref sig .tc) := [main_v537, main_v538, main_v539, main_v540, main_v541, main_v542, main_v543, main_call38_v0, main_call38_cst, main_call38_v1, main_call38_v2, main_v544, main_v545, main_v546, main_v547, main_v548, main_v549, main_v550, main_v551, main_v552, main_v553, main_v554, main_call39_cst, main_call39_v0, main_v555, main_v556, main_v557, main_v558, main_v559, main_v560, main_v561, main_v562, main_v563, main_v564]

theorem J19_writes : (opsJ19 : List (HloOp τ sig (Elt F))).Forall fun op => op.writes ⊆ (wJ19.map (Proc.devRef (τ := τ) .tc)).toFinset := by
  simp only [List.Forall, nullary_writes, unary_writes, binary_writes, reshape_writes, nary_writes, Finset.singleton_subset_iff,
    List.mem_toFinset, List.mem_map]
  exact ⟨⟨main_v537, by decide, rfl⟩, ⟨main_v538, by decide, rfl⟩, ⟨main_v539, by decide, rfl⟩, ⟨main_v540, by decide, rfl⟩, ⟨main_v541, by decide, rfl⟩, ⟨main_v542, by decide, rfl⟩, ⟨main_v543, by decide, rfl⟩, ⟨main_call38_v0, by decide, rfl⟩, ⟨main_call38_cst, by decide, rfl⟩, ⟨main_call38_v1, by decide, rfl⟩, ⟨main_call38_v2, by decide, rfl⟩, ⟨main_v544, by decide, rfl⟩, ⟨main_v545, by decide, rfl⟩, ⟨main_v546, by decide, rfl⟩, ⟨main_v547, by decide, rfl⟩, ⟨main_v548, by decide, rfl⟩, ⟨main_v549, by decide, rfl⟩, ⟨main_v550, by decide, rfl⟩, ⟨main_v551, by decide, rfl⟩, ⟨main_v552, by decide, rfl⟩, ⟨main_v553, by decide, rfl⟩, ⟨main_v554, by decide, rfl⟩, ⟨main_call39_cst, by decide, rfl⟩, ⟨main_call39_v0, by decide, rfl⟩, ⟨main_v555, by decide, rfl⟩, ⟨main_v556, by decide, rfl⟩, ⟨main_v557, by decide, rfl⟩, ⟨main_v558, by decide, rfl⟩, ⟨main_v559, by decide, rfl⟩, ⟨main_v560, by decide, rfl⟩, ⟨main_v561, by decide, rfl⟩, ⟨main_v562, by decide, rfl⟩, ⟨main_v563, by decide, rfl⟩, ⟨main_v564, by decide, rfl⟩⟩

/-- A buffer the stretch does not write keeps its contents. -/
theorem J19_keep (W : Valuation τ sig (Elt F)) (r : Ref sig .tc) (hr : r ∉ wJ19) :
    after opsJ19 W (Proc.devRef .tc r) = W (Proc.devRef .tc r) :=
  after_of_writes_sub opsJ19 W J19_writes hr

theorem J19_sub : (opsJ19 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J19_fresh : (opsJ19 : List (HloOp τ sig (Elt F))).Forall fun op => op.fresh = ∅ := by
  simp only [List.Forall]; repeat' constructor

/-- After the stretch joint 19's output buffer holds `rstage` of what the stretch reads: the two argument arrays, joint 17's output, and the four weight arrays. -/
theorem J19_out (W : Valuation τ sig (Elt F)) :
    after opsJ19 W (Proc.devRef .tc main_v564)
      = rstage (shapeCast S131072x9 (extractStridedSlice S131072x1x9 ![0, 19, 0] (W (Proc.devRef .tc main_arg0)) slices_S131072x24x9_S131072x1x9_0_19_0) shapeCasts_S131072x1x9_S131072x9) (shapeCast S131072x3 (extractStridedSlice S131072x1x3 ![0, 19, 0] (W (Proc.devRef .tc main_arg1)) slices_S131072x24x3_S131072x1x3_0_19_0) shapeCasts_S131072x1x3_S131072x3) (subf (shapeCast S131072x3 (extractStridedSlice S131072x1x3 ![0, 19, 0] (W (Proc.devRef .tc main_arg1)) slices_S131072x24x3_S131072x1x3_0_19_0) shapeCasts_S131072x1x3_S131072x3) (shapeCast S131072x3 (extractStridedSlice S131072x1x3 ![0, 17, 0] (W (Proc.devRef .tc main_arg1)) slices_S131072x24x3_S131072x1x3_0_17_0) shapeCasts_S131072x1x3_S131072x3)) (W (Proc.devRef .tc main_v508))
        (extractStridedSlice S1x19x19 ![19, 0, 0] (W (Proc.devRef .tc main_arg4)) slices_S24x19x19_S1x19x19_19_0_0) (extractStridedSlice S1x19 ![19, 0] (W (Proc.devRef .tc main_arg5)) slices_S24x19_S1x19_19_0)
        (extractStridedSlice S1x6x19 ![19, 0, 0] (W (Proc.devRef .tc main_arg6)) slices_S24x6x19_S1x6x19_19_0_0) (extractStridedSlice S1x6 ![19, 0] (W (Proc.devRef .tc main_arg7)) slices_S24x6_S1x6_19_0) := by
  after_results_simp <;> rfl

end Cert.ReferenceIdeal.HRun

end
-- ==== Proof.RefStretchJ20.lean ====
/-
  One stretch of the reference's host program — joint 20: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ20 : List (HloOp τ sig (Elt F)) :=
  [ unary main_arg0 main_v565 ((extractStridedSlice S131072x1x9 ![0, 20, 0] · slices_S131072x24x9_S131072x1x9_0_20_0) : (⟨S131072x24x9, .f32⟩ : BufTy).Contents (Elt F) → (⟨S131072x1x9, .f32⟩ : BufTy).Contents (Elt F)),
    reshape main_v565 main_v566 rfl shapeCasts_S131072x1x9_S131072x9,
    unary main_arg1 main_v567 ((extractStridedSlice S131072x1x3 ![0, 20, 0] · slices_S131072x24x3_S131072x1x3_0_20_0) : (⟨S131072x24x3, .f32⟩ : BufTy).Contents (Elt F) → (⟨S131072x1x3, .f32⟩ : BufTy).Contents (Elt F)),
    reshape main_v567 main_v568 rfl shapeCasts_S131072x1x3_S131072x3,
    unary main_arg1 main_v569 ((extractStridedSlice S131072x1x3 ![0, 18, 0] · slices_S131072x24x3_S131072x1x3_0_18_0) : (⟨S131072x24x3, .f32⟩ : BufTy).Contents (Elt F) → (⟨S131072x1x3, .f32⟩ : BufTy).Contents (Elt F)),
    reshape main_v569 main_v570 rfl shapeCasts_S131072x1x3_S131072x3,
    binary main_v568 main_v570 main_v571 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v571) (TRef.of (T := ⟨S131072x3, .f32⟩) main_v571) (TRef.of (T := ⟨S131072x3, .f32⟩) main_call40_v0) mulf,
    TRef.nullary (TRef.of (T := ⟨S_, .f32⟩) main_call40_cst) (constant S_ .f32 0x00000000#32),
    TRef.binary (TRef.of (T := ⟨S131072x3, .f32⟩) main_call40_v0) (TRef.of (T := ⟨S_, .f32⟩) main_call40_cst) (TRef.of (T := ⟨S131072, .f32⟩) main_call40_v1) (fun x v => Host.reduceAdd x v reducesTo_S131072x3_S131072_d1 h_S_),
    TRef.unary (TRef.of (T := ⟨S131072, .f32⟩) main_call40_v1) (TRef.of (T := ⟨S131072x1, .f32⟩) main_call40_v2) (broadcastInDim S131072x1 ![0] bcast_S131072_S131072x1_0),
    TRef.unary (TRef.of (T := ⟨S131072x1, .f32⟩) main_call40_v2) (TRef.of (T := ⟨S131072x1, .f32⟩) main_v572) Host.sqrt,
    nary ![main_v566, main_v568, main_v572, main_v536] main_v573 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v574 ((extractStridedSlice S1x19x19 ![20, 0, 0] · slices_S24x19x19_S1x19x19_20_0_0) : (⟨S24x19x19, .f32⟩ : BufTy).Contents (Elt F) → (⟨S1x19x19, .f32⟩ : BufTy).Contents (Elt F)),
    reshape main_v574 main_v575 rfl shapeCasts_S1x19x19_S19x19,
    unary main_v575 main_v576 ((transpose S19x19 [1, 0] · transposes_S19x19_S19x19_1_0) : (⟨S19x19, .f32⟩ : BufTy).Contents (Elt F) → (⟨S19x19, .f32⟩ : BufTy).Contents (Elt F)),
    binary main_v573 main_v576 main_v577 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v578 ((extractStridedSlice S1x19 ![20, 0] · slices_S24x19_S1x19_20_0) : (⟨S24x19, .f32⟩ : BufTy).Contents (Elt F) → (⟨S1x19, .f32⟩ : BufTy).Contents (Elt F)),
    reshape main_v578 main_v579 rfl shapeCasts_S1x19_S19,
    unary main_v579 main_v580 (broadcastInDim S1x19 ![1] bcast_S19_S1x19_1 : (⟨S19, .f32⟩ : BufTy).Contents (Elt F) → (⟨S1x19, .f32⟩ : BufTy).Contents (Elt F)),
    unary main_v580 main_v581 (broadcastInDim S131072x19 ![0, 1] bcast_S1x19_S131072x19_0_1 : (⟨S1x19, .f32⟩ : BufTy).Contents (Elt F) → (⟨S131072x19, .f32⟩ : BufTy).Contents (Elt F)),
    binary main_v577 main_v581 main_v582 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call41_cst) (constant S_ .f32 0x00000000#32),
    TRef.unary (TRef.of (T := ⟨S_, .f32⟩) main_call41_cst) (TRef.of (T := ⟨S131072x19, .f32⟩) main_call41_v0) (broadcastInDim S131072x19 ![] bcast_S_S131072x19),
    TRef.binary (TRef.of (T := ⟨S131072x19, .f32⟩) main_v582) (TRef.of (T := ⟨S131072x19, .f32⟩) main_call41_v0) (TRef.of (T := ⟨S131072x19, .f32⟩) main_v583) maximumf,
    unary main_arg6 main_v584 ((extractStridedSlice S1x6x19 ![20, 0, 0] · slices_S24x6x19_S1x6x19_20_0_0) : (⟨S24x6x19, .f32⟩ : BufTy).Contents (Elt F) → (⟨S1x6x19, .f32⟩ : BufTy).Contents (Elt F)),
    reshape main_v584 main_v585 rfl shapeCasts_S1x6x19_S6x19,
    unary main_v585 main_v586 ((transpose S19x6 [1, 0] · transposes_S6x19_S19x6_1_0) : (⟨S6x19, .f32⟩ : BufTy).Contents (Elt F) → (⟨S19x6, .f32⟩ : BufTy).Contents (Elt F)),
    binary main_v583 main_v586 main_v587 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v588 ((extractStridedSlice S1x6 ![20, 0] · slices_S24x6_S1x6_20_0) : (⟨S24x6, .f32⟩ : BufTy).Contents (Elt F) → (⟨S1x6, .f32⟩ : BufTy).Contents (Elt F)),
    reshape main_v588 main_v589 rfl shapeCasts_S1x6_S6,
    unary main_v589 main_v590 (broadcastInDim S1x6 ![1] bcast_S6_S1x6_1 : (⟨S6, .f32⟩ : BufTy).Contents (Elt F) → (⟨S1x6, .f32⟩ : BufTy).Contents (Elt F)),
    unary main_v590 main_v591 (broadcastInDim S131072x6 ![0, 1] bcast_S1x6_S131072x6_0_1 : (⟨S1x6, .f32⟩ : BufTy).Contents (Elt F) → (⟨S131072x6, .f32⟩ : BufTy).Contents (Elt F)),
    binary main_v587 main_v591 main_v592 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ20 : List (Ref sig .tc) := [main_v565, main_v566, main_v567, main_v568, main_v569, main_v570, main_v571, main_call40_v0, main_call40_cst, main_call40_v1, main_call40_v2, main_v572, main_v573, main_v574, main_v575, main_v576, main_v577, main_v578, main_v579, main_v580, main_v581, main_v582, main_call41_cst, main_call41_v0, main_v583, main_v584, main_v585, main_v586, main_v587, main_v588, main_v589, main_v590, main_v591, main_v592]

theorem J20_writes : (opsJ20 : List (HloOp τ sig (Elt F))).Forall fun op => op.writes ⊆ (wJ20.map (Proc.devRef (τ := τ) .tc)).toFinset := by
  simp only [List.Forall, nullary_writes, unary_writes, binary_writes, reshape_writes, nary_writes, Finset.singleton_subset_iff,
    List.mem_toFinset, List.mem_map]
  exact ⟨⟨main_v565, by decide, rfl⟩, ⟨main_v566, by decide, rfl⟩, ⟨main_v567, by decide, rfl⟩, ⟨main_v568, by decide, rfl⟩, ⟨main_v569, by decide, rfl⟩, ⟨main_v570, by decide, rfl⟩, ⟨main_v571, by decide, rfl⟩, ⟨main_call40_v0, by decide, rfl⟩, ⟨main_call40_cst, by decide, rfl⟩, ⟨main_call40_v1, by decide, rfl⟩, ⟨main_call40_v2, by decide, rfl⟩, ⟨main_v572, by decide, rfl⟩, ⟨main_v573, by decide, rfl⟩, ⟨main_v574, by decide, rfl⟩, ⟨main_v575, by decide, rfl⟩, ⟨main_v576, by decide, rfl⟩, ⟨main_v577, by decide, rfl⟩, ⟨main_v578, by decide, rfl⟩, ⟨main_v579, by decide, rfl⟩, ⟨main_v580, by decide, rfl⟩, ⟨main_v581, by decide, rfl⟩, ⟨main_v582, by decide, rfl⟩, ⟨main_call41_cst, by decide, rfl⟩, ⟨main_call41_v0, by decide, rfl⟩, ⟨main_v583, by decide, rfl⟩, ⟨main_v584, by decide, rfl⟩, ⟨main_v585, by decide, rfl⟩, ⟨main_v586, by decide, rfl⟩, ⟨main_v587, by decide, rfl⟩, ⟨main_v588, by decide, rfl⟩, ⟨main_v589, by decide, rfl⟩, ⟨main_v590, by decide, rfl⟩, ⟨main_v591, by decide, rfl⟩, ⟨main_v592, by decide, rfl⟩⟩

/-- A buffer the stretch does not write keeps its contents. -/
theorem J20_keep (W : Valuation τ sig (Elt F)) (r : Ref sig .tc) (hr : r ∉ wJ20) :
    after opsJ20 W (Proc.devRef .tc r) = W (Proc.devRef .tc r) :=
  after_of_writes_sub opsJ20 W J20_writes hr

theorem J20_sub : (opsJ20 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J20_fresh : (opsJ20 : List (HloOp τ sig (Elt F))).Forall fun op => op.fresh = ∅ := by
  simp only [List.Forall]; repeat' constructor

/-- After the stretch joint 20's output buffer holds `rstage` of what the stretch reads: the two argument arrays, joint 18's output, and the four weight arrays. -/
theorem J20_out (W : Valuation τ sig (Elt F)) :
    after opsJ20 W (Proc.devRef .tc main_v592)
      = rstage (shapeCast S131072x9 (extractStridedSlice S131072x1x9 ![0, 20, 0] (W (Proc.devRef .tc main_arg0)) slices_S131072x24x9_S131072x1x9_0_20_0) shapeCasts_S131072x1x9_S131072x9) (shapeCast S131072x3 (extractStridedSlice S131072x1x3 ![0, 20, 0] (W (Proc.devRef .tc main_arg1)) slices_S131072x24x3_S131072x1x3_0_20_0) shapeCasts_S131072x1x3_S131072x3) (subf (shapeCast S131072x3 (extractStridedSlice S131072x1x3 ![0, 20, 0] (W (Proc.devRef .tc main_arg1)) slices_S131072x24x3_S131072x1x3_0_20_0) shapeCasts_S131072x1x3_S131072x3) (shapeCast S131072x3 (extractStridedSlice S131072x1x3 ![0, 18, 0] (W (Proc.devRef .tc main_arg1)) slices_S131072x24x3_S131072x1x3_0_18_0) shapeCasts_S131072x1x3_S131072x3)) (W (Proc.devRef .tc main_v536))
        (extractStridedSlice S1x19x19 ![20, 0, 0] (W (Proc.devRef .tc main_arg4)) slices_S24x19x19_S1x19x19_20_0_0) (extractStridedSlice S1x19 ![20, 0] (W (Proc.devRef .tc main_arg5)) slices_S24x19_S1x19_20_0)
        (extractStridedSlice S1x6x19 ![20, 0, 0] (W (Proc.devRef .tc main_arg6)) slices_S24x6x19_S1x6x19_20_0_0) (extractStridedSlice S1x6 ![20, 0] (W (Proc.devRef .tc main_arg7)) slices_S24x6_S1x6_20_0) := by
  after_results_simp <;> rfl

end Cert.ReferenceIdeal.HRun

end
-- ==== Proof.RefStretchJ21.lean ====
/-
  One stretch of the reference's host program — joint 21: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ21 : List (HloOp τ sig (Elt F)) :=
  [ unary main_arg0 main_v593 ((extractStridedSlice S131072x1x9 ![0, 21, 0] · slices_S131072x24x9_S131072x1x9_0_21_0) : (⟨S131072x24x9, .f32⟩ : BufTy).Contents (Elt F) → (⟨S131072x1x9, .f32⟩ : BufTy).Contents (Elt F)),
    reshape main_v593 main_v594 rfl shapeCasts_S131072x1x9_S131072x9,
    unary main_arg1 main_v595 ((extractStridedSlice S131072x1x3 ![0, 21, 0] · slices_S131072x24x3_S131072x1x3_0_21_0) : (⟨S131072x24x3, .f32⟩ : BufTy).Contents (Elt F) → (⟨S131072x1x3, .f32⟩ : BufTy).Contents (Elt F)),
    reshape main_v595 main_v596 rfl shapeCasts_S131072x1x3_S131072x3,
    unary main_arg1 main_v597 ((extractStridedSlice S131072x1x3 ![0, 19, 0] · slices_S131072x24x3_S131072x1x3_0_19_0) : (⟨S131072x24x3, .f32⟩ : BufTy).Contents (Elt F) → (⟨S131072x1x3, .f32⟩ : BufTy).Contents (Elt F)),
    reshape main_v597 main_v598 rfl shapeCasts_S131072x1x3_S131072x3,
    binary main_v596 main_v598 main_v599 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v599) (TRef.of (T := ⟨S131072x3, .f32⟩) main_v599) (TRef.of (T := ⟨S131072x3, .f32⟩) main_call42_v0) mulf,
    TRef.nullary (TRef.of (T := ⟨S_, .f32⟩) main_call42_cst) (constant S_ .f32 0x00000000#32),
    TRef.binary (TRef.of (T := ⟨S131072x3, .f32⟩) main_call42_v0) (TRef.of (T := ⟨S_, .f32⟩) main_call42_cst) (TRef.of (T := ⟨S131072, .f32⟩) main_call42_v1) (fun x v => Host.reduceAdd x v reducesTo_S131072x3_S131072_d1 h_S_),
    TRef.unary (TRef.of (T := ⟨S131072, .f32⟩) main_call42_v1) (TRef.of (T := ⟨S131072x1, .f32⟩) main_call42_v2) (broadcastInDim S131072x1 ![0] bcast_S131072_S131072x1_0),
    TRef.unary (TRef.of (T := ⟨S131072x1, .f32⟩) main_call42_v2) (TRef.of (T := ⟨S131072x1, .f32⟩) main_v600) Host.sqrt,
    nary ![main_v594, main_v596, main_v600, main_v564] main_v601 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v602 ((extractStridedSlice S1x19x19 ![21, 0, 0] · slices_S24x19x19_S1x19x19_21_0_0) : (⟨S24x19x19, .f32⟩ : BufTy).Contents (Elt F) → (⟨S1x19x19, .f32⟩ : BufTy).Contents (Elt F)),
    reshape main_v602 main_v603 rfl shapeCasts_S1x19x19_S19x19,
    unary main_v603 main_v604 ((transpose S19x19 [1, 0] · transposes_S19x19_S19x19_1_0) : (⟨S19x19, .f32⟩ : BufTy).Contents (Elt F) → (⟨S19x19, .f32⟩ : BufTy).Contents (Elt F)),
    binary main_v601 main_v604 main_v605 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v606 ((extractStridedSlice S1x19 ![21, 0] · slices_S24x19_S1x19_21_0) : (⟨S24x19, .f32⟩ : BufTy).Contents (Elt F) → (⟨S1x19, .f32⟩ : BufTy).Contents (Elt F)),
    reshape main_v606 main_v607 rfl shapeCasts_S1x19_S19,
    unary main_v607 main_v608 (broadcastInDim S1x19 ![1] bcast_S19_S1x19_1 : (⟨S19, .f32⟩ : BufTy).Contents (Elt F) → (⟨S1x19, .f32⟩ : BufTy).Contents (Elt F)),
    unary main_v608 main_v609 (broadcastInDim S131072x19 ![0, 1] bcast_S1x19_S131072x19_0_1 : (⟨S1x19, .f32⟩ : BufTy).Contents (Elt F) → (⟨S131072x19, .f32⟩ : BufTy).Contents (Elt F)),
    binary main_v605 main_v609 main_v610 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call43_cst) (constant S_ .f32 0x00000000#32),
    TRef.unary (TRef.of (T := ⟨S_, .f32⟩) main_call43_cst) (TRef.of (T := ⟨S131072x19, .f32⟩) main_call43_v0) (broadcastInDim S131072x19 ![] bcast_S_S131072x19),
    TRef.binary (TRef.of (T := ⟨S131072x19, .f32⟩) main_v610) (TRef.of (T := ⟨S131072x19, .f32⟩) main_call43_v0) (TRef.of (T := ⟨S131072x19, .f32⟩) main_v611) maximumf,
    unary main_arg6 main_v612 ((extractStridedSlice S1x6x19 ![21, 0, 0] · slices_S24x6x19_S1x6x19_21_0_0) : (⟨S24x6x19, .f32⟩ : BufTy).Contents (Elt F) → (⟨S1x6x19, .f32⟩ : BufTy).Contents (Elt F)),
    reshape main_v612 main_v613 rfl shapeCasts_S1x6x19_S6x19,
    unary main_v613 main_v614 ((transpose S19x6 [1, 0] · transposes_S6x19_S19x6_1_0) : (⟨S6x19, .f32⟩ : BufTy).Contents (Elt F) → (⟨S19x6, .f32⟩ : BufTy).Contents (Elt F)),
    binary main_v611 main_v614 main_v615 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v616 ((extractStridedSlice S1x6 ![21, 0] · slices_S24x6_S1x6_21_0) : (⟨S24x6, .f32⟩ : BufTy).Contents (Elt F) → (⟨S1x6, .f32⟩ : BufTy).Contents (Elt F)),
    reshape main_v616 main_v617 rfl shapeCasts_S1x6_S6,
    unary main_v617 main_v618 (broadcastInDim S1x6 ![1] bcast_S6_S1x6_1 : (⟨S6, .f32⟩ : BufTy).Contents (Elt F) → (⟨S1x6, .f32⟩ : BufTy).Contents (Elt F)),
    unary main_v618 main_v619 (broadcastInDim S131072x6 ![0, 1] bcast_S1x6_S131072x6_0_1 : (⟨S1x6, .f32⟩ : BufTy).Contents (Elt F) → (⟨S131072x6, .f32⟩ : BufTy).Contents (Elt F)),
    binary main_v615 main_v619 main_v620 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ21 : List (Ref sig .tc) := [main_v593, main_v594, main_v595, main_v596, main_v597, main_v598, main_v599, main_call42_v0, main_call42_cst, main_call42_v1, main_call42_v2, main_v600, main_v601, main_v602, main_v603, main_v604, main_v605, main_v606, main_v607, main_v608, main_v609, main_v610, main_call43_cst, main_call43_v0, main_v611, main_v612, main_v613, main_v614, main_v615, main_v616, main_v617, main_v618, main_v619, main_v620]

theorem J21_writes : (opsJ21 : List (HloOp τ sig (Elt F))).Forall fun op => op.writes ⊆ (wJ21.map (Proc.devRef (τ := τ) .tc)).toFinset := by
  simp only [List.Forall, nullary_writes, unary_writes, binary_writes, reshape_writes, nary_writes, Finset.singleton_subset_iff,
    List.mem_toFinset, List.mem_map]
  exact ⟨⟨main_v593, by decide, rfl⟩, ⟨main_v594, by decide, rfl⟩, ⟨main_v595, by decide, rfl⟩, ⟨main_v596, by decide, rfl⟩, ⟨main_v597, by decide, rfl⟩, ⟨main_v598, by decide, rfl⟩, ⟨main_v599, by decide, rfl⟩, ⟨main_call42_v0, by decide, rfl⟩, ⟨main_call42_cst, by decide, rfl⟩, ⟨main_call42_v1, by decide, rfl⟩, ⟨main_call42_v2, by decide, rfl⟩, ⟨main_v600, by decide, rfl⟩, ⟨main_v601, by decide, rfl⟩, ⟨main_v602, by decide, rfl⟩, ⟨main_v603, by decide, rfl⟩, ⟨main_v604, by decide, rfl⟩, ⟨main_v605, by decide, rfl⟩, ⟨main_v606, by decide, rfl⟩, ⟨main_v607, by decide, rfl⟩, ⟨main_v608, by decide, rfl⟩, ⟨main_v609, by decide, rfl⟩, ⟨main_v610, by decide, rfl⟩, ⟨main_call43_cst, by decide, rfl⟩, ⟨main_call43_v0, by decide, rfl⟩, ⟨main_v611, by decide, rfl⟩, ⟨main_v612, by decide, rfl⟩, ⟨main_v613, by decide, rfl⟩, ⟨main_v614, by decide, rfl⟩, ⟨main_v615, by decide, rfl⟩, ⟨main_v616, by decide, rfl⟩, ⟨main_v617, by decide, rfl⟩, ⟨main_v618, by decide, rfl⟩, ⟨main_v619, by decide, rfl⟩, ⟨main_v620, by decide, rfl⟩⟩

/-- A buffer the stretch does not write keeps its contents. -/
theorem J21_keep (W : Valuation τ sig (Elt F)) (r : Ref sig .tc) (hr : r ∉ wJ21) :
    after opsJ21 W (Proc.devRef .tc r) = W (Proc.devRef .tc r) :=
  after_of_writes_sub opsJ21 W J21_writes hr

theorem J21_sub : (opsJ21 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J21_fresh : (opsJ21 : List (HloOp τ sig (Elt F))).Forall fun op => op.fresh = ∅ := by
  simp only [List.Forall]; repeat' constructor

/-- After the stretch joint 21's output buffer holds `rstage` of what the stretch reads: the two argument arrays, joint 19's output, and the four weight arrays. -/
theorem J21_out (W : Valuation τ sig (Elt F)) :
    after opsJ21 W (Proc.devRef .tc main_v620)
      = rstage (shapeCast S131072x9 (extractStridedSlice S131072x1x9 ![0, 21, 0] (W (Proc.devRef .tc main_arg0)) slices_S131072x24x9_S131072x1x9_0_21_0) shapeCasts_S131072x1x9_S131072x9) (shapeCast S131072x3 (extractStridedSlice S131072x1x3 ![0, 21, 0] (W (Proc.devRef .tc main_arg1)) slices_S131072x24x3_S131072x1x3_0_21_0) shapeCasts_S131072x1x3_S131072x3) (subf (shapeCast S131072x3 (extractStridedSlice S131072x1x3 ![0, 21, 0] (W (Proc.devRef .tc main_arg1)) slices_S131072x24x3_S131072x1x3_0_21_0) shapeCasts_S131072x1x3_S131072x3) (shapeCast S131072x3 (extractStridedSlice S131072x1x3 ![0, 19, 0] (W (Proc.devRef .tc main_arg1)) slices_S131072x24x3_S131072x1x3_0_19_0) shapeCasts_S131072x1x3_S131072x3)) (W (Proc.devRef .tc main_v564))
        (extractStridedSlice S1x19x19 ![21, 0, 0] (W (Proc.devRef .tc main_arg4)) slices_S24x19x19_S1x19x19_21_0_0) (extractStridedSlice S1x19 ![21, 0] (W (Proc.devRef .tc main_arg5)) slices_S24x19_S1x19_21_0)
        (extractStridedSlice S1x6x19 ![21, 0, 0] (W (Proc.devRef .tc main_arg6)) slices_S24x6x19_S1x6x19_21_0_0) (extractStridedSlice S1x6 ![21, 0] (W (Proc.devRef .tc main_arg7)) slices_S24x6_S1x6_21_0) := by
  after_results_simp <;> rfl

end Cert.ReferenceIdeal.HRun

end
-- ==== Proof.RefStretchJ22.lean ====
/-
  One stretch of the reference's host program — joint 22: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ22 : List (HloOp τ sig (Elt F)) :=
  [ unary main_arg0 main_v621 ((extractStridedSlice S131072x1x9 ![0, 22, 0] · slices_S131072x24x9_S131072x1x9_0_22_0) : (⟨S131072x24x9, .f32⟩ : BufTy).Contents (Elt F) → (⟨S131072x1x9, .f32⟩ : BufTy).Contents (Elt F)),
    reshape main_v621 main_v622 rfl shapeCasts_S131072x1x9_S131072x9,
    unary main_arg1 main_v623 ((extractStridedSlice S131072x1x3 ![0, 22, 0] · slices_S131072x24x3_S131072x1x3_0_22_0) : (⟨S131072x24x3, .f32⟩ : BufTy).Contents (Elt F) → (⟨S131072x1x3, .f32⟩ : BufTy).Contents (Elt F)),
    reshape main_v623 main_v624 rfl shapeCasts_S131072x1x3_S131072x3,
    unary main_arg1 main_v625 ((extractStridedSlice S131072x1x3 ![0, 20, 0] · slices_S131072x24x3_S131072x1x3_0_20_0) : (⟨S131072x24x3, .f32⟩ : BufTy).Contents (Elt F) → (⟨S131072x1x3, .f32⟩ : BufTy).Contents (Elt F)),
    reshape main_v625 main_v626 rfl shapeCasts_S131072x1x3_S131072x3,
    binary main_v624 main_v626 main_v627 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v627) (TRef.of (T := ⟨S131072x3, .f32⟩) main_v627) (TRef.of (T := ⟨S131072x3, .f32⟩) main_call44_v0) mulf,
    TRef.nullary (TRef.of (T := ⟨S_, .f32⟩) main_call44_cst) (constant S_ .f32 0x00000000#32),
    TRef.binary (TRef.of (T := ⟨S131072x3, .f32⟩) main_call44_v0) (TRef.of (T := ⟨S_, .f32⟩) main_call44_cst) (TRef.of (T := ⟨S131072, .f32⟩) main_call44_v1) (fun x v => Host.reduceAdd x v reducesTo_S131072x3_S131072_d1 h_S_),
    TRef.unary (TRef.of (T := ⟨S131072, .f32⟩) main_call44_v1) (TRef.of (T := ⟨S131072x1, .f32⟩) main_call44_v2) (broadcastInDim S131072x1 ![0] bcast_S131072_S131072x1_0),
    TRef.unary (TRef.of (T := ⟨S131072x1, .f32⟩) main_call44_v2) (TRef.of (T := ⟨S131072x1, .f32⟩) main_v628) Host.sqrt,
    nary ![main_v622, main_v624, main_v628, main_v592] main_v629 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v630 ((extractStridedSlice S1x19x19 ![22, 0, 0] · slices_S24x19x19_S1x19x19_22_0_0) : (⟨S24x19x19, .f32⟩ : BufTy).Contents (Elt F) → (⟨S1x19x19, .f32⟩ : BufTy).Contents (Elt F)),
    reshape main_v630 main_v631 rfl shapeCasts_S1x19x19_S19x19,
    unary main_v631 main_v632 ((transpose S19x19 [1, 0] · transposes_S19x19_S19x19_1_0) : (⟨S19x19, .f32⟩ : BufTy).Contents (Elt F) → (⟨S19x19, .f32⟩ : BufTy).Contents (Elt F)),
    binary main_v629 main_v632 main_v633 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v634 ((extractStridedSlice S1x19 ![22, 0] · slices_S24x19_S1x19_22_0) : (⟨S24x19, .f32⟩ : BufTy).Contents (Elt F) → (⟨S1x19, .f32⟩ : BufTy).Contents (Elt F)),
    reshape main_v634 main_v635 rfl shapeCasts_S1x19_S19,
    unary main_v635 main_v636 (broadcastInDim S1x19 ![1] bcast_S19_S1x19_1 : (⟨S19, .f32⟩ : BufTy).Contents (Elt F) → (⟨S1x19, .f32⟩ : BufTy).Contents (Elt F)),
    unary main_v636 main_v637 (broadcastInDim S131072x19 ![0, 1] bcast_S1x19_S131072x19_0_1 : (⟨S1x19, .f32⟩ : BufTy).Contents (Elt F) → (⟨S131072x19, .f32⟩ : BufTy).Contents (Elt F)),
    binary main_v633 main_v637 main_v638 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call45_cst) (constant S_ .f32 0x00000000#32),
    TRef.unary (TRef.of (T := ⟨S_, .f32⟩) main_call45_cst) (TRef.of (T := ⟨S131072x19, .f32⟩) main_call45_v0) (broadcastInDim S131072x19 ![] bcast_S_S131072x19),
    TRef.binary (TRef.of (T := ⟨S131072x19, .f32⟩) main_v638) (TRef.of (T := ⟨S131072x19, .f32⟩) main_call45_v0) (TRef.of (T := ⟨S131072x19, .f32⟩) main_v639) maximumf,
    unary main_arg6 main_v640 ((extractStridedSlice S1x6x19 ![22, 0, 0] · slices_S24x6x19_S1x6x19_22_0_0) : (⟨S24x6x19, .f32⟩ : BufTy).Contents (Elt F) → (⟨S1x6x19, .f32⟩ : BufTy).Contents (Elt F)),
    reshape main_v640 main_v641 rfl shapeCasts_S1x6x19_S6x19,
    unary main_v641 main_v642 ((transpose S19x6 [1, 0] · transposes_S6x19_S19x6_1_0) : (⟨S6x19, .f32⟩ : BufTy).Contents (Elt F) → (⟨S19x6, .f32⟩ : BufTy).Contents (Elt F)),
    binary main_v639 main_v642 main_v643 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v644 ((extractStridedSlice S1x6 ![22, 0] · slices_S24x6_S1x6_22_0) : (⟨S24x6, .f32⟩ : BufTy).Contents (Elt F) → (⟨S1x6, .f32⟩ : BufTy).Contents (Elt F)),
    reshape main_v644 main_v645 rfl shapeCasts_S1x6_S6,
    unary main_v645 main_v646 (broadcastInDim S1x6 ![1] bcast_S6_S1x6_1 : (⟨S6, .f32⟩ : BufTy).Contents (Elt F) → (⟨S1x6, .f32⟩ : BufTy).Contents (Elt F)),
    unary main_v646 main_v647 (broadcastInDim S131072x6 ![0, 1] bcast_S1x6_S131072x6_0_1 : (⟨S1x6, .f32⟩ : BufTy).Contents (Elt F) → (⟨S131072x6, .f32⟩ : BufTy).Contents (Elt F)),
    binary main_v643 main_v647 main_v648 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ22 : List (Ref sig .tc) := [main_v621, main_v622, main_v623, main_v624, main_v625, main_v626, main_v627, main_call44_v0, main_call44_cst, main_call44_v1, main_call44_v2, main_v628, main_v629, main_v630, main_v631, main_v632, main_v633, main_v634, main_v635, main_v636, main_v637, main_v638, main_call45_cst, main_call45_v0, main_v639, main_v640, main_v641, main_v642, main_v643, main_v644, main_v645, main_v646, main_v647, main_v648]

theorem J22_writes : (opsJ22 : List (HloOp τ sig (Elt F))).Forall fun op => op.writes ⊆ (wJ22.map (Proc.devRef (τ := τ) .tc)).toFinset := by
  simp only [List.Forall, nullary_writes, unary_writes, binary_writes, reshape_writes, nary_writes, Finset.singleton_subset_iff,
    List.mem_toFinset, List.mem_map]
  exact ⟨⟨main_v621, by decide, rfl⟩, ⟨main_v622, by decide, rfl⟩, ⟨main_v623, by decide, rfl⟩, ⟨main_v624, by decide, rfl⟩, ⟨main_v625, by decide, rfl⟩, ⟨main_v626, by decide, rfl⟩, ⟨main_v627, by decide, rfl⟩, ⟨main_call44_v0, by decide, rfl⟩, ⟨main_call44_cst, by decide, rfl⟩, ⟨main_call44_v1, by decide, rfl⟩, ⟨main_call44_v2, by decide, rfl⟩, ⟨main_v628, by decide, rfl⟩, ⟨main_v629, by decide, rfl⟩, ⟨main_v630, by decide, rfl⟩, ⟨main_v631, by decide, rfl⟩, ⟨main_v632, by decide, rfl⟩, ⟨main_v633, by decide, rfl⟩, ⟨main_v634, by decide, rfl⟩, ⟨main_v635, by decide, rfl⟩, ⟨main_v636, by decide, rfl⟩, ⟨main_v637, by decide, rfl⟩, ⟨main_v638, by decide, rfl⟩, ⟨main_call45_cst, by decide, rfl⟩, ⟨main_call45_v0, by decide, rfl⟩, ⟨main_v639, by decide, rfl⟩, ⟨main_v640, by decide, rfl⟩, ⟨main_v641, by decide, rfl⟩, ⟨main_v642, by decide, rfl⟩, ⟨main_v643, by decide, rfl⟩, ⟨main_v644, by decide, rfl⟩, ⟨main_v645, by decide, rfl⟩, ⟨main_v646, by decide, rfl⟩, ⟨main_v647, by decide, rfl⟩, ⟨main_v648, by decide, rfl⟩⟩

/-- A buffer the stretch does not write keeps its contents. -/
theorem J22_keep (W : Valuation τ sig (Elt F)) (r : Ref sig .tc) (hr : r ∉ wJ22) :
    after opsJ22 W (Proc.devRef .tc r) = W (Proc.devRef .tc r) :=
  after_of_writes_sub opsJ22 W J22_writes hr

theorem J22_sub : (opsJ22 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J22_fresh : (opsJ22 : List (HloOp τ sig (Elt F))).Forall fun op => op.fresh = ∅ := by
  simp only [List.Forall]; repeat' constructor

/-- After the stretch joint 22's output buffer holds `rstage` of what the stretch reads: the two argument arrays, joint 20's output, and the four weight arrays. -/
theorem J22_out (W : Valuation τ sig (Elt F)) :
    after opsJ22 W (Proc.devRef .tc main_v648)
      = rstage (shapeCast S131072x9 (extractStridedSlice S131072x1x9 ![0, 22, 0] (W (Proc.devRef .tc main_arg0)) slices_S131072x24x9_S131072x1x9_0_22_0) shapeCasts_S131072x1x9_S131072x9) (shapeCast S131072x3 (extractStridedSlice S131072x1x3 ![0, 22, 0] (W (Proc.devRef .tc main_arg1)) slices_S131072x24x3_S131072x1x3_0_22_0) shapeCasts_S131072x1x3_S131072x3) (subf (shapeCast S131072x3 (extractStridedSlice S131072x1x3 ![0, 22, 0] (W (Proc.devRef .tc main_arg1)) slices_S131072x24x3_S131072x1x3_0_22_0) shapeCasts_S131072x1x3_S131072x3) (shapeCast S131072x3 (extractStridedSlice S131072x1x3 ![0, 20, 0] (W (Proc.devRef .tc main_arg1)) slices_S131072x24x3_S131072x1x3_0_20_0) shapeCasts_S131072x1x3_S131072x3)) (W (Proc.devRef .tc main_v592))
        (extractStridedSlice S1x19x19 ![22, 0, 0] (W (Proc.devRef .tc main_arg4)) slices_S24x19x19_S1x19x19_22_0_0) (extractStridedSlice S1x19 ![22, 0] (W (Proc.devRef .tc main_arg5)) slices_S24x19_S1x19_22_0)
        (extractStridedSlice S1x6x19 ![22, 0, 0] (W (Proc.devRef .tc main_arg6)) slices_S24x6x19_S1x6x19_22_0_0) (extractStridedSlice S1x6 ![22, 0] (W (Proc.devRef .tc main_arg7)) slices_S24x6_S1x6_22_0) := by
  after_results_simp <;> rfl

end Cert.ReferenceIdeal.HRun

end
-- ==== Proof.RefStretchJ23.lean ====
/-
  One stretch of the reference's host program — joint 23: its slices, its bone length, the four-piece input, the two dense layers — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsJ23 : List (HloOp τ sig (Elt F)) :=
  [ unary main_arg0 main_v649 ((extractStridedSlice S131072x1x9 ![0, 23, 0] · slices_S131072x24x9_S131072x1x9_0_23_0) : (⟨S131072x24x9, .f32⟩ : BufTy).Contents (Elt F) → (⟨S131072x1x9, .f32⟩ : BufTy).Contents (Elt F)),
    reshape main_v649 main_v650 rfl shapeCasts_S131072x1x9_S131072x9,
    unary main_arg1 main_v651 ((extractStridedSlice S131072x1x3 ![0, 23, 0] · slices_S131072x24x3_S131072x1x3_0_23_0) : (⟨S131072x24x3, .f32⟩ : BufTy).Contents (Elt F) → (⟨S131072x1x3, .f32⟩ : BufTy).Contents (Elt F)),
    reshape main_v651 main_v652 rfl shapeCasts_S131072x1x3_S131072x3,
    unary main_arg1 main_v653 ((extractStridedSlice S131072x1x3 ![0, 21, 0] · slices_S131072x24x3_S131072x1x3_0_21_0) : (⟨S131072x24x3, .f32⟩ : BufTy).Contents (Elt F) → (⟨S131072x1x3, .f32⟩ : BufTy).Contents (Elt F)),
    reshape main_v653 main_v654 rfl shapeCasts_S131072x1x3_S131072x3,
    binary main_v652 main_v654 main_v655 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v655) (TRef.of (T := ⟨S131072x3, .f32⟩) main_v655) (TRef.of (T := ⟨S131072x3, .f32⟩) main_call46_v0) mulf,
    TRef.nullary (TRef.of (T := ⟨S_, .f32⟩) main_call46_cst) (constant S_ .f32 0x00000000#32),
    TRef.binary (TRef.of (T := ⟨S131072x3, .f32⟩) main_call46_v0) (TRef.of (T := ⟨S_, .f32⟩) main_call46_cst) (TRef.of (T := ⟨S131072, .f32⟩) main_call46_v1) (fun x v => Host.reduceAdd x v reducesTo_S131072x3_S131072_d1 h_S_),
    TRef.unary (TRef.of (T := ⟨S131072, .f32⟩) main_call46_v1) (TRef.of (T := ⟨S131072x1, .f32⟩) main_call46_v2) (broadcastInDim S131072x1 ![0] bcast_S131072_S131072x1_0),
    TRef.unary (TRef.of (T := ⟨S131072x1, .f32⟩) main_call46_v2) (TRef.of (T := ⟨S131072x1, .f32⟩) main_v656) Host.sqrt,
    nary ![main_v650, main_v652, main_v656, main_v620] main_v657 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v658 ((extractStridedSlice S1x19x19 ![23, 0, 0] · slices_S24x19x19_S1x19x19_23_0_0) : (⟨S24x19x19, .f32⟩ : BufTy).Contents (Elt F) → (⟨S1x19x19, .f32⟩ : BufTy).Contents (Elt F)),
    reshape main_v658 main_v659 rfl shapeCasts_S1x19x19_S19x19,
    unary main_v659 main_v660 ((transpose S19x19 [1, 0] · transposes_S19x19_S19x19_1_0) : (⟨S19x19, .f32⟩ : BufTy).Contents (Elt F) → (⟨S19x19, .f32⟩ : BufTy).Contents (Elt F)),
    binary main_v657 main_v660 main_v661 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v662 ((extractStridedSlice S1x19 ![23, 0] · slices_S24x19_S1x19_23_0) : (⟨S24x19, .f32⟩ : BufTy).Contents (Elt F) → (⟨S1x19, .f32⟩ : BufTy).Contents (Elt F)),
    reshape main_v662 main_v663 rfl shapeCasts_S1x19_S19,
    unary main_v663 main_v664 (broadcastInDim S1x19 ![1] bcast_S19_S1x19_1 : (⟨S19, .f32⟩ : BufTy).Contents (Elt F) → (⟨S1x19, .f32⟩ : BufTy).Contents (Elt F)),
    unary main_v664 main_v665 (broadcastInDim S131072x19 ![0, 1] bcast_S1x19_S131072x19_0_1 : (⟨S1x19, .f32⟩ : BufTy).Contents (Elt F) → (⟨S131072x19, .f32⟩ : BufTy).Contents (Elt F)),
    binary main_v661 main_v665 main_v666 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call47_cst) (constant S_ .f32 0x00000000#32),
    TRef.unary (TRef.of (T := ⟨S_, .f32⟩) main_call47_cst) (TRef.of (T := ⟨S131072x19, .f32⟩) main_call47_v0) (broadcastInDim S131072x19 ![] bcast_S_S131072x19),
    TRef.binary (TRef.of (T := ⟨S131072x19, .f32⟩) main_v666) (TRef.of (T := ⟨S131072x19, .f32⟩) main_call47_v0) (TRef.of (T := ⟨S131072x19, .f32⟩) main_v667) maximumf,
    unary main_arg6 main_v668 ((extractStridedSlice S1x6x19 ![23, 0, 0] · slices_S24x6x19_S1x6x19_23_0_0) : (⟨S24x6x19, .f32⟩ : BufTy).Contents (Elt F) → (⟨S1x6x19, .f32⟩ : BufTy).Contents (Elt F)),
    reshape main_v668 main_v669 rfl shapeCasts_S1x6x19_S6x19,
    unary main_v669 main_v670 ((transpose S19x6 [1, 0] · transposes_S6x19_S19x6_1_0) : (⟨S6x19, .f32⟩ : BufTy).Contents (Elt F) → (⟨S19x6, .f32⟩ : BufTy).Contents (Elt F)),
    binary main_v667 main_v670 main_v671 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v672 ((extractStridedSlice S1x6 ![23, 0] · slices_S24x6_S1x6_23_0) : (⟨S24x6, .f32⟩ : BufTy).Contents (Elt F) → (⟨S1x6, .f32⟩ : BufTy).Contents (Elt F)),
    reshape main_v672 main_v673 rfl shapeCasts_S1x6_S6,
    unary main_v673 main_v674 (broadcastInDim S1x6 ![1] bcast_S6_S1x6_1 : (⟨S6, .f32⟩ : BufTy).Contents (Elt F) → (⟨S1x6, .f32⟩ : BufTy).Contents (Elt F)),
    unary main_v674 main_v675 (broadcastInDim S131072x6 ![0, 1] bcast_S1x6_S131072x6_0_1 : (⟨S1x6, .f32⟩ : BufTy).Contents (Elt F) → (⟨S131072x6, .f32⟩ : BufTy).Contents (Elt F)),
    binary main_v671 main_v675 main_v676 (addf : (⟨S131072x6, .f32⟩ : BufTy).Contents (Elt F) → (⟨S131072x6, .f32⟩ : BufTy).Contents (Elt F) → (⟨S131072x6, .f32⟩ : BufTy).Contents (Elt F)) ]

/-- The buffers the stretch writes, one per operation. -/
abbrev wJ23 : List (Ref sig .tc) := [main_v649, main_v650, main_v651, main_v652, main_v653, main_v654, main_v655, main_call46_v0, main_call46_cst, main_call46_v1, main_call46_v2, main_v656, main_v657, main_v658, main_v659, main_v660, main_v661, main_v662, main_v663, main_v664, main_v665, main_v666, main_call47_cst, main_call47_v0, main_v667, main_v668, main_v669, main_v670, main_v671, main_v672, main_v673, main_v674, main_v675, main_v676]

theorem J23_writes : (opsJ23 : List (HloOp τ sig (Elt F))).Forall fun op => op.writes ⊆ (wJ23.map (Proc.devRef (τ := τ) .tc)).toFinset := by
  simp only [List.Forall, nullary_writes, unary_writes, binary_writes, reshape_writes, nary_writes, Finset.singleton_subset_iff,
    List.mem_toFinset, List.mem_map]
  exact ⟨⟨main_v649, by decide, rfl⟩, ⟨main_v650, by decide, rfl⟩, ⟨main_v651, by decide, rfl⟩, ⟨main_v652, by decide, rfl⟩, ⟨main_v653, by decide, rfl⟩, ⟨main_v654, by decide, rfl⟩, ⟨main_v655, by decide, rfl⟩, ⟨main_call46_v0, by decide, rfl⟩, ⟨main_call46_cst, by decide, rfl⟩, ⟨main_call46_v1, by decide, rfl⟩, ⟨main_call46_v2, by decide, rfl⟩, ⟨main_v656, by decide, rfl⟩, ⟨main_v657, by decide, rfl⟩, ⟨main_v658, by decide, rfl⟩, ⟨main_v659, by decide, rfl⟩, ⟨main_v660, by decide, rfl⟩, ⟨main_v661, by decide, rfl⟩, ⟨main_v662, by decide, rfl⟩, ⟨main_v663, by decide, rfl⟩, ⟨main_v664, by decide, rfl⟩, ⟨main_v665, by decide, rfl⟩, ⟨main_v666, by decide, rfl⟩, ⟨main_call47_cst, by decide, rfl⟩, ⟨main_call47_v0, by decide, rfl⟩, ⟨main_v667, by decide, rfl⟩, ⟨main_v668, by decide, rfl⟩, ⟨main_v669, by decide, rfl⟩, ⟨main_v670, by decide, rfl⟩, ⟨main_v671, by decide, rfl⟩, ⟨main_v672, by decide, rfl⟩, ⟨main_v673, by decide, rfl⟩, ⟨main_v674, by decide, rfl⟩, ⟨main_v675, by decide, rfl⟩, ⟨main_v676, by decide, rfl⟩⟩

/-- A buffer the stretch does not write keeps its contents. -/
theorem J23_keep (W : Valuation τ sig (Elt F)) (r : Ref sig .tc) (hr : r ∉ wJ23) :
    after opsJ23 W (Proc.devRef .tc r) = W (Proc.devRef .tc r) :=
  after_of_writes_sub opsJ23 W J23_writes hr

theorem J23_sub : (opsJ23 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., nullary_bufs_sub .., binary_bufs_sub .., unary_bufs_sub .., unary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

theorem J23_fresh : (opsJ23 : List (HloOp τ sig (Elt F))).Forall fun op => op.fresh = ∅ := by
  simp only [List.Forall]; repeat' constructor

/-- After the stretch joint 23's output buffer holds `rstage` of what the stretch reads: the two argument arrays, joint 21's output, and the four weight arrays. -/
theorem J23_out (W : Valuation τ sig (Elt F)) :
    after opsJ23 W (Proc.devRef .tc main_v676)
      = rstage (shapeCast S131072x9 (extractStridedSlice S131072x1x9 ![0, 23, 0] (W (Proc.devRef .tc main_arg0)) slices_S131072x24x9_S131072x1x9_0_23_0) shapeCasts_S131072x1x9_S131072x9) (shapeCast S131072x3 (extractStridedSlice S131072x1x3 ![0, 23, 0] (W (Proc.devRef .tc main_arg1)) slices_S131072x24x3_S131072x1x3_0_23_0) shapeCasts_S131072x1x3_S131072x3) (subf (shapeCast S131072x3 (extractStridedSlice S131072x1x3 ![0, 23, 0] (W (Proc.devRef .tc main_arg1)) slices_S131072x24x3_S131072x1x3_0_23_0) shapeCasts_S131072x1x3_S131072x3) (shapeCast S131072x3 (extractStridedSlice S131072x1x3 ![0, 21, 0] (W (Proc.devRef .tc main_arg1)) slices_S131072x24x3_S131072x1x3_0_21_0) shapeCasts_S131072x1x3_S131072x3)) (W (Proc.devRef .tc main_v620))
        (extractStridedSlice S1x19x19 ![23, 0, 0] (W (Proc.devRef .tc main_arg4)) slices_S24x19x19_S1x19x19_23_0_0) (extractStridedSlice S1x19 ![23, 0] (W (Proc.devRef .tc main_arg5)) slices_S24x19_S1x19_23_0)
        (extractStridedSlice S1x6x19 ![23, 0, 0] (W (Proc.devRef .tc main_arg6)) slices_S24x6x19_S1x6x19_23_0_0) (extractStridedSlice S1x6 ![23, 0] (W (Proc.devRef .tc main_arg7)) slices_S24x6_S1x6_23_0) := by
  after_results_simp <;> rfl

end Cert.ReferenceIdeal.HRun

end
-- ==== Proof.RefStretchT.lean ====
/-
  One stretch of the reference's host program — the three final concatenations: the first sixteen outputs, the last eight, and the two groups — as a list of its operations, in program order (a called
  function's operations stand in its call's place), with: the buffers it writes, that it writes no other, that it
  touches TensorCore buffers only and allocates nothing, and the value it leaves in its last buffer as a function of the
  contents it starts from.
-/
import proofs.«118473_j66391604462155_2_alg».proof.Proof.Gen.ReferenceIdeal
import proofs.«118473_j66391604462155_2_alg».proof.Proof.RTree
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- The stretch's operations. -/
abbrev opsT : List (HloOp τ sig (Elt F)) :=
  [ nary ![main_v32, main_v60, main_v88, main_v116, main_v144, main_v172, main_v200, main_v228, main_v256, main_v284, main_v312, main_v340, main_v368, main_v396, main_v424, main_v452] main_v677 (fun u => concatenate S131072x96 1 [⟨S131072x6, u 0⟩, ⟨S131072x6, u 1⟩, ⟨S131072x6, u 2⟩, ⟨S131072x6, u 3⟩, ⟨S131072x6, u 4⟩, ⟨S131072x6, u 5⟩, ⟨S131072x6, u 6⟩, ⟨S131072x6, u 7⟩, ⟨S131072x6, u 8⟩, ⟨S131072x6, u 9⟩, ⟨S131072x6, u 10⟩, ⟨S131072x6, u 11⟩, ⟨S131072x6, u 12⟩, ⟨S131072x6, u 13⟩, ⟨S131072x6, u 14⟩, ⟨S131072x6, u 15⟩] concatenates_S131072x6_S131072x6_S131072x6_S131072x6_S131072x6_S131072x6_S131072x6_S131072x6_S131072x6_S131072x6_S131072x6_S131072x6_S131072x6_S131072x6_S131072x6_S131072x6_S131072x96_d1),
    nary ![main_v480, main_v508, main_v536, main_v564, main_v592, main_v620, main_v648, main_v676] main_v678 (fun u => concatenate S131072x48 1 [⟨S131072x6, u 0⟩, ⟨S131072x6, u 1⟩, ⟨S131072x6, u 2⟩, ⟨S131072x6, u 3⟩, ⟨S131072x6, u 4⟩, ⟨S131072x6, u 5⟩, ⟨S131072x6, u 6⟩, ⟨S131072x6, u 7⟩] concatenates_S131072x6_S131072x6_S131072x6_S131072x6_S131072x6_S131072x6_S131072x6_S131072x6_S131072x48_d1),
    binary main_v677 main_v678 main_v679 ((fun a b => concatenate S131072x144 1 [⟨S131072x96, a⟩, ⟨S131072x48, b⟩] concatenates_S131072x96_S131072x48_S131072x144_d1) : (⟨S131072x96, .f32⟩ : BufTy).Contents (Elt F) → (⟨S131072x48, .f32⟩ : BufTy).Contents (Elt F) → (⟨S131072x144, .f32⟩ : BufTy).Contents (Elt F)) ]

/-- The buffers the stretch writes, one per operation. -/
abbrev wT : List (Ref sig .tc) := [main_v677, main_v678, main_v679]

theorem T_writes : (opsT : List (HloOp τ sig (Elt F))).Forall fun op => op.writes ⊆ (wT.map (Proc.devRef (τ := τ) .tc)).toFinset := by
  simp only [List.Forall, nullary_writes, unary_writes, binary_writes, reshape_writes, nary_writes, Finset.singleton_subset_iff,
    List.mem_toFinset, List.mem_map]
  exact ⟨⟨main_v677, by decide, rfl⟩, ⟨main_v678, by decide, rfl⟩, ⟨main_v679, by decide, rfl⟩⟩

/-- A buffer the stretch does not write keeps its contents. -/
theorem T_keep (W : Valuation τ sig (Elt F)) (r : Ref sig .tc) (hr : r ∉ wT) :
    after opsT W (Proc.devRef .tc r) = W (Proc.devRef .tc r) :=
  after_of_writes_sub opsT W T_writes hr

theorem T_sub : (opsT : List (HloOp τ sig (Elt F))).Forall fun op => op.bufs ⊆ tcRefs τ sig :=
  ⟨nary_bufs_sub .., nary_bufs_sub .., binary_bufs_sub ..⟩

theorem T_fresh : (opsT : List (HloOp τ sig (Elt F))).Forall fun op => op.fresh = ∅ := by
  simp only [List.Forall]; repeat' constructor

/-- After the stretch the result buffer holds the 24 output buffers' contents side by side. -/
theorem T_out (W : Valuation τ sig (Elt F)) :
    after opsT W (Proc.devRef .tc main_v679)
      = concatenate S131072x144 1 [⟨S131072x96, concatenate S131072x96 1 [⟨S131072x6, (W (Proc.devRef .tc main_v32))⟩, ⟨S131072x6, (W (Proc.devRef .tc main_v60))⟩, ⟨S131072x6, (W (Proc.devRef .tc main_v88))⟩, ⟨S131072x6, (W (Proc.devRef .tc main_v116))⟩, ⟨S131072x6, (W (Proc.devRef .tc main_v144))⟩, ⟨S131072x6, (W (Proc.devRef .tc main_v172))⟩, ⟨S131072x6, (W (Proc.devRef .tc main_v200))⟩, ⟨S131072x6, (W (Proc.devRef .tc main_v228))⟩, ⟨S131072x6, (W (Proc.devRef .tc main_v256))⟩, ⟨S131072x6, (W (Proc.devRef .tc main_v284))⟩, ⟨S131072x6, (W (Proc.devRef .tc main_v312))⟩, ⟨S131072x6, (W (Proc.devRef .tc main_v340))⟩, ⟨S131072x6, (W (Proc.devRef .tc main_v368))⟩, ⟨S131072x6, (W (Proc.devRef .tc main_v396))⟩, ⟨S131072x6, (W (Proc.devRef .tc main_v424))⟩, ⟨S131072x6, (W (Proc.devRef .tc main_v452))⟩] concatenates_S131072x6_S131072x6_S131072x6_S131072x6_S131072x6_S131072x6_S131072x6_S131072x6_S131072x6_S131072x6_S131072x6_S131072x6_S131072x6_S131072x6_S131072x6_S131072x6_S131072x96_d1⟩,
          ⟨S131072x48, concatenate S131072x48 1 [⟨S131072x6, (W (Proc.devRef .tc main_v480))⟩, ⟨S131072x6, (W (Proc.devRef .tc main_v508))⟩, ⟨S131072x6, (W (Proc.devRef .tc main_v536))⟩, ⟨S131072x6, (W (Proc.devRef .tc main_v564))⟩, ⟨S131072x6, (W (Proc.devRef .tc main_v592))⟩, ⟨S131072x6, (W (Proc.devRef .tc main_v620))⟩, ⟨S131072x6, (W (Proc.devRef .tc main_v648))⟩, ⟨S131072x6, (W (Proc.devRef .tc main_v676))⟩] concatenates_S131072x6_S131072x6_S131072x6_S131072x6_S131072x6_S131072x6_S131072x6_S131072x6_S131072x48_d1⟩] concatenates_S131072x96_S131072x48_S131072x144_d1 := by
  after_results_simp <;> rfl

end Cert.ReferenceIdeal.HRun

end
-- ==== Proof.RefRun.lean ====
/-
  The reference's run, stretch by stretch.

  The reference's host program is the global-feature stretch, then one stretch per joint in index order, then the three
  final concatenations.  Running a list of operations folds their results over the launch contents (`after`), and the fold
  over an appended list is the fold over the second part of the fold over the first.  Along the chain of these folds: no
  stretch writes an argument array, so the arguments stay as launched; a joint's stretch leaves in its output buffer
  `rstage` of the argument arrays and its parent's output buffer, which by then holds the parent's staged value
  (`RTree.rout`), so it holds its own; a later stretch writes none of the earlier outputs.  After the last stretch the
  result buffer holds the 24 staged outputs side by side, `RTree.result` of the launch contents of the arguments.
-/
import proofs.«118473_j66391604462155_2_alg».proof.Proof.Gen.ReferenceIdeal
import proofs.«118473_j66391604462155_2_alg».proof.Proof.RTree
import proofs.«118473_j66391604462155_2_alg».proof.Proof.RefStretchG
import proofs.«118473_j66391604462155_2_alg».proof.Proof.RefStretchJ0
import proofs.«118473_j66391604462155_2_alg».proof.Proof.RefStretchJ1
import proofs.«118473_j66391604462155_2_alg».proof.Proof.RefStretchJ2
import proofs.«118473_j66391604462155_2_alg».proof.Proof.RefStretchJ3
import proofs.«118473_j66391604462155_2_alg».proof.Proof.RefStretchJ4
import proofs.«118473_j66391604462155_2_alg».proof.Proof.RefStretchJ5
import proofs.«118473_j66391604462155_2_alg».proof.Proof.RefStretchJ6
import proofs.«118473_j66391604462155_2_alg».proof.Proof.RefStretchJ7
import proofs.«118473_j66391604462155_2_alg».proof.Proof.RefStretchJ8
import proofs.«118473_j66391604462155_2_alg».proof.Proof.RefStretchJ9
import proofs.«118473_j66391604462155_2_alg».proof.Proof.RefStretchJ10
import proofs.«118473_j66391604462155_2_alg».proof.Proof.RefStretchJ11
import proofs.«118473_j66391604462155_2_alg».proof.Proof.RefStretchJ12
import proofs.«118473_j66391604462155_2_alg».proof.Proof.RefStretchJ13
import proofs.«118473_j66391604462155_2_alg».proof.Proof.RefStretchJ14
import proofs.«118473_j66391604462155_2_alg».proof.Proof.RefStretchJ15
import proofs.«118473_j66391604462155_2_alg».proof.Proof.RefStretchJ16
import proofs.«118473_j66391604462155_2_alg».proof.Proof.RefStretchJ17
import proofs.«118473_j66391604462155_2_alg».proof.Proof.RefStretchJ18
import proofs.«118473_j66391604462155_2_alg».proof.Proof.RefStretchJ19
import proofs.«118473_j66391604462155_2_alg».proof.Proof.RefStretchJ20
import proofs.«118473_j66391604462155_2_alg».proof.Proof.RefStretchJ21
import proofs.«118473_j66391604462155_2_alg».proof.Proof.RefStretchJ22
import proofs.«118473_j66391604462155_2_alg».proof.Proof.RefStretchJ23
import proofs.«118473_j66391604462155_2_alg».proof.Proof.RefStretchT
import Idealize.ShloMosaic.Lib.StableHlo.Run

noncomputable section

namespace Cert.ReferenceIdeal.HRun

open Cert.ReferenceIdeal Cert.ReferenceIdeal.Gen Cert.ReferenceIdeal.RStage Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The fold over an appended list is the fold over its second part of the fold over its first. -/
theorem after_append (l₁ l₂ : List (HloOp τ sig (Elt F))) (V : Valuation τ sig (Elt F)) : after (l₁ ++ l₂) V = after l₂ (after l₁ V) := by
  induction l₁ generalizing V with
  | nil => rfl
  | cons op l ih => exact ih (op.result V)

/-- @main's operations: the stretches in program order. -/
abbrev ops : List (HloOp τ sig (Elt F)) :=
  opsG ++ (opsJ0 ++ (opsJ1 ++ (opsJ2 ++ (opsJ3 ++ (opsJ4 ++ (opsJ5 ++ (opsJ6 ++ (opsJ7 ++ (opsJ8 ++ (opsJ9 ++ (opsJ10 ++ (opsJ11 ++ (opsJ12 ++ (opsJ13 ++ (opsJ14 ++ (opsJ15 ++ (opsJ16 ++ (opsJ17 ++ (opsJ18 ++ (opsJ19 ++ (opsJ20 ++ (opsJ21 ++ (opsJ22 ++ (opsJ23 ++ (opsT)))))))))))))))))))))))))

set_option maxRecDepth 16384 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append G_sub (forall_append J0_sub (forall_append J1_sub (forall_append J2_sub (forall_append J3_sub (forall_append J4_sub (forall_append J5_sub (forall_append J6_sub (forall_append J7_sub (forall_append J8_sub (forall_append J9_sub (forall_append J10_sub (forall_append J11_sub (forall_append J12_sub (forall_append J13_sub (forall_append J14_sub (forall_append J15_sub (forall_append J16_sub (forall_append J17_sub (forall_append J18_sub (forall_append J19_sub (forall_append J20_sub (forall_append J21_sub (forall_append J22_sub (forall_append J23_sub (T_sub)))))))))))))))))))))))))

theorem ops_fresh : ∀ op ∈ (ops : List (HloOp τ sig (Elt F))), op.fresh = ∅ :=
  List.forall_iff_forall_mem.mp (forall_append G_fresh (forall_append J0_fresh (forall_append J1_fresh (forall_append J2_fresh (forall_append J3_fresh (forall_append J4_fresh (forall_append J5_fresh (forall_append J6_fresh (forall_append J7_fresh (forall_append J8_fresh (forall_append J9_fresh (forall_append J10_fresh (forall_append J11_fresh (forall_append J12_fresh (forall_append J13_fresh (forall_append J14_fresh (forall_append J15_fresh (forall_append J16_fresh (forall_append J17_fresh (forall_append J18_fresh (forall_append J19_fresh (forall_append J20_fresh (forall_append J21_fresh (forall_append J22_fresh (forall_append J23_fresh (T_fresh))))))))))))))))))))))))))

/-! ## The contents after each stretch -/

def W0 (V : Valuation τ sig (Elt F)) : Valuation τ sig (Elt F) := after opsG V
def W1 (V : Valuation τ sig (Elt F)) : Valuation τ sig (Elt F) := after opsJ0 (W0 V)
def W2 (V : Valuation τ sig (Elt F)) : Valuation τ sig (Elt F) := after opsJ1 (W1 V)
def W3 (V : Valuation τ sig (Elt F)) : Valuation τ sig (Elt F) := after opsJ2 (W2 V)
def W4 (V : Valuation τ sig (Elt F)) : Valuation τ sig (Elt F) := after opsJ3 (W3 V)
def W5 (V : Valuation τ sig (Elt F)) : Valuation τ sig (Elt F) := after opsJ4 (W4 V)
def W6 (V : Valuation τ sig (Elt F)) : Valuation τ sig (Elt F) := after opsJ5 (W5 V)
def W7 (V : Valuation τ sig (Elt F)) : Valuation τ sig (Elt F) := after opsJ6 (W6 V)
def W8 (V : Valuation τ sig (Elt F)) : Valuation τ sig (Elt F) := after opsJ7 (W7 V)
def W9 (V : Valuation τ sig (Elt F)) : Valuation τ sig (Elt F) := after opsJ8 (W8 V)
def W10 (V : Valuation τ sig (Elt F)) : Valuation τ sig (Elt F) := after opsJ9 (W9 V)
def W11 (V : Valuation τ sig (Elt F)) : Valuation τ sig (Elt F) := after opsJ10 (W10 V)
def W12 (V : Valuation τ sig (Elt F)) : Valuation τ sig (Elt F) := after opsJ11 (W11 V)
def W13 (V : Valuation τ sig (Elt F)) : Valuation τ sig (Elt F) := after opsJ12 (W12 V)
def W14 (V : Valuation τ sig (Elt F)) : Valuation τ sig (Elt F) := after opsJ13 (W13 V)
def W15 (V : Valuation τ sig (Elt F)) : Valuation τ sig (Elt F) := after opsJ14 (W14 V)
def W16 (V : Valuation τ sig (Elt F)) : Valuation τ sig (Elt F) := after opsJ15 (W15 V)
def W17 (V : Valuation τ sig (Elt F)) : Valuation τ sig (Elt F) := after opsJ16 (W16 V)
def W18 (V : Valuation τ sig (Elt F)) : Valuation τ sig (Elt F) := after opsJ17 (W17 V)
def W19 (V : Valuation τ sig (Elt F)) : Valuation τ sig (Elt F) := after opsJ18 (W18 V)
def W20 (V : Valuation τ sig (Elt F)) : Valuation τ sig (Elt F) := after opsJ19 (W19 V)
def W21 (V : Valuation τ sig (Elt F)) : Valuation τ sig (Elt F) := after opsJ20 (W20 V)
def W22 (V : Valuation τ sig (Elt F)) : Valuation τ sig (Elt F) := after opsJ21 (W21 V)
def W23 (V : Valuation τ sig (Elt F)) : Valuation τ sig (Elt F) := after opsJ22 (W22 V)
def W24 (V : Valuation τ sig (Elt F)) : Valuation τ sig (Elt F) := after opsJ23 (W23 V)
def WT (V : Valuation τ sig (Elt F)) : Valuation τ sig (Elt F) := after opsT (W24 V)

theorem after_ops (V : Valuation τ sig (Elt F)) : after ops V = WT V := by
  simp only [ops, after_append]
  rfl

/-! ### The argument arrays are never written -/

theorem W0_arg0 (V : Valuation τ sig (Elt F)) : W0 V (Proc.devRef .tc main_arg0) = V (Proc.devRef .tc main_arg0) := G_keep V main_arg0 (by decide)
theorem W1_arg0 (V : Valuation τ sig (Elt F)) : W1 V (Proc.devRef .tc main_arg0) = V (Proc.devRef .tc main_arg0) := (J0_keep (W0 V) main_arg0 (by decide)).trans (W0_arg0 V)
theorem W2_arg0 (V : Valuation τ sig (Elt F)) : W2 V (Proc.devRef .tc main_arg0) = V (Proc.devRef .tc main_arg0) := (J1_keep (W1 V) main_arg0 (by decide)).trans (W1_arg0 V)
theorem W3_arg0 (V : Valuation τ sig (Elt F)) : W3 V (Proc.devRef .tc main_arg0) = V (Proc.devRef .tc main_arg0) := (J2_keep (W2 V) main_arg0 (by decide)).trans (W2_arg0 V)
theorem W4_arg0 (V : Valuation τ sig (Elt F)) : W4 V (Proc.devRef .tc main_arg0) = V (Proc.devRef .tc main_arg0) := (J3_keep (W3 V) main_arg0 (by decide)).trans (W3_arg0 V)
theorem W5_arg0 (V : Valuation τ sig (Elt F)) : W5 V (Proc.devRef .tc main_arg0) = V (Proc.devRef .tc main_arg0) := (J4_keep (W4 V) main_arg0 (by decide)).trans (W4_arg0 V)
theorem W6_arg0 (V : Valuation τ sig (Elt F)) : W6 V (Proc.devRef .tc main_arg0) = V (Proc.devRef .tc main_arg0) := (J5_keep (W5 V) main_arg0 (by decide)).trans (W5_arg0 V)
theorem W7_arg0 (V : Valuation τ sig (Elt F)) : W7 V (Proc.devRef .tc main_arg0) = V (Proc.devRef .tc main_arg0) := (J6_keep (W6 V) main_arg0 (by decide)).trans (W6_arg0 V)
theorem W8_arg0 (V : Valuation τ sig (Elt F)) : W8 V (Proc.devRef .tc main_arg0) = V (Proc.devRef .tc main_arg0) := (J7_keep (W7 V) main_arg0 (by decide)).trans (W7_arg0 V)
theorem W9_arg0 (V : Valuation τ sig (Elt F)) : W9 V (Proc.devRef .tc main_arg0) = V (Proc.devRef .tc main_arg0) := (J8_keep (W8 V) main_arg0 (by decide)).trans (W8_arg0 V)
theorem W10_arg0 (V : Valuation τ sig (Elt F)) : W10 V (Proc.devRef .tc main_arg0) = V (Proc.devRef .tc main_arg0) := (J9_keep (W9 V) main_arg0 (by decide)).trans (W9_arg0 V)
theorem W11_arg0 (V : Valuation τ sig (Elt F)) : W11 V (Proc.devRef .tc main_arg0) = V (Proc.devRef .tc main_arg0) := (J10_keep (W10 V) main_arg0 (by decide)).trans (W10_arg0 V)
theorem W12_arg0 (V : Valuation τ sig (Elt F)) : W12 V (Proc.devRef .tc main_arg0) = V (Proc.devRef .tc main_arg0) := (J11_keep (W11 V) main_arg0 (by decide)).trans (W11_arg0 V)
theorem W13_arg0 (V : Valuation τ sig (Elt F)) : W13 V (Proc.devRef .tc main_arg0) = V (Proc.devRef .tc main_arg0) := (J12_keep (W12 V) main_arg0 (by decide)).trans (W12_arg0 V)
theorem W14_arg0 (V : Valuation τ sig (Elt F)) : W14 V (Proc.devRef .tc main_arg0) = V (Proc.devRef .tc main_arg0) := (J13_keep (W13 V) main_arg0 (by decide)).trans (W13_arg0 V)
theorem W15_arg0 (V : Valuation τ sig (Elt F)) : W15 V (Proc.devRef .tc main_arg0) = V (Proc.devRef .tc main_arg0) := (J14_keep (W14 V) main_arg0 (by decide)).trans (W14_arg0 V)
theorem W16_arg0 (V : Valuation τ sig (Elt F)) : W16 V (Proc.devRef .tc main_arg0) = V (Proc.devRef .tc main_arg0) := (J15_keep (W15 V) main_arg0 (by decide)).trans (W15_arg0 V)
theorem W17_arg0 (V : Valuation τ sig (Elt F)) : W17 V (Proc.devRef .tc main_arg0) = V (Proc.devRef .tc main_arg0) := (J16_keep (W16 V) main_arg0 (by decide)).trans (W16_arg0 V)
theorem W18_arg0 (V : Valuation τ sig (Elt F)) : W18 V (Proc.devRef .tc main_arg0) = V (Proc.devRef .tc main_arg0) := (J17_keep (W17 V) main_arg0 (by decide)).trans (W17_arg0 V)
theorem W19_arg0 (V : Valuation τ sig (Elt F)) : W19 V (Proc.devRef .tc main_arg0) = V (Proc.devRef .tc main_arg0) := (J18_keep (W18 V) main_arg0 (by decide)).trans (W18_arg0 V)
theorem W20_arg0 (V : Valuation τ sig (Elt F)) : W20 V (Proc.devRef .tc main_arg0) = V (Proc.devRef .tc main_arg0) := (J19_keep (W19 V) main_arg0 (by decide)).trans (W19_arg0 V)
theorem W21_arg0 (V : Valuation τ sig (Elt F)) : W21 V (Proc.devRef .tc main_arg0) = V (Proc.devRef .tc main_arg0) := (J20_keep (W20 V) main_arg0 (by decide)).trans (W20_arg0 V)
theorem W22_arg0 (V : Valuation τ sig (Elt F)) : W22 V (Proc.devRef .tc main_arg0) = V (Proc.devRef .tc main_arg0) := (J21_keep (W21 V) main_arg0 (by decide)).trans (W21_arg0 V)
theorem W23_arg0 (V : Valuation τ sig (Elt F)) : W23 V (Proc.devRef .tc main_arg0) = V (Proc.devRef .tc main_arg0) := (J22_keep (W22 V) main_arg0 (by decide)).trans (W22_arg0 V)
theorem W24_arg0 (V : Valuation τ sig (Elt F)) : W24 V (Proc.devRef .tc main_arg0) = V (Proc.devRef .tc main_arg0) := (J23_keep (W23 V) main_arg0 (by decide)).trans (W23_arg0 V)
theorem WT_arg0 (V : Valuation τ sig (Elt F)) : WT V (Proc.devRef .tc main_arg0) = V (Proc.devRef .tc main_arg0) := (T_keep (W24 V) main_arg0 (by decide)).trans (W24_arg0 V)
theorem W0_arg1 (V : Valuation τ sig (Elt F)) : W0 V (Proc.devRef .tc main_arg1) = V (Proc.devRef .tc main_arg1) := G_keep V main_arg1 (by decide)
theorem W1_arg1 (V : Valuation τ sig (Elt F)) : W1 V (Proc.devRef .tc main_arg1) = V (Proc.devRef .tc main_arg1) := (J0_keep (W0 V) main_arg1 (by decide)).trans (W0_arg1 V)
theorem W2_arg1 (V : Valuation τ sig (Elt F)) : W2 V (Proc.devRef .tc main_arg1) = V (Proc.devRef .tc main_arg1) := (J1_keep (W1 V) main_arg1 (by decide)).trans (W1_arg1 V)
theorem W3_arg1 (V : Valuation τ sig (Elt F)) : W3 V (Proc.devRef .tc main_arg1) = V (Proc.devRef .tc main_arg1) := (J2_keep (W2 V) main_arg1 (by decide)).trans (W2_arg1 V)
theorem W4_arg1 (V : Valuation τ sig (Elt F)) : W4 V (Proc.devRef .tc main_arg1) = V (Proc.devRef .tc main_arg1) := (J3_keep (W3 V) main_arg1 (by decide)).trans (W3_arg1 V)
theorem W5_arg1 (V : Valuation τ sig (Elt F)) : W5 V (Proc.devRef .tc main_arg1) = V (Proc.devRef .tc main_arg1) := (J4_keep (W4 V) main_arg1 (by decide)).trans (W4_arg1 V)
theorem W6_arg1 (V : Valuation τ sig (Elt F)) : W6 V (Proc.devRef .tc main_arg1) = V (Proc.devRef .tc main_arg1) := (J5_keep (W5 V) main_arg1 (by decide)).trans (W5_arg1 V)
theorem W7_arg1 (V : Valuation τ sig (Elt F)) : W7 V (Proc.devRef .tc main_arg1) = V (Proc.devRef .tc main_arg1) := (J6_keep (W6 V) main_arg1 (by decide)).trans (W6_arg1 V)
theorem W8_arg1 (V : Valuation τ sig (Elt F)) : W8 V (Proc.devRef .tc main_arg1) = V (Proc.devRef .tc main_arg1) := (J7_keep (W7 V) main_arg1 (by decide)).trans (W7_arg1 V)
theorem W9_arg1 (V : Valuation τ sig (Elt F)) : W9 V (Proc.devRef .tc main_arg1) = V (Proc.devRef .tc main_arg1) := (J8_keep (W8 V) main_arg1 (by decide)).trans (W8_arg1 V)
theorem W10_arg1 (V : Valuation τ sig (Elt F)) : W10 V (Proc.devRef .tc main_arg1) = V (Proc.devRef .tc main_arg1) := (J9_keep (W9 V) main_arg1 (by decide)).trans (W9_arg1 V)
theorem W11_arg1 (V : Valuation τ sig (Elt F)) : W11 V (Proc.devRef .tc main_arg1) = V (Proc.devRef .tc main_arg1) := (J10_keep (W10 V) main_arg1 (by decide)).trans (W10_arg1 V)
theorem W12_arg1 (V : Valuation τ sig (Elt F)) : W12 V (Proc.devRef .tc main_arg1) = V (Proc.devRef .tc main_arg1) := (J11_keep (W11 V) main_arg1 (by decide)).trans (W11_arg1 V)
theorem W13_arg1 (V : Valuation τ sig (Elt F)) : W13 V (Proc.devRef .tc main_arg1) = V (Proc.devRef .tc main_arg1) := (J12_keep (W12 V) main_arg1 (by decide)).trans (W12_arg1 V)
theorem W14_arg1 (V : Valuation τ sig (Elt F)) : W14 V (Proc.devRef .tc main_arg1) = V (Proc.devRef .tc main_arg1) := (J13_keep (W13 V) main_arg1 (by decide)).trans (W13_arg1 V)
theorem W15_arg1 (V : Valuation τ sig (Elt F)) : W15 V (Proc.devRef .tc main_arg1) = V (Proc.devRef .tc main_arg1) := (J14_keep (W14 V) main_arg1 (by decide)).trans (W14_arg1 V)
theorem W16_arg1 (V : Valuation τ sig (Elt F)) : W16 V (Proc.devRef .tc main_arg1) = V (Proc.devRef .tc main_arg1) := (J15_keep (W15 V) main_arg1 (by decide)).trans (W15_arg1 V)
theorem W17_arg1 (V : Valuation τ sig (Elt F)) : W17 V (Proc.devRef .tc main_arg1) = V (Proc.devRef .tc main_arg1) := (J16_keep (W16 V) main_arg1 (by decide)).trans (W16_arg1 V)
theorem W18_arg1 (V : Valuation τ sig (Elt F)) : W18 V (Proc.devRef .tc main_arg1) = V (Proc.devRef .tc main_arg1) := (J17_keep (W17 V) main_arg1 (by decide)).trans (W17_arg1 V)
theorem W19_arg1 (V : Valuation τ sig (Elt F)) : W19 V (Proc.devRef .tc main_arg1) = V (Proc.devRef .tc main_arg1) := (J18_keep (W18 V) main_arg1 (by decide)).trans (W18_arg1 V)
theorem W20_arg1 (V : Valuation τ sig (Elt F)) : W20 V (Proc.devRef .tc main_arg1) = V (Proc.devRef .tc main_arg1) := (J19_keep (W19 V) main_arg1 (by decide)).trans (W19_arg1 V)
theorem W21_arg1 (V : Valuation τ sig (Elt F)) : W21 V (Proc.devRef .tc main_arg1) = V (Proc.devRef .tc main_arg1) := (J20_keep (W20 V) main_arg1 (by decide)).trans (W20_arg1 V)
theorem W22_arg1 (V : Valuation τ sig (Elt F)) : W22 V (Proc.devRef .tc main_arg1) = V (Proc.devRef .tc main_arg1) := (J21_keep (W21 V) main_arg1 (by decide)).trans (W21_arg1 V)
theorem W23_arg1 (V : Valuation τ sig (Elt F)) : W23 V (Proc.devRef .tc main_arg1) = V (Proc.devRef .tc main_arg1) := (J22_keep (W22 V) main_arg1 (by decide)).trans (W22_arg1 V)
theorem W24_arg1 (V : Valuation τ sig (Elt F)) : W24 V (Proc.devRef .tc main_arg1) = V (Proc.devRef .tc main_arg1) := (J23_keep (W23 V) main_arg1 (by decide)).trans (W23_arg1 V)
theorem WT_arg1 (V : Valuation τ sig (Elt F)) : WT V (Proc.devRef .tc main_arg1) = V (Proc.devRef .tc main_arg1) := (T_keep (W24 V) main_arg1 (by decide)).trans (W24_arg1 V)
theorem W0_arg2 (V : Valuation τ sig (Elt F)) : W0 V (Proc.devRef .tc main_arg2) = V (Proc.devRef .tc main_arg2) := G_keep V main_arg2 (by decide)
theorem W1_arg2 (V : Valuation τ sig (Elt F)) : W1 V (Proc.devRef .tc main_arg2) = V (Proc.devRef .tc main_arg2) := (J0_keep (W0 V) main_arg2 (by decide)).trans (W0_arg2 V)
theorem W2_arg2 (V : Valuation τ sig (Elt F)) : W2 V (Proc.devRef .tc main_arg2) = V (Proc.devRef .tc main_arg2) := (J1_keep (W1 V) main_arg2 (by decide)).trans (W1_arg2 V)
theorem W3_arg2 (V : Valuation τ sig (Elt F)) : W3 V (Proc.devRef .tc main_arg2) = V (Proc.devRef .tc main_arg2) := (J2_keep (W2 V) main_arg2 (by decide)).trans (W2_arg2 V)
theorem W4_arg2 (V : Valuation τ sig (Elt F)) : W4 V (Proc.devRef .tc main_arg2) = V (Proc.devRef .tc main_arg2) := (J3_keep (W3 V) main_arg2 (by decide)).trans (W3_arg2 V)
theorem W5_arg2 (V : Valuation τ sig (Elt F)) : W5 V (Proc.devRef .tc main_arg2) = V (Proc.devRef .tc main_arg2) := (J4_keep (W4 V) main_arg2 (by decide)).trans (W4_arg2 V)
theorem W6_arg2 (V : Valuation τ sig (Elt F)) : W6 V (Proc.devRef .tc main_arg2) = V (Proc.devRef .tc main_arg2) := (J5_keep (W5 V) main_arg2 (by decide)).trans (W5_arg2 V)
theorem W7_arg2 (V : Valuation τ sig (Elt F)) : W7 V (Proc.devRef .tc main_arg2) = V (Proc.devRef .tc main_arg2) := (J6_keep (W6 V) main_arg2 (by decide)).trans (W6_arg2 V)
theorem W8_arg2 (V : Valuation τ sig (Elt F)) : W8 V (Proc.devRef .tc main_arg2) = V (Proc.devRef .tc main_arg2) := (J7_keep (W7 V) main_arg2 (by decide)).trans (W7_arg2 V)
theorem W9_arg2 (V : Valuation τ sig (Elt F)) : W9 V (Proc.devRef .tc main_arg2) = V (Proc.devRef .tc main_arg2) := (J8_keep (W8 V) main_arg2 (by decide)).trans (W8_arg2 V)
theorem W10_arg2 (V : Valuation τ sig (Elt F)) : W10 V (Proc.devRef .tc main_arg2) = V (Proc.devRef .tc main_arg2) := (J9_keep (W9 V) main_arg2 (by decide)).trans (W9_arg2 V)
theorem W11_arg2 (V : Valuation τ sig (Elt F)) : W11 V (Proc.devRef .tc main_arg2) = V (Proc.devRef .tc main_arg2) := (J10_keep (W10 V) main_arg2 (by decide)).trans (W10_arg2 V)
theorem W12_arg2 (V : Valuation τ sig (Elt F)) : W12 V (Proc.devRef .tc main_arg2) = V (Proc.devRef .tc main_arg2) := (J11_keep (W11 V) main_arg2 (by decide)).trans (W11_arg2 V)
theorem W13_arg2 (V : Valuation τ sig (Elt F)) : W13 V (Proc.devRef .tc main_arg2) = V (Proc.devRef .tc main_arg2) := (J12_keep (W12 V) main_arg2 (by decide)).trans (W12_arg2 V)
theorem W14_arg2 (V : Valuation τ sig (Elt F)) : W14 V (Proc.devRef .tc main_arg2) = V (Proc.devRef .tc main_arg2) := (J13_keep (W13 V) main_arg2 (by decide)).trans (W13_arg2 V)
theorem W15_arg2 (V : Valuation τ sig (Elt F)) : W15 V (Proc.devRef .tc main_arg2) = V (Proc.devRef .tc main_arg2) := (J14_keep (W14 V) main_arg2 (by decide)).trans (W14_arg2 V)
theorem W16_arg2 (V : Valuation τ sig (Elt F)) : W16 V (Proc.devRef .tc main_arg2) = V (Proc.devRef .tc main_arg2) := (J15_keep (W15 V) main_arg2 (by decide)).trans (W15_arg2 V)
theorem W17_arg2 (V : Valuation τ sig (Elt F)) : W17 V (Proc.devRef .tc main_arg2) = V (Proc.devRef .tc main_arg2) := (J16_keep (W16 V) main_arg2 (by decide)).trans (W16_arg2 V)
theorem W18_arg2 (V : Valuation τ sig (Elt F)) : W18 V (Proc.devRef .tc main_arg2) = V (Proc.devRef .tc main_arg2) := (J17_keep (W17 V) main_arg2 (by decide)).trans (W17_arg2 V)
theorem W19_arg2 (V : Valuation τ sig (Elt F)) : W19 V (Proc.devRef .tc main_arg2) = V (Proc.devRef .tc main_arg2) := (J18_keep (W18 V) main_arg2 (by decide)).trans (W18_arg2 V)
theorem W20_arg2 (V : Valuation τ sig (Elt F)) : W20 V (Proc.devRef .tc main_arg2) = V (Proc.devRef .tc main_arg2) := (J19_keep (W19 V) main_arg2 (by decide)).trans (W19_arg2 V)
theorem W21_arg2 (V : Valuation τ sig (Elt F)) : W21 V (Proc.devRef .tc main_arg2) = V (Proc.devRef .tc main_arg2) := (J20_keep (W20 V) main_arg2 (by decide)).trans (W20_arg2 V)
theorem W22_arg2 (V : Valuation τ sig (Elt F)) : W22 V (Proc.devRef .tc main_arg2) = V (Proc.devRef .tc main_arg2) := (J21_keep (W21 V) main_arg2 (by decide)).trans (W21_arg2 V)
theorem W23_arg2 (V : Valuation τ sig (Elt F)) : W23 V (Proc.devRef .tc main_arg2) = V (Proc.devRef .tc main_arg2) := (J22_keep (W22 V) main_arg2 (by decide)).trans (W22_arg2 V)
theorem W24_arg2 (V : Valuation τ sig (Elt F)) : W24 V (Proc.devRef .tc main_arg2) = V (Proc.devRef .tc main_arg2) := (J23_keep (W23 V) main_arg2 (by decide)).trans (W23_arg2 V)
theorem WT_arg2 (V : Valuation τ sig (Elt F)) : WT V (Proc.devRef .tc main_arg2) = V (Proc.devRef .tc main_arg2) := (T_keep (W24 V) main_arg2 (by decide)).trans (W24_arg2 V)
theorem W0_arg3 (V : Valuation τ sig (Elt F)) : W0 V (Proc.devRef .tc main_arg3) = V (Proc.devRef .tc main_arg3) := G_keep V main_arg3 (by decide)
theorem W1_arg3 (V : Valuation τ sig (Elt F)) : W1 V (Proc.devRef .tc main_arg3) = V (Proc.devRef .tc main_arg3) := (J0_keep (W0 V) main_arg3 (by decide)).trans (W0_arg3 V)
theorem W2_arg3 (V : Valuation τ sig (Elt F)) : W2 V (Proc.devRef .tc main_arg3) = V (Proc.devRef .tc main_arg3) := (J1_keep (W1 V) main_arg3 (by decide)).trans (W1_arg3 V)
theorem W3_arg3 (V : Valuation τ sig (Elt F)) : W3 V (Proc.devRef .tc main_arg3) = V (Proc.devRef .tc main_arg3) := (J2_keep (W2 V) main_arg3 (by decide)).trans (W2_arg3 V)
theorem W4_arg3 (V : Valuation τ sig (Elt F)) : W4 V (Proc.devRef .tc main_arg3) = V (Proc.devRef .tc main_arg3) := (J3_keep (W3 V) main_arg3 (by decide)).trans (W3_arg3 V)
theorem W5_arg3 (V : Valuation τ sig (Elt F)) : W5 V (Proc.devRef .tc main_arg3) = V (Proc.devRef .tc main_arg3) := (J4_keep (W4 V) main_arg3 (by decide)).trans (W4_arg3 V)
theorem W6_arg3 (V : Valuation τ sig (Elt F)) : W6 V (Proc.devRef .tc main_arg3) = V (Proc.devRef .tc main_arg3) := (J5_keep (W5 V) main_arg3 (by decide)).trans (W5_arg3 V)
theorem W7_arg3 (V : Valuation τ sig (Elt F)) : W7 V (Proc.devRef .tc main_arg3) = V (Proc.devRef .tc main_arg3) := (J6_keep (W6 V) main_arg3 (by decide)).trans (W6_arg3 V)
theorem W8_arg3 (V : Valuation τ sig (Elt F)) : W8 V (Proc.devRef .tc main_arg3) = V (Proc.devRef .tc main_arg3) := (J7_keep (W7 V) main_arg3 (by decide)).trans (W7_arg3 V)
theorem W9_arg3 (V : Valuation τ sig (Elt F)) : W9 V (Proc.devRef .tc main_arg3) = V (Proc.devRef .tc main_arg3) := (J8_keep (W8 V) main_arg3 (by decide)).trans (W8_arg3 V)
theorem W10_arg3 (V : Valuation τ sig (Elt F)) : W10 V (Proc.devRef .tc main_arg3) = V (Proc.devRef .tc main_arg3) := (J9_keep (W9 V) main_arg3 (by decide)).trans (W9_arg3 V)
theorem W11_arg3 (V : Valuation τ sig (Elt F)) : W11 V (Proc.devRef .tc main_arg3) = V (Proc.devRef .tc main_arg3) := (J10_keep (W10 V) main_arg3 (by decide)).trans (W10_arg3 V)
theorem W12_arg3 (V : Valuation τ sig (Elt F)) : W12 V (Proc.devRef .tc main_arg3) = V (Proc.devRef .tc main_arg3) := (J11_keep (W11 V) main_arg3 (by decide)).trans (W11_arg3 V)
theorem W13_arg3 (V : Valuation τ sig (Elt F)) : W13 V (Proc.devRef .tc main_arg3) = V (Proc.devRef .tc main_arg3) := (J12_keep (W12 V) main_arg3 (by decide)).trans (W12_arg3 V)
theorem W14_arg3 (V : Valuation τ sig (Elt F)) : W14 V (Proc.devRef .tc main_arg3) = V (Proc.devRef .tc main_arg3) := (J13_keep (W13 V) main_arg3 (by decide)).trans (W13_arg3 V)
theorem W15_arg3 (V : Valuation τ sig (Elt F)) : W15 V (Proc.devRef .tc main_arg3) = V (Proc.devRef .tc main_arg3) := (J14_keep (W14 V) main_arg3 (by decide)).trans (W14_arg3 V)
theorem W16_arg3 (V : Valuation τ sig (Elt F)) : W16 V (Proc.devRef .tc main_arg3) = V (Proc.devRef .tc main_arg3) := (J15_keep (W15 V) main_arg3 (by decide)).trans (W15_arg3 V)
theorem W17_arg3 (V : Valuation τ sig (Elt F)) : W17 V (Proc.devRef .tc main_arg3) = V (Proc.devRef .tc main_arg3) := (J16_keep (W16 V) main_arg3 (by decide)).trans (W16_arg3 V)
theorem W18_arg3 (V : Valuation τ sig (Elt F)) : W18 V (Proc.devRef .tc main_arg3) = V (Proc.devRef .tc main_arg3) := (J17_keep (W17 V) main_arg3 (by decide)).trans (W17_arg3 V)
theorem W19_arg3 (V : Valuation τ sig (Elt F)) : W19 V (Proc.devRef .tc main_arg3) = V (Proc.devRef .tc main_arg3) := (J18_keep (W18 V) main_arg3 (by decide)).trans (W18_arg3 V)
theorem W20_arg3 (V : Valuation τ sig (Elt F)) : W20 V (Proc.devRef .tc main_arg3) = V (Proc.devRef .tc main_arg3) := (J19_keep (W19 V) main_arg3 (by decide)).trans (W19_arg3 V)
theorem W21_arg3 (V : Valuation τ sig (Elt F)) : W21 V (Proc.devRef .tc main_arg3) = V (Proc.devRef .tc main_arg3) := (J20_keep (W20 V) main_arg3 (by decide)).trans (W20_arg3 V)
theorem W22_arg3 (V : Valuation τ sig (Elt F)) : W22 V (Proc.devRef .tc main_arg3) = V (Proc.devRef .tc main_arg3) := (J21_keep (W21 V) main_arg3 (by decide)).trans (W21_arg3 V)
theorem W23_arg3 (V : Valuation τ sig (Elt F)) : W23 V (Proc.devRef .tc main_arg3) = V (Proc.devRef .tc main_arg3) := (J22_keep (W22 V) main_arg3 (by decide)).trans (W22_arg3 V)
theorem W24_arg3 (V : Valuation τ sig (Elt F)) : W24 V (Proc.devRef .tc main_arg3) = V (Proc.devRef .tc main_arg3) := (J23_keep (W23 V) main_arg3 (by decide)).trans (W23_arg3 V)
theorem WT_arg3 (V : Valuation τ sig (Elt F)) : WT V (Proc.devRef .tc main_arg3) = V (Proc.devRef .tc main_arg3) := (T_keep (W24 V) main_arg3 (by decide)).trans (W24_arg3 V)
theorem W0_arg4 (V : Valuation τ sig (Elt F)) : W0 V (Proc.devRef .tc main_arg4) = V (Proc.devRef .tc main_arg4) := G_keep V main_arg4 (by decide)
theorem W1_arg4 (V : Valuation τ sig (Elt F)) : W1 V (Proc.devRef .tc main_arg4) = V (Proc.devRef .tc main_arg4) := (J0_keep (W0 V) main_arg4 (by decide)).trans (W0_arg4 V)
theorem W2_arg4 (V : Valuation τ sig (Elt F)) : W2 V (Proc.devRef .tc main_arg4) = V (Proc.devRef .tc main_arg4) := (J1_keep (W1 V) main_arg4 (by decide)).trans (W1_arg4 V)
theorem W3_arg4 (V : Valuation τ sig (Elt F)) : W3 V (Proc.devRef .tc main_arg4) = V (Proc.devRef .tc main_arg4) := (J2_keep (W2 V) main_arg4 (by decide)).trans (W2_arg4 V)
theorem W4_arg4 (V : Valuation τ sig (Elt F)) : W4 V (Proc.devRef .tc main_arg4) = V (Proc.devRef .tc main_arg4) := (J3_keep (W3 V) main_arg4 (by decide)).trans (W3_arg4 V)
theorem W5_arg4 (V : Valuation τ sig (Elt F)) : W5 V (Proc.devRef .tc main_arg4) = V (Proc.devRef .tc main_arg4) := (J4_keep (W4 V) main_arg4 (by decide)).trans (W4_arg4 V)
theorem W6_arg4 (V : Valuation τ sig (Elt F)) : W6 V (Proc.devRef .tc main_arg4) = V (Proc.devRef .tc main_arg4) := (J5_keep (W5 V) main_arg4 (by decide)).trans (W5_arg4 V)
theorem W7_arg4 (V : Valuation τ sig (Elt F)) : W7 V (Proc.devRef .tc main_arg4) = V (Proc.devRef .tc main_arg4) := (J6_keep (W6 V) main_arg4 (by decide)).trans (W6_arg4 V)
theorem W8_arg4 (V : Valuation τ sig (Elt F)) : W8 V (Proc.devRef .tc main_arg4) = V (Proc.devRef .tc main_arg4) := (J7_keep (W7 V) main_arg4 (by decide)).trans (W7_arg4 V)
theorem W9_arg4 (V : Valuation τ sig (Elt F)) : W9 V (Proc.devRef .tc main_arg4) = V (Proc.devRef .tc main_arg4) := (J8_keep (W8 V) main_arg4 (by decide)).trans (W8_arg4 V)
theorem W10_arg4 (V : Valuation τ sig (Elt F)) : W10 V (Proc.devRef .tc main_arg4) = V (Proc.devRef .tc main_arg4) := (J9_keep (W9 V) main_arg4 (by decide)).trans (W9_arg4 V)
theorem W11_arg4 (V : Valuation τ sig (Elt F)) : W11 V (Proc.devRef .tc main_arg4) = V (Proc.devRef .tc main_arg4) := (J10_keep (W10 V) main_arg4 (by decide)).trans (W10_arg4 V)
theorem W12_arg4 (V : Valuation τ sig (Elt F)) : W12 V (Proc.devRef .tc main_arg4) = V (Proc.devRef .tc main_arg4) := (J11_keep (W11 V) main_arg4 (by decide)).trans (W11_arg4 V)
theorem W13_arg4 (V : Valuation τ sig (Elt F)) : W13 V (Proc.devRef .tc main_arg4) = V (Proc.devRef .tc main_arg4) := (J12_keep (W12 V) main_arg4 (by decide)).trans (W12_arg4 V)
theorem W14_arg4 (V : Valuation τ sig (Elt F)) : W14 V (Proc.devRef .tc main_arg4) = V (Proc.devRef .tc main_arg4) := (J13_keep (W13 V) main_arg4 (by decide)).trans (W13_arg4 V)
theorem W15_arg4 (V : Valuation τ sig (Elt F)) : W15 V (Proc.devRef .tc main_arg4) = V (Proc.devRef .tc main_arg4) := (J14_keep (W14 V) main_arg4 (by decide)).trans (W14_arg4 V)
theorem W16_arg4 (V : Valuation τ sig (Elt F)) : W16 V (Proc.devRef .tc main_arg4) = V (Proc.devRef .tc main_arg4) := (J15_keep (W15 V) main_arg4 (by decide)).trans (W15_arg4 V)
theorem W17_arg4 (V : Valuation τ sig (Elt F)) : W17 V (Proc.devRef .tc main_arg4) = V (Proc.devRef .tc main_arg4) := (J16_keep (W16 V) main_arg4 (by decide)).trans (W16_arg4 V)
theorem W18_arg4 (V : Valuation τ sig (Elt F)) : W18 V (Proc.devRef .tc main_arg4) = V (Proc.devRef .tc main_arg4) := (J17_keep (W17 V) main_arg4 (by decide)).trans (W17_arg4 V)
theorem W19_arg4 (V : Valuation τ sig (Elt F)) : W19 V (Proc.devRef .tc main_arg4) = V (Proc.devRef .tc main_arg4) := (J18_keep (W18 V) main_arg4 (by decide)).trans (W18_arg4 V)
theorem W20_arg4 (V : Valuation τ sig (Elt F)) : W20 V (Proc.devRef .tc main_arg4) = V (Proc.devRef .tc main_arg4) := (J19_keep (W19 V) main_arg4 (by decide)).trans (W19_arg4 V)
theorem W21_arg4 (V : Valuation τ sig (Elt F)) : W21 V (Proc.devRef .tc main_arg4) = V (Proc.devRef .tc main_arg4) := (J20_keep (W20 V) main_arg4 (by decide)).trans (W20_arg4 V)
theorem W22_arg4 (V : Valuation τ sig (Elt F)) : W22 V (Proc.devRef .tc main_arg4) = V (Proc.devRef .tc main_arg4) := (J21_keep (W21 V) main_arg4 (by decide)).trans (W21_arg4 V)
theorem W23_arg4 (V : Valuation τ sig (Elt F)) : W23 V (Proc.devRef .tc main_arg4) = V (Proc.devRef .tc main_arg4) := (J22_keep (W22 V) main_arg4 (by decide)).trans (W22_arg4 V)
theorem W24_arg4 (V : Valuation τ sig (Elt F)) : W24 V (Proc.devRef .tc main_arg4) = V (Proc.devRef .tc main_arg4) := (J23_keep (W23 V) main_arg4 (by decide)).trans (W23_arg4 V)
theorem WT_arg4 (V : Valuation τ sig (Elt F)) : WT V (Proc.devRef .tc main_arg4) = V (Proc.devRef .tc main_arg4) := (T_keep (W24 V) main_arg4 (by decide)).trans (W24_arg4 V)
theorem W0_arg5 (V : Valuation τ sig (Elt F)) : W0 V (Proc.devRef .tc main_arg5) = V (Proc.devRef .tc main_arg5) := G_keep V main_arg5 (by decide)
theorem W1_arg5 (V : Valuation τ sig (Elt F)) : W1 V (Proc.devRef .tc main_arg5) = V (Proc.devRef .tc main_arg5) := (J0_keep (W0 V) main_arg5 (by decide)).trans (W0_arg5 V)
theorem W2_arg5 (V : Valuation τ sig (Elt F)) : W2 V (Proc.devRef .tc main_arg5) = V (Proc.devRef .tc main_arg5) := (J1_keep (W1 V) main_arg5 (by decide)).trans (W1_arg5 V)
theorem W3_arg5 (V : Valuation τ sig (Elt F)) : W3 V (Proc.devRef .tc main_arg5) = V (Proc.devRef .tc main_arg5) := (J2_keep (W2 V) main_arg5 (by decide)).trans (W2_arg5 V)
theorem W4_arg5 (V : Valuation τ sig (Elt F)) : W4 V (Proc.devRef .tc main_arg5) = V (Proc.devRef .tc main_arg5) := (J3_keep (W3 V) main_arg5 (by decide)).trans (W3_arg5 V)
theorem W5_arg5 (V : Valuation τ sig (Elt F)) : W5 V (Proc.devRef .tc main_arg5) = V (Proc.devRef .tc main_arg5) := (J4_keep (W4 V) main_arg5 (by decide)).trans (W4_arg5 V)
theorem W6_arg5 (V : Valuation τ sig (Elt F)) : W6 V (Proc.devRef .tc main_arg5) = V (Proc.devRef .tc main_arg5) := (J5_keep (W5 V) main_arg5 (by decide)).trans (W5_arg5 V)
theorem W7_arg5 (V : Valuation τ sig (Elt F)) : W7 V (Proc.devRef .tc main_arg5) = V (Proc.devRef .tc main_arg5) := (J6_keep (W6 V) main_arg5 (by decide)).trans (W6_arg5 V)
theorem W8_arg5 (V : Valuation τ sig (Elt F)) : W8 V (Proc.devRef .tc main_arg5) = V (Proc.devRef .tc main_arg5) := (J7_keep (W7 V) main_arg5 (by decide)).trans (W7_arg5 V)
theorem W9_arg5 (V : Valuation τ sig (Elt F)) : W9 V (Proc.devRef .tc main_arg5) = V (Proc.devRef .tc main_arg5) := (J8_keep (W8 V) main_arg5 (by decide)).trans (W8_arg5 V)
theorem W10_arg5 (V : Valuation τ sig (Elt F)) : W10 V (Proc.devRef .tc main_arg5) = V (Proc.devRef .tc main_arg5) := (J9_keep (W9 V) main_arg5 (by decide)).trans (W9_arg5 V)
theorem W11_arg5 (V : Valuation τ sig (Elt F)) : W11 V (Proc.devRef .tc main_arg5) = V (Proc.devRef .tc main_arg5) := (J10_keep (W10 V) main_arg5 (by decide)).trans (W10_arg5 V)
theorem W12_arg5 (V : Valuation τ sig (Elt F)) : W12 V (Proc.devRef .tc main_arg5) = V (Proc.devRef .tc main_arg5) := (J11_keep (W11 V) main_arg5 (by decide)).trans (W11_arg5 V)
theorem W13_arg5 (V : Valuation τ sig (Elt F)) : W13 V (Proc.devRef .tc main_arg5) = V (Proc.devRef .tc main_arg5) := (J12_keep (W12 V) main_arg5 (by decide)).trans (W12_arg5 V)
theorem W14_arg5 (V : Valuation τ sig (Elt F)) : W14 V (Proc.devRef .tc main_arg5) = V (Proc.devRef .tc main_arg5) := (J13_keep (W13 V) main_arg5 (by decide)).trans (W13_arg5 V)
theorem W15_arg5 (V : Valuation τ sig (Elt F)) : W15 V (Proc.devRef .tc main_arg5) = V (Proc.devRef .tc main_arg5) := (J14_keep (W14 V) main_arg5 (by decide)).trans (W14_arg5 V)
theorem W16_arg5 (V : Valuation τ sig (Elt F)) : W16 V (Proc.devRef .tc main_arg5) = V (Proc.devRef .tc main_arg5) := (J15_keep (W15 V) main_arg5 (by decide)).trans (W15_arg5 V)
theorem W17_arg5 (V : Valuation τ sig (Elt F)) : W17 V (Proc.devRef .tc main_arg5) = V (Proc.devRef .tc main_arg5) := (J16_keep (W16 V) main_arg5 (by decide)).trans (W16_arg5 V)
theorem W18_arg5 (V : Valuation τ sig (Elt F)) : W18 V (Proc.devRef .tc main_arg5) = V (Proc.devRef .tc main_arg5) := (J17_keep (W17 V) main_arg5 (by decide)).trans (W17_arg5 V)
theorem W19_arg5 (V : Valuation τ sig (Elt F)) : W19 V (Proc.devRef .tc main_arg5) = V (Proc.devRef .tc main_arg5) := (J18_keep (W18 V) main_arg5 (by decide)).trans (W18_arg5 V)
theorem W20_arg5 (V : Valuation τ sig (Elt F)) : W20 V (Proc.devRef .tc main_arg5) = V (Proc.devRef .tc main_arg5) := (J19_keep (W19 V) main_arg5 (by decide)).trans (W19_arg5 V)
theorem W21_arg5 (V : Valuation τ sig (Elt F)) : W21 V (Proc.devRef .tc main_arg5) = V (Proc.devRef .tc main_arg5) := (J20_keep (W20 V) main_arg5 (by decide)).trans (W20_arg5 V)
theorem W22_arg5 (V : Valuation τ sig (Elt F)) : W22 V (Proc.devRef .tc main_arg5) = V (Proc.devRef .tc main_arg5) := (J21_keep (W21 V) main_arg5 (by decide)).trans (W21_arg5 V)
theorem W23_arg5 (V : Valuation τ sig (Elt F)) : W23 V (Proc.devRef .tc main_arg5) = V (Proc.devRef .tc main_arg5) := (J22_keep (W22 V) main_arg5 (by decide)).trans (W22_arg5 V)
theorem W24_arg5 (V : Valuation τ sig (Elt F)) : W24 V (Proc.devRef .tc main_arg5) = V (Proc.devRef .tc main_arg5) := (J23_keep (W23 V) main_arg5 (by decide)).trans (W23_arg5 V)
theorem WT_arg5 (V : Valuation τ sig (Elt F)) : WT V (Proc.devRef .tc main_arg5) = V (Proc.devRef .tc main_arg5) := (T_keep (W24 V) main_arg5 (by decide)).trans (W24_arg5 V)
theorem W0_arg6 (V : Valuation τ sig (Elt F)) : W0 V (Proc.devRef .tc main_arg6) = V (Proc.devRef .tc main_arg6) := G_keep V main_arg6 (by decide)
theorem W1_arg6 (V : Valuation τ sig (Elt F)) : W1 V (Proc.devRef .tc main_arg6) = V (Proc.devRef .tc main_arg6) := (J0_keep (W0 V) main_arg6 (by decide)).trans (W0_arg6 V)
theorem W2_arg6 (V : Valuation τ sig (Elt F)) : W2 V (Proc.devRef .tc main_arg6) = V (Proc.devRef .tc main_arg6) := (J1_keep (W1 V) main_arg6 (by decide)).trans (W1_arg6 V)
theorem W3_arg6 (V : Valuation τ sig (Elt F)) : W3 V (Proc.devRef .tc main_arg6) = V (Proc.devRef .tc main_arg6) := (J2_keep (W2 V) main_arg6 (by decide)).trans (W2_arg6 V)
theorem W4_arg6 (V : Valuation τ sig (Elt F)) : W4 V (Proc.devRef .tc main_arg6) = V (Proc.devRef .tc main_arg6) := (J3_keep (W3 V) main_arg6 (by decide)).trans (W3_arg6 V)
theorem W5_arg6 (V : Valuation τ sig (Elt F)) : W5 V (Proc.devRef .tc main_arg6) = V (Proc.devRef .tc main_arg6) := (J4_keep (W4 V) main_arg6 (by decide)).trans (W4_arg6 V)
theorem W6_arg6 (V : Valuation τ sig (Elt F)) : W6 V (Proc.devRef .tc main_arg6) = V (Proc.devRef .tc main_arg6) := (J5_keep (W5 V) main_arg6 (by decide)).trans (W5_arg6 V)
theorem W7_arg6 (V : Valuation τ sig (Elt F)) : W7 V (Proc.devRef .tc main_arg6) = V (Proc.devRef .tc main_arg6) := (J6_keep (W6 V) main_arg6 (by decide)).trans (W6_arg6 V)
theorem W8_arg6 (V : Valuation τ sig (Elt F)) : W8 V (Proc.devRef .tc main_arg6) = V (Proc.devRef .tc main_arg6) := (J7_keep (W7 V) main_arg6 (by decide)).trans (W7_arg6 V)
theorem W9_arg6 (V : Valuation τ sig (Elt F)) : W9 V (Proc.devRef .tc main_arg6) = V (Proc.devRef .tc main_arg6) := (J8_keep (W8 V) main_arg6 (by decide)).trans (W8_arg6 V)
theorem W10_arg6 (V : Valuation τ sig (Elt F)) : W10 V (Proc.devRef .tc main_arg6) = V (Proc.devRef .tc main_arg6) := (J9_keep (W9 V) main_arg6 (by decide)).trans (W9_arg6 V)
theorem W11_arg6 (V : Valuation τ sig (Elt F)) : W11 V (Proc.devRef .tc main_arg6) = V (Proc.devRef .tc main_arg6) := (J10_keep (W10 V) main_arg6 (by decide)).trans (W10_arg6 V)
theorem W12_arg6 (V : Valuation τ sig (Elt F)) : W12 V (Proc.devRef .tc main_arg6) = V (Proc.devRef .tc main_arg6) := (J11_keep (W11 V) main_arg6 (by decide)).trans (W11_arg6 V)
theorem W13_arg6 (V : Valuation τ sig (Elt F)) : W13 V (Proc.devRef .tc main_arg6) = V (Proc.devRef .tc main_arg6) := (J12_keep (W12 V) main_arg6 (by decide)).trans (W12_arg6 V)
theorem W14_arg6 (V : Valuation τ sig (Elt F)) : W14 V (Proc.devRef .tc main_arg6) = V (Proc.devRef .tc main_arg6) := (J13_keep (W13 V) main_arg6 (by decide)).trans (W13_arg6 V)
theorem W15_arg6 (V : Valuation τ sig (Elt F)) : W15 V (Proc.devRef .tc main_arg6) = V (Proc.devRef .tc main_arg6) := (J14_keep (W14 V) main_arg6 (by decide)).trans (W14_arg6 V)
theorem W16_arg6 (V : Valuation τ sig (Elt F)) : W16 V (Proc.devRef .tc main_arg6) = V (Proc.devRef .tc main_arg6) := (J15_keep (W15 V) main_arg6 (by decide)).trans (W15_arg6 V)
theorem W17_arg6 (V : Valuation τ sig (Elt F)) : W17 V (Proc.devRef .tc main_arg6) = V (Proc.devRef .tc main_arg6) := (J16_keep (W16 V) main_arg6 (by decide)).trans (W16_arg6 V)
theorem W18_arg6 (V : Valuation τ sig (Elt F)) : W18 V (Proc.devRef .tc main_arg6) = V (Proc.devRef .tc main_arg6) := (J17_keep (W17 V) main_arg6 (by decide)).trans (W17_arg6 V)
theorem W19_arg6 (V : Valuation τ sig (Elt F)) : W19 V (Proc.devRef .tc main_arg6) = V (Proc.devRef .tc main_arg6) := (J18_keep (W18 V) main_arg6 (by decide)).trans (W18_arg6 V)
theorem W20_arg6 (V : Valuation τ sig (Elt F)) : W20 V (Proc.devRef .tc main_arg6) = V (Proc.devRef .tc main_arg6) := (J19_keep (W19 V) main_arg6 (by decide)).trans (W19_arg6 V)
theorem W21_arg6 (V : Valuation τ sig (Elt F)) : W21 V (Proc.devRef .tc main_arg6) = V (Proc.devRef .tc main_arg6) := (J20_keep (W20 V) main_arg6 (by decide)).trans (W20_arg6 V)
theorem W22_arg6 (V : Valuation τ sig (Elt F)) : W22 V (Proc.devRef .tc main_arg6) = V (Proc.devRef .tc main_arg6) := (J21_keep (W21 V) main_arg6 (by decide)).trans (W21_arg6 V)
theorem W23_arg6 (V : Valuation τ sig (Elt F)) : W23 V (Proc.devRef .tc main_arg6) = V (Proc.devRef .tc main_arg6) := (J22_keep (W22 V) main_arg6 (by decide)).trans (W22_arg6 V)
theorem W24_arg6 (V : Valuation τ sig (Elt F)) : W24 V (Proc.devRef .tc main_arg6) = V (Proc.devRef .tc main_arg6) := (J23_keep (W23 V) main_arg6 (by decide)).trans (W23_arg6 V)
theorem WT_arg6 (V : Valuation τ sig (Elt F)) : WT V (Proc.devRef .tc main_arg6) = V (Proc.devRef .tc main_arg6) := (T_keep (W24 V) main_arg6 (by decide)).trans (W24_arg6 V)
theorem W0_arg7 (V : Valuation τ sig (Elt F)) : W0 V (Proc.devRef .tc main_arg7) = V (Proc.devRef .tc main_arg7) := G_keep V main_arg7 (by decide)
theorem W1_arg7 (V : Valuation τ sig (Elt F)) : W1 V (Proc.devRef .tc main_arg7) = V (Proc.devRef .tc main_arg7) := (J0_keep (W0 V) main_arg7 (by decide)).trans (W0_arg7 V)
theorem W2_arg7 (V : Valuation τ sig (Elt F)) : W2 V (Proc.devRef .tc main_arg7) = V (Proc.devRef .tc main_arg7) := (J1_keep (W1 V) main_arg7 (by decide)).trans (W1_arg7 V)
theorem W3_arg7 (V : Valuation τ sig (Elt F)) : W3 V (Proc.devRef .tc main_arg7) = V (Proc.devRef .tc main_arg7) := (J2_keep (W2 V) main_arg7 (by decide)).trans (W2_arg7 V)
theorem W4_arg7 (V : Valuation τ sig (Elt F)) : W4 V (Proc.devRef .tc main_arg7) = V (Proc.devRef .tc main_arg7) := (J3_keep (W3 V) main_arg7 (by decide)).trans (W3_arg7 V)
theorem W5_arg7 (V : Valuation τ sig (Elt F)) : W5 V (Proc.devRef .tc main_arg7) = V (Proc.devRef .tc main_arg7) := (J4_keep (W4 V) main_arg7 (by decide)).trans (W4_arg7 V)
theorem W6_arg7 (V : Valuation τ sig (Elt F)) : W6 V (Proc.devRef .tc main_arg7) = V (Proc.devRef .tc main_arg7) := (J5_keep (W5 V) main_arg7 (by decide)).trans (W5_arg7 V)
theorem W7_arg7 (V : Valuation τ sig (Elt F)) : W7 V (Proc.devRef .tc main_arg7) = V (Proc.devRef .tc main_arg7) := (J6_keep (W6 V) main_arg7 (by decide)).trans (W6_arg7 V)
theorem W8_arg7 (V : Valuation τ sig (Elt F)) : W8 V (Proc.devRef .tc main_arg7) = V (Proc.devRef .tc main_arg7) := (J7_keep (W7 V) main_arg7 (by decide)).trans (W7_arg7 V)
theorem W9_arg7 (V : Valuation τ sig (Elt F)) : W9 V (Proc.devRef .tc main_arg7) = V (Proc.devRef .tc main_arg7) := (J8_keep (W8 V) main_arg7 (by decide)).trans (W8_arg7 V)
theorem W10_arg7 (V : Valuation τ sig (Elt F)) : W10 V (Proc.devRef .tc main_arg7) = V (Proc.devRef .tc main_arg7) := (J9_keep (W9 V) main_arg7 (by decide)).trans (W9_arg7 V)
theorem W11_arg7 (V : Valuation τ sig (Elt F)) : W11 V (Proc.devRef .tc main_arg7) = V (Proc.devRef .tc main_arg7) := (J10_keep (W10 V) main_arg7 (by decide)).trans (W10_arg7 V)
theorem W12_arg7 (V : Valuation τ sig (Elt F)) : W12 V (Proc.devRef .tc main_arg7) = V (Proc.devRef .tc main_arg7) := (J11_keep (W11 V) main_arg7 (by decide)).trans (W11_arg7 V)
theorem W13_arg7 (V : Valuation τ sig (Elt F)) : W13 V (Proc.devRef .tc main_arg7) = V (Proc.devRef .tc main_arg7) := (J12_keep (W12 V) main_arg7 (by decide)).trans (W12_arg7 V)
theorem W14_arg7 (V : Valuation τ sig (Elt F)) : W14 V (Proc.devRef .tc main_arg7) = V (Proc.devRef .tc main_arg7) := (J13_keep (W13 V) main_arg7 (by decide)).trans (W13_arg7 V)
theorem W15_arg7 (V : Valuation τ sig (Elt F)) : W15 V (Proc.devRef .tc main_arg7) = V (Proc.devRef .tc main_arg7) := (J14_keep (W14 V) main_arg7 (by decide)).trans (W14_arg7 V)
theorem W16_arg7 (V : Valuation τ sig (Elt F)) : W16 V (Proc.devRef .tc main_arg7) = V (Proc.devRef .tc main_arg7) := (J15_keep (W15 V) main_arg7 (by decide)).trans (W15_arg7 V)
theorem W17_arg7 (V : Valuation τ sig (Elt F)) : W17 V (Proc.devRef .tc main_arg7) = V (Proc.devRef .tc main_arg7) := (J16_keep (W16 V) main_arg7 (by decide)).trans (W16_arg7 V)
theorem W18_arg7 (V : Valuation τ sig (Elt F)) : W18 V (Proc.devRef .tc main_arg7) = V (Proc.devRef .tc main_arg7) := (J17_keep (W17 V) main_arg7 (by decide)).trans (W17_arg7 V)
theorem W19_arg7 (V : Valuation τ sig (Elt F)) : W19 V (Proc.devRef .tc main_arg7) = V (Proc.devRef .tc main_arg7) := (J18_keep (W18 V) main_arg7 (by decide)).trans (W18_arg7 V)
theorem W20_arg7 (V : Valuation τ sig (Elt F)) : W20 V (Proc.devRef .tc main_arg7) = V (Proc.devRef .tc main_arg7) := (J19_keep (W19 V) main_arg7 (by decide)).trans (W19_arg7 V)
theorem W21_arg7 (V : Valuation τ sig (Elt F)) : W21 V (Proc.devRef .tc main_arg7) = V (Proc.devRef .tc main_arg7) := (J20_keep (W20 V) main_arg7 (by decide)).trans (W20_arg7 V)
theorem W22_arg7 (V : Valuation τ sig (Elt F)) : W22 V (Proc.devRef .tc main_arg7) = V (Proc.devRef .tc main_arg7) := (J21_keep (W21 V) main_arg7 (by decide)).trans (W21_arg7 V)
theorem W23_arg7 (V : Valuation τ sig (Elt F)) : W23 V (Proc.devRef .tc main_arg7) = V (Proc.devRef .tc main_arg7) := (J22_keep (W22 V) main_arg7 (by decide)).trans (W22_arg7 V)
theorem W24_arg7 (V : Valuation τ sig (Elt F)) : W24 V (Proc.devRef .tc main_arg7) = V (Proc.devRef .tc main_arg7) := (J23_keep (W23 V) main_arg7 (by decide)).trans (W23_arg7 V)
theorem WT_arg7 (V : Valuation τ sig (Elt F)) : WT V (Proc.devRef .tc main_arg7) = V (Proc.devRef .tc main_arg7) := (T_keep (W24 V) main_arg7 (by decide)).trans (W24_arg7 V)

/-! ### Each output buffer holds its staged value from its stretch on -/

theorem W0_gfeat (V : Valuation τ sig (Elt F)) : W0 V (Proc.devRef .tc main_v7) = RRead.gfeat (V (Proc.devRef .tc main_arg0)) (V (Proc.devRef .tc main_arg1)) (V (Proc.devRef .tc main_arg2)) (V (Proc.devRef .tc main_arg3)) := G_out V
theorem W1_out0 (V : Valuation τ sig (Elt F)) : W1 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J0_out (W0 V)).trans ?_
  rw [W0_arg0 V, W0_arg1 V, W0_arg4 V, W0_arg5 V, W0_arg6 V, W0_arg7 V, W0_gfeat V]
  rfl
theorem W2_out1 (V : Valuation τ sig (Elt F)) : W2 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J1_out (W1 V)).trans ?_
  rw [W1_arg0 V, W1_arg1 V, W1_arg4 V, W1_arg5 V, W1_arg6 V, W1_arg7 V, W1_out0 V]
  rfl
theorem W2_out0 (V : Valuation τ sig (Elt F)) : W2 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J1_keep (W1 V) main_v32 (by decide)).trans (W1_out0 V)
theorem W3_out2 (V : Valuation τ sig (Elt F)) : W3 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J2_out (W2 V)).trans ?_
  rw [W2_arg0 V, W2_arg1 V, W2_arg4 V, W2_arg5 V, W2_arg6 V, W2_arg7 V, W2_out0 V]
  rfl
theorem W3_out0 (V : Valuation τ sig (Elt F)) : W3 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J2_keep (W2 V) main_v32 (by decide)).trans (W2_out0 V)
theorem W3_out1 (V : Valuation τ sig (Elt F)) : W3 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J2_keep (W2 V) main_v60 (by decide)).trans (W2_out1 V)
theorem W4_out3 (V : Valuation τ sig (Elt F)) : W4 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J3_out (W3 V)).trans ?_
  rw [W3_arg0 V, W3_arg1 V, W3_arg4 V, W3_arg5 V, W3_arg6 V, W3_arg7 V, W3_out0 V]
  rfl
theorem W4_out0 (V : Valuation τ sig (Elt F)) : W4 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J3_keep (W3 V) main_v32 (by decide)).trans (W3_out0 V)
theorem W4_out1 (V : Valuation τ sig (Elt F)) : W4 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J3_keep (W3 V) main_v60 (by decide)).trans (W3_out1 V)
theorem W4_out2 (V : Valuation τ sig (Elt F)) : W4 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J3_keep (W3 V) main_v88 (by decide)).trans (W3_out2 V)
theorem W5_out4 (V : Valuation τ sig (Elt F)) : W5 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J4_out (W4 V)).trans ?_
  rw [W4_arg0 V, W4_arg1 V, W4_arg4 V, W4_arg5 V, W4_arg6 V, W4_arg7 V, W4_out1 V]
  rfl
theorem W5_out0 (V : Valuation τ sig (Elt F)) : W5 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J4_keep (W4 V) main_v32 (by decide)).trans (W4_out0 V)
theorem W5_out1 (V : Valuation τ sig (Elt F)) : W5 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J4_keep (W4 V) main_v60 (by decide)).trans (W4_out1 V)
theorem W5_out2 (V : Valuation τ sig (Elt F)) : W5 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J4_keep (W4 V) main_v88 (by decide)).trans (W4_out2 V)
theorem W5_out3 (V : Valuation τ sig (Elt F)) : W5 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J4_keep (W4 V) main_v116 (by decide)).trans (W4_out3 V)
theorem W6_out5 (V : Valuation τ sig (Elt F)) : W6 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J5_out (W5 V)).trans ?_
  rw [W5_arg0 V, W5_arg1 V, W5_arg4 V, W5_arg5 V, W5_arg6 V, W5_arg7 V, W5_out2 V]
  rfl
theorem W6_out0 (V : Valuation τ sig (Elt F)) : W6 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J5_keep (W5 V) main_v32 (by decide)).trans (W5_out0 V)
theorem W6_out1 (V : Valuation τ sig (Elt F)) : W6 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J5_keep (W5 V) main_v60 (by decide)).trans (W5_out1 V)
theorem W6_out2 (V : Valuation τ sig (Elt F)) : W6 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J5_keep (W5 V) main_v88 (by decide)).trans (W5_out2 V)
theorem W6_out3 (V : Valuation τ sig (Elt F)) : W6 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J5_keep (W5 V) main_v116 (by decide)).trans (W5_out3 V)
theorem W6_out4 (V : Valuation τ sig (Elt F)) : W6 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J5_keep (W5 V) main_v144 (by decide)).trans (W5_out4 V)
theorem W7_out6 (V : Valuation τ sig (Elt F)) : W7 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J6_out (W6 V)).trans ?_
  rw [W6_arg0 V, W6_arg1 V, W6_arg4 V, W6_arg5 V, W6_arg6 V, W6_arg7 V, W6_out3 V]
  rfl
theorem W7_out0 (V : Valuation τ sig (Elt F)) : W7 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J6_keep (W6 V) main_v32 (by decide)).trans (W6_out0 V)
theorem W7_out1 (V : Valuation τ sig (Elt F)) : W7 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J6_keep (W6 V) main_v60 (by decide)).trans (W6_out1 V)
theorem W7_out2 (V : Valuation τ sig (Elt F)) : W7 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J6_keep (W6 V) main_v88 (by decide)).trans (W6_out2 V)
theorem W7_out3 (V : Valuation τ sig (Elt F)) : W7 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J6_keep (W6 V) main_v116 (by decide)).trans (W6_out3 V)
theorem W7_out4 (V : Valuation τ sig (Elt F)) : W7 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J6_keep (W6 V) main_v144 (by decide)).trans (W6_out4 V)
theorem W7_out5 (V : Valuation τ sig (Elt F)) : W7 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J6_keep (W6 V) main_v172 (by decide)).trans (W6_out5 V)
theorem W8_out7 (V : Valuation τ sig (Elt F)) : W8 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J7_out (W7 V)).trans ?_
  rw [W7_arg0 V, W7_arg1 V, W7_arg4 V, W7_arg5 V, W7_arg6 V, W7_arg7 V, W7_out4 V]
  rfl
theorem W8_out0 (V : Valuation τ sig (Elt F)) : W8 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v32 (by decide)).trans (W7_out0 V)
theorem W8_out1 (V : Valuation τ sig (Elt F)) : W8 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v60 (by decide)).trans (W7_out1 V)
theorem W8_out2 (V : Valuation τ sig (Elt F)) : W8 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v88 (by decide)).trans (W7_out2 V)
theorem W8_out3 (V : Valuation τ sig (Elt F)) : W8 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v116 (by decide)).trans (W7_out3 V)
theorem W8_out4 (V : Valuation τ sig (Elt F)) : W8 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v144 (by decide)).trans (W7_out4 V)
theorem W8_out5 (V : Valuation τ sig (Elt F)) : W8 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v172 (by decide)).trans (W7_out5 V)
theorem W8_out6 (V : Valuation τ sig (Elt F)) : W8 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J7_keep (W7 V) main_v200 (by decide)).trans (W7_out6 V)
theorem W9_out8 (V : Valuation τ sig (Elt F)) : W9 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J8_out (W8 V)).trans ?_
  rw [W8_arg0 V, W8_arg1 V, W8_arg4 V, W8_arg5 V, W8_arg6 V, W8_arg7 V, W8_out5 V]
  rfl
theorem W9_out0 (V : Valuation τ sig (Elt F)) : W9 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v32 (by decide)).trans (W8_out0 V)
theorem W9_out1 (V : Valuation τ sig (Elt F)) : W9 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v60 (by decide)).trans (W8_out1 V)
theorem W9_out2 (V : Valuation τ sig (Elt F)) : W9 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v88 (by decide)).trans (W8_out2 V)
theorem W9_out3 (V : Valuation τ sig (Elt F)) : W9 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v116 (by decide)).trans (W8_out3 V)
theorem W9_out4 (V : Valuation τ sig (Elt F)) : W9 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v144 (by decide)).trans (W8_out4 V)
theorem W9_out5 (V : Valuation τ sig (Elt F)) : W9 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v172 (by decide)).trans (W8_out5 V)
theorem W9_out6 (V : Valuation τ sig (Elt F)) : W9 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v200 (by decide)).trans (W8_out6 V)
theorem W9_out7 (V : Valuation τ sig (Elt F)) : W9 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J8_keep (W8 V) main_v228 (by decide)).trans (W8_out7 V)
theorem W10_out9 (V : Valuation τ sig (Elt F)) : W10 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J9_out (W9 V)).trans ?_
  rw [W9_arg0 V, W9_arg1 V, W9_arg4 V, W9_arg5 V, W9_arg6 V, W9_arg7 V, W9_out6 V]
  rfl
theorem W10_out0 (V : Valuation τ sig (Elt F)) : W10 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v32 (by decide)).trans (W9_out0 V)
theorem W10_out1 (V : Valuation τ sig (Elt F)) : W10 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v60 (by decide)).trans (W9_out1 V)
theorem W10_out2 (V : Valuation τ sig (Elt F)) : W10 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v88 (by decide)).trans (W9_out2 V)
theorem W10_out3 (V : Valuation τ sig (Elt F)) : W10 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v116 (by decide)).trans (W9_out3 V)
theorem W10_out4 (V : Valuation τ sig (Elt F)) : W10 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v144 (by decide)).trans (W9_out4 V)
theorem W10_out5 (V : Valuation τ sig (Elt F)) : W10 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v172 (by decide)).trans (W9_out5 V)
theorem W10_out6 (V : Valuation τ sig (Elt F)) : W10 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v200 (by decide)).trans (W9_out6 V)
theorem W10_out7 (V : Valuation τ sig (Elt F)) : W10 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v228 (by decide)).trans (W9_out7 V)
theorem W10_out8 (V : Valuation τ sig (Elt F)) : W10 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J9_keep (W9 V) main_v256 (by decide)).trans (W9_out8 V)
theorem W11_out10 (V : Valuation τ sig (Elt F)) : W11 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J10_out (W10 V)).trans ?_
  rw [W10_arg0 V, W10_arg1 V, W10_arg4 V, W10_arg5 V, W10_arg6 V, W10_arg7 V, W10_out7 V]
  rfl
theorem W11_out0 (V : Valuation τ sig (Elt F)) : W11 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v32 (by decide)).trans (W10_out0 V)
theorem W11_out1 (V : Valuation τ sig (Elt F)) : W11 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v60 (by decide)).trans (W10_out1 V)
theorem W11_out2 (V : Valuation τ sig (Elt F)) : W11 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v88 (by decide)).trans (W10_out2 V)
theorem W11_out3 (V : Valuation τ sig (Elt F)) : W11 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v116 (by decide)).trans (W10_out3 V)
theorem W11_out4 (V : Valuation τ sig (Elt F)) : W11 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v144 (by decide)).trans (W10_out4 V)
theorem W11_out5 (V : Valuation τ sig (Elt F)) : W11 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v172 (by decide)).trans (W10_out5 V)
theorem W11_out6 (V : Valuation τ sig (Elt F)) : W11 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v200 (by decide)).trans (W10_out6 V)
theorem W11_out7 (V : Valuation τ sig (Elt F)) : W11 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v228 (by decide)).trans (W10_out7 V)
theorem W11_out8 (V : Valuation τ sig (Elt F)) : W11 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v256 (by decide)).trans (W10_out8 V)
theorem W11_out9 (V : Valuation τ sig (Elt F)) : W11 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J10_keep (W10 V) main_v284 (by decide)).trans (W10_out9 V)
theorem W12_out11 (V : Valuation τ sig (Elt F)) : W12 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J11_out (W11 V)).trans ?_
  rw [W11_arg0 V, W11_arg1 V, W11_arg4 V, W11_arg5 V, W11_arg6 V, W11_arg7 V, W11_out8 V]
  rfl
theorem W12_out0 (V : Valuation τ sig (Elt F)) : W12 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v32 (by decide)).trans (W11_out0 V)
theorem W12_out1 (V : Valuation τ sig (Elt F)) : W12 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v60 (by decide)).trans (W11_out1 V)
theorem W12_out2 (V : Valuation τ sig (Elt F)) : W12 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v88 (by decide)).trans (W11_out2 V)
theorem W12_out3 (V : Valuation τ sig (Elt F)) : W12 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v116 (by decide)).trans (W11_out3 V)
theorem W12_out4 (V : Valuation τ sig (Elt F)) : W12 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v144 (by decide)).trans (W11_out4 V)
theorem W12_out5 (V : Valuation τ sig (Elt F)) : W12 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v172 (by decide)).trans (W11_out5 V)
theorem W12_out6 (V : Valuation τ sig (Elt F)) : W12 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v200 (by decide)).trans (W11_out6 V)
theorem W12_out7 (V : Valuation τ sig (Elt F)) : W12 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v228 (by decide)).trans (W11_out7 V)
theorem W12_out8 (V : Valuation τ sig (Elt F)) : W12 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v256 (by decide)).trans (W11_out8 V)
theorem W12_out9 (V : Valuation τ sig (Elt F)) : W12 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v284 (by decide)).trans (W11_out9 V)
theorem W12_out10 (V : Valuation τ sig (Elt F)) : W12 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J11_keep (W11 V) main_v312 (by decide)).trans (W11_out10 V)
theorem W13_out12 (V : Valuation τ sig (Elt F)) : W13 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J12_out (W12 V)).trans ?_
  rw [W12_arg0 V, W12_arg1 V, W12_arg4 V, W12_arg5 V, W12_arg6 V, W12_arg7 V, W12_out9 V]
  rfl
theorem W13_out0 (V : Valuation τ sig (Elt F)) : W13 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v32 (by decide)).trans (W12_out0 V)
theorem W13_out1 (V : Valuation τ sig (Elt F)) : W13 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v60 (by decide)).trans (W12_out1 V)
theorem W13_out2 (V : Valuation τ sig (Elt F)) : W13 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v88 (by decide)).trans (W12_out2 V)
theorem W13_out3 (V : Valuation τ sig (Elt F)) : W13 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v116 (by decide)).trans (W12_out3 V)
theorem W13_out4 (V : Valuation τ sig (Elt F)) : W13 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v144 (by decide)).trans (W12_out4 V)
theorem W13_out5 (V : Valuation τ sig (Elt F)) : W13 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v172 (by decide)).trans (W12_out5 V)
theorem W13_out6 (V : Valuation τ sig (Elt F)) : W13 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v200 (by decide)).trans (W12_out6 V)
theorem W13_out7 (V : Valuation τ sig (Elt F)) : W13 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v228 (by decide)).trans (W12_out7 V)
theorem W13_out8 (V : Valuation τ sig (Elt F)) : W13 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v256 (by decide)).trans (W12_out8 V)
theorem W13_out9 (V : Valuation τ sig (Elt F)) : W13 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v284 (by decide)).trans (W12_out9 V)
theorem W13_out10 (V : Valuation τ sig (Elt F)) : W13 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v312 (by decide)).trans (W12_out10 V)
theorem W13_out11 (V : Valuation τ sig (Elt F)) : W13 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J12_keep (W12 V) main_v340 (by decide)).trans (W12_out11 V)
theorem W14_out13 (V : Valuation τ sig (Elt F)) : W14 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J13_out (W13 V)).trans ?_
  rw [W13_arg0 V, W13_arg1 V, W13_arg4 V, W13_arg5 V, W13_arg6 V, W13_arg7 V, W13_out9 V]
  rfl
theorem W14_out0 (V : Valuation τ sig (Elt F)) : W14 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v32 (by decide)).trans (W13_out0 V)
theorem W14_out1 (V : Valuation τ sig (Elt F)) : W14 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v60 (by decide)).trans (W13_out1 V)
theorem W14_out2 (V : Valuation τ sig (Elt F)) : W14 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v88 (by decide)).trans (W13_out2 V)
theorem W14_out3 (V : Valuation τ sig (Elt F)) : W14 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v116 (by decide)).trans (W13_out3 V)
theorem W14_out4 (V : Valuation τ sig (Elt F)) : W14 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v144 (by decide)).trans (W13_out4 V)
theorem W14_out5 (V : Valuation τ sig (Elt F)) : W14 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v172 (by decide)).trans (W13_out5 V)
theorem W14_out6 (V : Valuation τ sig (Elt F)) : W14 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v200 (by decide)).trans (W13_out6 V)
theorem W14_out7 (V : Valuation τ sig (Elt F)) : W14 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v228 (by decide)).trans (W13_out7 V)
theorem W14_out8 (V : Valuation τ sig (Elt F)) : W14 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v256 (by decide)).trans (W13_out8 V)
theorem W14_out9 (V : Valuation τ sig (Elt F)) : W14 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v284 (by decide)).trans (W13_out9 V)
theorem W14_out10 (V : Valuation τ sig (Elt F)) : W14 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v312 (by decide)).trans (W13_out10 V)
theorem W14_out11 (V : Valuation τ sig (Elt F)) : W14 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v340 (by decide)).trans (W13_out11 V)
theorem W14_out12 (V : Valuation τ sig (Elt F)) : W14 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J13_keep (W13 V) main_v368 (by decide)).trans (W13_out12 V)
theorem W15_out14 (V : Valuation τ sig (Elt F)) : W15 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J14_out (W14 V)).trans ?_
  rw [W14_arg0 V, W14_arg1 V, W14_arg4 V, W14_arg5 V, W14_arg6 V, W14_arg7 V, W14_out9 V]
  rfl
theorem W15_out0 (V : Valuation τ sig (Elt F)) : W15 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v32 (by decide)).trans (W14_out0 V)
theorem W15_out1 (V : Valuation τ sig (Elt F)) : W15 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v60 (by decide)).trans (W14_out1 V)
theorem W15_out2 (V : Valuation τ sig (Elt F)) : W15 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v88 (by decide)).trans (W14_out2 V)
theorem W15_out3 (V : Valuation τ sig (Elt F)) : W15 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v116 (by decide)).trans (W14_out3 V)
theorem W15_out4 (V : Valuation τ sig (Elt F)) : W15 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v144 (by decide)).trans (W14_out4 V)
theorem W15_out5 (V : Valuation τ sig (Elt F)) : W15 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v172 (by decide)).trans (W14_out5 V)
theorem W15_out6 (V : Valuation τ sig (Elt F)) : W15 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v200 (by decide)).trans (W14_out6 V)
theorem W15_out7 (V : Valuation τ sig (Elt F)) : W15 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v228 (by decide)).trans (W14_out7 V)
theorem W15_out8 (V : Valuation τ sig (Elt F)) : W15 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v256 (by decide)).trans (W14_out8 V)
theorem W15_out9 (V : Valuation τ sig (Elt F)) : W15 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v284 (by decide)).trans (W14_out9 V)
theorem W15_out10 (V : Valuation τ sig (Elt F)) : W15 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v312 (by decide)).trans (W14_out10 V)
theorem W15_out11 (V : Valuation τ sig (Elt F)) : W15 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v340 (by decide)).trans (W14_out11 V)
theorem W15_out12 (V : Valuation τ sig (Elt F)) : W15 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v368 (by decide)).trans (W14_out12 V)
theorem W15_out13 (V : Valuation τ sig (Elt F)) : W15 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J14_keep (W14 V) main_v396 (by decide)).trans (W14_out13 V)
theorem W16_out15 (V : Valuation τ sig (Elt F)) : W16 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J15_out (W15 V)).trans ?_
  rw [W15_arg0 V, W15_arg1 V, W15_arg4 V, W15_arg5 V, W15_arg6 V, W15_arg7 V, W15_out12 V]
  rfl
theorem W16_out0 (V : Valuation τ sig (Elt F)) : W16 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v32 (by decide)).trans (W15_out0 V)
theorem W16_out1 (V : Valuation τ sig (Elt F)) : W16 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v60 (by decide)).trans (W15_out1 V)
theorem W16_out2 (V : Valuation τ sig (Elt F)) : W16 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v88 (by decide)).trans (W15_out2 V)
theorem W16_out3 (V : Valuation τ sig (Elt F)) : W16 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v116 (by decide)).trans (W15_out3 V)
theorem W16_out4 (V : Valuation τ sig (Elt F)) : W16 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v144 (by decide)).trans (W15_out4 V)
theorem W16_out5 (V : Valuation τ sig (Elt F)) : W16 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v172 (by decide)).trans (W15_out5 V)
theorem W16_out6 (V : Valuation τ sig (Elt F)) : W16 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v200 (by decide)).trans (W15_out6 V)
theorem W16_out7 (V : Valuation τ sig (Elt F)) : W16 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v228 (by decide)).trans (W15_out7 V)
theorem W16_out8 (V : Valuation τ sig (Elt F)) : W16 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v256 (by decide)).trans (W15_out8 V)
theorem W16_out9 (V : Valuation τ sig (Elt F)) : W16 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v284 (by decide)).trans (W15_out9 V)
theorem W16_out10 (V : Valuation τ sig (Elt F)) : W16 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v312 (by decide)).trans (W15_out10 V)
theorem W16_out11 (V : Valuation τ sig (Elt F)) : W16 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v340 (by decide)).trans (W15_out11 V)
theorem W16_out12 (V : Valuation τ sig (Elt F)) : W16 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v368 (by decide)).trans (W15_out12 V)
theorem W16_out13 (V : Valuation τ sig (Elt F)) : W16 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v396 (by decide)).trans (W15_out13 V)
theorem W16_out14 (V : Valuation τ sig (Elt F)) : W16 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J15_keep (W15 V) main_v424 (by decide)).trans (W15_out14 V)
theorem W17_out16 (V : Valuation τ sig (Elt F)) : W17 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J16_out (W16 V)).trans ?_
  rw [W16_arg0 V, W16_arg1 V, W16_arg4 V, W16_arg5 V, W16_arg6 V, W16_arg7 V, W16_out13 V]
  rfl
theorem W17_out0 (V : Valuation τ sig (Elt F)) : W17 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v32 (by decide)).trans (W16_out0 V)
theorem W17_out1 (V : Valuation τ sig (Elt F)) : W17 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v60 (by decide)).trans (W16_out1 V)
theorem W17_out2 (V : Valuation τ sig (Elt F)) : W17 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v88 (by decide)).trans (W16_out2 V)
theorem W17_out3 (V : Valuation τ sig (Elt F)) : W17 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v116 (by decide)).trans (W16_out3 V)
theorem W17_out4 (V : Valuation τ sig (Elt F)) : W17 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v144 (by decide)).trans (W16_out4 V)
theorem W17_out5 (V : Valuation τ sig (Elt F)) : W17 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v172 (by decide)).trans (W16_out5 V)
theorem W17_out6 (V : Valuation τ sig (Elt F)) : W17 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v200 (by decide)).trans (W16_out6 V)
theorem W17_out7 (V : Valuation τ sig (Elt F)) : W17 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v228 (by decide)).trans (W16_out7 V)
theorem W17_out8 (V : Valuation τ sig (Elt F)) : W17 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v256 (by decide)).trans (W16_out8 V)
theorem W17_out9 (V : Valuation τ sig (Elt F)) : W17 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v284 (by decide)).trans (W16_out9 V)
theorem W17_out10 (V : Valuation τ sig (Elt F)) : W17 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v312 (by decide)).trans (W16_out10 V)
theorem W17_out11 (V : Valuation τ sig (Elt F)) : W17 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v340 (by decide)).trans (W16_out11 V)
theorem W17_out12 (V : Valuation τ sig (Elt F)) : W17 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v368 (by decide)).trans (W16_out12 V)
theorem W17_out13 (V : Valuation τ sig (Elt F)) : W17 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v396 (by decide)).trans (W16_out13 V)
theorem W17_out14 (V : Valuation τ sig (Elt F)) : W17 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v424 (by decide)).trans (W16_out14 V)
theorem W17_out15 (V : Valuation τ sig (Elt F)) : W17 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J16_keep (W16 V) main_v452 (by decide)).trans (W16_out15 V)
theorem W18_out17 (V : Valuation τ sig (Elt F)) : W18 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J17_out (W17 V)).trans ?_
  rw [W17_arg0 V, W17_arg1 V, W17_arg4 V, W17_arg5 V, W17_arg6 V, W17_arg7 V, W17_out14 V]
  rfl
theorem W18_out0 (V : Valuation τ sig (Elt F)) : W18 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v32 (by decide)).trans (W17_out0 V)
theorem W18_out1 (V : Valuation τ sig (Elt F)) : W18 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v60 (by decide)).trans (W17_out1 V)
theorem W18_out2 (V : Valuation τ sig (Elt F)) : W18 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v88 (by decide)).trans (W17_out2 V)
theorem W18_out3 (V : Valuation τ sig (Elt F)) : W18 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v116 (by decide)).trans (W17_out3 V)
theorem W18_out4 (V : Valuation τ sig (Elt F)) : W18 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v144 (by decide)).trans (W17_out4 V)
theorem W18_out5 (V : Valuation τ sig (Elt F)) : W18 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v172 (by decide)).trans (W17_out5 V)
theorem W18_out6 (V : Valuation τ sig (Elt F)) : W18 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v200 (by decide)).trans (W17_out6 V)
theorem W18_out7 (V : Valuation τ sig (Elt F)) : W18 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v228 (by decide)).trans (W17_out7 V)
theorem W18_out8 (V : Valuation τ sig (Elt F)) : W18 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v256 (by decide)).trans (W17_out8 V)
theorem W18_out9 (V : Valuation τ sig (Elt F)) : W18 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v284 (by decide)).trans (W17_out9 V)
theorem W18_out10 (V : Valuation τ sig (Elt F)) : W18 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v312 (by decide)).trans (W17_out10 V)
theorem W18_out11 (V : Valuation τ sig (Elt F)) : W18 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v340 (by decide)).trans (W17_out11 V)
theorem W18_out12 (V : Valuation τ sig (Elt F)) : W18 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v368 (by decide)).trans (W17_out12 V)
theorem W18_out13 (V : Valuation τ sig (Elt F)) : W18 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v396 (by decide)).trans (W17_out13 V)
theorem W18_out14 (V : Valuation τ sig (Elt F)) : W18 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v424 (by decide)).trans (W17_out14 V)
theorem W18_out15 (V : Valuation τ sig (Elt F)) : W18 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v452 (by decide)).trans (W17_out15 V)
theorem W18_out16 (V : Valuation τ sig (Elt F)) : W18 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J17_keep (W17 V) main_v480 (by decide)).trans (W17_out16 V)
theorem W19_out18 (V : Valuation τ sig (Elt F)) : W19 V (Proc.devRef .tc main_v536) = RTree.rout18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J18_out (W18 V)).trans ?_
  rw [W18_arg0 V, W18_arg1 V, W18_arg4 V, W18_arg5 V, W18_arg6 V, W18_arg7 V, W18_out16 V]
  rfl
theorem W19_out0 (V : Valuation τ sig (Elt F)) : W19 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v32 (by decide)).trans (W18_out0 V)
theorem W19_out1 (V : Valuation τ sig (Elt F)) : W19 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v60 (by decide)).trans (W18_out1 V)
theorem W19_out2 (V : Valuation τ sig (Elt F)) : W19 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v88 (by decide)).trans (W18_out2 V)
theorem W19_out3 (V : Valuation τ sig (Elt F)) : W19 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v116 (by decide)).trans (W18_out3 V)
theorem W19_out4 (V : Valuation τ sig (Elt F)) : W19 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v144 (by decide)).trans (W18_out4 V)
theorem W19_out5 (V : Valuation τ sig (Elt F)) : W19 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v172 (by decide)).trans (W18_out5 V)
theorem W19_out6 (V : Valuation τ sig (Elt F)) : W19 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v200 (by decide)).trans (W18_out6 V)
theorem W19_out7 (V : Valuation τ sig (Elt F)) : W19 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v228 (by decide)).trans (W18_out7 V)
theorem W19_out8 (V : Valuation τ sig (Elt F)) : W19 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v256 (by decide)).trans (W18_out8 V)
theorem W19_out9 (V : Valuation τ sig (Elt F)) : W19 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v284 (by decide)).trans (W18_out9 V)
theorem W19_out10 (V : Valuation τ sig (Elt F)) : W19 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v312 (by decide)).trans (W18_out10 V)
theorem W19_out11 (V : Valuation τ sig (Elt F)) : W19 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v340 (by decide)).trans (W18_out11 V)
theorem W19_out12 (V : Valuation τ sig (Elt F)) : W19 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v368 (by decide)).trans (W18_out12 V)
theorem W19_out13 (V : Valuation τ sig (Elt F)) : W19 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v396 (by decide)).trans (W18_out13 V)
theorem W19_out14 (V : Valuation τ sig (Elt F)) : W19 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v424 (by decide)).trans (W18_out14 V)
theorem W19_out15 (V : Valuation τ sig (Elt F)) : W19 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v452 (by decide)).trans (W18_out15 V)
theorem W19_out16 (V : Valuation τ sig (Elt F)) : W19 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v480 (by decide)).trans (W18_out16 V)
theorem W19_out17 (V : Valuation τ sig (Elt F)) : W19 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J18_keep (W18 V) main_v508 (by decide)).trans (W18_out17 V)
theorem W20_out19 (V : Valuation τ sig (Elt F)) : W20 V (Proc.devRef .tc main_v564) = RTree.rout19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J19_out (W19 V)).trans ?_
  rw [W19_arg0 V, W19_arg1 V, W19_arg4 V, W19_arg5 V, W19_arg6 V, W19_arg7 V, W19_out17 V]
  rfl
theorem W20_out0 (V : Valuation τ sig (Elt F)) : W20 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v32 (by decide)).trans (W19_out0 V)
theorem W20_out1 (V : Valuation τ sig (Elt F)) : W20 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v60 (by decide)).trans (W19_out1 V)
theorem W20_out2 (V : Valuation τ sig (Elt F)) : W20 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v88 (by decide)).trans (W19_out2 V)
theorem W20_out3 (V : Valuation τ sig (Elt F)) : W20 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v116 (by decide)).trans (W19_out3 V)
theorem W20_out4 (V : Valuation τ sig (Elt F)) : W20 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v144 (by decide)).trans (W19_out4 V)
theorem W20_out5 (V : Valuation τ sig (Elt F)) : W20 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v172 (by decide)).trans (W19_out5 V)
theorem W20_out6 (V : Valuation τ sig (Elt F)) : W20 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v200 (by decide)).trans (W19_out6 V)
theorem W20_out7 (V : Valuation τ sig (Elt F)) : W20 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v228 (by decide)).trans (W19_out7 V)
theorem W20_out8 (V : Valuation τ sig (Elt F)) : W20 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v256 (by decide)).trans (W19_out8 V)
theorem W20_out9 (V : Valuation τ sig (Elt F)) : W20 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v284 (by decide)).trans (W19_out9 V)
theorem W20_out10 (V : Valuation τ sig (Elt F)) : W20 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v312 (by decide)).trans (W19_out10 V)
theorem W20_out11 (V : Valuation τ sig (Elt F)) : W20 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v340 (by decide)).trans (W19_out11 V)
theorem W20_out12 (V : Valuation τ sig (Elt F)) : W20 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v368 (by decide)).trans (W19_out12 V)
theorem W20_out13 (V : Valuation τ sig (Elt F)) : W20 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v396 (by decide)).trans (W19_out13 V)
theorem W20_out14 (V : Valuation τ sig (Elt F)) : W20 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v424 (by decide)).trans (W19_out14 V)
theorem W20_out15 (V : Valuation τ sig (Elt F)) : W20 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v452 (by decide)).trans (W19_out15 V)
theorem W20_out16 (V : Valuation τ sig (Elt F)) : W20 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v480 (by decide)).trans (W19_out16 V)
theorem W20_out17 (V : Valuation τ sig (Elt F)) : W20 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v508 (by decide)).trans (W19_out17 V)
theorem W20_out18 (V : Valuation τ sig (Elt F)) : W20 V (Proc.devRef .tc main_v536) = RTree.rout18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J19_keep (W19 V) main_v536 (by decide)).trans (W19_out18 V)
theorem W21_out20 (V : Valuation τ sig (Elt F)) : W21 V (Proc.devRef .tc main_v592) = RTree.rout20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J20_out (W20 V)).trans ?_
  rw [W20_arg0 V, W20_arg1 V, W20_arg4 V, W20_arg5 V, W20_arg6 V, W20_arg7 V, W20_out18 V]
  rfl
theorem W21_out0 (V : Valuation τ sig (Elt F)) : W21 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v32 (by decide)).trans (W20_out0 V)
theorem W21_out1 (V : Valuation τ sig (Elt F)) : W21 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v60 (by decide)).trans (W20_out1 V)
theorem W21_out2 (V : Valuation τ sig (Elt F)) : W21 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v88 (by decide)).trans (W20_out2 V)
theorem W21_out3 (V : Valuation τ sig (Elt F)) : W21 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v116 (by decide)).trans (W20_out3 V)
theorem W21_out4 (V : Valuation τ sig (Elt F)) : W21 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v144 (by decide)).trans (W20_out4 V)
theorem W21_out5 (V : Valuation τ sig (Elt F)) : W21 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v172 (by decide)).trans (W20_out5 V)
theorem W21_out6 (V : Valuation τ sig (Elt F)) : W21 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v200 (by decide)).trans (W20_out6 V)
theorem W21_out7 (V : Valuation τ sig (Elt F)) : W21 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v228 (by decide)).trans (W20_out7 V)
theorem W21_out8 (V : Valuation τ sig (Elt F)) : W21 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v256 (by decide)).trans (W20_out8 V)
theorem W21_out9 (V : Valuation τ sig (Elt F)) : W21 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v284 (by decide)).trans (W20_out9 V)
theorem W21_out10 (V : Valuation τ sig (Elt F)) : W21 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v312 (by decide)).trans (W20_out10 V)
theorem W21_out11 (V : Valuation τ sig (Elt F)) : W21 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v340 (by decide)).trans (W20_out11 V)
theorem W21_out12 (V : Valuation τ sig (Elt F)) : W21 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v368 (by decide)).trans (W20_out12 V)
theorem W21_out13 (V : Valuation τ sig (Elt F)) : W21 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v396 (by decide)).trans (W20_out13 V)
theorem W21_out14 (V : Valuation τ sig (Elt F)) : W21 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v424 (by decide)).trans (W20_out14 V)
theorem W21_out15 (V : Valuation τ sig (Elt F)) : W21 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v452 (by decide)).trans (W20_out15 V)
theorem W21_out16 (V : Valuation τ sig (Elt F)) : W21 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v480 (by decide)).trans (W20_out16 V)
theorem W21_out17 (V : Valuation τ sig (Elt F)) : W21 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v508 (by decide)).trans (W20_out17 V)
theorem W21_out18 (V : Valuation τ sig (Elt F)) : W21 V (Proc.devRef .tc main_v536) = RTree.rout18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v536 (by decide)).trans (W20_out18 V)
theorem W21_out19 (V : Valuation τ sig (Elt F)) : W21 V (Proc.devRef .tc main_v564) = RTree.rout19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J20_keep (W20 V) main_v564 (by decide)).trans (W20_out19 V)
theorem W22_out21 (V : Valuation τ sig (Elt F)) : W22 V (Proc.devRef .tc main_v620) = RTree.rout21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J21_out (W21 V)).trans ?_
  rw [W21_arg0 V, W21_arg1 V, W21_arg4 V, W21_arg5 V, W21_arg6 V, W21_arg7 V, W21_out19 V]
  rfl
theorem W22_out0 (V : Valuation τ sig (Elt F)) : W22 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v32 (by decide)).trans (W21_out0 V)
theorem W22_out1 (V : Valuation τ sig (Elt F)) : W22 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v60 (by decide)).trans (W21_out1 V)
theorem W22_out2 (V : Valuation τ sig (Elt F)) : W22 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v88 (by decide)).trans (W21_out2 V)
theorem W22_out3 (V : Valuation τ sig (Elt F)) : W22 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v116 (by decide)).trans (W21_out3 V)
theorem W22_out4 (V : Valuation τ sig (Elt F)) : W22 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v144 (by decide)).trans (W21_out4 V)
theorem W22_out5 (V : Valuation τ sig (Elt F)) : W22 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v172 (by decide)).trans (W21_out5 V)
theorem W22_out6 (V : Valuation τ sig (Elt F)) : W22 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v200 (by decide)).trans (W21_out6 V)
theorem W22_out7 (V : Valuation τ sig (Elt F)) : W22 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v228 (by decide)).trans (W21_out7 V)
theorem W22_out8 (V : Valuation τ sig (Elt F)) : W22 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v256 (by decide)).trans (W21_out8 V)
theorem W22_out9 (V : Valuation τ sig (Elt F)) : W22 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v284 (by decide)).trans (W21_out9 V)
theorem W22_out10 (V : Valuation τ sig (Elt F)) : W22 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v312 (by decide)).trans (W21_out10 V)
theorem W22_out11 (V : Valuation τ sig (Elt F)) : W22 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v340 (by decide)).trans (W21_out11 V)
theorem W22_out12 (V : Valuation τ sig (Elt F)) : W22 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v368 (by decide)).trans (W21_out12 V)
theorem W22_out13 (V : Valuation τ sig (Elt F)) : W22 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v396 (by decide)).trans (W21_out13 V)
theorem W22_out14 (V : Valuation τ sig (Elt F)) : W22 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v424 (by decide)).trans (W21_out14 V)
theorem W22_out15 (V : Valuation τ sig (Elt F)) : W22 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v452 (by decide)).trans (W21_out15 V)
theorem W22_out16 (V : Valuation τ sig (Elt F)) : W22 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v480 (by decide)).trans (W21_out16 V)
theorem W22_out17 (V : Valuation τ sig (Elt F)) : W22 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v508 (by decide)).trans (W21_out17 V)
theorem W22_out18 (V : Valuation τ sig (Elt F)) : W22 V (Proc.devRef .tc main_v536) = RTree.rout18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v536 (by decide)).trans (W21_out18 V)
theorem W22_out19 (V : Valuation τ sig (Elt F)) : W22 V (Proc.devRef .tc main_v564) = RTree.rout19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v564 (by decide)).trans (W21_out19 V)
theorem W22_out20 (V : Valuation τ sig (Elt F)) : W22 V (Proc.devRef .tc main_v592) = RTree.rout20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J21_keep (W21 V) main_v592 (by decide)).trans (W21_out20 V)
theorem W23_out22 (V : Valuation τ sig (Elt F)) : W23 V (Proc.devRef .tc main_v648) = RTree.rout22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J22_out (W22 V)).trans ?_
  rw [W22_arg0 V, W22_arg1 V, W22_arg4 V, W22_arg5 V, W22_arg6 V, W22_arg7 V, W22_out20 V]
  rfl
theorem W23_out0 (V : Valuation τ sig (Elt F)) : W23 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v32 (by decide)).trans (W22_out0 V)
theorem W23_out1 (V : Valuation τ sig (Elt F)) : W23 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v60 (by decide)).trans (W22_out1 V)
theorem W23_out2 (V : Valuation τ sig (Elt F)) : W23 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v88 (by decide)).trans (W22_out2 V)
theorem W23_out3 (V : Valuation τ sig (Elt F)) : W23 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v116 (by decide)).trans (W22_out3 V)
theorem W23_out4 (V : Valuation τ sig (Elt F)) : W23 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v144 (by decide)).trans (W22_out4 V)
theorem W23_out5 (V : Valuation τ sig (Elt F)) : W23 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v172 (by decide)).trans (W22_out5 V)
theorem W23_out6 (V : Valuation τ sig (Elt F)) : W23 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v200 (by decide)).trans (W22_out6 V)
theorem W23_out7 (V : Valuation τ sig (Elt F)) : W23 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v228 (by decide)).trans (W22_out7 V)
theorem W23_out8 (V : Valuation τ sig (Elt F)) : W23 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v256 (by decide)).trans (W22_out8 V)
theorem W23_out9 (V : Valuation τ sig (Elt F)) : W23 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v284 (by decide)).trans (W22_out9 V)
theorem W23_out10 (V : Valuation τ sig (Elt F)) : W23 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v312 (by decide)).trans (W22_out10 V)
theorem W23_out11 (V : Valuation τ sig (Elt F)) : W23 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v340 (by decide)).trans (W22_out11 V)
theorem W23_out12 (V : Valuation τ sig (Elt F)) : W23 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v368 (by decide)).trans (W22_out12 V)
theorem W23_out13 (V : Valuation τ sig (Elt F)) : W23 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v396 (by decide)).trans (W22_out13 V)
theorem W23_out14 (V : Valuation τ sig (Elt F)) : W23 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v424 (by decide)).trans (W22_out14 V)
theorem W23_out15 (V : Valuation τ sig (Elt F)) : W23 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v452 (by decide)).trans (W22_out15 V)
theorem W23_out16 (V : Valuation τ sig (Elt F)) : W23 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v480 (by decide)).trans (W22_out16 V)
theorem W23_out17 (V : Valuation τ sig (Elt F)) : W23 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v508 (by decide)).trans (W22_out17 V)
theorem W23_out18 (V : Valuation τ sig (Elt F)) : W23 V (Proc.devRef .tc main_v536) = RTree.rout18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v536 (by decide)).trans (W22_out18 V)
theorem W23_out19 (V : Valuation τ sig (Elt F)) : W23 V (Proc.devRef .tc main_v564) = RTree.rout19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v564 (by decide)).trans (W22_out19 V)
theorem W23_out20 (V : Valuation τ sig (Elt F)) : W23 V (Proc.devRef .tc main_v592) = RTree.rout20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v592 (by decide)).trans (W22_out20 V)
theorem W23_out21 (V : Valuation τ sig (Elt F)) : W23 V (Proc.devRef .tc main_v620) = RTree.rout21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J22_keep (W22 V) main_v620 (by decide)).trans (W22_out21 V)
theorem W24_out23 (V : Valuation τ sig (Elt F)) : W24 V (Proc.devRef .tc main_v676) = RTree.rout23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (J23_out (W23 V)).trans ?_
  rw [W23_arg0 V, W23_arg1 V, W23_arg4 V, W23_arg5 V, W23_arg6 V, W23_arg7 V, W23_out21 V]
  rfl
theorem W24_out0 (V : Valuation τ sig (Elt F)) : W24 V (Proc.devRef .tc main_v32) = RTree.rout0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v32 (by decide)).trans (W23_out0 V)
theorem W24_out1 (V : Valuation τ sig (Elt F)) : W24 V (Proc.devRef .tc main_v60) = RTree.rout1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v60 (by decide)).trans (W23_out1 V)
theorem W24_out2 (V : Valuation τ sig (Elt F)) : W24 V (Proc.devRef .tc main_v88) = RTree.rout2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v88 (by decide)).trans (W23_out2 V)
theorem W24_out3 (V : Valuation τ sig (Elt F)) : W24 V (Proc.devRef .tc main_v116) = RTree.rout3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v116 (by decide)).trans (W23_out3 V)
theorem W24_out4 (V : Valuation τ sig (Elt F)) : W24 V (Proc.devRef .tc main_v144) = RTree.rout4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v144 (by decide)).trans (W23_out4 V)
theorem W24_out5 (V : Valuation τ sig (Elt F)) : W24 V (Proc.devRef .tc main_v172) = RTree.rout5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v172 (by decide)).trans (W23_out5 V)
theorem W24_out6 (V : Valuation τ sig (Elt F)) : W24 V (Proc.devRef .tc main_v200) = RTree.rout6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v200 (by decide)).trans (W23_out6 V)
theorem W24_out7 (V : Valuation τ sig (Elt F)) : W24 V (Proc.devRef .tc main_v228) = RTree.rout7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v228 (by decide)).trans (W23_out7 V)
theorem W24_out8 (V : Valuation τ sig (Elt F)) : W24 V (Proc.devRef .tc main_v256) = RTree.rout8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v256 (by decide)).trans (W23_out8 V)
theorem W24_out9 (V : Valuation τ sig (Elt F)) : W24 V (Proc.devRef .tc main_v284) = RTree.rout9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v284 (by decide)).trans (W23_out9 V)
theorem W24_out10 (V : Valuation τ sig (Elt F)) : W24 V (Proc.devRef .tc main_v312) = RTree.rout10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v312 (by decide)).trans (W23_out10 V)
theorem W24_out11 (V : Valuation τ sig (Elt F)) : W24 V (Proc.devRef .tc main_v340) = RTree.rout11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v340 (by decide)).trans (W23_out11 V)
theorem W24_out12 (V : Valuation τ sig (Elt F)) : W24 V (Proc.devRef .tc main_v368) = RTree.rout12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v368 (by decide)).trans (W23_out12 V)
theorem W24_out13 (V : Valuation τ sig (Elt F)) : W24 V (Proc.devRef .tc main_v396) = RTree.rout13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v396 (by decide)).trans (W23_out13 V)
theorem W24_out14 (V : Valuation τ sig (Elt F)) : W24 V (Proc.devRef .tc main_v424) = RTree.rout14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v424 (by decide)).trans (W23_out14 V)
theorem W24_out15 (V : Valuation τ sig (Elt F)) : W24 V (Proc.devRef .tc main_v452) = RTree.rout15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v452 (by decide)).trans (W23_out15 V)
theorem W24_out16 (V : Valuation τ sig (Elt F)) : W24 V (Proc.devRef .tc main_v480) = RTree.rout16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v480 (by decide)).trans (W23_out16 V)
theorem W24_out17 (V : Valuation τ sig (Elt F)) : W24 V (Proc.devRef .tc main_v508) = RTree.rout17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v508 (by decide)).trans (W23_out17 V)
theorem W24_out18 (V : Valuation τ sig (Elt F)) : W24 V (Proc.devRef .tc main_v536) = RTree.rout18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v536 (by decide)).trans (W23_out18 V)
theorem W24_out19 (V : Valuation τ sig (Elt F)) : W24 V (Proc.devRef .tc main_v564) = RTree.rout19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v564 (by decide)).trans (W23_out19 V)
theorem W24_out20 (V : Valuation τ sig (Elt F)) : W24 V (Proc.devRef .tc main_v592) = RTree.rout20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v592 (by decide)).trans (W23_out20 V)
theorem W24_out21 (V : Valuation τ sig (Elt F)) : W24 V (Proc.devRef .tc main_v620) = RTree.rout21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v620 (by decide)).trans (W23_out21 V)
theorem W24_out22 (V : Valuation τ sig (Elt F)) : W24 V (Proc.devRef .tc main_v648) = RTree.rout22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (J23_keep (W23 V) main_v648 (by decide)).trans (W23_out22 V)

/-- After the last stretch the result buffer holds the staged result of the launch contents of the arguments. -/
theorem WT_result (V : Valuation τ sig (Elt F)) : WT V (Proc.devRef .tc main_v679) = RTree.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (T_out (W24 V)).trans ?_
  rw [W24_out0 V, W24_out1 V, W24_out2 V, W24_out3 V, W24_out4 V, W24_out5 V, W24_out6 V, W24_out7 V, W24_out8 V, W24_out9 V, W24_out10 V, W24_out11 V, W24_out12 V, W24_out13 V, W24_out14 V, W24_out15 V, W24_out16 V, W24_out17 V, W24_out18 V, W24_out19 V, W24_out20 V, W24_out21 V, W24_out22 V, W24_out23 V]
  rfl

/-! ## The run -/

/-- On every device, from any memory with zero counters: every weakly fair execution of @main terminates with the
    result buffer at the staged result of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v679) = RTree.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v679).trans ((congrFun (after_ops _) _).trans (WT_result _)),
      (h c main_arg0).trans ((congrFun (after_ops _) _).trans (WT_arg0 _)),
      (h c main_arg1).trans ((congrFun (after_ops _) _).trans (WT_arg1 _)),
      (h c main_arg2).trans ((congrFun (after_ops _) _).trans (WT_arg2 _)),
      (h c main_arg3).trans ((congrFun (after_ops _) _).trans (WT_arg3 _)),
      (h c main_arg4).trans ((congrFun (after_ops _) _).trans (WT_arg4 _)),
      (h c main_arg5).trans ((congrFun (after_ops _) _).trans (WT_arg5 _)),
      (h c main_arg6).trans ((congrFun (after_ops _) _).trans (WT_arg6 _)),
      (h c main_arg7).trans ((congrFun (after_ops _) _).trans (WT_arg7 _))⟩)
    (run_seq scopedRefs_eq scopedSems_eq defs main (fun _ => ops) main_eq (fun _ => ops_sub) m ρ (fun _ => ops_fresh))

end Cert.ReferenceIdeal.HRun

end
-- ==== Proof.KStage.lean ====
/-
  One joint of the chain as the kernel computes it on a block of 8192 batch rows, read entry by entry.

  From the block's rotation lanes `rot` [8192, 9], translation lanes `jtr` [8192, 3], a three-lane block `dif` whose row
  length is the bone length, the six feature lanes `ft` and the joint's weight tiles (W1 as loaded, [1, 19, 19]; b1
  [1, 19]; W2 [1, 6, 19]; b2 [1, 6]) the kernel forms  [rot | jtr | sqrt(Σ dif²) | ft],  multiplies by W1ᵀ on the
  matrix unit into a zero accumulator, adds b1 along the rows, clamps at zero, multiplies by W2ᵀ into zero and adds b2.
  Entry (p, q) of the result is `Joint.out` of row p's data: each product is the plain sum over the contracted
  index, the lane sum of three squares is the plain sum, and the layout steps only move entries.
-/
import proofs.«118473_j66391604462155_2_alg».proof.Proof.Gen.KernelIdeal.Skeleton
import proofs.«118473_j66391604462155_2_alg».proof.Proof.JointRow
import proofs.«118473_j66391604462155_2_alg».proof.Proof.LibConcat4
import proofs.«118473_j66391604462155_2_alg».proof.Proof.LibMatmulNN
import proofs.«118473_j66391604462155_2_alg».proof.Proof.LibLaneReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KStage

open Cert.KernelIdeal Cert.KernelIdeal.Gen Idealize.ShloMosaic Idealize.ShloMosaic.ValueIdx

variable {F : FTy → Type} [FloatOps F]

/-- The bone-length column of a block: the square root of each row's sum of squares, kept as an [8192, 1] column. -/
def lenCol (dif : FVec F S8192x3 .f32) : FVec F S8192x1 .f32 :=
  sqrt (shapeCast S8192x1 (multiReduction .add [1] S8192 (mulf dif dif) 0x00000000#32 reduces_S8192x3_S8192 (.inl rfl) rfl) shapeCasts_S8192_S8192x1)

/-- A dense layer of the block: `x · Wᵀ` into zero plus the bias row, W and the bias as the loaded tiles. -/
def hidden (x : FVec F S8192x19 .f32) (W1 : Vec F S1x19x19 .f32) (B1 : Vec F S1x19 .f32) : FVec F S8192x19 .f32 :=
  maximumf (addf (matmul dot_S8192x19_S19x19_S8192x19_1_0_0_1_n_n none x
      (transpose S19x19 [1, 0] (shapeCast S19x19 W1 shapeCasts_S1x19x19_S19x19) transposes_S19x19_p1_0_S19x19) (constant S8192x19 .f32 0x00000000#32))
    (broadcastTo S8192x19 (shapeCast S1x19 (shapeCast S19 B1 shapeCasts_S1x19_S19) shapeCasts_S19_S1x19) broadcasts_S1x19_S8192x19))
    (broadcast S8192x19 (Scalar.ofBits .f32 0x00000000#32))

/-- The joint's six output lanes on the block. -/
def kstage (rot : FVec F S8192x9 .f32) (jtr dif : FVec F S8192x3 .f32) (ft : FVec F S8192x6 .f32)
    (W1 : Vec F S1x19x19 .f32) (B1 : Vec F S1x19 .f32) (W2 : Vec F S1x6x19 .f32) (B2 : Vec F S1x6 .f32) : FVec F S8192x6 .f32 :=
  addf (matmul dot_S8192x19_S19x6_S8192x6_1_0_0_1_n_n none
      (hidden (concatenate S8192x19 1 [⟨S8192x9, rot⟩, ⟨S8192x3, jtr⟩, ⟨S8192x1, lenCol dif⟩, ⟨S8192x6, ft⟩] concatenates_S8192x9_S8192x3_S8192x1_S8192x6_S8192x19_d1) W1 B1)
      (transpose S19x6 [1, 0] (shapeCast S6x19 W2 shapeCasts_S1x6x19_S6x19) transposes_S6x19_p1_0_S19x6) (constant S8192x6 .f32 0x00000000#32))
    (broadcastTo S8192x6 (shapeCast S1x6 (shapeCast S6 B2 shapeCasts_S1x6_S6) shapeCasts_S6_S1x6) broadcasts_S1x6_S8192x6)

/-! ## Read at an entry, on the extended reals -/

theorem lenCol_apply (dif : FVec Ideal S8192x3 .f32) (p : Fin 8192) :
    lenCol dif (ix2 p (0 : Fin 1)) = Joint.boneLen fun k => dif (ix2 p k) := by
  unfold lenCol Joint.boneLen
  show Ideal.sqrt _ = _
  refine congrArg Ideal.sqrt ?_
  exact LibLaneReduce.sumLanes_apply (mulf dif dif) reduces_S8192x3_S8192 (.inl rfl) rfl shapeCasts_S8192_S8192x1 p

theorem biasRow19_apply (B1 : Vec Ideal S1x19 .f32) (p : Fin 8192) (f : Fin 19) :
    broadcastTo S8192x19 (shapeCast S1x19 (shapeCast S19 B1 shapeCasts_S1x19_S19) shapeCasts_S19_S1x19) broadcasts_S1x19_S8192x19 (ix2 p f)
      = B1 (ix2 (0 : Fin 1) f) := by
  rw [broadcastTo_1b_ab_apply, shapeCast_a_1a_apply, shapeCast_1a_a_apply]

theorem biasRow6_apply (B2 : Vec Ideal S1x6 .f32) (p : Fin 8192) (q : Fin 6) :
    broadcastTo S8192x6 (shapeCast S1x6 (shapeCast S6 B2 shapeCasts_S1x6_S6) shapeCasts_S6_S1x6) broadcasts_S1x6_S8192x6 (ix2 p q)
      = B2 (ix2 (0 : Fin 1) q) := by
  rw [broadcastTo_1b_ab_apply, shapeCast_a_1a_apply, shapeCast_1a_a_apply]

theorem w1T_apply (W1 : Vec Ideal S1x19x19 .f32) (g f : Fin 19) :
    transpose S19x19 [1, 0] (shapeCast S19x19 W1 shapeCasts_S1x19x19_S19x19) transposes_S19x19_p1_0_S19x19 (ix2 g f)
      = W1 (ix3 (0 : Fin 1) f g) := by
  rw [transpose_ix2_apply, shapeCast_1ab_ab_apply]

theorem w2T_apply (W2 : Vec Ideal S1x6x19 .f32) (f : Fin 19) (q : Fin 6) :
    transpose S19x6 [1, 0] (shapeCast S6x19 W2 shapeCasts_S1x6x19_S6x19) transposes_S6x19_p1_0_S19x6 (ix2 f q)
      = W2 (ix3 (0 : Fin 1) q f) := by
  rw [transpose_ix2_apply, shapeCast_1ab_ab_apply]

theorem hidden_apply (x : FVec Ideal S8192x19 .f32) (W1 : Vec Ideal S1x19x19 .f32) (B1 : Vec Ideal S1x19 .f32) (p : Fin 8192) (f : Fin 19) :
    hidden x W1 B1 (ix2 p f)
      = max (Joint.affine (fun g => x (ix2 p g)) (fun f g => W1 (ix3 (0 : Fin 1) f g)) (fun f => B1 (ix2 (0 : Fin 1) f)) f) Joint.zeroWord := by
  unfold hidden Joint.affine
  rw [maximumf_apply, addf_apply, biasRow19_apply]
  refine congrArg₂ max (congrArg (· + _) ?_) rfl
  refine (LibMatmulNN.matmul_zero_apply 8192 19 19 none x _ p f).trans ?_
  exact Finset.sum_congr rfl fun g _ => congrArg (x (ix2 p g) * ·) (w1T_apply W1 g f)

theorem kstage_apply (rot : FVec Ideal S8192x9 .f32) (jtr dif : FVec Ideal S8192x3 .f32) (ft : FVec Ideal S8192x6 .f32)
    (W1 : Vec Ideal S1x19x19 .f32) (B1 : Vec Ideal S1x19 .f32) (W2 : Vec Ideal S1x6x19 .f32) (B2 : Vec Ideal S1x6 .f32)
    (p : Fin 8192) (q : Fin 6) :
    kstage rot jtr dif ft W1 B1 W2 B2 (ix2 p q)
      = Joint.out (fun l => rot (ix2 p l)) (fun l => jtr (ix2 p l)) (fun l => dif (ix2 p l)) (fun l => ft (ix2 p l))
          (fun f g => W1 (ix3 (0 : Fin 1) f g)) (fun f => B1 (ix2 (0 : Fin 1) f))
          (fun d f => W2 (ix3 (0 : Fin 1) d f)) (fun d => B2 (ix2 (0 : Fin 1) d)) q := by
  unfold kstage Joint.out
  rw [addf_apply, biasRow6_apply]
  show _ = Joint.affine _ _ _ q
  unfold Joint.affine
  refine congrArg (· + _) ?_
  refine (LibMatmulNN.matmul_zero_apply 8192 19 6 none _ _ p q).trans ?_
  refine Finset.sum_congr rfl fun f _ => ?_
  rw [w2T_apply, hidden_apply]
  refine congrArg (fun z => max z Joint.zeroWord * _) ?_
  refine congrArg (fun x => Joint.affine x _ _ f) (funext fun g => ?_)
  rw [LibConcat4.apply, lenCol_apply]
  rfl

end Cert.KernelIdeal.KStage

end
-- ==== Proof.KTree.lean ====
/-
  The kernel's body on one block, joint by joint.

  The body loads the block's 216 rotation lanes and 72 translation lanes, forms the six global features
  `[rots | jtrs] · W0ᵀ + b0`, and then walks the kinematic tree in index order: joint j reads lanes 9j‥9j+8 of the
  rotations, lanes 3j‥3j+2 of the translations, the difference of its translation lanes from its parent's (the root: its
  own translation lanes), the parent's six output lanes (the root: the global features) and tile j of the four
  stacked weight arrays, and produces six output lanes (`KStage.kstage`).  The block the body stores is the 24 outputs
  side by side.  The definitions below name those 24 outputs; `out_eq` says that what the body leaves in the output
  window's buffer is their concatenation.
-/
import proofs.«118473_j66391604462155_2_alg».proof.Proof.Gen.KernelIdeal.Frame
import proofs.«118473_j66391604462155_2_alg».proof.Proof.KStage
import proofs.«118473_j66391604462155_2_alg».proof.Proof.LibJointLayout
import Idealize.ShloMosaic.Lib.Pipeline.Value

noncomputable section

namespace Cert.KernelIdeal.KTree

open Cert.KernelIdeal Cert.KernelIdeal.Gen Cert.KernelIdeal.KStage Idealize.ShloMosaic Idealize.ShloMosaic.ValueIdx

variable {F : FTy → Type} [FloatOps F]

/-- The block's rotation lanes as loaded. -/
def rots (x0 : Vec F S8192x216 .f32) : FVec F S8192x216 .f32 := shapeCast S8192x216 (View.ld x0 r0_0) shapeCasts_S8192x216_S8192x216

/-- The block's translation lanes as loaded. -/
def jtrs (x1 : Vec F S8192x72 .f32) : FVec F S8192x72 .f32 := shapeCast S8192x72 (View.ld x1 r0_1) shapeCasts_S8192x72_S8192x72

/-- The six global features of the block's rows: `[rots | jtrs] · W0ᵀ` into zero plus the bias row. -/
def gfeat (x0 : Vec F S8192x216 .f32) (x1 : Vec F S8192x72 .f32) (x2 : Vec F S6x288 .f32) (x3 : Vec F S6 .f32) : FVec F S8192x6 .f32 :=
  addf (matmul dot_S8192x288_S288x6_S8192x6_1_0_0_1_n_n none
      (concatenate S8192x288 1 [⟨S8192x216, rots x0⟩, ⟨S8192x72, jtrs x1⟩] concatenates_S8192x216_S8192x72_S8192x288_d1)
      (transpose S288x6 [1, 0] (View.ld x2 r0_2) transposes_S6x288_p1_0_S288x6) (constant S8192x6 .f32 0x00000000#32))
    (broadcastTo S8192x6 (shapeCast S1x6 (View.ld x3 r0_3) shapeCasts_S6_S1x6) broadcasts_S1x6_S8192x6)

/-- Joint 0's output lanes on the block (the root: fed by the global features). -/
def kout0 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 0] (rots x0) slices_S8192x216_o0_0_S8192x9) (extractStridedSlice S8192x3 ![0, 0] (jtrs x1) slices_S8192x72_o0_0_S8192x3) (extractStridedSlice S8192x3 ![0, 0] (jtrs x1) slices_S8192x72_o0_0_S8192x3) (gfeat x0 x1 x2 x3)
    (View.ld x4 r0_4) (View.ld x5 r0_5) (View.ld x6 r0_6) (View.ld x7 r0_7)

/-- Joint 1's output lanes on the block (fed by joint 0's). -/
def kout1 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 9] (rots x0) slices_S8192x216_o0_9_S8192x9) (extractStridedSlice S8192x3 ![0, 3] (jtrs x1) slices_S8192x72_o0_3_S8192x3) (subf (extractStridedSlice S8192x3 ![0, 3] (jtrs x1) slices_S8192x72_o0_3_S8192x3) (extractStridedSlice S8192x3 ![0, 0] (jtrs x1) slices_S8192x72_o0_0_S8192x3)) (kout0 x0 x1 x2 x3 x4 x5 x6 x7)
    (View.ld x4 r0_8) (View.ld x5 r0_9) (View.ld x6 r0_10) (View.ld x7 r0_11)

/-- Joint 2's output lanes on the block (fed by joint 0's). -/
def kout2 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 18] (rots x0) slices_S8192x216_o0_18_S8192x9) (extractStridedSlice S8192x3 ![0, 6] (jtrs x1) slices_S8192x72_o0_6_S8192x3) (subf (extractStridedSlice S8192x3 ![0, 6] (jtrs x1) slices_S8192x72_o0_6_S8192x3) (extractStridedSlice S8192x3 ![0, 0] (jtrs x1) slices_S8192x72_o0_0_S8192x3)) (kout0 x0 x1 x2 x3 x4 x5 x6 x7)
    (View.ld x4 r0_12) (View.ld x5 r0_13) (View.ld x6 r0_14) (View.ld x7 r0_15)

/-- Joint 3's output lanes on the block (fed by joint 0's). -/
def kout3 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 27] (rots x0) slices_S8192x216_o0_27_S8192x9) (extractStridedSlice S8192x3 ![0, 9] (jtrs x1) slices_S8192x72_o0_9_S8192x3) (subf (extractStridedSlice S8192x3 ![0, 9] (jtrs x1) slices_S8192x72_o0_9_S8192x3) (extractStridedSlice S8192x3 ![0, 0] (jtrs x1) slices_S8192x72_o0_0_S8192x3)) (kout0 x0 x1 x2 x3 x4 x5 x6 x7)
    (View.ld x4 r0_16) (View.ld x5 r0_17) (View.ld x6 r0_18) (View.ld x7 r0_19)

/-- Joint 4's output lanes on the block (fed by joint 1's). -/
def kout4 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 36] (rots x0) slices_S8192x216_o0_36_S8192x9) (extractStridedSlice S8192x3 ![0, 12] (jtrs x1) slices_S8192x72_o0_12_S8192x3) (subf (extractStridedSlice S8192x3 ![0, 12] (jtrs x1) slices_S8192x72_o0_12_S8192x3) (extractStridedSlice S8192x3 ![0, 3] (jtrs x1) slices_S8192x72_o0_3_S8192x3)) (kout1 x0 x1 x2 x3 x4 x5 x6 x7)
    (View.ld x4 r0_20) (View.ld x5 r0_21) (View.ld x6 r0_22) (View.ld x7 r0_23)

/-- Joint 5's output lanes on the block (fed by joint 2's). -/
def kout5 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 45] (rots x0) slices_S8192x216_o0_45_S8192x9) (extractStridedSlice S8192x3 ![0, 15] (jtrs x1) slices_S8192x72_o0_15_S8192x3) (subf (extractStridedSlice S8192x3 ![0, 15] (jtrs x1) slices_S8192x72_o0_15_S8192x3) (extractStridedSlice S8192x3 ![0, 6] (jtrs x1) slices_S8192x72_o0_6_S8192x3)) (kout2 x0 x1 x2 x3 x4 x5 x6 x7)
    (View.ld x4 r0_24) (View.ld x5 r0_25) (View.ld x6 r0_26) (View.ld x7 r0_27)

/-- Joint 6's output lanes on the block (fed by joint 3's). -/
def kout6 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 54] (rots x0) slices_S8192x216_o0_54_S8192x9) (extractStridedSlice S8192x3 ![0, 18] (jtrs x1) slices_S8192x72_o0_18_S8192x3) (subf (extractStridedSlice S8192x3 ![0, 18] (jtrs x1) slices_S8192x72_o0_18_S8192x3) (extractStridedSlice S8192x3 ![0, 9] (jtrs x1) slices_S8192x72_o0_9_S8192x3)) (kout3 x0 x1 x2 x3 x4 x5 x6 x7)
    (View.ld x4 r0_28) (View.ld x5 r0_29) (View.ld x6 r0_30) (View.ld x7 r0_31)

/-- Joint 7's output lanes on the block (fed by joint 4's). -/
def kout7 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 63] (rots x0) slices_S8192x216_o0_63_S8192x9) (extractStridedSlice S8192x3 ![0, 21] (jtrs x1) slices_S8192x72_o0_21_S8192x3) (subf (extractStridedSlice S8192x3 ![0, 21] (jtrs x1) slices_S8192x72_o0_21_S8192x3) (extractStridedSlice S8192x3 ![0, 12] (jtrs x1) slices_S8192x72_o0_12_S8192x3)) (kout4 x0 x1 x2 x3 x4 x5 x6 x7)
    (View.ld x4 r0_32) (View.ld x5 r0_33) (View.ld x6 r0_34) (View.ld x7 r0_35)

/-- Joint 8's output lanes on the block (fed by joint 5's). -/
def kout8 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 72] (rots x0) slices_S8192x216_o0_72_S8192x9) (extractStridedSlice S8192x3 ![0, 24] (jtrs x1) slices_S8192x72_o0_24_S8192x3) (subf (extractStridedSlice S8192x3 ![0, 24] (jtrs x1) slices_S8192x72_o0_24_S8192x3) (extractStridedSlice S8192x3 ![0, 15] (jtrs x1) slices_S8192x72_o0_15_S8192x3)) (kout5 x0 x1 x2 x3 x4 x5 x6 x7)
    (View.ld x4 r0_36) (View.ld x5 r0_37) (View.ld x6 r0_38) (View.ld x7 r0_39)

/-- Joint 9's output lanes on the block (fed by joint 6's). -/
def kout9 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 81] (rots x0) slices_S8192x216_o0_81_S8192x9) (extractStridedSlice S8192x3 ![0, 27] (jtrs x1) slices_S8192x72_o0_27_S8192x3) (subf (extractStridedSlice S8192x3 ![0, 27] (jtrs x1) slices_S8192x72_o0_27_S8192x3) (extractStridedSlice S8192x3 ![0, 18] (jtrs x1) slices_S8192x72_o0_18_S8192x3)) (kout6 x0 x1 x2 x3 x4 x5 x6 x7)
    (View.ld x4 r0_40) (View.ld x5 r0_41) (View.ld x6 r0_42) (View.ld x7 r0_43)

/-- Joint 10's output lanes on the block (fed by joint 7's). -/
def kout10 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 90] (rots x0) slices_S8192x216_o0_90_S8192x9) (extractStridedSlice S8192x3 ![0, 30] (jtrs x1) slices_S8192x72_o0_30_S8192x3) (subf (extractStridedSlice S8192x3 ![0, 30] (jtrs x1) slices_S8192x72_o0_30_S8192x3) (extractStridedSlice S8192x3 ![0, 21] (jtrs x1) slices_S8192x72_o0_21_S8192x3)) (kout7 x0 x1 x2 x3 x4 x5 x6 x7)
    (View.ld x4 r0_44) (View.ld x5 r0_45) (View.ld x6 r0_46) (View.ld x7 r0_47)

/-- Joint 11's output lanes on the block (fed by joint 8's). -/
def kout11 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 99] (rots x0) slices_S8192x216_o0_99_S8192x9) (extractStridedSlice S8192x3 ![0, 33] (jtrs x1) slices_S8192x72_o0_33_S8192x3) (subf (extractStridedSlice S8192x3 ![0, 33] (jtrs x1) slices_S8192x72_o0_33_S8192x3) (extractStridedSlice S8192x3 ![0, 24] (jtrs x1) slices_S8192x72_o0_24_S8192x3)) (kout8 x0 x1 x2 x3 x4 x5 x6 x7)
    (View.ld x4 r0_48) (View.ld x5 r0_49) (View.ld x6 r0_50) (View.ld x7 r0_51)

/-- Joint 12's output lanes on the block (fed by joint 9's). -/
def kout12 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 108] (rots x0) slices_S8192x216_o0_108_S8192x9) (extractStridedSlice S8192x3 ![0, 36] (jtrs x1) slices_S8192x72_o0_36_S8192x3) (subf (extractStridedSlice S8192x3 ![0, 36] (jtrs x1) slices_S8192x72_o0_36_S8192x3) (extractStridedSlice S8192x3 ![0, 27] (jtrs x1) slices_S8192x72_o0_27_S8192x3)) (kout9 x0 x1 x2 x3 x4 x5 x6 x7)
    (View.ld x4 r0_52) (View.ld x5 r0_53) (View.ld x6 r0_54) (View.ld x7 r0_55)

/-- Joint 13's output lanes on the block (fed by joint 9's). -/
def kout13 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 117] (rots x0) slices_S8192x216_o0_117_S8192x9) (extractStridedSlice S8192x3 ![0, 39] (jtrs x1) slices_S8192x72_o0_39_S8192x3) (subf (extractStridedSlice S8192x3 ![0, 39] (jtrs x1) slices_S8192x72_o0_39_S8192x3) (extractStridedSlice S8192x3 ![0, 27] (jtrs x1) slices_S8192x72_o0_27_S8192x3)) (kout9 x0 x1 x2 x3 x4 x5 x6 x7)
    (View.ld x4 r0_56) (View.ld x5 r0_57) (View.ld x6 r0_58) (View.ld x7 r0_59)

/-- Joint 14's output lanes on the block (fed by joint 9's). -/
def kout14 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 126] (rots x0) slices_S8192x216_o0_126_S8192x9) (extractStridedSlice S8192x3 ![0, 42] (jtrs x1) slices_S8192x72_o0_42_S8192x3) (subf (extractStridedSlice S8192x3 ![0, 42] (jtrs x1) slices_S8192x72_o0_42_S8192x3) (extractStridedSlice S8192x3 ![0, 27] (jtrs x1) slices_S8192x72_o0_27_S8192x3)) (kout9 x0 x1 x2 x3 x4 x5 x6 x7)
    (View.ld x4 r0_60) (View.ld x5 r0_61) (View.ld x6 r0_62) (View.ld x7 r0_63)

/-- Joint 15's output lanes on the block (fed by joint 12's). -/
def kout15 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 135] (rots x0) slices_S8192x216_o0_135_S8192x9) (extractStridedSlice S8192x3 ![0, 45] (jtrs x1) slices_S8192x72_o0_45_S8192x3) (subf (extractStridedSlice S8192x3 ![0, 45] (jtrs x1) slices_S8192x72_o0_45_S8192x3) (extractStridedSlice S8192x3 ![0, 36] (jtrs x1) slices_S8192x72_o0_36_S8192x3)) (kout12 x0 x1 x2 x3 x4 x5 x6 x7)
    (View.ld x4 r0_64) (View.ld x5 r0_65) (View.ld x6 r0_66) (View.ld x7 r0_67)

/-- Joint 16's output lanes on the block (fed by joint 13's). -/
def kout16 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 144] (rots x0) slices_S8192x216_o0_144_S8192x9) (extractStridedSlice S8192x3 ![0, 48] (jtrs x1) slices_S8192x72_o0_48_S8192x3) (subf (extractStridedSlice S8192x3 ![0, 48] (jtrs x1) slices_S8192x72_o0_48_S8192x3) (extractStridedSlice S8192x3 ![0, 39] (jtrs x1) slices_S8192x72_o0_39_S8192x3)) (kout13 x0 x1 x2 x3 x4 x5 x6 x7)
    (View.ld x4 r0_68) (View.ld x5 r0_69) (View.ld x6 r0_70) (View.ld x7 r0_71)

/-- Joint 17's output lanes on the block (fed by joint 14's). -/
def kout17 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 153] (rots x0) slices_S8192x216_o0_153_S8192x9) (extractStridedSlice S8192x3 ![0, 51] (jtrs x1) slices_S8192x72_o0_51_S8192x3) (subf (extractStridedSlice S8192x3 ![0, 51] (jtrs x1) slices_S8192x72_o0_51_S8192x3) (extractStridedSlice S8192x3 ![0, 42] (jtrs x1) slices_S8192x72_o0_42_S8192x3)) (kout14 x0 x1 x2 x3 x4 x5 x6 x7)
    (View.ld x4 r0_72) (View.ld x5 r0_73) (View.ld x6 r0_74) (View.ld x7 r0_75)

/-- Joint 18's output lanes on the block (fed by joint 16's). -/
def kout18 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 162] (rots x0) slices_S8192x216_o0_162_S8192x9) (extractStridedSlice S8192x3 ![0, 54] (jtrs x1) slices_S8192x72_o0_54_S8192x3) (subf (extractStridedSlice S8192x3 ![0, 54] (jtrs x1) slices_S8192x72_o0_54_S8192x3) (extractStridedSlice S8192x3 ![0, 48] (jtrs x1) slices_S8192x72_o0_48_S8192x3)) (kout16 x0 x1 x2 x3 x4 x5 x6 x7)
    (View.ld x4 r0_76) (View.ld x5 r0_77) (View.ld x6 r0_78) (View.ld x7 r0_79)

/-- Joint 19's output lanes on the block (fed by joint 17's). -/
def kout19 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 171] (rots x0) slices_S8192x216_o0_171_S8192x9) (extractStridedSlice S8192x3 ![0, 57] (jtrs x1) slices_S8192x72_o0_57_S8192x3) (subf (extractStridedSlice S8192x3 ![0, 57] (jtrs x1) slices_S8192x72_o0_57_S8192x3) (extractStridedSlice S8192x3 ![0, 51] (jtrs x1) slices_S8192x72_o0_51_S8192x3)) (kout17 x0 x1 x2 x3 x4 x5 x6 x7)
    (View.ld x4 r0_80) (View.ld x5 r0_81) (View.ld x6 r0_82) (View.ld x7 r0_83)

/-- Joint 20's output lanes on the block (fed by joint 18's). -/
def kout20 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 180] (rots x0) slices_S8192x216_o0_180_S8192x9) (extractStridedSlice S8192x3 ![0, 60] (jtrs x1) slices_S8192x72_o0_60_S8192x3) (subf (extractStridedSlice S8192x3 ![0, 60] (jtrs x1) slices_S8192x72_o0_60_S8192x3) (extractStridedSlice S8192x3 ![0, 54] (jtrs x1) slices_S8192x72_o0_54_S8192x3)) (kout18 x0 x1 x2 x3 x4 x5 x6 x7)
    (View.ld x4 r0_84) (View.ld x5 r0_85) (View.ld x6 r0_86) (View.ld x7 r0_87)

/-- Joint 21's output lanes on the block (fed by joint 19's). -/
def kout21 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 189] (rots x0) slices_S8192x216_o0_189_S8192x9) (extractStridedSlice S8192x3 ![0, 63] (jtrs x1) slices_S8192x72_o0_63_S8192x3) (subf (extractStridedSlice S8192x3 ![0, 63] (jtrs x1) slices_S8192x72_o0_63_S8192x3) (extractStridedSlice S8192x3 ![0, 57] (jtrs x1) slices_S8192x72_o0_57_S8192x3)) (kout19 x0 x1 x2 x3 x4 x5 x6 x7)
    (View.ld x4 r0_88) (View.ld x5 r0_89) (View.ld x6 r0_90) (View.ld x7 r0_91)

/-- Joint 22's output lanes on the block (fed by joint 20's). -/
def kout22 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 198] (rots x0) slices_S8192x216_o0_198_S8192x9) (extractStridedSlice S8192x3 ![0, 66] (jtrs x1) slices_S8192x72_o0_66_S8192x3) (subf (extractStridedSlice S8192x3 ![0, 66] (jtrs x1) slices_S8192x72_o0_66_S8192x3) (extractStridedSlice S8192x3 ![0, 60] (jtrs x1) slices_S8192x72_o0_60_S8192x3)) (kout20 x0 x1 x2 x3 x4 x5 x6 x7)
    (View.ld x4 r0_92) (View.ld x5 r0_93) (View.ld x6 r0_94) (View.ld x7 r0_95)

/-- Joint 23's output lanes on the block (fed by joint 21's). -/
def kout23 (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x6 .f32 :=
  kstage (extractStridedSlice S8192x9 ![0, 207] (rots x0) slices_S8192x216_o0_207_S8192x9) (extractStridedSlice S8192x3 ![0, 69] (jtrs x1) slices_S8192x72_o0_69_S8192x3) (subf (extractStridedSlice S8192x3 ![0, 69] (jtrs x1) slices_S8192x72_o0_69_S8192x3) (extractStridedSlice S8192x3 ![0, 63] (jtrs x1) slices_S8192x72_o0_63_S8192x3)) (kout21 x0 x1 x2 x3 x4 x5 x6 x7)
    (View.ld x4 r0_96) (View.ld x5 r0_97) (View.ld x6 r0_98) (View.ld x7 r0_99)

/-- The 24 outputs side by side: the block the body stores. -/
def outBlock (x0 : Vec F S8192x216 .f32) (x1 : Vec F S8192x72 .f32) (x2 : Vec F S6x288 .f32) (x3 : Vec F S6 .f32) (x4 : Vec F S24x19x19 .f32) (x5 : Vec F S24x19 .f32) (x6 : Vec F S24x6x19 .f32) (x7 : Vec F S24x6 .f32) : FVec F S8192x144 .f32 :=
  concatenate S8192x144 1 [⟨S8192x6, kout0 x0 x1 x2 x3 x4 x5 x6 x7⟩, ⟨S8192x6, kout1 x0 x1 x2 x3 x4 x5 x6 x7⟩, ⟨S8192x6, kout2 x0 x1 x2 x3 x4 x5 x6 x7⟩, ⟨S8192x6, kout3 x0 x1 x2 x3 x4 x5 x6 x7⟩, ⟨S8192x6, kout4 x0 x1 x2 x3 x4 x5 x6 x7⟩, ⟨S8192x6, kout5 x0 x1 x2 x3 x4 x5 x6 x7⟩, ⟨S8192x6, kout6 x0 x1 x2 x3 x4 x5 x6 x7⟩, ⟨S8192x6, kout7 x0 x1 x2 x3 x4 x5 x6 x7⟩, ⟨S8192x6, kout8 x0 x1 x2 x3 x4 x5 x6 x7⟩, ⟨S8192x6, kout9 x0 x1 x2 x3 x4 x5 x6 x7⟩, ⟨S8192x6, kout10 x0 x1 x2 x3 x4 x5 x6 x7⟩, ⟨S8192x6, kout11 x0 x1 x2 x3 x4 x5 x6 x7⟩, ⟨S8192x6, kout12 x0 x1 x2 x3 x4 x5 x6 x7⟩, ⟨S8192x6, kout13 x0 x1 x2 x3 x4 x5 x6 x7⟩, ⟨S8192x6, kout14 x0 x1 x2 x3 x4 x5 x6 x7⟩, ⟨S8192x6, kout15 x0 x1 x2 x3 x4 x5 x6 x7⟩, ⟨S8192x6, kout16 x0 x1 x2 x3 x4 x5 x6 x7⟩, ⟨S8192x6, kout17 x0 x1 x2 x3 x4 x5 x6 x7⟩, ⟨S8192x6, kout18 x0 x1 x2 x3 x4 x5 x6 x7⟩, ⟨S8192x6, kout19 x0 x1 x2 x3 x4 x5 x6 x7⟩, ⟨S8192x6, kout20 x0 x1 x2 x3 x4 x5 x6 x7⟩, ⟨S8192x6, kout21 x0 x1 x2 x3 x4 x5 x6 x7⟩, ⟨S8192x6, kout22 x0 x1 x2 x3 x4 x5 x6 x7⟩, ⟨S8192x6, kout23 x0 x1 x2 x3 x4 x5 x6 x7⟩] concatenates_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x144_d1

theorem hz2 : (![0, 0] : Fin 2 → ℕ) = fun _ => 0 := by
  funext a; match a with | ⟨0, _⟩ => rfl | ⟨1, _⟩ => rfl

set_option maxRecDepth 16384 in
set_option maxHeartbeats 4000000 in
/-- What the body leaves in the output window's buffer is the 24 outputs side by side: the one store covers the
    buffer, and its payload, opened statement by statement, is this concatenation. -/
theorem out_eq (x0 : Vec Ideal S8192x216 .f32) (x1 : Vec Ideal S8192x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32) :
    out0_8 x0 x1 x2 x3 x4 x5 x6 x7 = outBlock x0 x1 x2 x3 x4 x5 x6 x7 := by
  unfold out0_8
  rw [View.canon_unit_zero hz2]
  rfl

end Cert.KernelIdeal.KTree

end
-- ==== Proof.KRead.lean ====
/-
  The kernel's body on one block, read row by row on the extended reals.

  For a block row p, the rotation lanes 9j‥9j+8 and translation lanes 3j‥3j+2 that joint j slices out of the loaded block
  are row p's entries of the block at those lanes, and tile j of a stacked weight array is the array at leading
  position j.  So joint j's six outputs at row p are `Joint.out` of: row p's nine rotation entries of joint j, its
  three translation entries, their difference from the parent's (the root: themselves), the parent's six outputs at
  row p (the root: the row's global features), and the j-th weights.  The global features of row p are the affine map
  288 → 6 of the row's rotation and translation entries side by side.
-/
import proofs.«118473_j66391604462155_2_alg».proof.Proof.KTree
import proofs.«118473_j66391604462155_2_alg».proof.Proof.LibConcat2
import proofs.«118473_j66391604462155_2_alg».proof.Proof.GlobalRow
import proofs.«118473_j66391604462155_2_alg».proof.Proof.LibMatmulNN
import Idealize.ShloMosaic.Lib.ValueLayout

noncomputable section

open scoped BigOperators

namespace Cert.KernelIdeal.KRead

open Cert.KernelIdeal Cert.KernelIdeal.Gen Cert.KernelIdeal.KStage Cert.KernelIdeal.KTree Idealize.ShloMosaic Idealize.ShloMosaic.ValueIdx

theorem hz1 : (![0] : Fin 1 → ℕ) = fun _ => 0 := by
  funext a; match a with | ⟨0, _⟩ => rfl

/-- The rotation lanes as loaded are the block's. -/
theorem rots_eq (x0 : Vec Ideal S8192x216 .f32) : rots x0 = x0 :=
  LibJointLayout.ld_whole hz2 inb_S8192x216_S8192x216_0_0 x0 shapeCasts_S8192x216_S8192x216

/-- The translation lanes as loaded are the block's. -/
theorem jtrs_eq (x1 : Vec Ideal S8192x72 .f32) : jtrs x1 = x1 :=
  LibJointLayout.ld_whole hz2 inb_S8192x72_S8192x72_0_0 x1 shapeCasts_S8192x72_S8192x72

/-- Nine rotation lanes from lane `o`, at row p. -/
theorem rotPiece_apply (x0 : Vec Ideal S8192x216 .f32) (o : ℕ) (h : S8192x216.Slices ![0, o] S8192x9) (p : Fin 8192) (l : Fin 9)
    (k : Fin 216) (hk : k.val = o + l.val) : extractStridedSlice S8192x9 ![0, o] (rots x0) h (ix2 p l) = x0 (ix2 p k) := by
  rw [slice2_axis1_apply o (rots x0) h p l k hk, rots_eq]

/-- Three translation lanes from lane `o`, at row p. -/
theorem jtrPiece_apply (x1 : Vec Ideal S8192x72 .f32) (o : ℕ) (h : S8192x72.Slices ![0, o] S8192x3) (p : Fin 8192) (l : Fin 3)
    (k : Fin 72) (hk : k.val = o + l.val) : extractStridedSlice S8192x3 ![0, o] (jtrs x1) h (ix2 p l) = x1 (ix2 p k) := by
  rw [slice2_axis1_apply o (jtrs x1) h p l k hk, jtrs_eq]

/-- The global features of block row p. -/
theorem gfeat_apply (x0 : Vec Ideal S8192x216 .f32) (x1 : Vec Ideal S8192x72 .f32) (x2 : Vec Ideal S6x288 .f32) (x3 : Vec Ideal S6 .f32)
    (p : Fin 8192) (q : Fin 6) :
    gfeat x0 x1 x2 x3 (ix2 p q)
      = Joint.gfeatRow (fun k => x0 (ix2 p k)) (fun k => x1 (ix2 p k)) (fun d k => x2 (ix2 d k)) (fun d => x3 (ix1 d)) q := by
  unfold gfeat Joint.gfeatRow Joint.affine
  rw [addf_apply]
  refine congrArg₂ (· + ·) ?_ ?_
  · refine (LibMatmulNN.matmul_zero_apply 8192 288 6 none _ _ p q).trans ?_
    refine Finset.sum_congr rfl fun k _ => ?_
    rw [transpose_ix2_apply, View.ld_unit_zero hz2 inb_S6x288_S6x288_0_0 x2]
    refine congrArg (· * _) ?_
    refine (LibConcat2.apply (rots x0) (jtrs x1) concatenates_S8192x216_S8192x72_S8192x288_d1 rfl p k).trans ?_
    rw [rots_eq, jtrs_eq]
    rfl
  · rw [broadcastTo_1b_ab_apply, shapeCast_a_1a_apply, View.ld_unit_zero hz1 inb_S6_S6_0 x3]

/-- A joint's outputs at a block row from the row's data, whatever the pieces are called. -/
theorem kstage_rows (rot : FVec Ideal S8192x9 .f32) (jtr dif : FVec Ideal S8192x3 .f32) (ft : FVec Ideal S8192x6 .f32)
    (W1 : Vec Ideal S1x19x19 .f32) (B1 : Vec Ideal S1x19 .f32) (W2 : Vec Ideal S1x6x19 .f32) (B2 : Vec Ideal S1x6 .f32)
    (p : Fin 8192) (q : Fin 6)
    {r9 : Fin 9 → EReal} {r3 d3 : Fin 3 → EReal} {f6 : Fin 6 → EReal}
    {w1 : Fin 19 → Fin 19 → EReal} {b1 : Fin 19 → EReal} {w2 : Fin 6 → Fin 19 → EReal} {b2 : Fin 6 → EReal}
    (h1 : ∀ l, rot (ix2 p l) = r9 l) (h2 : ∀ l, jtr (ix2 p l) = r3 l) (h3 : ∀ l, dif (ix2 p l) = d3 l) (h4 : ∀ l, ft (ix2 p l) = f6 l)
    (h5 : ∀ f g, W1 (ix3 (0 : Fin 1) f g) = w1 f g) (h6 : ∀ f, B1 (ix2 (0 : Fin 1) f) = b1 f)
    (h7 : ∀ d f, W2 (ix3 (0 : Fin 1) d f) = w2 d f) (h8 : ∀ d, B2 (ix2 (0 : Fin 1) d) = b2 d) :
    kstage rot jtr dif ft W1 B1 W2 B2 (ix2 p q) = Joint.out r9 r3 d3 f6 w1 b1 w2 b2 q := by
  rw [kstage_apply, funext h1, funext h2, funext h3, funext h4, funext fun f => funext (h5 f), funext h6,
    funext fun d => funext (h7 d), funext h8]

section joints

variable (x0 : Vec Ideal S8192x216 .f32) (x1 : Vec Ideal S8192x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32) (p : Fin 8192)
  (R0 : Fin 24 → Fin 9 → EReal) (R1 : Fin 24 → Fin 3 → EReal)
  (hR0 : ∀ (j : Fin 24) (l : Fin 9) (k : Fin 216), k.val = 9 * j.val + l.val → x0 (ix2 p k) = R0 j l)
  (hR1 : ∀ (j : Fin 24) (l : Fin 3) (k : Fin 72), k.val = 3 * j.val + l.val → x1 (ix2 p k) = R1 j l)
  (j : Fin 24)
  (h9 : S8192x216.Slices ![0, 9 * j.val] S8192x9) (h3 : S8192x72.Slices ![0, 3 * j.val] S8192x3)
  (i4 : ∀ c, (![j.val, 0, 0] : Fin 3 → ℕ) c + S1x19x19.size c ≤ S24x19x19.size c)
  (i5 : ∀ c, (![j.val, 0] : Fin 2 → ℕ) c + S1x19.size c ≤ S24x19.size c)
  (i6 : ∀ c, (![j.val, 0, 0] : Fin 3 → ℕ) c + S1x6x19.size c ≤ S24x6x19.size c)
  (i7 : ∀ c, (![j.val, 0] : Fin 2 → ℕ) c + S1x6.size c ≤ S24x6.size c)
  (ft : FVec Ideal S8192x6 .f32) (q : Fin 6)

include hR0 hR1

/-- A non-root joint at block row p: its bone vector is the difference of its translation lanes from its parent's. -/
theorem kjoint_apply (par : Fin 24) (hp3 : S8192x72.Slices ![0, 3 * par.val] S8192x3) :
    kstage (extractStridedSlice S8192x9 ![0, 9 * j.val] (rots x0) h9) (extractStridedSlice S8192x3 ![0, 3 * j.val] (jtrs x1) h3)
      (subf (extractStridedSlice S8192x3 ![0, 3 * j.val] (jtrs x1) h3) (extractStridedSlice S8192x3 ![0, 3 * par.val] (jtrs x1) hp3)) ft
      (View.ld x4 (Rect.unit (s := S24x19x19) ![j.val, 0, 0] S1x19x19.size i4)) (View.ld x5 (Rect.unit (s := S24x19) ![j.val, 0] S1x19.size i5))
      (View.ld x6 (Rect.unit (s := S24x6x19) ![j.val, 0, 0] S1x6x19.size i6)) (View.ld x7 (Rect.unit (s := S24x6) ![j.val, 0] S1x6.size i7)) (ix2 p q)
    = Joint.out (R0 j) (R1 j) (fun l => R1 j l - R1 par l) (fun l => ft (ix2 p l))
        (fun f g => x4 (ix3 j f g)) (fun f => x5 (ix2 j f)) (fun d f => x6 (ix3 j d f)) (fun d => x7 (ix2 j d)) q := by
  have hj := j.isLt
  have hpar := par.isLt
  refine kstage_rows _ _ _ _ _ _ _ _ p q
    (fun l => (rotPiece_apply x0 _ h9 p l ⟨9 * j.val + l.val, by have := l.isLt; omega⟩ rfl).trans (hR0 j l _ rfl))
    (fun l => (jtrPiece_apply x1 _ h3 p l ⟨3 * j.val + l.val, by have := l.isLt; omega⟩ rfl).trans (hR1 j l _ rfl))
    (fun l => ?_) (fun _ => rfl)
    (fun f g => LibJointLayout.ldLead3_apply j.val j.isLt x4 i4 f g) (fun f => LibJointLayout.ldLead2_apply j.val j.isLt x5 i5 f)
    (fun d f => LibJointLayout.ldLead3_apply j.val j.isLt x6 i6 d f) (fun d => LibJointLayout.ldLead2_apply j.val j.isLt x7 i7 d)
  rw [subf_apply, jtrPiece_apply x1 _ h3 p l ⟨3 * j.val + l.val, by have := l.isLt; omega⟩ rfl,
    jtrPiece_apply x1 _ hp3 p l ⟨3 * par.val + l.val, by have := l.isLt; omega⟩ rfl, hR1 j l _ rfl, hR1 par l _ rfl]

/-- The root joint at block row p: its bone vector is its own translation lanes. -/
theorem kroot_apply :
    kstage (extractStridedSlice S8192x9 ![0, 9 * j.val] (rots x0) h9) (extractStridedSlice S8192x3 ![0, 3 * j.val] (jtrs x1) h3)
      (extractStridedSlice S8192x3 ![0, 3 * j.val] (jtrs x1) h3) ft
      (View.ld x4 (Rect.unit (s := S24x19x19) ![j.val, 0, 0] S1x19x19.size i4)) (View.ld x5 (Rect.unit (s := S24x19) ![j.val, 0] S1x19.size i5))
      (View.ld x6 (Rect.unit (s := S24x6x19) ![j.val, 0, 0] S1x6x19.size i6)) (View.ld x7 (Rect.unit (s := S24x6) ![j.val, 0] S1x6.size i7)) (ix2 p q)
    = Joint.out (R0 j) (R1 j) (R1 j) (fun l => ft (ix2 p l))
        (fun f g => x4 (ix3 j f g)) (fun f => x5 (ix2 j f)) (fun d f => x6 (ix3 j d f)) (fun d => x7 (ix2 j d)) q := by
  have hj := j.isLt
  exact kstage_rows _ _ _ _ _ _ _ _ p q
    (fun l => (rotPiece_apply x0 _ h9 p l ⟨9 * j.val + l.val, by have := l.isLt; omega⟩ rfl).trans (hR0 j l _ rfl))
    (fun l => (jtrPiece_apply x1 _ h3 p l ⟨3 * j.val + l.val, by have := l.isLt; omega⟩ rfl).trans (hR1 j l _ rfl))
    (fun l => (jtrPiece_apply x1 _ h3 p l ⟨3 * j.val + l.val, by have := l.isLt; omega⟩ rfl).trans (hR1 j l _ rfl))
    (fun _ => rfl)
    (fun f g => LibJointLayout.ldLead3_apply j.val j.isLt x4 i4 f g) (fun f => LibJointLayout.ldLead2_apply j.val j.isLt x5 i5 f)
    (fun d f => LibJointLayout.ldLead3_apply j.val j.isLt x6 i6 d f) (fun d => LibJointLayout.ldLead2_apply j.val j.isLt x7 i7 d)

end joints

end Cert.KernelIdeal.KRead

end
-- ==== Proof.Bridge.lean ====
/-
  The kernel's block against the reference's batch, joint by joint.

  Fix a grid point t.  The block the kernel stages at t holds rows t·8192 ‥ t·8192 + 8191 of the flattened rotations and
  translations, and the whole of every weight array (`Block`).  Then, for every block row p and with r = t·8192 + p:
  the global features agree (the flattened arrays, side by side, through the same affine map); and, walking the
  kinematic tree in index order, joint j's six outputs agree — both are `Joint.out` of row r's rotation and
  translation entries of joint j, the difference from the parent's translation, the j-th weights, and the parent's
  outputs, which agree by the parent's step.  Finally lane 6n + q of the 24 outputs laid side by side is output n at q on
  both sides (the reference lays them in two groups, sixteen then eight), so the kernel's block is block t of the
  reference's result.
-/
import proofs.«118473_j66391604462155_2_alg».proof.Proof.KRead
import proofs.«118473_j66391604462155_2_alg».proof.Proof.RRead
import proofs.«118473_j66391604462155_2_alg».proof.Proof.RTree

noncomputable section

namespace Cert.Bridge

open Idealize.ShloMosaic Idealize.ShloMosaic.ValueIdx

/-- The batch row of block row p at grid point t. -/
def row (t : Fin 16) (p : Fin 8192) : Fin 131072 := ⟨t.val * 8192 + p.val, by have := t.isLt; have := p.isLt; omega⟩

/-- What the windows' blocks at grid point t hold of the argument arrays. -/
structure Block (t : Fin 16) (x0 : Vec Ideal Cert.KernelIdeal.S8192x216 .f32) (x1 : Vec Ideal Cert.KernelIdeal.S8192x72 .f32) (x2 : Vec Ideal Cert.KernelIdeal.S6x288 .f32) (x3 : Vec Ideal Cert.KernelIdeal.S6 .f32) (x4 : Vec Ideal Cert.KernelIdeal.S24x19x19 .f32) (x5 : Vec Ideal Cert.KernelIdeal.S24x19 .f32) (x6 : Vec Ideal Cert.KernelIdeal.S24x6x19 .f32) (x7 : Vec Ideal Cert.KernelIdeal.S24x6 .f32) (a0 : FVec Ideal Cert.ReferenceIdeal.S131072x24x9 .f32) (a1 : FVec Ideal Cert.ReferenceIdeal.S131072x24x3 .f32) (a2 : FVec Ideal Cert.ReferenceIdeal.S6x288 .f32) (a3 : FVec Ideal Cert.ReferenceIdeal.S6 .f32) (a4 : FVec Ideal Cert.ReferenceIdeal.S24x19x19 .f32) (a5 : FVec Ideal Cert.ReferenceIdeal.S24x19 .f32) (a6 : FVec Ideal Cert.ReferenceIdeal.S24x6x19 .f32) (a7 : FVec Ideal Cert.ReferenceIdeal.S24x6 .f32) : Prop where
  h0 : ∀ (p : Fin 8192) (k : Fin 216), x0 (ix2 p k) = Cert.ReferenceIdeal.RRead.rotRow a0 (row t p) k
  h1 : ∀ (p : Fin 8192) (k : Fin 72), x1 (ix2 p k) = Cert.ReferenceIdeal.RRead.jtrRow a1 (row t p) k
  h2 : ∀ (d : Fin 6) (k : Fin 288), x2 (ix2 d k) = a2 (ix2 d k)
  h3 : ∀ d : Fin 6, x3 (ix1 d) = a3 (ix1 d)
  h4 : ∀ (j : Fin 24) (f g : Fin 19), x4 (ix3 j f g) = a4 (ix3 j f g)
  h5 : ∀ (j : Fin 24) (f : Fin 19), x5 (ix2 j f) = a5 (ix2 j f)
  h6 : ∀ (j : Fin 24) (d : Fin 6) (f : Fin 19), x6 (ix3 j d f) = a6 (ix3 j d f)
  h7 : ∀ (j : Fin 24) (d : Fin 6), x7 (ix2 j d) = a7 (ix2 j d)

/-- Two joints with the same row data up to the features and the weights, entry by entry, have the same outputs. -/
theorem out_congr {rot : Fin 9 → EReal} {jtr dif : Fin 3 → EReal} {ft ft' : Fin 6 → EReal}
    {w1 w1' : Fin 19 → Fin 19 → EReal} {b1 b1' : Fin 19 → EReal} {w2 w2' : Fin 6 → Fin 19 → EReal} {b2 b2' : Fin 6 → EReal}
    (hft : ∀ l, ft l = ft' l) (h4 : ∀ f g, w1 f g = w1' f g) (h5 : ∀ f, b1 f = b1' f) (h6 : ∀ d f, w2 d f = w2' d f)
    (h7 : ∀ d, b2 d = b2' d) (q : Fin 6) :
    Joint.out rot jtr dif ft w1 b1 w2 b2 q = Joint.out rot jtr dif ft' w1' b1' w2' b2' q := by
  rw [funext hft, funext fun f => funext (h4 f), funext h5, funext fun d => funext (h6 d), funext h7]

section

variable (t : Fin 16) (x0 : Vec Ideal Cert.KernelIdeal.S8192x216 .f32) (x1 : Vec Ideal Cert.KernelIdeal.S8192x72 .f32) (x2 : Vec Ideal Cert.KernelIdeal.S6x288 .f32) (x3 : Vec Ideal Cert.KernelIdeal.S6 .f32) (x4 : Vec Ideal Cert.KernelIdeal.S24x19x19 .f32) (x5 : Vec Ideal Cert.KernelIdeal.S24x19 .f32) (x6 : Vec Ideal Cert.KernelIdeal.S24x6x19 .f32) (x7 : Vec Ideal Cert.KernelIdeal.S24x6 .f32) (a0 : FVec Ideal Cert.ReferenceIdeal.S131072x24x9 .f32) (a1 : FVec Ideal Cert.ReferenceIdeal.S131072x24x3 .f32) (a2 : FVec Ideal Cert.ReferenceIdeal.S6x288 .f32) (a3 : FVec Ideal Cert.ReferenceIdeal.S6 .f32) (a4 : FVec Ideal Cert.ReferenceIdeal.S24x19x19 .f32) (a5 : FVec Ideal Cert.ReferenceIdeal.S24x19 .f32) (a6 : FVec Ideal Cert.ReferenceIdeal.S24x6x19 .f32) (a7 : FVec Ideal Cert.ReferenceIdeal.S24x6 .f32)

/-- Lane 9j + l of the block's rotations at row p is the rotation array at (r, j, l). -/
theorem rot_rows (hb : Block t x0 x1 x2 x3 x4 x5 x6 x7 a0 a1 a2 a3 a4 a5 a6 a7) (p : Fin 8192) :
    ∀ (j : Fin 24) (l : Fin 9) (k : Fin 216), k.val = 9 * j.val + l.val → x0 (ix2 p k) = a0 (ix3 (row t p) j l) := by
  intro j l k hk
  have hl := l.isLt
  refine (hb.h0 p k).trans (congrArg a0 (funext fun c => ?_))
  match c with
  | ⟨0, _⟩ => rfl
  | ⟨1, _⟩ => exact Fin.ext (by show k.val / 9 = j.val; omega)
  | ⟨2, _⟩ => exact Fin.ext (by show k.val % 9 = l.val; omega)

/-- Lane 3j + l of the block's translations at row p is the translation array at (r, j, l). -/
theorem jtr_rows (hb : Block t x0 x1 x2 x3 x4 x5 x6 x7 a0 a1 a2 a3 a4 a5 a6 a7) (p : Fin 8192) :
    ∀ (j : Fin 24) (l : Fin 3) (k : Fin 72), k.val = 3 * j.val + l.val → x1 (ix2 p k) = a1 (ix3 (row t p) j l) := by
  intro j l k hk
  have hl := l.isLt
  refine (hb.h1 p k).trans (congrArg a1 (funext fun c => ?_))
  match c with
  | ⟨0, _⟩ => rfl
  | ⟨1, _⟩ => exact Fin.ext (by show k.val / 3 = j.val; omega)
  | ⟨2, _⟩ => exact Fin.ext (by show k.val % 3 = l.val; omega)

/-- The global features agree row by row. -/
theorem gfeat_eq (hb : Block t x0 x1 x2 x3 x4 x5 x6 x7 a0 a1 a2 a3 a4 a5 a6 a7) (p : Fin 8192) (q : Fin 6) :
    Cert.KernelIdeal.KTree.gfeat x0 x1 x2 x3 (ix2 p q) = Cert.ReferenceIdeal.RRead.gfeat a0 a1 a2 a3 (ix2 (row t p) q) := by
  have hr : Cert.ReferenceIdeal.RRead.gfeat a0 a1 a2 a3 (ix2 (row t p) q) = _ := Cert.ReferenceIdeal.RRead.gfeat_apply a0 a1 a2 a3 (row t p) q
  rw [Cert.KernelIdeal.KRead.gfeat_apply, hr, funext (hb.h0 p), funext (hb.h1 p), funext fun d => funext (hb.h2 d), funext hb.h3]

variable {t x0 x1 x2 x3 x4 x5 x6 x7 a0 a1 a2 a3 a4 a5 a6 a7}

/-- The root: both sides feed it the row's global features. -/
theorem joint0 (hb : Block t x0 x1 x2 x3 x4 x5 x6 x7 a0 a1 a2 a3 a4 a5 a6 a7) (p : Fin 8192) (q : Fin 6) :
    Cert.KernelIdeal.KTree.kout0 x0 x1 x2 x3 x4 x5 x6 x7 (ix2 p q) = Cert.ReferenceIdeal.RTree.rout0 a0 a1 a2 a3 a4 a5 a6 a7 (ix2 (row t p) q) := by
  have hk : Cert.KernelIdeal.KTree.kout0 x0 x1 x2 x3 x4 x5 x6 x7 (ix2 p q) = _ :=
    Cert.KernelIdeal.KRead.kroot_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨0, by omega⟩ : Fin 24) _ _ _ _ _ _ (Cert.KernelIdeal.KTree.gfeat x0 x1 x2 x3) q
  have hr : Cert.ReferenceIdeal.RTree.rout0 a0 a1 a2 a3 a4 a5 a6 a7 (ix2 (row t p) q) = _ :=
    Cert.ReferenceIdeal.RRead.rroot_apply a0 a1 a4 a5 a6 a7 (row t p) (⟨0, by omega⟩ : Fin 24) _ _ _ _ _ _ _ _ (Cert.ReferenceIdeal.RRead.gfeat a0 a1 a2 a3) q
  rw [hk, hr]
  exact out_congr (fun l => gfeat_eq t x0 x1 x2 x3 x4 x5 x6 x7 a0 a1 a2 a3 a4 a5 a6 a7 hb p l) (hb.h4 _) (hb.h5 _) (hb.h6 _) (hb.h7 _) q

theorem joint1 (hb : Block t x0 x1 x2 x3 x4 x5 x6 x7 a0 a1 a2 a3 a4 a5 a6 a7) (p : Fin 8192) (q : Fin 6) :
    Cert.KernelIdeal.KTree.kout1 x0 x1 x2 x3 x4 x5 x6 x7 (ix2 p q) = Cert.ReferenceIdeal.RTree.rout1 a0 a1 a2 a3 a4 a5 a6 a7 (ix2 (row t p) q) := by
  have hk : Cert.KernelIdeal.KTree.kout1 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨1, by omega⟩ : Fin 24) _ _ _ _ _ _ (Cert.KernelIdeal.KTree.kout0 x0 x1 x2 x3 x4 x5 x6 x7) q (⟨0, by omega⟩ : Fin 24) _
  have hr : Cert.ReferenceIdeal.RTree.rout1 a0 a1 a2 a3 a4 a5 a6 a7 (ix2 (row t p) q) = _ :=
    Cert.ReferenceIdeal.RRead.rjoint_apply a0 a1 a4 a5 a6 a7 (row t p) (⟨1, by omega⟩ : Fin 24) _ _ _ _ _ _ _ _ (Cert.ReferenceIdeal.RTree.rout0 a0 a1 a2 a3 a4 a5 a6 a7) q (⟨0, by omega⟩ : Fin 24) _
  rw [hk, hr]
  exact out_congr (fun l => joint0 hb p l) (hb.h4 _) (hb.h5 _) (hb.h6 _) (hb.h7 _) q

theorem joint2 (hb : Block t x0 x1 x2 x3 x4 x5 x6 x7 a0 a1 a2 a3 a4 a5 a6 a7) (p : Fin 8192) (q : Fin 6) :
    Cert.KernelIdeal.KTree.kout2 x0 x1 x2 x3 x4 x5 x6 x7 (ix2 p q) = Cert.ReferenceIdeal.RTree.rout2 a0 a1 a2 a3 a4 a5 a6 a7 (ix2 (row t p) q) := by
  have hk : Cert.KernelIdeal.KTree.kout2 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨2, by omega⟩ : Fin 24) _ _ _ _ _ _ (Cert.KernelIdeal.KTree.kout0 x0 x1 x2 x3 x4 x5 x6 x7) q (⟨0, by omega⟩ : Fin 24) _
  have hr : Cert.ReferenceIdeal.RTree.rout2 a0 a1 a2 a3 a4 a5 a6 a7 (ix2 (row t p) q) = _ :=
    Cert.ReferenceIdeal.RRead.rjoint_apply a0 a1 a4 a5 a6 a7 (row t p) (⟨2, by omega⟩ : Fin 24) _ _ _ _ _ _ _ _ (Cert.ReferenceIdeal.RTree.rout0 a0 a1 a2 a3 a4 a5 a6 a7) q (⟨0, by omega⟩ : Fin 24) _
  rw [hk, hr]
  exact out_congr (fun l => joint0 hb p l) (hb.h4 _) (hb.h5 _) (hb.h6 _) (hb.h7 _) q

theorem joint3 (hb : Block t x0 x1 x2 x3 x4 x5 x6 x7 a0 a1 a2 a3 a4 a5 a6 a7) (p : Fin 8192) (q : Fin 6) :
    Cert.KernelIdeal.KTree.kout3 x0 x1 x2 x3 x4 x5 x6 x7 (ix2 p q) = Cert.ReferenceIdeal.RTree.rout3 a0 a1 a2 a3 a4 a5 a6 a7 (ix2 (row t p) q) := by
  have hk : Cert.KernelIdeal.KTree.kout3 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨3, by omega⟩ : Fin 24) _ _ _ _ _ _ (Cert.KernelIdeal.KTree.kout0 x0 x1 x2 x3 x4 x5 x6 x7) q (⟨0, by omega⟩ : Fin 24) _
  have hr : Cert.ReferenceIdeal.RTree.rout3 a0 a1 a2 a3 a4 a5 a6 a7 (ix2 (row t p) q) = _ :=
    Cert.ReferenceIdeal.RRead.rjoint_apply a0 a1 a4 a5 a6 a7 (row t p) (⟨3, by omega⟩ : Fin 24) _ _ _ _ _ _ _ _ (Cert.ReferenceIdeal.RTree.rout0 a0 a1 a2 a3 a4 a5 a6 a7) q (⟨0, by omega⟩ : Fin 24) _
  rw [hk, hr]
  exact out_congr (fun l => joint0 hb p l) (hb.h4 _) (hb.h5 _) (hb.h6 _) (hb.h7 _) q

theorem joint4 (hb : Block t x0 x1 x2 x3 x4 x5 x6 x7 a0 a1 a2 a3 a4 a5 a6 a7) (p : Fin 8192) (q : Fin 6) :
    Cert.KernelIdeal.KTree.kout4 x0 x1 x2 x3 x4 x5 x6 x7 (ix2 p q) = Cert.ReferenceIdeal.RTree.rout4 a0 a1 a2 a3 a4 a5 a6 a7 (ix2 (row t p) q) := by
  have hk : Cert.KernelIdeal.KTree.kout4 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨4, by omega⟩ : Fin 24) _ _ _ _ _ _ (Cert.KernelIdeal.KTree.kout1 x0 x1 x2 x3 x4 x5 x6 x7) q (⟨1, by omega⟩ : Fin 24) _
  have hr : Cert.ReferenceIdeal.RTree.rout4 a0 a1 a2 a3 a4 a5 a6 a7 (ix2 (row t p) q) = _ :=
    Cert.ReferenceIdeal.RRead.rjoint_apply a0 a1 a4 a5 a6 a7 (row t p) (⟨4, by omega⟩ : Fin 24) _ _ _ _ _ _ _ _ (Cert.ReferenceIdeal.RTree.rout1 a0 a1 a2 a3 a4 a5 a6 a7) q (⟨1, by omega⟩ : Fin 24) _
  rw [hk, hr]
  exact out_congr (fun l => joint1 hb p l) (hb.h4 _) (hb.h5 _) (hb.h6 _) (hb.h7 _) q

theorem joint5 (hb : Block t x0 x1 x2 x3 x4 x5 x6 x7 a0 a1 a2 a3 a4 a5 a6 a7) (p : Fin 8192) (q : Fin 6) :
    Cert.KernelIdeal.KTree.kout5 x0 x1 x2 x3 x4 x5 x6 x7 (ix2 p q) = Cert.ReferenceIdeal.RTree.rout5 a0 a1 a2 a3 a4 a5 a6 a7 (ix2 (row t p) q) := by
  have hk : Cert.KernelIdeal.KTree.kout5 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨5, by omega⟩ : Fin 24) _ _ _ _ _ _ (Cert.KernelIdeal.KTree.kout2 x0 x1 x2 x3 x4 x5 x6 x7) q (⟨2, by omega⟩ : Fin 24) _
  have hr : Cert.ReferenceIdeal.RTree.rout5 a0 a1 a2 a3 a4 a5 a6 a7 (ix2 (row t p) q) = _ :=
    Cert.ReferenceIdeal.RRead.rjoint_apply a0 a1 a4 a5 a6 a7 (row t p) (⟨5, by omega⟩ : Fin 24) _ _ _ _ _ _ _ _ (Cert.ReferenceIdeal.RTree.rout2 a0 a1 a2 a3 a4 a5 a6 a7) q (⟨2, by omega⟩ : Fin 24) _
  rw [hk, hr]
  exact out_congr (fun l => joint2 hb p l) (hb.h4 _) (hb.h5 _) (hb.h6 _) (hb.h7 _) q

theorem joint6 (hb : Block t x0 x1 x2 x3 x4 x5 x6 x7 a0 a1 a2 a3 a4 a5 a6 a7) (p : Fin 8192) (q : Fin 6) :
    Cert.KernelIdeal.KTree.kout6 x0 x1 x2 x3 x4 x5 x6 x7 (ix2 p q) = Cert.ReferenceIdeal.RTree.rout6 a0 a1 a2 a3 a4 a5 a6 a7 (ix2 (row t p) q) := by
  have hk : Cert.KernelIdeal.KTree.kout6 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨6, by omega⟩ : Fin 24) _ _ _ _ _ _ (Cert.KernelIdeal.KTree.kout3 x0 x1 x2 x3 x4 x5 x6 x7) q (⟨3, by omega⟩ : Fin 24) _
  have hr : Cert.ReferenceIdeal.RTree.rout6 a0 a1 a2 a3 a4 a5 a6 a7 (ix2 (row t p) q) = _ :=
    Cert.ReferenceIdeal.RRead.rjoint_apply a0 a1 a4 a5 a6 a7 (row t p) (⟨6, by omega⟩ : Fin 24) _ _ _ _ _ _ _ _ (Cert.ReferenceIdeal.RTree.rout3 a0 a1 a2 a3 a4 a5 a6 a7) q (⟨3, by omega⟩ : Fin 24) _
  rw [hk, hr]
  exact out_congr (fun l => joint3 hb p l) (hb.h4 _) (hb.h5 _) (hb.h6 _) (hb.h7 _) q

theorem joint7 (hb : Block t x0 x1 x2 x3 x4 x5 x6 x7 a0 a1 a2 a3 a4 a5 a6 a7) (p : Fin 8192) (q : Fin 6) :
    Cert.KernelIdeal.KTree.kout7 x0 x1 x2 x3 x4 x5 x6 x7 (ix2 p q) = Cert.ReferenceIdeal.RTree.rout7 a0 a1 a2 a3 a4 a5 a6 a7 (ix2 (row t p) q) := by
  have hk : Cert.KernelIdeal.KTree.kout7 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨7, by omega⟩ : Fin 24) _ _ _ _ _ _ (Cert.KernelIdeal.KTree.kout4 x0 x1 x2 x3 x4 x5 x6 x7) q (⟨4, by omega⟩ : Fin 24) _
  have hr : Cert.ReferenceIdeal.RTree.rout7 a0 a1 a2 a3 a4 a5 a6 a7 (ix2 (row t p) q) = _ :=
    Cert.ReferenceIdeal.RRead.rjoint_apply a0 a1 a4 a5 a6 a7 (row t p) (⟨7, by omega⟩ : Fin 24) _ _ _ _ _ _ _ _ (Cert.ReferenceIdeal.RTree.rout4 a0 a1 a2 a3 a4 a5 a6 a7) q (⟨4, by omega⟩ : Fin 24) _
  rw [hk, hr]
  exact out_congr (fun l => joint4 hb p l) (hb.h4 _) (hb.h5 _) (hb.h6 _) (hb.h7 _) q

theorem joint8 (hb : Block t x0 x1 x2 x3 x4 x5 x6 x7 a0 a1 a2 a3 a4 a5 a6 a7) (p : Fin 8192) (q : Fin 6) :
    Cert.KernelIdeal.KTree.kout8 x0 x1 x2 x3 x4 x5 x6 x7 (ix2 p q) = Cert.ReferenceIdeal.RTree.rout8 a0 a1 a2 a3 a4 a5 a6 a7 (ix2 (row t p) q) := by
  have hk : Cert.KernelIdeal.KTree.kout8 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨8, by omega⟩ : Fin 24) _ _ _ _ _ _ (Cert.KernelIdeal.KTree.kout5 x0 x1 x2 x3 x4 x5 x6 x7) q (⟨5, by omega⟩ : Fin 24) _
  have hr : Cert.ReferenceIdeal.RTree.rout8 a0 a1 a2 a3 a4 a5 a6 a7 (ix2 (row t p) q) = _ :=
    Cert.ReferenceIdeal.RRead.rjoint_apply a0 a1 a4 a5 a6 a7 (row t p) (⟨8, by omega⟩ : Fin 24) _ _ _ _ _ _ _ _ (Cert.ReferenceIdeal.RTree.rout5 a0 a1 a2 a3 a4 a5 a6 a7) q (⟨5, by omega⟩ : Fin 24) _
  rw [hk, hr]
  exact out_congr (fun l => joint5 hb p l) (hb.h4 _) (hb.h5 _) (hb.h6 _) (hb.h7 _) q

theorem joint9 (hb : Block t x0 x1 x2 x3 x4 x5 x6 x7 a0 a1 a2 a3 a4 a5 a6 a7) (p : Fin 8192) (q : Fin 6) :
    Cert.KernelIdeal.KTree.kout9 x0 x1 x2 x3 x4 x5 x6 x7 (ix2 p q) = Cert.ReferenceIdeal.RTree.rout9 a0 a1 a2 a3 a4 a5 a6 a7 (ix2 (row t p) q) := by
  have hk : Cert.KernelIdeal.KTree.kout9 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨9, by omega⟩ : Fin 24) _ _ _ _ _ _ (Cert.KernelIdeal.KTree.kout6 x0 x1 x2 x3 x4 x5 x6 x7) q (⟨6, by omega⟩ : Fin 24) _
  have hr : Cert.ReferenceIdeal.RTree.rout9 a0 a1 a2 a3 a4 a5 a6 a7 (ix2 (row t p) q) = _ :=
    Cert.ReferenceIdeal.RRead.rjoint_apply a0 a1 a4 a5 a6 a7 (row t p) (⟨9, by omega⟩ : Fin 24) _ _ _ _ _ _ _ _ (Cert.ReferenceIdeal.RTree.rout6 a0 a1 a2 a3 a4 a5 a6 a7) q (⟨6, by omega⟩ : Fin 24) _
  rw [hk, hr]
  exact out_congr (fun l => joint6 hb p l) (hb.h4 _) (hb.h5 _) (hb.h6 _) (hb.h7 _) q

theorem joint10 (hb : Block t x0 x1 x2 x3 x4 x5 x6 x7 a0 a1 a2 a3 a4 a5 a6 a7) (p : Fin 8192) (q : Fin 6) :
    Cert.KernelIdeal.KTree.kout10 x0 x1 x2 x3 x4 x5 x6 x7 (ix2 p q) = Cert.ReferenceIdeal.RTree.rout10 a0 a1 a2 a3 a4 a5 a6 a7 (ix2 (row t p) q) := by
  have hk : Cert.KernelIdeal.KTree.kout10 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨10, by omega⟩ : Fin 24) _ _ _ _ _ _ (Cert.KernelIdeal.KTree.kout7 x0 x1 x2 x3 x4 x5 x6 x7) q (⟨7, by omega⟩ : Fin 24) _
  have hr : Cert.ReferenceIdeal.RTree.rout10 a0 a1 a2 a3 a4 a5 a6 a7 (ix2 (row t p) q) = _ :=
    Cert.ReferenceIdeal.RRead.rjoint_apply a0 a1 a4 a5 a6 a7 (row t p) (⟨10, by omega⟩ : Fin 24) _ _ _ _ _ _ _ _ (Cert.ReferenceIdeal.RTree.rout7 a0 a1 a2 a3 a4 a5 a6 a7) q (⟨7, by omega⟩ : Fin 24) _
  rw [hk, hr]
  exact out_congr (fun l => joint7 hb p l) (hb.h4 _) (hb.h5 _) (hb.h6 _) (hb.h7 _) q

theorem joint11 (hb : Block t x0 x1 x2 x3 x4 x5 x6 x7 a0 a1 a2 a3 a4 a5 a6 a7) (p : Fin 8192) (q : Fin 6) :
    Cert.KernelIdeal.KTree.kout11 x0 x1 x2 x3 x4 x5 x6 x7 (ix2 p q) = Cert.ReferenceIdeal.RTree.rout11 a0 a1 a2 a3 a4 a5 a6 a7 (ix2 (row t p) q) := by
  have hk : Cert.KernelIdeal.KTree.kout11 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨11, by omega⟩ : Fin 24) _ _ _ _ _ _ (Cert.KernelIdeal.KTree.kout8 x0 x1 x2 x3 x4 x5 x6 x7) q (⟨8, by omega⟩ : Fin 24) _
  have hr : Cert.ReferenceIdeal.RTree.rout11 a0 a1 a2 a3 a4 a5 a6 a7 (ix2 (row t p) q) = _ :=
    Cert.ReferenceIdeal.RRead.rjoint_apply a0 a1 a4 a5 a6 a7 (row t p) (⟨11, by omega⟩ : Fin 24) _ _ _ _ _ _ _ _ (Cert.ReferenceIdeal.RTree.rout8 a0 a1 a2 a3 a4 a5 a6 a7) q (⟨8, by omega⟩ : Fin 24) _
  rw [hk, hr]
  exact out_congr (fun l => joint8 hb p l) (hb.h4 _) (hb.h5 _) (hb.h6 _) (hb.h7 _) q

theorem joint12 (hb : Block t x0 x1 x2 x3 x4 x5 x6 x7 a0 a1 a2 a3 a4 a5 a6 a7) (p : Fin 8192) (q : Fin 6) :
    Cert.KernelIdeal.KTree.kout12 x0 x1 x2 x3 x4 x5 x6 x7 (ix2 p q) = Cert.ReferenceIdeal.RTree.rout12 a0 a1 a2 a3 a4 a5 a6 a7 (ix2 (row t p) q) := by
  have hk : Cert.KernelIdeal.KTree.kout12 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨12, by omega⟩ : Fin 24) _ _ _ _ _ _ (Cert.KernelIdeal.KTree.kout9 x0 x1 x2 x3 x4 x5 x6 x7) q (⟨9, by omega⟩ : Fin 24) _
  have hr : Cert.ReferenceIdeal.RTree.rout12 a0 a1 a2 a3 a4 a5 a6 a7 (ix2 (row t p) q) = _ :=
    Cert.ReferenceIdeal.RRead.rjoint_apply a0 a1 a4 a5 a6 a7 (row t p) (⟨12, by omega⟩ : Fin 24) _ _ _ _ _ _ _ _ (Cert.ReferenceIdeal.RTree.rout9 a0 a1 a2 a3 a4 a5 a6 a7) q (⟨9, by omega⟩ : Fin 24) _
  rw [hk, hr]
  exact out_congr (fun l => joint9 hb p l) (hb.h4 _) (hb.h5 _) (hb.h6 _) (hb.h7 _) q

theorem joint13 (hb : Block t x0 x1 x2 x3 x4 x5 x6 x7 a0 a1 a2 a3 a4 a5 a6 a7) (p : Fin 8192) (q : Fin 6) :
    Cert.KernelIdeal.KTree.kout13 x0 x1 x2 x3 x4 x5 x6 x7 (ix2 p q) = Cert.ReferenceIdeal.RTree.rout13 a0 a1 a2 a3 a4 a5 a6 a7 (ix2 (row t p) q) := by
  have hk : Cert.KernelIdeal.KTree.kout13 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨13, by omega⟩ : Fin 24) _ _ _ _ _ _ (Cert.KernelIdeal.KTree.kout9 x0 x1 x2 x3 x4 x5 x6 x7) q (⟨9, by omega⟩ : Fin 24) _
  have hr : Cert.ReferenceIdeal.RTree.rout13 a0 a1 a2 a3 a4 a5 a6 a7 (ix2 (row t p) q) = _ :=
    Cert.ReferenceIdeal.RRead.rjoint_apply a0 a1 a4 a5 a6 a7 (row t p) (⟨13, by omega⟩ : Fin 24) _ _ _ _ _ _ _ _ (Cert.ReferenceIdeal.RTree.rout9 a0 a1 a2 a3 a4 a5 a6 a7) q (⟨9, by omega⟩ : Fin 24) _
  rw [hk, hr]
  exact out_congr (fun l => joint9 hb p l) (hb.h4 _) (hb.h5 _) (hb.h6 _) (hb.h7 _) q

theorem joint14 (hb : Block t x0 x1 x2 x3 x4 x5 x6 x7 a0 a1 a2 a3 a4 a5 a6 a7) (p : Fin 8192) (q : Fin 6) :
    Cert.KernelIdeal.KTree.kout14 x0 x1 x2 x3 x4 x5 x6 x7 (ix2 p q) = Cert.ReferenceIdeal.RTree.rout14 a0 a1 a2 a3 a4 a5 a6 a7 (ix2 (row t p) q) := by
  have hk : Cert.KernelIdeal.KTree.kout14 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨14, by omega⟩ : Fin 24) _ _ _ _ _ _ (Cert.KernelIdeal.KTree.kout9 x0 x1 x2 x3 x4 x5 x6 x7) q (⟨9, by omega⟩ : Fin 24) _
  have hr : Cert.ReferenceIdeal.RTree.rout14 a0 a1 a2 a3 a4 a5 a6 a7 (ix2 (row t p) q) = _ :=
    Cert.ReferenceIdeal.RRead.rjoint_apply a0 a1 a4 a5 a6 a7 (row t p) (⟨14, by omega⟩ : Fin 24) _ _ _ _ _ _ _ _ (Cert.ReferenceIdeal.RTree.rout9 a0 a1 a2 a3 a4 a5 a6 a7) q (⟨9, by omega⟩ : Fin 24) _
  rw [hk, hr]
  exact out_congr (fun l => joint9 hb p l) (hb.h4 _) (hb.h5 _) (hb.h6 _) (hb.h7 _) q

theorem joint15 (hb : Block t x0 x1 x2 x3 x4 x5 x6 x7 a0 a1 a2 a3 a4 a5 a6 a7) (p : Fin 8192) (q : Fin 6) :
    Cert.KernelIdeal.KTree.kout15 x0 x1 x2 x3 x4 x5 x6 x7 (ix2 p q) = Cert.ReferenceIdeal.RTree.rout15 a0 a1 a2 a3 a4 a5 a6 a7 (ix2 (row t p) q) := by
  have hk : Cert.KernelIdeal.KTree.kout15 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨15, by omega⟩ : Fin 24) _ _ _ _ _ _ (Cert.KernelIdeal.KTree.kout12 x0 x1 x2 x3 x4 x5 x6 x7) q (⟨12, by omega⟩ : Fin 24) _
  have hr : Cert.ReferenceIdeal.RTree.rout15 a0 a1 a2 a3 a4 a5 a6 a7 (ix2 (row t p) q) = _ :=
    Cert.ReferenceIdeal.RRead.rjoint_apply a0 a1 a4 a5 a6 a7 (row t p) (⟨15, by omega⟩ : Fin 24) _ _ _ _ _ _ _ _ (Cert.ReferenceIdeal.RTree.rout12 a0 a1 a2 a3 a4 a5 a6 a7) q (⟨12, by omega⟩ : Fin 24) _
  rw [hk, hr]
  exact out_congr (fun l => joint12 hb p l) (hb.h4 _) (hb.h5 _) (hb.h6 _) (hb.h7 _) q

theorem joint16 (hb : Block t x0 x1 x2 x3 x4 x5 x6 x7 a0 a1 a2 a3 a4 a5 a6 a7) (p : Fin 8192) (q : Fin 6) :
    Cert.KernelIdeal.KTree.kout16 x0 x1 x2 x3 x4 x5 x6 x7 (ix2 p q) = Cert.ReferenceIdeal.RTree.rout16 a0 a1 a2 a3 a4 a5 a6 a7 (ix2 (row t p) q) := by
  have hk : Cert.KernelIdeal.KTree.kout16 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨16, by omega⟩ : Fin 24) _ _ _ _ _ _ (Cert.KernelIdeal.KTree.kout13 x0 x1 x2 x3 x4 x5 x6 x7) q (⟨13, by omega⟩ : Fin 24) _
  have hr : Cert.ReferenceIdeal.RTree.rout16 a0 a1 a2 a3 a4 a5 a6 a7 (ix2 (row t p) q) = _ :=
    Cert.ReferenceIdeal.RRead.rjoint_apply a0 a1 a4 a5 a6 a7 (row t p) (⟨16, by omega⟩ : Fin 24) _ _ _ _ _ _ _ _ (Cert.ReferenceIdeal.RTree.rout13 a0 a1 a2 a3 a4 a5 a6 a7) q (⟨13, by omega⟩ : Fin 24) _
  rw [hk, hr]
  exact out_congr (fun l => joint13 hb p l) (hb.h4 _) (hb.h5 _) (hb.h6 _) (hb.h7 _) q

theorem joint17 (hb : Block t x0 x1 x2 x3 x4 x5 x6 x7 a0 a1 a2 a3 a4 a5 a6 a7) (p : Fin 8192) (q : Fin 6) :
    Cert.KernelIdeal.KTree.kout17 x0 x1 x2 x3 x4 x5 x6 x7 (ix2 p q) = Cert.ReferenceIdeal.RTree.rout17 a0 a1 a2 a3 a4 a5 a6 a7 (ix2 (row t p) q) := by
  have hk : Cert.KernelIdeal.KTree.kout17 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨17, by omega⟩ : Fin 24) _ _ _ _ _ _ (Cert.KernelIdeal.KTree.kout14 x0 x1 x2 x3 x4 x5 x6 x7) q (⟨14, by omega⟩ : Fin 24) _
  have hr : Cert.ReferenceIdeal.RTree.rout17 a0 a1 a2 a3 a4 a5 a6 a7 (ix2 (row t p) q) = _ :=
    Cert.ReferenceIdeal.RRead.rjoint_apply a0 a1 a4 a5 a6 a7 (row t p) (⟨17, by omega⟩ : Fin 24) _ _ _ _ _ _ _ _ (Cert.ReferenceIdeal.RTree.rout14 a0 a1 a2 a3 a4 a5 a6 a7) q (⟨14, by omega⟩ : Fin 24) _
  rw [hk, hr]
  exact out_congr (fun l => joint14 hb p l) (hb.h4 _) (hb.h5 _) (hb.h6 _) (hb.h7 _) q

theorem joint18 (hb : Block t x0 x1 x2 x3 x4 x5 x6 x7 a0 a1 a2 a3 a4 a5 a6 a7) (p : Fin 8192) (q : Fin 6) :
    Cert.KernelIdeal.KTree.kout18 x0 x1 x2 x3 x4 x5 x6 x7 (ix2 p q) = Cert.ReferenceIdeal.RTree.rout18 a0 a1 a2 a3 a4 a5 a6 a7 (ix2 (row t p) q) := by
  have hk : Cert.KernelIdeal.KTree.kout18 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨18, by omega⟩ : Fin 24) _ _ _ _ _ _ (Cert.KernelIdeal.KTree.kout16 x0 x1 x2 x3 x4 x5 x6 x7) q (⟨16, by omega⟩ : Fin 24) _
  have hr : Cert.ReferenceIdeal.RTree.rout18 a0 a1 a2 a3 a4 a5 a6 a7 (ix2 (row t p) q) = _ :=
    Cert.ReferenceIdeal.RRead.rjoint_apply a0 a1 a4 a5 a6 a7 (row t p) (⟨18, by omega⟩ : Fin 24) _ _ _ _ _ _ _ _ (Cert.ReferenceIdeal.RTree.rout16 a0 a1 a2 a3 a4 a5 a6 a7) q (⟨16, by omega⟩ : Fin 24) _
  rw [hk, hr]
  exact out_congr (fun l => joint16 hb p l) (hb.h4 _) (hb.h5 _) (hb.h6 _) (hb.h7 _) q

theorem joint19 (hb : Block t x0 x1 x2 x3 x4 x5 x6 x7 a0 a1 a2 a3 a4 a5 a6 a7) (p : Fin 8192) (q : Fin 6) :
    Cert.KernelIdeal.KTree.kout19 x0 x1 x2 x3 x4 x5 x6 x7 (ix2 p q) = Cert.ReferenceIdeal.RTree.rout19 a0 a1 a2 a3 a4 a5 a6 a7 (ix2 (row t p) q) := by
  have hk : Cert.KernelIdeal.KTree.kout19 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨19, by omega⟩ : Fin 24) _ _ _ _ _ _ (Cert.KernelIdeal.KTree.kout17 x0 x1 x2 x3 x4 x5 x6 x7) q (⟨17, by omega⟩ : Fin 24) _
  have hr : Cert.ReferenceIdeal.RTree.rout19 a0 a1 a2 a3 a4 a5 a6 a7 (ix2 (row t p) q) = _ :=
    Cert.ReferenceIdeal.RRead.rjoint_apply a0 a1 a4 a5 a6 a7 (row t p) (⟨19, by omega⟩ : Fin 24) _ _ _ _ _ _ _ _ (Cert.ReferenceIdeal.RTree.rout17 a0 a1 a2 a3 a4 a5 a6 a7) q (⟨17, by omega⟩ : Fin 24) _
  rw [hk, hr]
  exact out_congr (fun l => joint17 hb p l) (hb.h4 _) (hb.h5 _) (hb.h6 _) (hb.h7 _) q

theorem joint20 (hb : Block t x0 x1 x2 x3 x4 x5 x6 x7 a0 a1 a2 a3 a4 a5 a6 a7) (p : Fin 8192) (q : Fin 6) :
    Cert.KernelIdeal.KTree.kout20 x0 x1 x2 x3 x4 x5 x6 x7 (ix2 p q) = Cert.ReferenceIdeal.RTree.rout20 a0 a1 a2 a3 a4 a5 a6 a7 (ix2 (row t p) q) := by
  have hk : Cert.KernelIdeal.KTree.kout20 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨20, by omega⟩ : Fin 24) _ _ _ _ _ _ (Cert.KernelIdeal.KTree.kout18 x0 x1 x2 x3 x4 x5 x6 x7) q (⟨18, by omega⟩ : Fin 24) _
  have hr : Cert.ReferenceIdeal.RTree.rout20 a0 a1 a2 a3 a4 a5 a6 a7 (ix2 (row t p) q) = _ :=
    Cert.ReferenceIdeal.RRead.rjoint_apply a0 a1 a4 a5 a6 a7 (row t p) (⟨20, by omega⟩ : Fin 24) _ _ _ _ _ _ _ _ (Cert.ReferenceIdeal.RTree.rout18 a0 a1 a2 a3 a4 a5 a6 a7) q (⟨18, by omega⟩ : Fin 24) _
  rw [hk, hr]
  exact out_congr (fun l => joint18 hb p l) (hb.h4 _) (hb.h5 _) (hb.h6 _) (hb.h7 _) q

theorem joint21 (hb : Block t x0 x1 x2 x3 x4 x5 x6 x7 a0 a1 a2 a3 a4 a5 a6 a7) (p : Fin 8192) (q : Fin 6) :
    Cert.KernelIdeal.KTree.kout21 x0 x1 x2 x3 x4 x5 x6 x7 (ix2 p q) = Cert.ReferenceIdeal.RTree.rout21 a0 a1 a2 a3 a4 a5 a6 a7 (ix2 (row t p) q) := by
  have hk : Cert.KernelIdeal.KTree.kout21 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨21, by omega⟩ : Fin 24) _ _ _ _ _ _ (Cert.KernelIdeal.KTree.kout19 x0 x1 x2 x3 x4 x5 x6 x7) q (⟨19, by omega⟩ : Fin 24) _
  have hr : Cert.ReferenceIdeal.RTree.rout21 a0 a1 a2 a3 a4 a5 a6 a7 (ix2 (row t p) q) = _ :=
    Cert.ReferenceIdeal.RRead.rjoint_apply a0 a1 a4 a5 a6 a7 (row t p) (⟨21, by omega⟩ : Fin 24) _ _ _ _ _ _ _ _ (Cert.ReferenceIdeal.RTree.rout19 a0 a1 a2 a3 a4 a5 a6 a7) q (⟨19, by omega⟩ : Fin 24) _
  rw [hk, hr]
  exact out_congr (fun l => joint19 hb p l) (hb.h4 _) (hb.h5 _) (hb.h6 _) (hb.h7 _) q

theorem joint22 (hb : Block t x0 x1 x2 x3 x4 x5 x6 x7 a0 a1 a2 a3 a4 a5 a6 a7) (p : Fin 8192) (q : Fin 6) :
    Cert.KernelIdeal.KTree.kout22 x0 x1 x2 x3 x4 x5 x6 x7 (ix2 p q) = Cert.ReferenceIdeal.RTree.rout22 a0 a1 a2 a3 a4 a5 a6 a7 (ix2 (row t p) q) := by
  have hk : Cert.KernelIdeal.KTree.kout22 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨22, by omega⟩ : Fin 24) _ _ _ _ _ _ (Cert.KernelIdeal.KTree.kout20 x0 x1 x2 x3 x4 x5 x6 x7) q (⟨20, by omega⟩ : Fin 24) _
  have hr : Cert.ReferenceIdeal.RTree.rout22 a0 a1 a2 a3 a4 a5 a6 a7 (ix2 (row t p) q) = _ :=
    Cert.ReferenceIdeal.RRead.rjoint_apply a0 a1 a4 a5 a6 a7 (row t p) (⟨22, by omega⟩ : Fin 24) _ _ _ _ _ _ _ _ (Cert.ReferenceIdeal.RTree.rout20 a0 a1 a2 a3 a4 a5 a6 a7) q (⟨20, by omega⟩ : Fin 24) _
  rw [hk, hr]
  exact out_congr (fun l => joint20 hb p l) (hb.h4 _) (hb.h5 _) (hb.h6 _) (hb.h7 _) q

theorem joint23 (hb : Block t x0 x1 x2 x3 x4 x5 x6 x7 a0 a1 a2 a3 a4 a5 a6 a7) (p : Fin 8192) (q : Fin 6) :
    Cert.KernelIdeal.KTree.kout23 x0 x1 x2 x3 x4 x5 x6 x7 (ix2 p q) = Cert.ReferenceIdeal.RTree.rout23 a0 a1 a2 a3 a4 a5 a6 a7 (ix2 (row t p) q) := by
  have hk : Cert.KernelIdeal.KTree.kout23 x0 x1 x2 x3 x4 x5 x6 x7 (ix2 p q) = _ :=
    Cert.KernelIdeal.KRead.kjoint_apply x0 x1 x4 x5 x6 x7 p (fun j l => a0 (ix3 (row t p) j l)) (fun j l => a1 (ix3 (row t p) j l))
      (rot_rows t x0 x1 x2 x3 x4 x5 x6 x7 a0 a1 a2 a3 a4 a5 a6 a7 hb p) (jtr_rows t x0 x1 x2 x3 x4 x5 x6 x7 a0 a1 a2 a3 a4 a5 a6 a7 hb p) (⟨23, by omega⟩ : Fin 24) _ _ _ _ _ _ (Cert.KernelIdeal.KTree.kout21 x0 x1 x2 x3 x4 x5 x6 x7) q (⟨21, by omega⟩ : Fin 24) _
  have hr : Cert.ReferenceIdeal.RTree.rout23 a0 a1 a2 a3 a4 a5 a6 a7 (ix2 (row t p) q) = _ :=
    Cert.ReferenceIdeal.RRead.rjoint_apply a0 a1 a4 a5 a6 a7 (row t p) (⟨23, by omega⟩ : Fin 24) _ _ _ _ _ _ _ _ (Cert.ReferenceIdeal.RTree.rout21 a0 a1 a2 a3 a4 a5 a6 a7) q (⟨21, by omega⟩ : Fin 24) _
  rw [hk, hr]
  exact out_congr (fun l => joint21 hb p l) (hb.h4 _) (hb.h5 _) (hb.h6 _) (hb.h7 _) q

end

end Cert.Bridge

end
-- ==== Proof.Lanes.lean ====
/-
  Lane by lane: the kernel's block is block t of the reference's result.

  Both programs lay the 24 six-lane outputs side by side, so lane c of the result holds output c / 6 at lane c % 6; the
  reference joins the first sixteen and the last eight first, so its lanes below 96 come from the first group and the
  rest from the second, 96 lanes back.  With the joint-by-joint equalities, entry (p, c) of the kernel's block at grid
  point t is entry (t·8192 + p, c) of the reference's result.
-/
import proofs.«118473_j66391604462155_2_alg».proof.Proof.Bridge

noncomputable section

namespace Cert.Bridge

open Idealize.ShloMosaic Idealize.ShloMosaic.ValueIdx

/-- The kernel's 24 outputs, by number. -/
def kfun (x0 : Vec Ideal Cert.KernelIdeal.S8192x216 .f32) (x1 : Vec Ideal Cert.KernelIdeal.S8192x72 .f32) (x2 : Vec Ideal Cert.KernelIdeal.S6x288 .f32) (x3 : Vec Ideal Cert.KernelIdeal.S6 .f32) (x4 : Vec Ideal Cert.KernelIdeal.S24x19x19 .f32) (x5 : Vec Ideal Cert.KernelIdeal.S24x19 .f32) (x6 : Vec Ideal Cert.KernelIdeal.S24x6x19 .f32) (x7 : Vec Ideal Cert.KernelIdeal.S24x6 .f32) : Fin 24 → FVec Ideal Cert.KernelIdeal.S8192x6 .f32 := fun n =>
  match n with
  | ⟨0, _⟩ => Cert.KernelIdeal.KTree.kout0 x0 x1 x2 x3 x4 x5 x6 x7
  | ⟨1, _⟩ => Cert.KernelIdeal.KTree.kout1 x0 x1 x2 x3 x4 x5 x6 x7
  | ⟨2, _⟩ => Cert.KernelIdeal.KTree.kout2 x0 x1 x2 x3 x4 x5 x6 x7
  | ⟨3, _⟩ => Cert.KernelIdeal.KTree.kout3 x0 x1 x2 x3 x4 x5 x6 x7
  | ⟨4, _⟩ => Cert.KernelIdeal.KTree.kout4 x0 x1 x2 x3 x4 x5 x6 x7
  | ⟨5, _⟩ => Cert.KernelIdeal.KTree.kout5 x0 x1 x2 x3 x4 x5 x6 x7
  | ⟨6, _⟩ => Cert.KernelIdeal.KTree.kout6 x0 x1 x2 x3 x4 x5 x6 x7
  | ⟨7, _⟩ => Cert.KernelIdeal.KTree.kout7 x0 x1 x2 x3 x4 x5 x6 x7
  | ⟨8, _⟩ => Cert.KernelIdeal.KTree.kout8 x0 x1 x2 x3 x4 x5 x6 x7
  | ⟨9, _⟩ => Cert.KernelIdeal.KTree.kout9 x0 x1 x2 x3 x4 x5 x6 x7
  | ⟨10, _⟩ => Cert.KernelIdeal.KTree.kout10 x0 x1 x2 x3 x4 x5 x6 x7
  | ⟨11, _⟩ => Cert.KernelIdeal.KTree.kout11 x0 x1 x2 x3 x4 x5 x6 x7
  | ⟨12, _⟩ => Cert.KernelIdeal.KTree.kout12 x0 x1 x2 x3 x4 x5 x6 x7
  | ⟨13, _⟩ => Cert.KernelIdeal.KTree.kout13 x0 x1 x2 x3 x4 x5 x6 x7
  | ⟨14, _⟩ => Cert.KernelIdeal.KTree.kout14 x0 x1 x2 x3 x4 x5 x6 x7
  | ⟨15, _⟩ => Cert.KernelIdeal.KTree.kout15 x0 x1 x2 x3 x4 x5 x6 x7
  | ⟨16, _⟩ => Cert.KernelIdeal.KTree.kout16 x0 x1 x2 x3 x4 x5 x6 x7
  | ⟨17, _⟩ => Cert.KernelIdeal.KTree.kout17 x0 x1 x2 x3 x4 x5 x6 x7
  | ⟨18, _⟩ => Cert.KernelIdeal.KTree.kout18 x0 x1 x2 x3 x4 x5 x6 x7
  | ⟨19, _⟩ => Cert.KernelIdeal.KTree.kout19 x0 x1 x2 x3 x4 x5 x6 x7
  | ⟨20, _⟩ => Cert.KernelIdeal.KTree.kout20 x0 x1 x2 x3 x4 x5 x6 x7
  | ⟨21, _⟩ => Cert.KernelIdeal.KTree.kout21 x0 x1 x2 x3 x4 x5 x6 x7
  | ⟨22, _⟩ => Cert.KernelIdeal.KTree.kout22 x0 x1 x2 x3 x4 x5 x6 x7
  | ⟨23, _⟩ => Cert.KernelIdeal.KTree.kout23 x0 x1 x2 x3 x4 x5 x6 x7
  | ⟨k + 24, h⟩ => absurd h (by omega)

/-- The reference's first sixteen outputs, by number. -/
def rfunA (a0 : FVec Ideal Cert.ReferenceIdeal.S131072x24x9 .f32) (a1 : FVec Ideal Cert.ReferenceIdeal.S131072x24x3 .f32) (a2 : FVec Ideal Cert.ReferenceIdeal.S6x288 .f32) (a3 : FVec Ideal Cert.ReferenceIdeal.S6 .f32) (a4 : FVec Ideal Cert.ReferenceIdeal.S24x19x19 .f32) (a5 : FVec Ideal Cert.ReferenceIdeal.S24x19 .f32) (a6 : FVec Ideal Cert.ReferenceIdeal.S24x6x19 .f32) (a7 : FVec Ideal Cert.ReferenceIdeal.S24x6 .f32) : Fin 16 → FVec Ideal Cert.ReferenceIdeal.S131072x6 .f32 := fun n =>
  match n with
  | ⟨0, _⟩ => Cert.ReferenceIdeal.RTree.rout0 a0 a1 a2 a3 a4 a5 a6 a7
  | ⟨1, _⟩ => Cert.ReferenceIdeal.RTree.rout1 a0 a1 a2 a3 a4 a5 a6 a7
  | ⟨2, _⟩ => Cert.ReferenceIdeal.RTree.rout2 a0 a1 a2 a3 a4 a5 a6 a7
  | ⟨3, _⟩ => Cert.ReferenceIdeal.RTree.rout3 a0 a1 a2 a3 a4 a5 a6 a7
  | ⟨4, _⟩ => Cert.ReferenceIdeal.RTree.rout4 a0 a1 a2 a3 a4 a5 a6 a7
  | ⟨5, _⟩ => Cert.ReferenceIdeal.RTree.rout5 a0 a1 a2 a3 a4 a5 a6 a7
  | ⟨6, _⟩ => Cert.ReferenceIdeal.RTree.rout6 a0 a1 a2 a3 a4 a5 a6 a7
  | ⟨7, _⟩ => Cert.ReferenceIdeal.RTree.rout7 a0 a1 a2 a3 a4 a5 a6 a7
  | ⟨8, _⟩ => Cert.ReferenceIdeal.RTree.rout8 a0 a1 a2 a3 a4 a5 a6 a7
  | ⟨9, _⟩ => Cert.ReferenceIdeal.RTree.rout9 a0 a1 a2 a3 a4 a5 a6 a7
  | ⟨10, _⟩ => Cert.ReferenceIdeal.RTree.rout10 a0 a1 a2 a3 a4 a5 a6 a7
  | ⟨11, _⟩ => Cert.ReferenceIdeal.RTree.rout11 a0 a1 a2 a3 a4 a5 a6 a7
  | ⟨12, _⟩ => Cert.ReferenceIdeal.RTree.rout12 a0 a1 a2 a3 a4 a5 a6 a7
  | ⟨13, _⟩ => Cert.ReferenceIdeal.RTree.rout13 a0 a1 a2 a3 a4 a5 a6 a7
  | ⟨14, _⟩ => Cert.ReferenceIdeal.RTree.rout14 a0 a1 a2 a3 a4 a5 a6 a7
  | ⟨15, _⟩ => Cert.ReferenceIdeal.RTree.rout15 a0 a1 a2 a3 a4 a5 a6 a7
  | ⟨k + 16, h⟩ => absurd h (by omega)

/-- The reference's last eight outputs, by number. -/
def rfunB (a0 : FVec Ideal Cert.ReferenceIdeal.S131072x24x9 .f32) (a1 : FVec Ideal Cert.ReferenceIdeal.S131072x24x3 .f32) (a2 : FVec Ideal Cert.ReferenceIdeal.S6x288 .f32) (a3 : FVec Ideal Cert.ReferenceIdeal.S6 .f32) (a4 : FVec Ideal Cert.ReferenceIdeal.S24x19x19 .f32) (a5 : FVec Ideal Cert.ReferenceIdeal.S24x19 .f32) (a6 : FVec Ideal Cert.ReferenceIdeal.S24x6x19 .f32) (a7 : FVec Ideal Cert.ReferenceIdeal.S24x6 .f32) : Fin 8 → FVec Ideal Cert.ReferenceIdeal.S131072x6 .f32 := fun n =>
  match n with
  | ⟨0, _⟩ => Cert.ReferenceIdeal.RTree.rout16 a0 a1 a2 a3 a4 a5 a6 a7
  | ⟨1, _⟩ => Cert.ReferenceIdeal.RTree.rout17 a0 a1 a2 a3 a4 a5 a6 a7
  | ⟨2, _⟩ => Cert.ReferenceIdeal.RTree.rout18 a0 a1 a2 a3 a4 a5 a6 a7
  | ⟨3, _⟩ => Cert.ReferenceIdeal.RTree.rout19 a0 a1 a2 a3 a4 a5 a6 a7
  | ⟨4, _⟩ => Cert.ReferenceIdeal.RTree.rout20 a0 a1 a2 a3 a4 a5 a6 a7
  | ⟨5, _⟩ => Cert.ReferenceIdeal.RTree.rout21 a0 a1 a2 a3 a4 a5 a6 a7
  | ⟨6, _⟩ => Cert.ReferenceIdeal.RTree.rout22 a0 a1 a2 a3 a4 a5 a6 a7
  | ⟨7, _⟩ => Cert.ReferenceIdeal.RTree.rout23 a0 a1 a2 a3 a4 a5 a6 a7
  | ⟨k + 8, h⟩ => absurd h (by omega)

section

variable (t : Fin 16) (x0 : Vec Ideal Cert.KernelIdeal.S8192x216 .f32) (x1 : Vec Ideal Cert.KernelIdeal.S8192x72 .f32) (x2 : Vec Ideal Cert.KernelIdeal.S6x288 .f32) (x3 : Vec Ideal Cert.KernelIdeal.S6 .f32) (x4 : Vec Ideal Cert.KernelIdeal.S24x19x19 .f32) (x5 : Vec Ideal Cert.KernelIdeal.S24x19 .f32) (x6 : Vec Ideal Cert.KernelIdeal.S24x6x19 .f32) (x7 : Vec Ideal Cert.KernelIdeal.S24x6 .f32) (a0 : FVec Ideal Cert.ReferenceIdeal.S131072x24x9 .f32) (a1 : FVec Ideal Cert.ReferenceIdeal.S131072x24x3 .f32) (a2 : FVec Ideal Cert.ReferenceIdeal.S6x288 .f32) (a3 : FVec Ideal Cert.ReferenceIdeal.S6 .f32) (a4 : FVec Ideal Cert.ReferenceIdeal.S24x19x19 .f32) (a5 : FVec Ideal Cert.ReferenceIdeal.S24x19 .f32) (a6 : FVec Ideal Cert.ReferenceIdeal.S24x6x19 .f32) (a7 : FVec Ideal Cert.ReferenceIdeal.S24x6 .f32)

theorem kblock_ofFn :
    Cert.KernelIdeal.KTree.outBlock x0 x1 x2 x3 x4 x5 x6 x7
      = concatenate Cert.KernelIdeal.S8192x144 1 (List.ofFn fun n : Fin 24 => (⟨Cert.KernelIdeal.S8192x6, kfun x0 x1 x2 x3 x4 x5 x6 x7 n⟩ : (s : Shape) × (s.Idx → Ideal .f32)))
          Cert.KernelIdeal.Facts₀.concatenates_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x6_S8192x144_d1 := rfl

theorem groupA_ofFn :
    Cert.ReferenceIdeal.RTree.groupA a0 a1 a2 a3 a4 a5 a6 a7
      = concatenate Cert.ReferenceIdeal.S131072x96 1 (List.ofFn fun n : Fin 16 => (⟨Cert.ReferenceIdeal.S131072x6, rfunA a0 a1 a2 a3 a4 a5 a6 a7 n⟩ : (s : Shape) × (s.Idx → Ideal .f32)))
          Cert.ReferenceIdeal.Facts₀.concatenates_S131072x6_S131072x6_S131072x6_S131072x6_S131072x6_S131072x6_S131072x6_S131072x6_S131072x6_S131072x6_S131072x6_S131072x6_S131072x6_S131072x6_S131072x6_S131072x6_S131072x96_d1 := rfl

theorem groupB_ofFn :
    Cert.ReferenceIdeal.RTree.groupB a0 a1 a2 a3 a4 a5 a6 a7
      = concatenate Cert.ReferenceIdeal.S131072x48 1 (List.ofFn fun n : Fin 8 => (⟨Cert.ReferenceIdeal.S131072x6, rfunB a0 a1 a2 a3 a4 a5 a6 a7 n⟩ : (s : Shape) × (s.Idx → Ideal .f32)))
          Cert.ReferenceIdeal.Facts₀.concatenates_S131072x6_S131072x6_S131072x6_S131072x6_S131072x6_S131072x6_S131072x6_S131072x6_S131072x48_d1 := rfl

/-- Lane c of the kernel's block is output c / 6 at lane c % 6. -/
theorem kblock_apply (p : Fin 8192) (c : Fin 144) :
    Cert.KernelIdeal.KTree.outBlock x0 x1 x2 x3 x4 x5 x6 x7 (ix2 p c)
      = kfun x0 x1 x2 x3 x4 x5 x6 x7 ⟨c.val / 6, by have := c.isLt; omega⟩ (ix2 p (⟨c.val % 6, by omega⟩ : Fin 6)) := by
  rw [kblock_ofFn]
  exact concatenate_ofFn_apply (t := Cert.KernelIdeal.S8192x144) (s₁ := Cert.KernelIdeal.S8192x6) 1 (kfun x0 x1 x2 x3 x4 x5 x6 x7) _ rfl 6 rfl (ix2 p c) ⟨c.val / 6, by have := c.isLt; omega⟩ rfl
    (ix2 p (⟨c.val % 6, by omega⟩ : Fin 6)) rfl (fun b hb => by
      match b with
      | ⟨0, _⟩ => rfl
      | ⟨1, _⟩ => exact absurd rfl hb)

/-- Lane c of the first group is output c / 6 at lane c % 6. -/
theorem groupA_apply (r : Fin 131072) (c : Fin 96) :
    Cert.ReferenceIdeal.RTree.groupA a0 a1 a2 a3 a4 a5 a6 a7 (ix2 r c)
      = rfunA a0 a1 a2 a3 a4 a5 a6 a7 ⟨c.val / 6, by have := c.isLt; omega⟩ (ix2 r (⟨c.val % 6, by omega⟩ : Fin 6)) := by
  rw [groupA_ofFn]
  exact concatenate_ofFn_apply (t := Cert.ReferenceIdeal.S131072x96) (s₁ := Cert.ReferenceIdeal.S131072x6) 1 (rfunA a0 a1 a2 a3 a4 a5 a6 a7) _ rfl 6 rfl (ix2 r c) ⟨c.val / 6, by have := c.isLt; omega⟩ rfl
    (ix2 r (⟨c.val % 6, by omega⟩ : Fin 6)) rfl (fun b hb => by
      match b with
      | ⟨0, _⟩ => rfl
      | ⟨1, _⟩ => exact absurd rfl hb)

/-- Lane c of the second group is output 16 + c / 6 at lane c % 6. -/
theorem groupB_apply (r : Fin 131072) (c : Fin 48) :
    Cert.ReferenceIdeal.RTree.groupB a0 a1 a2 a3 a4 a5 a6 a7 (ix2 r c)
      = rfunB a0 a1 a2 a3 a4 a5 a6 a7 ⟨c.val / 6, by have := c.isLt; omega⟩ (ix2 r (⟨c.val % 6, by omega⟩ : Fin 6)) := by
  rw [groupB_ofFn]
  exact concatenate_ofFn_apply (t := Cert.ReferenceIdeal.S131072x48) (s₁ := Cert.ReferenceIdeal.S131072x6) 1 (rfunB a0 a1 a2 a3 a4 a5 a6 a7) _ rfl 6 rfl (ix2 r c) ⟨c.val / 6, by have := c.isLt; omega⟩ rfl
    (ix2 r (⟨c.val % 6, by omega⟩ : Fin 6)) rfl (fun b hb => by
      match b with
      | ⟨0, _⟩ => rfl
      | ⟨1, _⟩ => exact absurd rfl hb)

variable {t x0 x1 x2 x3 x4 x5 x6 x7 a0 a1 a2 a3 a4 a5 a6 a7}

/-- The first sixteen outputs agree, by number. -/
theorem outsA (hb : Block t x0 x1 x2 x3 x4 x5 x6 x7 a0 a1 a2 a3 a4 a5 a6 a7) (p : Fin 8192) (q : Fin 6) :
    ∀ n : Fin 16, kfun x0 x1 x2 x3 x4 x5 x6 x7 ⟨n.val, by have := n.isLt; omega⟩ (ix2 p q) = rfunA a0 a1 a2 a3 a4 a5 a6 a7 n (ix2 (row t p) q) := fun n =>
  match n with
  | ⟨0, _⟩ => joint0 hb p q
  | ⟨1, _⟩ => joint1 hb p q
  | ⟨2, _⟩ => joint2 hb p q
  | ⟨3, _⟩ => joint3 hb p q
  | ⟨4, _⟩ => joint4 hb p q
  | ⟨5, _⟩ => joint5 hb p q
  | ⟨6, _⟩ => joint6 hb p q
  | ⟨7, _⟩ => joint7 hb p q
  | ⟨8, _⟩ => joint8 hb p q
  | ⟨9, _⟩ => joint9 hb p q
  | ⟨10, _⟩ => joint10 hb p q
  | ⟨11, _⟩ => joint11 hb p q
  | ⟨12, _⟩ => joint12 hb p q
  | ⟨13, _⟩ => joint13 hb p q
  | ⟨14, _⟩ => joint14 hb p q
  | ⟨15, _⟩ => joint15 hb p q
  | ⟨k + 16, h⟩ => absurd h (by omega)

/-- The last eight outputs agree, by number. -/
theorem outsB (hb : Block t x0 x1 x2 x3 x4 x5 x6 x7 a0 a1 a2 a3 a4 a5 a6 a7) (p : Fin 8192) (q : Fin 6) :
    ∀ n : Fin 8, kfun x0 x1 x2 x3 x4 x5 x6 x7 ⟨16 + n.val, by have := n.isLt; omega⟩ (ix2 p q) = rfunB a0 a1 a2 a3 a4 a5 a6 a7 n (ix2 (row t p) q) := fun n =>
  match n with
  | ⟨0, _⟩ => joint16 hb p q
  | ⟨1, _⟩ => joint17 hb p q
  | ⟨2, _⟩ => joint18 hb p q
  | ⟨3, _⟩ => joint19 hb p q
  | ⟨4, _⟩ => joint20 hb p q
  | ⟨5, _⟩ => joint21 hb p q
  | ⟨6, _⟩ => joint22 hb p q
  | ⟨7, _⟩ => joint23 hb p q
  | ⟨k + 8, h⟩ => absurd h (by omega)

/-- The kernel's block at grid point t is block t of the reference's result. -/
theorem block_eq (hb : Block t x0 x1 x2 x3 x4 x5 x6 x7 a0 a1 a2 a3 a4 a5 a6 a7) (p : Fin 8192) (c : Fin 144) :
    Cert.KernelIdeal.KTree.outBlock x0 x1 x2 x3 x4 x5 x6 x7 (ix2 p c) = Cert.ReferenceIdeal.RTree.result a0 a1 a2 a3 a4 a5 a6 a7 (ix2 (row t p) c) := by
  have hc := c.isLt
  rw [kblock_apply]
  refine Eq.trans ?_ (LibConcat2.apply (Cert.ReferenceIdeal.RTree.groupA a0 a1 a2 a3 a4 a5 a6 a7) (Cert.ReferenceIdeal.RTree.groupB a0 a1 a2 a3 a4 a5 a6 a7)
    Cert.ReferenceIdeal.Facts₀.concatenates_S131072x96_S131072x48_S131072x144_d1 rfl (row t p) c).symm
  by_cases h1 : c.val < 96
  · rw [dif_pos h1, groupA_apply]
    exact outsA hb p _ ⟨c.val / 6, by omega⟩
  · rw [dif_neg h1, groupB_apply]
    have e : (⟨c.val / 6, by omega⟩ : Fin 24) = ⟨16 + (c.val - 96) / 6, by omega⟩ := Fin.ext (by show c.val / 6 = 16 + (c.val - 96) / 6; omega)
    have e' : (⟨c.val % 6, by omega⟩ : Fin 6) = ⟨(c.val - 96) % 6, by omega⟩ := Fin.ext (by show c.val % 6 = (c.val - 96) % 6; omega)
    rw [e, e']
    exact outsB hb p _ ⟨(c.val - 96) / 6, by omega⟩

end

end Cert.Bridge

end
-- ==== Proof.KRun.lean ====
/-
  From the body's block to the whole output array, and the kernel's run.

  At grid point t the rotation and translation windows stage rows t·8192 ‥ t·8192 + 8191 of the two flattened arrays (the
  host reshapes them before the call: entry (r, 9j + l) of the first is the argument at (r, j, l)), the six weight windows
  stage their whole arrays, and the output window's block is rows t·8192 ‥ of the [131072, 144] result.  By the bridge the
  block the body leaves is block t of `G`, the reference's result as a function of the argument arrays; the sixteen
  blocks cover the result array (row i lies in block i / 8192), so after the run the array is `G`.
-/
import proofs.«118473_j66391604462155_2_alg».proof.Proof.Gen.KernelIdeal.Frame
import proofs.«118473_j66391604462155_2_alg».proof.Proof.Lanes
import Idealize.ShloMosaic.Lib.Pipeline.Value
import Idealize.ShloMosaic.Lib.StableHlo.Run

noncomputable section

namespace Cert.KernelIdeal.KRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The reference's result as a function of this program's argument arrays. -/
abbrev G (c : Dev nD) : FVec Ideal S131072x144 .f32 :=
  Cert.ReferenceIdeal.RTree.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The printed index maps over the sixteen grid points: the three batch-tiled windows sit at block (t, 0), the weight
    windows at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The grid point as a number below sixteen. -/
def pt (t : Fin cfg0.N) : Fin 16 := ⟨t.val, lt_of_lt_of_eq t.isLt N_0⟩

/-- The region finds the flattened rotations in `main_v0`. -/
theorem V_main_v0 (c : Dev nD) :
    (V m c main_v0 : FVec Ideal S131072x216 .f32) = shapeCast S131072x216 (m ((c : Thread nD τ).loc main_arg0)) shapeCasts_S131072x24x9_S131072x216 := by
  dsimp only [Gen.V, hostOps0]; after_results; rfl

/-- The region finds the flattened translations in `main_v1`. -/
theorem V_main_v1 (c : Dev nD) :
    (V m c main_v1 : FVec Ideal S131072x72 .f32) = shapeCast S131072x72 (m ((c : Thread nD τ).loc main_arg1)) shapeCasts_S131072x24x3_S131072x72 := by
  dsimp only [Gen.V, hostOps0]; after_results; rfl

/-- What the input windows' blocks at grid point t hold of the argument arrays. -/
theorem block (c : Dev nD) (t : Fin cfg0.N) :
    Cert.Bridge.Block (pt t) (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨e00, e01, e10, e11, e20, e21, e30, e40, e41, e42, e50, e51, e60, e61, e62, e70, e71, -, -⟩ := idx_facts t
  refine ⟨fun p k => ?_, fun p k => ?_, fun d k => ?_, fun d => ?_, fun j f g => ?_, fun j f => ?_, fun j d f => ?_, fun j d => ?_⟩
  · have he : ((cfg0.win 0).blk t).view.emb (ix2 p k) = ix2 (Cert.Bridge.row (pt t) p) k := by
      funext a; apply Fin.ext
      match a with
      | ⟨0, _⟩ => show win0_0.index t (0 : Fin 2) * 8192 + 1 * p.val = t.val * 8192 + p.val; omega
      | ⟨1, _⟩ => show win0_0.index t (1 : Fin 2) * 216 + 1 * k.val = k.val; omega
    have hk := k.isLt
    refine (congrArg (V m c main_v0) he).trans ?_
    rw [V_main_v0]
    exact LibJointLayout.flatten_apply _ _ _ ⟨k.val / 9, by omega⟩ ⟨k.val % 9, by omega⟩ k
      (by show k.val = k.val / 9 * 9 + k.val % 9; omega) rfl
  · have he : ((cfg0.win 1).blk t).view.emb (ix2 p k) = ix2 (Cert.Bridge.row (pt t) p) k := by
      funext a; apply Fin.ext
      match a with
      | ⟨0, _⟩ => show win0_1.index t (0 : Fin 2) * 8192 + 1 * p.val = t.val * 8192 + p.val; omega
      | ⟨1, _⟩ => show win0_1.index t (1 : Fin 2) * 72 + 1 * k.val = k.val; omega
    have hk := k.isLt
    refine (congrArg (V m c main_v1) he).trans ?_
    rw [V_main_v1]
    exact LibJointLayout.flatten_apply _ _ _ ⟨k.val / 3, by omega⟩ ⟨k.val % 3, by omega⟩ k
      (by show k.val = k.val / 3 * 3 + k.val % 3; omega) rfl
  · have he : ((cfg0.win 2).blk t).view.emb (ix2 d k) = ix2 d k := by
      funext a; apply Fin.ext
      match a with
      | ⟨0, _⟩ => show win0_2.index t (0 : Fin 2) * 6 + 1 * d.val = d.val; omega
      | ⟨1, _⟩ => show win0_2.index t (1 : Fin 2) * 288 + 1 * k.val = k.val; omega
    exact (congrArg (V m c main_arg2) he).trans (congrFun (V_main_arg2 m c) _)
  · have he : ((cfg0.win 3).blk t).view.emb (ix1 d) = ix1 d := by
      funext a; apply Fin.ext
      match a with
      | ⟨0, _⟩ => show win0_3.index t (0 : Fin 1) * 6 + 1 * d.val = d.val; omega
    exact (congrArg (V m c main_arg3) he).trans (congrFun (V_main_arg3 m c) _)
  · have he : ((cfg0.win 4).blk t).view.emb (ix3 j f g) = ix3 j f g := by
      funext a; apply Fin.ext
      match a with
      | ⟨0, _⟩ => show win0_4.index t (0 : Fin 3) * 24 + 1 * j.val = j.val; omega
      | ⟨1, _⟩ => show win0_4.index t (1 : Fin 3) * 19 + 1 * f.val = f.val; omega
      | ⟨2, _⟩ => show win0_4.index t (2 : Fin 3) * 19 + 1 * g.val = g.val; omega
    exact (congrArg (V m c main_arg4) he).trans (congrFun (V_main_arg4 m c) _)
  · have he : ((cfg0.win 5).blk t).view.emb (ix2 j f) = ix2 j f := by
      funext a; apply Fin.ext
      match a with
      | ⟨0, _⟩ => show win0_5.index t (0 : Fin 2) * 24 + 1 * j.val = j.val; omega
      | ⟨1, _⟩ => show win0_5.index t (1 : Fin 2) * 19 + 1 * f.val = f.val; omega
    exact (congrArg (V m c main_arg5) he).trans (congrFun (V_main_arg5 m c) _)
  · have he : ((cfg0.win 6).blk t).view.emb (ix3 j d f) = ix3 j d f := by
      funext a; apply Fin.ext
      match a with
      | ⟨0, _⟩ => show win0_6.index t (0 : Fin 3) * 24 + 1 * j.val = j.val; omega
      | ⟨1, _⟩ => show win0_6.index t (1 : Fin 3) * 6 + 1 * d.val = d.val; omega
      | ⟨2, _⟩ => show win0_6.index t (2 : Fin 3) * 19 + 1 * f.val = f.val; omega
    exact (congrArg (V m c main_arg6) he).trans (congrFun (V_main_arg6 m c) _)
  · have he : ((cfg0.win 7).blk t).view.emb (ix2 j d) = ix2 j d := by
      funext a; apply Fin.ext
      match a with
      | ⟨0, _⟩ => show win0_7.index t (0 : Fin 2) * 24 + 1 * j.val = j.val; omega
      | ⟨1, _⟩ => show win0_7.index t (1 : Fin 2) * 6 + 1 * d.val = d.val; omega
    exact (congrArg (V m c main_arg7) he).trans (congrFun (V_main_arg7 m c) _)

/-- What grid point t writes back is block t of `G`. -/
theorem flushed8_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8, Cert.KernelIdeal.KTree.out_eq]
  obtain ⟨-, -, -, -, -, -, -, -, -, -, -, -, -, -, -, -, -, e80, e81⟩ := idx_facts t
  funext y
  have hy : y = ix2 (⟨(y 0).val, (y 0).isLt⟩ : Fin 8192) (⟨(y 1).val, (y 1).isLt⟩ : Fin 144) := by
    funext a; match a with | ⟨0, _⟩ => rfl | ⟨1, _⟩ => rfl
  rw [hy]
  generalize (⟨(y 0).val, (y 0).isLt⟩ : Fin 8192) = p
  generalize (⟨(y 1).val, (y 1).isLt⟩ : Fin 144) = q
  have he : ((cfg0.win 8).blk t).view.emb (ix2 p q) = ix2 (Cert.Bridge.row (pt t) p) q := by
    funext a; apply Fin.ext
    match a with
    | ⟨0, _⟩ => show win0_8.index t (0 : Fin 2) * 8192 + 1 * p.val = t.val * 8192 + p.val; omega
    | ⟨1, _⟩ => show win0_8.index t (1 : Fin 2) * 144 + 1 * q.val = q.val; omega
  show Cert.KernelIdeal.KTree.outBlock (iblk m c 0 t) (iblk m c 1 t) (iblk m c 2 t) (iblk m c 3 t) (iblk m c 4 t) (iblk m c 5 t) (iblk m c 6 t) (iblk m c 7 t) (ix2 p q) = G m c (((cfg0.win 8).blk t).view.emb (ix2 p q))
  rw [he]
  exact Cert.Bridge.block_eq (block m c t) p q

/-- An index of the result array is in point t's block iff each coordinate is in the block's range on its axis. -/
theorem mem_blk8 (t : Fin cfg0.N) (i : S131072x144.Idx) :
    i ∈ ((cfg0.win 8).blk t).view.set ↔ ∀ a : Fin 2, win0_8.index t a * S8192x144.size a ≤ (i a).val ∧ (i a).val < win0_8.index t a * S8192x144.size a + S8192x144.size a := by
  show i ∈ ((View.whole main_v2).slice (win0_8.rect t)).set ↔ _
  rw [View.set_slice_whole, Rect.mem_set_unit]
  exact Iff.rfl

/-- Every index of the result array is in some point's block: row i is in block i / 8192. -/
theorem cover (i : S131072x144.Idx) : ∃ t : Fin cfg0.N, (cfg0.win 8).flush t = true ∧ i ∈ ((cfg0.win 8).blk t).view.set := by
  have h0 : (i 0).val < 131072 := (i 0).isLt
  have h1 : (i 1).val < 144 := (i 1).isLt
  let t : Fin cfg0.N := ⟨(i 0).val / 8192, by show (i 0).val / 8192 < grid0.N; rw [N_0]; omega⟩
  obtain ⟨-, -, -, -, -, -, -, -, -, -, -, -, -, -, -, -, -, e80, e81⟩ := idx_facts t
  have ht : t.val = (i 0).val / 8192 := rfl
  refine ⟨t, flush0_8 t, ?_⟩
  rw [mem_blk8]
  intro a
  match a with
  | ⟨0, _⟩ => show win0_8.index t (0 : Fin 2) * 8192 ≤ (i 0).val ∧ (i 0).val < win0_8.index t (0 : Fin 2) * 8192 + 8192; omega
  | ⟨1, _⟩ => show win0_8.index t (1 : Fin 2) * 144 ≤ (i 1).val ∧ (i 1).val < win0_8.index t (1 : Fin 2) * 144 + 144; omega

/-- The result array after the run is `G`. -/
theorem final8 (c : Dev nD) : (dats m 0 c).arrAt 8 cfg0.N = G m c :=
  (dats m 0 c).arrAt_eq_of_cover 8 (G m c) (fun t _ => flushed8_eq m c t) cover

/-- The kernel's run: every weakly fair execution terminates with the result array at `G` of the argument arrays
    and the argument arrays as launched. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.KRun

end
-- ==== Proof.lean ====
/-
  The certificate of the per-joint pose-encoder kernel against its jnp reference.

  Both programs compute, for each of 131072 batch rows, six global features (an affine map of the row's 216 rotation
  and 72 translation entries) and then, along the 24-joint kinematic tree in index order, six outputs per joint: the
  joint's nine rotation entries, three translation entries, its bone length (the Euclidean length of its translation,
  or of the difference from its parent's), and the parent's outputs (the root: the global features) go through an
  affine map 19 → 19, a clamp at zero, and an affine map 19 → 6.  The result lays the 24 × 6 outputs side by side.
  The kernel does this on blocks of 8192 rows of the flattened arrays, slicing lanes; the reference on the whole
  batch, slicing the joint axis.  On the extended reals every operation of the two is the same function of the same
  row data (`Joint.out`, `Joint.gfeatRow`), so the results are equal entry by entry with no hypothesis on the inputs:
  the kernel's array after its run is the reference's result term of the argument arrays (`KRun.run`), and the
  reference's run ends at that term.  No operation of the kernel is rewritten by the idealization, so `preserves` is
  trivial; the kernels' frames are the generated ones, the reference's is its run (`HRun.run`) with the result dropped.
-/
import proofs.«118473_j66391604462155_2_alg».proof.Defs
import proofs.«118473_j66391604462155_2_alg».proof.Proof.Gen.Kernel
import proofs.«118473_j66391604462155_2_alg».proof.Proof.Gen.Kernel.Frame
import proofs.«118473_j66391604462155_2_alg».proof.Proof.Gen.KernelIdeal
import proofs.«118473_j66391604462155_2_alg».proof.Proof.Gen.KernelIdeal.Frame
import proofs.«118473_j66391604462155_2_alg».proof.Proof.Gen.ReferenceIdeal
import proofs.«118473_j66391604462155_2_alg».proof.Proof.Gen.Pre_finite_inputs
import proofs.«118473_j66391604462155_2_alg».proof.Proof.RefRun
import proofs.«118473_j66391604462155_2_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HRun.run (F := Ideal) m ρ)

/-- From memories that agree on the eight arguments, the kernel's result array ends at the reference's result term of
    the arguments (`KRun.run`), and so does the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KRun.G m c, Cert.KernelIdeal.KRun.run m ρ, ?_⟩
  refine (θ_run Cert.ReferenceIdeal.defs _ _).mono (fun _ h c => ⟨(h c).1.trans ?_, (h c).2⟩)
    (Cert.ReferenceIdeal.HRun.run (F := Ideal) m' ρ')
  rw [(hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
